-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x2000000 : Shape := ⟨2, ![2, 2000000]⟩
abbrev S2000000 : Shape := ⟨1, ![2000000]⟩
abbrev S200000 : Shape := ⟨1, ![200000]⟩
abbrev S32x1 : Shape := ⟨2, ![32, 1]⟩
abbrev S32 : Shape := ⟨1, ![32]⟩
abbrev S32x32 : Shape := ⟨2, ![32, 32]⟩
abbrev S64x32 : Shape := ⟨2, ![64, 32]⟩
abbrev S64 : Shape := ⟨1, ![64]⟩
abbrev S5x64 : Shape := ⟨2, ![5, 64]⟩
abbrev S5 : Shape := ⟨1, ![5]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S5x64 : S_.BroadcastsInDim S5x64 (![] : Fin 0 → Fin S5x64.rank)
  reducesTo_S5x64_S_d0_1 : S5x64.ReducesTo [0, 1] S_
  bcast_S_S5 : S_.BroadcastsInDim S5 (![] : Fin 0 → Fin S5.rank)
  reducesTo_S5_S_d0 : S5.ReducesTo [0] S_

variable [Facts]

def fn_part5 {F : FTy → Type} [FloatOps F] (main_v83 : IVec S_ 1) (main_v84 : FVec F S5 .f32) (main_cst_32 : FVec F S_ .f32) : IVec S_ 1 :=
  let main_v85 : FVec F S5 .f32 := broadcastInDim S5 ![] bcast_S_S5 main_cst_32
  let main_v86 : IVec S5 1 := cmpf .olt main_v84 main_v85
  let main_c_33 : IVec S_ 1 := constantI S_ 1 1#1
  let main_v87 : IVec S_ 1 := (fun x v => Host.reduce IntOp.andi x v reducesTo_S5_S_d0 h_S_) main_v86 main_c_33
  let main_v88 : IVec S_ 1 := andi main_v83 main_v87
  main_v88

def fn_part4 {F : FTy → Type} [FloatOps F] (main_arg16 : FVec F S64x32 .f32) (main_arg17 : FVec F S64 .f32) (main_arg18 : FVec F S5x64 .f32) (main_arg19 : FVec F S5 .f32) (main_v63 : IVec S_ 1) (main_v67 : IVec S_ 1) : IVec S_ 1 :=
  let main_v68 : IVec S_ 1 := andi main_v63 main_v67
  let main_v69 : FVec F S64x32 .f32 := Host.absf main_arg16
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S5x64 .f32 := Host.absf main_arg18
  let main_cst_30 : FVec F S_ .f32 := constant S_ .f32 0x7F800000#32
  let main_v80 : FVec F S5x64 .f32 := broadcastInDim S5x64 ![] bcast_S_S5x64 main_cst_30
  let main_v81 : IVec S5x64 1 := cmpf .olt main_v79 main_v80
  let main_c_31 : IVec S_ 1 := constantI S_ 1 1#1
  let main_v82 : IVec S_ 1 := (fun x v => Host.reduce IntOp.andi x v reducesTo_S5x64_S_d0_1 h_S_) main_v81 main_c_31
  let main_v83 : IVec S_ 1 := andi main_v78 main_v82
  let main_v84 : FVec F S5 .f32 := Host.absf main_arg19
  let main_cst_32 : FVec F S_ .f32 := constant S_ .f32 0x7F800000#32
  fn_part5 (F := F) main_v83 main_v84 main_cst_32

def fn_part3 {F : FTy → Type} [FloatOps F] (main_arg13 : FVec F S32 .f32) (main_arg14 : FVec F S32 .f32) (main_arg15 : FVec F S32 .f32) (main_arg16 : FVec F S64x32 .f32) (main_arg17 : FVec F S64 .f32) (main_arg18 : FVec F S5x64 .f32) (main_arg19 : FVec F S5 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_v63 main_v67

def fn_part2 {F : FTy → Type} [FloatOps F] (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S32 .f32) (main_arg16 : FVec F S64x32 .f32) (main_arg17 : FVec F S64 .f32) (main_arg18 : FVec F S5x64 .f32) (main_arg19 : FVec F S5 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_arg19 main_v48 main_v49 main_v50

def fn_part1 {F : FTy → Type} [FloatOps F] (main_arg6 : FVec F S32x32 .f32) (main_arg7 : FVec F S32 .f32) (main_arg8 : FVec F S32x32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S32 .f32) (main_arg16 : FVec F S64x32 .f32) (main_arg17 : FVec F S64 .f32) (main_arg18 : FVec F S5x64 .f32) (main_arg19 : FVec F S5 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S200000x1 .f32) (main_arg1 : IVec S2x2000000 32) (main_arg2 : FVec F S2000000 .f32) (main_arg3 : IVec S200000 32) (main_arg4 : FVec F S32x1 .f32) (main_arg5 : FVec F S32 .f32) (main_arg6 : FVec F S32x32 .f32) (main_arg7 : FVec F S32 .f32) (main_arg8 : FVec F S32x32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S32 .f32) (main_arg16 : FVec F S64x32 .f32) (main_arg17 : FVec F S64 .f32) (main_arg18 : FVec F S5x64 .f32) (main_arg19 : FVec F S5 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S32x1 .f32 := Host.absf main_arg4
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S200000x1 : Shape := ⟨2, ![200000, 1]⟩
abbrev S2x2000000 : Shape := ⟨2, ![2, 2000000]⟩
abbrev S2000000 : Shape := ⟨1, ![2000000]⟩
abbrev S200000 : Shape := ⟨1, ![200000]⟩
abbrev S32x1 : Shape := ⟨2, ![32, 1]⟩
abbrev S32 : Shape := ⟨1, ![32]⟩
abbrev S32x32 : Shape := ⟨2, ![32, 32]⟩
abbrev S64x32 : Shape := ⟨2, ![64, 32]⟩
abbrev S64 : Shape := ⟨1, ![64]⟩
abbrev S5x64 : Shape := ⟨2, ![5, 64]⟩
abbrev S5 : Shape := ⟨1, ![5]⟩
abbrev S1x2000000 : Shape := ⟨2, ![1, 2000000]⟩
abbrev S200000x32 : Shape := ⟨2, ![200000, 32]⟩
abbrev S20000x1 : Shape := ⟨2, ![20000, 1]⟩
abbrev S20000x32 : Shape := ⟨2, ![20000, 32]⟩
abbrev S1x32 : Shape := ⟨2, ![1, 32]⟩
abbrev S2000000x1 : Shape := ⟨2, ![2000000, 1]⟩
abbrev S_ : Shape := ⟨0, ![]⟩
abbrev S2000000x32 : Shape := ⟨2, ![2000000, 32]⟩
abbrev S1000x32 : Shape := ⟨2, ![1000, 32]⟩
abbrev S1000 : Shape := ⟨1, ![1000]⟩
abbrev S1000x1 : Shape := ⟨2, ![1000, 1]⟩
abbrev S1000x5 : Shape := ⟨2, ![1000, 5]⟩
abbrev S32x64 : Shape := ⟨2, ![32, 64]⟩
abbrev S1000x64 : Shape := ⟨2, ![1000, 64]⟩
abbrev S1x64 : Shape := ⟨2, ![1, 64]⟩
abbrev S64x5 : Shape := ⟨2, ![64, 5]⟩
abbrev S1x5 : Shape := ⟨2, ![1, 5]⟩

abbrev nBuf : Space → Nat
  | .hbm => 93
  | .vmem => 51
  | .smem => 0
  | _ => 0

abbrev bufTy : (tb : Table) → Fin (tcTables nBuf tb) → BufTy
  | .hbm, ⟨0, _⟩ => ⟨S200000x1, .f32⟩
  | .hbm, ⟨1, _⟩ => ⟨S2x2000000, .i32⟩
  | .hbm, ⟨2, _⟩ => ⟨S2000000, .f32⟩
  | .hbm, ⟨3, _⟩ => ⟨S200000, .i32⟩
  | .hbm, ⟨4, _⟩ => ⟨S32x1, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S64x32, .f32⟩
  | .hbm, ⟨17, _⟩ => ⟨S64, .f32⟩
  | .hbm, ⟨18, _⟩ => ⟨S5x64, .f32⟩
  | .hbm, ⟨19, _⟩ => ⟨S5, .f32⟩
  | .hbm, ⟨20, _⟩ => ⟨S1x2000000, .i32⟩
  | .hbm, ⟨21, _⟩ => ⟨S2000000, .i32⟩
  | .hbm, ⟨22, _⟩ => ⟨S1x2000000, .i32⟩
  | .hbm, ⟨23, _⟩ => ⟨S2000000, .i32⟩
  | .hbm, ⟨24, _⟩ => ⟨S200000x32, .f32⟩
  | .hbm, ⟨25, _⟩ => ⟨S2000000x1, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x32, .f32⟩
  | .hbm, ⟨35, _⟩ => ⟨S2000000x32, .f32⟩
  | .hbm, ⟨36, _⟩ => ⟨S2000000x32, .f32⟩
  | .hbm, ⟨37, _⟩ => ⟨S_, .f32⟩
  | .hbm, ⟨38, _⟩ => ⟨S200000x32, .f32⟩
  | .hbm, ⟨39, _⟩ => ⟨S2000000x1, .i32⟩
  | .hbm, ⟨40, _⟩ => ⟨S200000x32, .f32⟩
  | .hbm, ⟨41, _⟩ => ⟨S200000x32, .f32⟩
  | .hbm, ⟨42, _⟩ => ⟨S1x32, .f32⟩
  | .hbm, ⟨43, _⟩ => ⟨S1x32, .f32⟩
  | .hbm, ⟨44, _⟩ => ⟨S_, .f32⟩
  | .hbm, ⟨45, _⟩ => ⟨S1x32, .f32⟩
  | .hbm, ⟨46, _⟩ => ⟨S1x32, .f32⟩
  | .hbm, ⟨47, _⟩ => ⟨S_, .f32⟩
  | .hbm, ⟨48, _⟩ => ⟨S1x32, .f32⟩
  | .hbm, ⟨49, _⟩ => ⟨S1x32, .f32⟩
  | .hbm, ⟨50, _⟩ => ⟨S1x32, .f32⟩
  | .hbm, ⟨51, _⟩ => ⟨S1x32, .f32⟩
  | .hbm, ⟨52, _⟩ => ⟨S200000x32, .f32⟩
  | .hbm, ⟨53, _⟩ => ⟨S2000000x1, .f32⟩
  | .hbm, ⟨54, _⟩ => ⟨S_, .i32⟩
  | .hbm, ⟨55, _⟩ => ⟨S2000000, .i32⟩
  | .hbm, ⟨56, _⟩ => ⟨S2000000, .i1⟩
  | .hbm, ⟨57, _⟩ => ⟨S_, .i32⟩
  | .hbm, ⟨58, _⟩ => ⟨S2000000, .i32⟩
  | .hbm, ⟨59, _⟩ => ⟨S2000000, .i32⟩
  | .hbm, ⟨60, _⟩ => ⟨S2000000, .i32⟩
  | .hbm, ⟨61, _⟩ => ⟨S2000000x1, .i32⟩
  | .hbm, ⟨62, _⟩ => ⟨S2000000x32, .f32⟩
  | .hbm, ⟨63, _⟩ => ⟨S2000000x32, .f32⟩
  | .hbm, ⟨64, _⟩ => ⟨S2000000x32, .f32⟩
  | .hbm, ⟨65, _⟩ => ⟨S_, .f32⟩
  | .hbm, ⟨66, _⟩ => ⟨S200000x32, .f32⟩
  | .hbm, ⟨67, _⟩ => ⟨S2000000x1, .i32⟩
  | .hbm, ⟨68, _⟩ => ⟨S200000x32, .f32⟩
  | .hbm, ⟨69, _⟩ => ⟨S200000x32, .f32⟩
  | .hbm, ⟨70, _⟩ => ⟨S1x32, .f32⟩
  | .hbm, ⟨71, _⟩ => ⟨S1x32, .f32⟩
  | .hbm, ⟨72, _⟩ => ⟨S_, .f32⟩
  | .hbm, ⟨73, _⟩ => ⟨S1x32, .f32⟩
  | .hbm, ⟨74, _⟩ => ⟨S1x32, .f32⟩
  | .hbm, ⟨75, _⟩ => ⟨S_, .f32⟩
  | .hbm, ⟨76, _⟩ => ⟨S1x32, .f32⟩
  | .hbm, ⟨77, _⟩ => ⟨S1x32, .f32⟩
  | .hbm, ⟨78, _⟩ => ⟨S1x32, .f32⟩
  | .hbm, ⟨79, _⟩ => ⟨S1x32, .f32⟩
  | .hbm, ⟨80, _⟩ => ⟨S200000x32, .f32⟩
  | .hbm, ⟨81, _⟩ => ⟨S_, .f32⟩
  | .hbm, ⟨82, _⟩ => ⟨S1000x32, .f32⟩
  | .hbm, ⟨83, _⟩ => ⟨S200000x1, .i32⟩
  | .hbm, ⟨84, _⟩ => ⟨S1000x32, .f32⟩
  | .hbm, ⟨85, _⟩ => ⟨S_, .f32⟩
  | .hbm, ⟨86, _⟩ => ⟨S200000, .f32⟩
  | .hbm, ⟨87, _⟩ => ⟨S_, .f32⟩
  | .hbm, ⟨88, _⟩ => ⟨S1000, .f32⟩
  | .hbm, ⟨89, _⟩ => ⟨S200000x1, .i32⟩
  | .hbm, ⟨90, _⟩ => ⟨S1000, .f32⟩
  | .hbm, ⟨91, _⟩ => ⟨S1000x1, .f32⟩
  | .hbm, ⟨92, _⟩ => ⟨S1000x5, .f32⟩
  | .local _ .vmem, ⟨0, _⟩ => ⟨S20000x1, .f32⟩
  | .local _ .vmem, ⟨1, _⟩ => ⟨S20000x1, .f32⟩
  | .local _ .vmem, ⟨2, _⟩ => ⟨S32x1, .f32⟩
  | .local _ .vmem, ⟨3, _⟩ => ⟨S32, .f32⟩
  | .local _ .vmem, ⟨4, _⟩ => ⟨S20000x32, .f32⟩
  | .local _ .vmem, ⟨5, _⟩ => ⟨S20000x32, .f32⟩
  | .local _ .vmem, ⟨6, _⟩ => ⟨S20000x32, .f32⟩
  | .local _ .vmem, ⟨7, _⟩ => ⟨S20000x32, .f32⟩
  | .local _ .vmem, ⟨8, _⟩ => ⟨S20000x32, .f32⟩
  | .local _ .vmem, ⟨9, _⟩ => ⟨S20000x32, .f32⟩
  | .local _ .vmem, ⟨10, _⟩ => ⟨S32x32, .f32⟩
  | .local _ .vmem, ⟨11, _⟩ => ⟨S32, .f32⟩
  | .local _ .vmem, ⟨12, _⟩ => ⟨S32x32, .f32⟩
  | .local _ .vmem, ⟨13, _⟩ => ⟨S20000x32, .f32⟩
  | .local _ .vmem, ⟨14, _⟩ => ⟨S20000x32, .f32⟩
  | .local _ .vmem, ⟨15, _⟩ => ⟨S1x32, .f32⟩
  | .local _ .vmem, ⟨16, _⟩ => ⟨S1x32, .f32⟩
  | .local _ .vmem, ⟨17, _⟩ => ⟨S20000x32, .f32⟩
  | .local _ .vmem, ⟨18, _⟩ => ⟨S20000x32, .f32⟩
  | .local _ .vmem, ⟨19, _⟩ => ⟨S1x32, .f32⟩
  | .local _ .vmem, ⟨20, _⟩ => ⟨S1x32, .f32⟩
  | .local _ .vmem, ⟨21, _⟩ => ⟨S32, .f32⟩
  | .local _ .vmem, ⟨22, _⟩ => ⟨S32, .f32⟩
  | .local _ .vmem, ⟨23, _⟩ => ⟨S20000x32, .f32⟩
  | .local _ .vmem, ⟨24, _⟩ => ⟨S20000x32, .f32⟩
  | .local _ .vmem, ⟨25, _⟩ => ⟨S20000x32, .f32⟩
  | .local _ .vmem, ⟨26, _⟩ => ⟨S20000x32, .f32⟩
  | .local _ .vmem, ⟨27, _⟩ => ⟨S20000x32, .f32⟩
  | .local _ .vmem, ⟨28, _⟩ => ⟨S20000x32, .f32⟩
  | .local _ .vmem, ⟨29, _⟩ => ⟨S32x32, .f32⟩
  | .local _ .vmem, ⟨30, _⟩ => ⟨S32, .f32⟩
  | .local _ .vmem, ⟨31, _⟩ => ⟨S32x32, .f32⟩
  | .local _ .vmem, ⟨32, _⟩ => ⟨S20000x32, .f32⟩
  | .local _ .vmem, ⟨33, _⟩ => ⟨S20000x32, .f32⟩
  | .local _ .vmem, ⟨34, _⟩ => ⟨S1x32, .f32⟩
  | .local _ .vmem, ⟨35, _⟩ => ⟨S1x32, .f32⟩
  | .local _ .vmem, ⟨36, _⟩ => ⟨S20000x32, .f32⟩
  | .local _ .vmem, ⟨37, _⟩ => ⟨S20000x32, .f32⟩
  | .local _ .vmem, ⟨38, _⟩ => ⟨S1x32, .f32⟩
  | .local _ .vmem, ⟨39, _⟩ => ⟨S1x32, .f32⟩
  | .local _ .vmem, ⟨40, _⟩ => ⟨S32, .f32⟩
  | .local _ .vmem, ⟨41, _⟩ => ⟨S32, .f32⟩
  | .local _ .vmem, ⟨42, _⟩ => ⟨S20000x32, .f32⟩
  | .local _ .vmem, ⟨43, _⟩ => ⟨S20000x32, .f32⟩
  | .local _ .vmem, ⟨44, _⟩ => ⟨S1000x32, .f32⟩
  | .local _ .vmem, ⟨45, _⟩ => ⟨S1000x1, .f32⟩
  | .local _ .vmem, ⟨46, _⟩ => ⟨S64x32, .f32⟩
  | .local _ .vmem, ⟨47, _⟩ => ⟨S64, .f32⟩
  | .local _ .vmem, ⟨48, _⟩ => ⟨S5x64, .f32⟩
  | .local _ .vmem, ⟨49, _⟩ => ⟨S5, .f32⟩
  | .local _ .vmem, ⟨50, _⟩ => ⟨S1000x5, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v18_2 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_3 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39_0 : Ref sig .tc := ⟨.hbm, 69, rfl⟩
abbrev main_v39_1 : Ref sig .tc := ⟨.hbm, 70, rfl⟩
abbrev main_v39_2 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg7_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem7_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S20000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S20000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S20000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1000x32 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1000x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S5x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S5 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1000x5 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  inb_S20000x1_S20000x1_0_0 : ∀ a, (![0, 0] : Fin 2 → Nat) a + S20000x1.size a ≤ S20000x1.size a
  h_S20000x1 : 0 < S20000x1.numel
  inb_S32x1_S32x1_0_0 : ∀ a, (![0, 0] : Fin 2 → Nat) a + S32x1.size a ≤ S32x1.size a
  h_S32x1 : 0 < S32x1.numel
  transposes_S32x1_p1_0_S1x32 : S32x1.Transposes [1, 0] S1x32
  inb_S32_S32_0 : ∀ a, (![0] : Fin 1 → Nat) a + S32.size a ≤ S32.size a
  h_S32 : 0 < S32.numel
  shapeCasts_S32_S1x32 : S32.ShapeCasts S1x32
  broadcasts_S1x32_S20000x32 : S1x32.Broadcasts S20000x32
  inb_S20000x32_S20000x32_0_0 : ∀ a, (![0, 0] : Fin 2 → Nat) a + S20000x32.size a ≤ S20000x32.size a
  h_S20000x32 : 0 < S20000x32.numel
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x32_0_1 : S2000000x1.BroadcastsInDim S2000000x32 (![0, 1] : Fin 2 → Fin S2000000x32.rank)
  bcast_S_S200000x32 : S_.BroadcastsInDim S200000x32 (![] : Fin 0 → Fin S200000x32.rank)
  shapeCasts_S20000x32_S20000x32 : S20000x32.ShapeCasts S20000x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  reduces_S20000x32_S32 : S20000x32.Reduces [0] S32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  bcast_S_S1x32 : S_.BroadcastsInDim S1x32 (![] : Fin 0 → Fin S1x32.rank)
  bcast_S_S1000x32 : S_.BroadcastsInDim S1000x32 (![] : Fin 0 → Fin S1000x32.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1000 : S_.BroadcastsInDim S1000 (![] : Fin 0 → Fin S1000.rank)
  bcast_S1000_S1000x1_0 : S1000.BroadcastsInDim S1000x1 (![0] : Fin 1 → Fin S1000x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  broadcasts_S1000x1_S1000x32 : S1000x1.Broadcasts S1000x32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S5x64_S5x64_0_0 : ∀ a, (![0, 0] : Fin 2 → Nat) a + S5x64.size a ≤ S5x64.size a
  h_S5x64 : 0 < S5x64.numel
  transposes_S5x64_p1_0_S64x5 : S5x64.Transposes [1, 0] S64x5
  inb_S5_S5_0 : ∀ a, (![0] : Fin 1 → Nat) a + S5.size a ≤ S5.size a
  h_S5 : 0 < S5.numel
  shapeCasts_S5_S1x5 : S5.ShapeCasts S1x5
  broadcasts_S1x5_S1000x5 : S1x5.Broadcasts S1000x5
  inb_S1000x5_S1000x5_0_0 : ∀ a, (![0, 0] : Fin 2 → Nat) a + S1000x5.size a ≤ S1000x5.size a
  h_S1000x5 : 0 < S1000x5.numel
  dot_S20000x1_S1x32_S20000x32_1_0_0_1_n_n_wf : DotDims.WF S20000x1 S1x32 S20000x32 [1] [0] [0] [1] [] []
  gather_S200000x32_S2000000x1_S2000000x32_1_0_n_n_0_1_132_wf : GatherDims.WF S200000x32 S2000000x1 S2000000x32 [1] [0] [] [0] [] 1 ![1, 32]
  scatter_S200000x32_S2000000x1_S2000000x32_1_0_0_1_wf : ScatterDims.WF S200000x32 S2000000x1 S2000000x32 [1] [0] [0] 1
  dot_S20000x32_S32x32_S20000x32_1_0_0_1_n_n_wf : DotDims.WF S20000x32 S32x32 S20000x32 [1] [0] [0] [1] [] []
  scatter_S1000x32_S200000x1_S200000x32_1_0_0_1_wf : ScatterDims.WF S1000x32 S200000x1 S200000x32 [1] [0] [0] 1
  scatter_S1000_S200000x1_S200000_n_0_0_1_wf : ScatterDims.WF S1000 S200000x1 S200000 [] [0] [0] 1
  dot_S1000x32_S32x64_S1000x64_1_0_0_1_n_n_wf : DotDims.WF S1000x32 S32x64 S1000x64 [1] [0] [0] [1] [] []
  dot_S1000x64_S64x5_S1000x5_1_0_0_1_n_n_wf : DotDims.WF S1000x64 S64x5 S1000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x1.size a ≤ S200000x1.size a
  hwx0_0 : ∀ i : grid0.Coords, EltTy.bits .f32 = 32 ∨ (Rect.block (s := S200000x1) S20000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x32.size a ≤ S200000x32.size a
  hwx0_3 : ∀ i : grid0.Coords, EltTy.bits .f32 = 32 ∨ (Rect.block (s := S200000x32) S20000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S200000x32.size a
  hwx1_0 : ∀ i : grid1.Coords, EltTy.bits .f32 = 32 ∨ (Rect.block (s := S200000x32) S20000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x32.size a ≤ S200000x32.size a
  hwx1_1 : ∀ i : grid1.Coords, EltTy.bits .f32 = 32 ∨ (Rect.block (s := S200000x32) S20000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S20000x32.size a ≤ S200000x32.size a
  hwx1_5 : ∀ i : grid1.Coords, EltTy.bits .f32 = 32 ∨ (Rect.block (s := S200000x32) S20000x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S200000x32.size a
  hwx2_0 : ∀ i : grid2.Coords, EltTy.bits .f32 = 32 ∨ (Rect.block (s := S200000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x32.size a ≤ S200000x32.size a
  hwx2_5 : ∀ i : grid2.Coords, EltTy.bits .f32 = 32 ∨ (Rect.block (s := S200000x32) S20000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S200000x32.size a
  hwx3_0 : ∀ i : grid3.Coords, EltTy.bits .f32 = 32 ∨ (Rect.block (s := S200000x32) S20000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x32.size a ≤ S200000x32.size a
  hwx3_1 : ∀ i : grid3.Coords, EltTy.bits .f32 = 32 ∨ (Rect.block (s := S200000x32) S20000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S20000x32.size a ≤ S200000x32.size a
  hwx3_5 : ∀ i : grid3.Coords, EltTy.bits .f32 = 32 ∨ (Rect.block (s := S200000x32) S20000x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x32.size a ≤ S1x32.size a
  hwx3_7 : ∀ i : grid3.Coords, EltTy.bits .f32 = 32 ∨ (Rect.block (s := S1x32) S1x32.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S200000x32.size a
  hwx4_0 : ∀ i : grid4.Coords, EltTy.bits .f32 = 32 ∨ (Rect.block (s := S200000x32) S20000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32.size a ≤ S32.size a
  hwx4_3 : ∀ i : grid4.Coords, EltTy.bits .f32 = 32 ∨ (Rect.block (s := S32) S32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S20000x32.size a ≤ S200000x32.size a
  hwx4_5 : ∀ i : grid4.Coords, EltTy.bits .f32 = 32 ∨ (Rect.block (s := S200000x32) S20000x32.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1000x32.size a ≤ S1000x32.size a
  hwx5_0 : ∀ i : grid5.Coords, EltTy.bits .f32 = 32 ∨ (Rect.block (s := S1000x32) S1000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S1000x1.size a
  hwx5_1 : ∀ i : grid5.Coords, EltTy.bits .f32 = 32 ∨ (Rect.block (s := S1000x1) S1000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x32.size a ≤ S64x32.size a
  hwx5_2 : ∀ i : grid5.Coords, EltTy.bits .f32 = 32 ∨ (Rect.block (s := S64x32) S64x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S5x64.size a ≤ S5x64.size a
  hwx5_4 : ∀ i : grid5.Coords, EltTy.bits .f32 = 32 ∨ (Rect.block (s := S5x64) S5x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S5.size a ≤ S5.size a
  hwx5_5 : ∀ i : grid5.Coords, EltTy.bits .f32 = 32 ∨ (Rect.block (s := S5) S5.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1000x5.size a ≤ S1000x5.size a
  hwx5_6 : ∀ i : grid5.Coords, EltTy.bits .f32 = 32 ∨ (Rect.block (s := S1000x5) S1000x5.size (cc5_transform_6 i) (hinb5_6 i)).WholeWords (EltTy.packing .f32)

variable [Facts₀]

def dot_S20000x1_S1x32_S20000x32_1_0_0_1_n_n : DotDims S20000x1 S1x32 S20000x32 where
  lhsContracting := [1]
  rhsContracting := [0]
  lhsNonContracting := [0]
  rhsNonContracting := [1]
  lhsBatch := []
  rhsBatch := []
  wf := dot_S20000x1_S1x32_S20000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def scatter_S1000x32_S200000x1_S200000x32_1_0_0_1 : ScatterDims S1000x32 S200000x1 S200000x32 where
  updateWindowDims := [1]
  insertedWindowDims := [0]
  scatterDimsToOperandDims := [0]
  indexVectorDim := 1
  wf := scatter_S1000x32_S200000x1_S200000x32_1_0_0_1_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x64_S64x5_S1000x5_1_0_0_1_n_n : DotDims S1000x64 S64x5 S1000x5 where
  lhsContracting := [1]
  rhsContracting := [0]
  lhsNonContracting := [0]
  rhsNonContracting := [1]
  lhsBatch := []
  rhsBatch := []
  wf := dot_S1000x64_S64x5_S1000x5_1_0_0_1_n_n_wf

abbrev win0_0 : Pipeline.Window sig grid0 :=
  Pipeline.Window.ofSpec (Memref.whole main_arg0) S20000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S20000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S20000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18_0) S20000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_1) S1x32.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18_2) S1x32.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v18_0) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S20000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S20000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39_0) S20000x32.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v39_1) S1x32.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39_2) S1x32.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v39_0) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S20000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v49) S1000x32.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v54) S1000x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S64x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S5x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg19) S5.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v55) S1000x5.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S200000x1 : Shape := ⟨2, ![200000, 1]⟩
abbrev S2x2000000 : Shape := ⟨2, ![2, 2000000]⟩
abbrev S2000000 : Shape := ⟨1, ![2000000]⟩
abbrev S200000 : Shape := ⟨1, ![200000]⟩
abbrev S32x1 : Shape := ⟨2, ![32, 1]⟩
abbrev S32 : Shape := ⟨1, ![32]⟩
abbrev S32x32 : Shape := ⟨2, ![32, 32]⟩
abbrev S64x32 : Shape := ⟨2, ![64, 32]⟩
abbrev S64 : Shape := ⟨1, ![64]⟩
abbrev S5x64 : Shape := ⟨2, ![5, 64]⟩
abbrev S5 : Shape := ⟨1, ![5]⟩
abbrev S1x2000000 : Shape := ⟨2, ![1, 2000000]⟩
abbrev S1x32 : Shape := ⟨2, ![1, 32]⟩
abbrev S200000x32 : Shape := ⟨2, ![200000, 32]⟩
abbrev S2000000x1 : Shape := ⟨2, ![2000000, 1]⟩
abbrev S_ : Shape := ⟨0, ![]⟩
abbrev S2000000x32 : Shape := ⟨2, ![2000000, 32]⟩
abbrev S1000x32 : Shape := ⟨2, ![1000, 32]⟩
abbrev S1000 : Shape := ⟨1, ![1000]⟩
abbrev S1000x1 : Shape := ⟨2, ![1000, 1]⟩
abbrev S32x64 : Shape := ⟨2, ![32, 64]⟩
abbrev S1000x64 : Shape := ⟨2, ![1000, 64]⟩
abbrev S1x64 : Shape := ⟨2, ![1, 64]⟩
abbrev S64x5 : Shape := ⟨2, ![64, 5]⟩
abbrev S1000x5 : Shape := ⟨2, ![1000, 5]⟩
abbrev S1x5 : Shape := ⟨2, ![1, 5]⟩

abbrev nBuf : Space → Nat
  | .hbm => 202
  | .vmem => 0
  | .smem => 0
  | _ => 0

abbrev hbmTy0_0 (i : Nat) : BufTy := match i % 128 with
  | 0 => ⟨S200000x1, .f32⟩
  | 1 => ⟨S2x2000000, .i32⟩
  | 2 => ⟨S2000000, .f32⟩
  | 3 => ⟨S200000, .i32⟩
  | 4 => ⟨S32x1, .f32⟩
  | 5 => ⟨S32, .f32⟩
  | 6 => ⟨S32x32, .f32⟩
  | 7 => ⟨S32, .f32⟩
  | 8 => ⟨S32x32, .f32⟩
  | 9 => ⟨S32x32, .f32⟩
  | 10 => ⟨S32, .f32⟩
  | 11 => ⟨S32x32, .f32⟩
  | 12 => ⟨S32, .f32⟩
  | 13 => ⟨S32, .f32⟩
  | 14 => ⟨S32, .f32⟩
  | 15 => ⟨S32, .f32⟩
  | 16 => ⟨S64x32, .f32⟩
  | 17 => ⟨S64, .f32⟩
  | 18 => ⟨S5x64, .f32⟩
  | 19 => ⟨S5, .f32⟩
  | 20 => ⟨S1x2000000, .i32⟩
  | 21 => ⟨S2000000, .i32⟩
  | 22 => ⟨S1x2000000, .i32⟩
  | 23 => ⟨S2000000, .i32⟩
  | 24 => ⟨S1x32, .f32⟩
  | 25 => ⟨S200000x32, .f32⟩
  | 26 => ⟨S1x32, .f32⟩
  | 27 => ⟨S200000x32, .f32⟩
  | 28 => ⟨S200000x32, .f32⟩
  | 29 => ⟨S200000x32, .f32⟩
  | 30 => ⟨S2000000x1, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S2000000x32, .f32⟩
  | 40 => ⟨S2000000x32, .f32⟩
  | 41 => ⟨S2000000x32, .f32⟩
  | 42 => ⟨S_, .f32⟩
  | 43 => ⟨S200000x32, .f32⟩
  | 44 => ⟨S2000000x1, .i32⟩
  | 45 => ⟨S200000x32, .f32⟩
  | 46 => ⟨S32x32, .f32⟩
  | 47 => ⟨S200000x32, .f32⟩
  | 48 => ⟨S1x32, .f32⟩
  | 49 => ⟨S200000x32, .f32⟩
  | 50 => ⟨S200000x32, .f32⟩
  | 51 => ⟨S32x32, .f32⟩
  | 52 => ⟨S200000x32, .f32⟩
  | 53 => ⟨S200000x32, .f32⟩
  | 54 => ⟨S_, .f32⟩
  | 55 => ⟨S200000x32, .f32⟩
  | 56 => ⟨S200000x32, .f32⟩
  | 57 => ⟨S_, .f32⟩
  | 58 => ⟨S32, .f32⟩
  | 59 => ⟨S_, .f32⟩
  | 60 => ⟨S32, .f32⟩
  | 61 => ⟨S32, .f32⟩
  | 62 => ⟨S_, .i32⟩
  | 63 => ⟨S_, .f32⟩
  | 64 => ⟨S32, .f32⟩
  | 65 => ⟨S1x32, .f32⟩
  | 66 => ⟨S_, .f32⟩
  | 67 => ⟨S1x32, .f32⟩
  | 68 => ⟨S1x32, .f32⟩
  | 69 => ⟨S200000x32, .f32⟩
  | 70 => ⟨S200000x32, .f32⟩
  | 71 => ⟨S200000x32, .f32⟩
  | 72 => ⟨S_, .f32⟩
  | 73 => ⟨S_, .f32⟩
  | 74 => ⟨S_, .f32⟩
  | 75 => ⟨S_, .f32⟩
  | 76 => ⟨S32, .f32⟩
  | 77 => ⟨S32, .f32⟩
  | 78 => ⟨S32, .f32⟩
  | 79 => ⟨S_, .f32⟩
  | 80 => ⟨S_, .i1⟩
  | 81 => ⟨S_, .f32⟩
  | 82 => ⟨S_, .f32⟩
  | 83 => ⟨S32, .f32⟩
  | 84 => ⟨S32, .f32⟩
  | 85 => ⟨S1x32, .f32⟩
  | 86 => ⟨S200000x32, .f32⟩
  | 87 => ⟨S200000x32, .f32⟩
  | 88 => ⟨S_, .f32⟩
  | 89 => ⟨S32, .f32⟩
  | 90 => ⟨S32, .f32⟩
  | 91 => ⟨S32, .f32⟩
  | 92 => ⟨S1x32, .f32⟩
  | 93 => ⟨S200000x32, .f32⟩
  | 94 => ⟨S200000x32, .f32⟩
  | 95 => ⟨S1x32, .f32⟩
  | 96 => ⟨S200000x32, .f32⟩
  | 97 => ⟨S200000x32, .f32⟩
  | 98 => ⟨S1x32, .f32⟩
  | 99 => ⟨S200000x32, .f32⟩
  | 100 => ⟨S200000x32, .f32⟩
  | 101 => ⟨S2000000x1, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x32, .f32⟩
  | 111 => ⟨S2000000x32, .f32⟩
  | 112 => ⟨S2000000x32, .f32⟩
  | 113 => ⟨S_, .f32⟩
  | 114 => ⟨S200000x32, .f32⟩
  | 115 => ⟨S2000000x1, .i32⟩
  | 116 => ⟨S200000x32, .f32⟩
  | 117 => ⟨S32x32, .f32⟩
  | 118 => ⟨S200000x32, .f32⟩
  | 119 => ⟨S1x32, .f32⟩
  | 120 => ⟨S200000x32, .f32⟩
  | 121 => ⟨S200000x32, .f32⟩
  | 122 => ⟨S32x32, .f32⟩
  | 123 => ⟨S200000x32, .f32⟩
  | 124 => ⟨S200000x32, .f32⟩
  | 125 => ⟨S_, .f32⟩
  | 126 => ⟨S200000x32, .f32⟩
  | 127 => ⟨S200000x32, .f32⟩
  | _ => ⟨S200000x1, .f32⟩

abbrev hbmTy0_1 (i : Nat) : BufTy := match i % 128 with
  | 0 => ⟨S_, .f32⟩
  | 1 => ⟨S32, .f32⟩
  | 2 => ⟨S_, .f32⟩
  | 3 => ⟨S32, .f32⟩
  | 4 => ⟨S32, .f32⟩
  | 5 => ⟨S_, .i32⟩
  | 6 => ⟨S_, .f32⟩
  | 7 => ⟨S32, .f32⟩
  | 8 => ⟨S1x32, .f32⟩
  | 9 => ⟨S_, .f32⟩
  | 10 => ⟨S1x32, .f32⟩
  | 11 => ⟨S1x32, .f32⟩
  | 12 => ⟨S200000x32, .f32⟩
  | 13 => ⟨S200000x32, .f32⟩
  | 14 => ⟨S200000x32, .f32⟩
  | 15 => ⟨S_, .f32⟩
  | 16 => ⟨S_, .f32⟩
  | 17 => ⟨S_, .f32⟩
  | 18 => ⟨S_, .f32⟩
  | 19 => ⟨S32, .f32⟩
  | 20 => ⟨S32, .f32⟩
  | 21 => ⟨S32, .f32⟩
  | 22 => ⟨S_, .f32⟩
  | 23 => ⟨S_, .i1⟩
  | 24 => ⟨S_, .f32⟩
  | 25 => ⟨S_, .f32⟩
  | 26 => ⟨S32, .f32⟩
  | 27 => ⟨S32, .f32⟩
  | 28 => ⟨S1x32, .f32⟩
  | 29 => ⟨S200000x32, .f32⟩
  | 30 => ⟨S200000x32, .f32⟩
  | 31 => ⟨S_, .f32⟩
  | 32 => ⟨S32, .f32⟩
  | 33 => ⟨S32, .f32⟩
  | 34 => ⟨S32, .f32⟩
  | 35 => ⟨S1x32, .f32⟩
  | 36 => ⟨S200000x32, .f32⟩
  | 37 => ⟨S200000x32, .f32⟩
  | 38 => ⟨S1x32, .f32⟩
  | 39 => ⟨S200000x32, .f32⟩
  | 40 => ⟨S200000x32, .f32⟩
  | 41 => ⟨S1x32, .f32⟩
  | 42 => ⟨S200000x32, .f32⟩
  | 43 => ⟨S200000x32, .f32⟩
  | 44 => ⟨S_, .f32⟩
  | 45 => ⟨S1000x32, .f32⟩
  | 46 => ⟨S200000x1, .i32⟩
  | 47 => ⟨S1000x32, .f32⟩
  | 48 => ⟨S_, .f32⟩
  | 49 => ⟨S200000, .f32⟩
  | 50 => ⟨S_, .f32⟩
  | 51 => ⟨S1000, .f32⟩
  | 52 => ⟨S200000x1, .i32⟩
  | 53 => ⟨S1000, .f32⟩
  | 54 => ⟨S_, .f32⟩
  | 55 => ⟨S_, .f32⟩
  | 56 => ⟨S1000, .f32⟩
  | 57 => ⟨S1000, .f32⟩
  | 58 => ⟨S1000x1, .f32⟩
  | 59 => ⟨S1000x32, .f32⟩
  | 60 => ⟨S1000x32, .f32⟩
  | 61 => ⟨S32x64, .f32⟩
  | 62 => ⟨S1000x64, .f32⟩
  | 63 => ⟨S1x64, .f32⟩
  | 64 => ⟨S1000x64, .f32⟩
  | 65 => ⟨S1000x64, .f32⟩
  | 66 => ⟨S_, .f32⟩
  | 67 => ⟨S1000x64, .f32⟩
  | 68 => ⟨S1000x64, .f32⟩
  | 69 => ⟨S64x5, .f32⟩
  | 70 => ⟨S1000x5, .f32⟩
  | 71 => ⟨S1x5, .f32⟩
  | 72 => ⟨S1000x5, .f32⟩
  | 73 => ⟨S1000x5, .f32⟩
  | _ => ⟨S200000x1, .f32⟩

abbrev hbmTy (i : Nat) : BufTy := match i / 128 with
  | 0 => hbmTy0_0 i
  | 1 => hbmTy0_1 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call0_cst : Ref sig .tc := ⟨.hbm, 54, rfl⟩
abbrev main_call0_v0 : Ref sig .tc := ⟨.hbm, 55, rfl⟩
abbrev main_v31 : Ref sig .tc := ⟨.hbm, 56, rfl⟩
abbrev main_cst_1 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_c_3 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_cst_2 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_cst_3 : Ref sig .tc := ⟨.hbm, 79, rfl⟩
abbrev main_call1_v12 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_4 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_5 : Ref sig .tc := ⟨.hbm, 102, rfl⟩
abbrev main_v52 : Ref sig .tc := ⟨.hbm, 103, rfl⟩
abbrev main_v53 : Ref sig .tc := ⟨.hbm, 104, rfl⟩
abbrev main_c_6 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_7 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_call2_cst : Ref sig .tc := ⟨.hbm, 125, rfl⟩
abbrev main_call2_v0 : Ref sig .tc := ⟨.hbm, 126, rfl⟩
abbrev main_v72 : Ref sig .tc := ⟨.hbm, 127, rfl⟩
abbrev main_cst_8 : Ref sig .tc := ⟨.hbm, 128, rfl⟩
abbrev main_v73 : Ref sig .tc := ⟨.hbm, 129, rfl⟩
abbrev main_cst_9 : Ref sig .tc := ⟨.hbm, 130, rfl⟩
abbrev main_v74 : Ref sig .tc := ⟨.hbm, 131, rfl⟩
abbrev main_v75 : Ref sig .tc := ⟨.hbm, 132, rfl⟩
abbrev main_c_10 : Ref sig .tc := ⟨.hbm, 133, rfl⟩
abbrev main_call3_cst : Ref sig .tc := ⟨.hbm, 134, rfl⟩
abbrev main_call3_v0 : Ref sig .tc := ⟨.hbm, 135, rfl⟩
abbrev main_call3_v1 : Ref sig .tc := ⟨.hbm, 136, rfl⟩
abbrev main_call3_cst_0 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_v7 : Ref sig .tc := ⟨.hbm, 143, rfl⟩
abbrev main_call3_cst_1 : Ref sig .tc := ⟨.hbm, 144, rfl⟩
abbrev main_call3_v8 : Ref sig .tc := ⟨.hbm, 145, rfl⟩
abbrev main_call3_cst_2 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_cst_3 : Ref sig .tc := ⟨.hbm, 150, rfl⟩
abbrev main_call3_v12 : Ref sig .tc := ⟨.hbm, 151, rfl⟩
abbrev main_call3_cst_4 : Ref sig .tc := ⟨.hbm, 152, rfl⟩
abbrev main_call3_call0_v0 : Ref sig .tc := ⟨.hbm, 153, rfl⟩
abbrev main_call3_call0_v1 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_11 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_12 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_cst_13 : Ref sig .tc := ⟨.hbm, 176, rfl⟩
abbrev main_v95 : Ref sig .tc := ⟨.hbm, 177, rfl⟩
abbrev main_cst_14 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_cst_15 : Ref sig .tc := ⟨.hbm, 182, rfl⟩
abbrev main_call4_v0 : Ref sig .tc := ⟨.hbm, 183, rfl⟩
abbrev main_call4_v1 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_call5_cst : Ref sig .tc := ⟨.hbm, 194, rfl⟩
abbrev main_call5_v0 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  transposes_S32x1_S1x32_1_0 : S32x1.Transposes [1, 0] S1x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x32_0_1 : S2000000x1.BroadcastsInDim S2000000x32 (![0, 1] : Fin 2 → Fin S2000000x32.rank)
  bcast_S_S200000x32 : S_.BroadcastsInDim S200000x32 (![] : Fin 0 → Fin S200000x32.rank)
  transposes_S32x32_S32x32_1_0 : S32x32.Transposes [1, 0] S32x32
  reducesTo_S200000x32_S32_d0 : S200000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S1000x32 : S_.BroadcastsInDim S1000x32 (![] : Fin 0 → Fin S1000x32.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x32_0_1 : S1000x1.BroadcastsInDim S1000x32 (![0, 1] : Fin 2 → Fin S1000x32.rank)
  transposes_S64x32_S32x64_1_0 : S64x32.Transposes [1, 0] S32x64
  bcast_S64_S1x64_1 : S64.BroadcastsInDim S1x64 (![1] : Fin 1 → Fin S1x64.rank)
  bcast_S1x64_S1000x64_0_1 : S1x64.BroadcastsInDim S1000x64 (![0, 1] : Fin 2 → Fin S1000x64.rank)
  bcast_S_S1000x64 : S_.BroadcastsInDim S1000x64 (![] : Fin 0 → Fin S1000x64.rank)
  transposes_S5x64_S64x5_1_0 : S5x64.Transposes [1, 0] S64x5
  bcast_S5_S1x5_1 : S5.BroadcastsInDim S1x5 (![1] : Fin 1 → Fin S1x5.rank)
  bcast_S1x5_S1000x5_0_1 : S1x5.BroadcastsInDim S1000x5 (![0, 1] : Fin 2 → Fin S1000x5.rank)
  dot_S200000x1_S1x32_S200000x32_1_0_0_1_n_n_wf : DotDims.WF S200000x1 S1x32 S200000x32 [1] [0] [0] [1] [] []
  gather_S200000x32_S2000000x1_S2000000x32_1_0_n_n_0_1_132_wf : GatherDims.WF S200000x32 S2000000x1 S2000000x32 [1] [0] [] [0] [] 1 ![1, 32]
  scatter_S200000x32_S2000000x1_S2000000x32_1_0_0_1_wf : ScatterDims.WF S200000x32 S2000000x1 S2000000x32 [1] [0] [0] 1
  dot_S200000x32_S32x32_S200000x32_1_0_0_1_n_n_wf : DotDims.WF S200000x32 S32x32 S200000x32 [1] [0] [0] [1] [] []
  scatter_S1000x32_S200000x1_S200000x32_1_0_0_1_wf : ScatterDims.WF S1000x32 S200000x1 S200000x32 [1] [0] [0] 1
  scatter_S1000_S200000x1_S200000_n_0_0_1_wf : ScatterDims.WF S1000 S200000x1 S200000 [] [0] [0] 1
  dot_S1000x32_S32x64_S1000x64_1_0_0_1_n_n_wf : DotDims.WF S1000x32 S32x64 S1000x64 [1] [0] [0] [1] [] []
  dot_S1000x64_S64x5_S1000x5_1_0_0_1_n_n_wf : DotDims.WF S1000x64 S64x5 S1000x5 [1] [0] [0] [1] [] []

variable [Facts₀]

def dot_S200000x1_S1x32_S200000x32_1_0_0_1_n_n : DotDims S200000x1 S1x32 S200000x32 where
  lhsContracting := [1]
  rhsContracting := [0]
  lhsNonContracting := [0]
  rhsNonContracting := [1]
  lhsBatch := []
  rhsBatch := []
  wf := dot_S200000x1_S1x32_S200000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def scatter_S1000x32_S200000x1_S200000x32_1_0_0_1 : ScatterDims S1000x32 S200000x1 S200000x32 where
  updateWindowDims := [1]
  insertedWindowDims := [0]
  scatterDimsToOperandDims := [0]
  indexVectorDim := 1
  wf := scatter_S1000x32_S200000x1_S200000x32_1_0_0_1_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x64_S64x5_S1000x5_1_0_0_1_n_n : DotDims S1000x64 S64x5 S1000x5 where
  lhsContracting := [1]
  rhsContracting := [0]
  lhsNonContracting := [0]
  rhsNonContracting := [1]
  lhsBatch := []
  rhsBatch := []
  wf := dot_S1000x64_S64x5_S1000x5_1_0_0_1_n_n_wf

class Facts : Prop extends Facts₀ where

variable [Facts]
-- ==== Proof.Spec.lean ====
/-
  The stages of the network, each as one function of whole arrays, written with the host operations the plain-jnp
  program applies (so that its run's composed term is, stage by stage, an application of these functions):

    lin0   : h0 = tanh (x · w0ᵀ + b0)                                  [200000, 32]
    agg    : agg(h)[n, :] = Σ over edges e with dst e = n of ew[e] · h[src e, :]   (gather, scale, scatter-add)
    conv   : relu (agg · relwᵀ + relb + h · rootwᵀ)                       [200000, 32]
    colsum : the column sums of a [200000, 32] table                     [32]
    mean   : colsum / 200000;   var: Σ (p - mean)² / (200000 - 0), kept where 200000 - 0 > 0
    bn     : (p - mean) · rsqrt (var + ε) · g + b
    poolS, poolCnt : per-graph sums of rows and of ones (scatter-add by the batch vector)
    head   : relu ((s / max(1, cnt)) · w1ᵀ + b1) · w2ᵀ + b2              [1000, 5]
    pred   : the whole network.
-/
import proofs.«112291_j21277267984767_1_alg».proof.ReferenceIdeal
import Idealize.ShloMosaic.PureOps.Ideal

noncomputable section

namespace Cert.ReferenceIdeal.Spec

open Idealize.ShloMosaic Cert.ReferenceIdeal

variable {F : FTy → Type} [FloatOps F] [Facts]
open Facts₀ Facts

/-- An array of shape `s` and element type `e`, as the host operations take it. -/
abbrev Arr (F : FTy → Type) (s : Shape) (e : EltTy) : Type := (⟨s, e⟩ : BufTy).Contents (Elt F)

/-- Row 0 of the edge table, flattened: the source node of each edge. -/
def src (ei : Arr F S2x2000000 .i32) : Arr F S2000000 .i32 :=
  shapeCast S2000000 (extractStridedSlice S1x2000000 ![0, 0] ei slices_S2x2000000_S1x2000000_0_0) shapeCasts_S1x2000000_S2000000
/-- Row 1 of the edge table, flattened: the target node of each edge. -/
def dst (ei : Arr F S2x2000000 .i32) : Arr F S2000000 .i32 :=
  shapeCast S2000000 (extractStridedSlice S1x2000000 ![1, 0] ei slices_S2x2000000_S1x2000000_1_0) shapeCasts_S1x2000000_S2000000
/-- The gather's index column from the source indices: a negative index wrapped by the number of nodes, as a [E, 1] column. -/
def srcIdxOf (s : Arr F S2000000 .i32) : Arr F S2000000x1 .i32 :=
  broadcastInDim S2000000x1 ![0] bcast_S2000000_S2000000x1_0
    (select (cmpi .slt s (broadcastInDim S2000000 ![] bcast_S_S2000000 (constantI S_ 32 0#32)))
      (addi s (broadcastInDim S2000000 ![] bcast_S_S2000000 (constantI S_ 32 200000#32))) s)
/-- The scatter's index column from the target indices, as a [E, 1] column. -/
def dstIdxOf (d : Arr F S2000000 .i32) : Arr F S2000000x1 .i32 :=
  broadcastInDim S2000000x1 ![0] bcast_S2000000_S2000000x1_0 d
/-- The gather's index column of an edge table. -/
def srcIdx (ei : Arr F S2x2000000 .i32) : Arr F S2000000x1 .i32 := srcIdxOf (src ei)
/-- The scatter's index column of an edge table. -/
def dstIdx (ei : Arr F S2x2000000 .i32) : Arr F S2000000x1 .i32 := dstIdxOf (dst ei)
/-- The edge weights spread over the 32 features. -/
def ewCols (ew : Arr F S2000000 .f32) : Arr F S2000000x32 .f32 :=
  broadcastInDim S2000000x32 ![0, 1] bcast_S2000000x1_S2000000x32_0_1 (broadcastInDim S2000000x1 ![0] bcast_S2000000_S2000000x1_0 ew)
/-- The weighted neighbourhood sum from the source and target index vectors: gather the source rows, scale by the
    edge weight, add into the target rows. -/
def aggSD (h : Arr F S200000x32 .f32) (s d : Arr F S2000000 .i32) (ew : Arr F S2000000 .f32) : Arr F S200000x32 .f32 :=
  Host.scatterAdd scatter_S200000x32_S2000000x1_S2000000x32_1_0_0_1
    (broadcastInDim S200000x32 ![] bcast_S_S200000x32 (constant S_ .f32 0x00000000#32)) (dstIdxOf d)
    (mulf (ewCols ew) (Host.gather gather_S200000x32_S2000000x1_S2000000x32_1_0_n_n_0_1_132 h (srcIdxOf s)))
/-- The weighted neighbourhood sum over an edge table. -/
def agg (h : Arr F S200000x32 .f32) (ei : Arr F S2x2000000 .i32) (ew : Arr F S2000000 .f32) : Arr F S200000x32 .f32 :=
  aggSD h (src ei) (dst ei) ew

/-- A length-32 vector as a row repeated over the 200000 nodes. -/
def rows32 (b : Arr F S32 .f32) : Arr F S200000x32 .f32 :=
  broadcastInDim S200000x32 ![0, 1] bcast_S1x32_S200000x32_0_1 (broadcastInDim S1x32 ![1] bcast_S32_S1x32_1 b)

/-- The input projection. -/
def lin0 (x : Arr F S200000x1 .f32) (w : Arr F S32x1 .f32) (b : Arr F S32 .f32) : Arr F S200000x32 .f32 :=
  Host.tanh (addf (Host.dotGeneral dot_S200000x1_S1x32_S200000x32_1_0_0_1_n_n none x (transpose S1x32 [1, 0] w transposes_S32x1_S1x32_1_0)) (rows32 b))

/-- The dense half of a graph convolution, with its relu. -/
def conv (a h : Arr F S200000x32 .f32) (relw : Arr F S32x32 .f32) (relb : Arr F S32 .f32) (rootw : Arr F S32x32 .f32) : Arr F S200000x32 .f32 :=
  maximumf
    (addf (addf (Host.dotGeneral dot_S200000x32_S32x32_S200000x32_1_0_0_1_n_n none a (transpose S32x32 [1, 0] relw transposes_S32x32_S32x32_1_0)) (rows32 relb))
      (Host.dotGeneral dot_S200000x32_S32x32_S200000x32_1_0_0_1_n_n none h (transpose S32x32 [1, 0] rootw transposes_S32x32_S32x32_1_0)))
    (broadcastInDim S200000x32 ![] bcast_S_S200000x32 (constant S_ .f32 0x00000000#32))

/-- The column sums of a node table. -/
def colsum (p : Arr F S200000x32 .f32) : Arr F S32 .f32 :=
  Host.reduceAdd p (constant S_ .f32 0x00000000#32) reducesTo_S200000x32_S32_d0 h_S_

/-- The table of squares of a node table's entries. -/
def squares (p : Arr F S200000x32 .f32) : Arr F S200000x32 .f32 :=
  mulf (p : FVec F S200000x32 .f32) (p : FVec F S200000x32 .f32)

/-- The column means. -/
def mean (p : Arr F S200000x32 .f32) : Arr F S32 .f32 :=
  Host.divf (colsum p) (broadcastInDim S32 ![] bcast_S_S32 (constant S_ .f32 0x48435000#32))

/-- The divisor of the variance: the number of rows less the (zero) correction. -/
def varDen : Arr F S_ .f32 := subf (constant S_ .f32 0x48435000#32) (sitofp .f32 (constantI S_ 32 0#32))

/-- The biased column variances: the centred squares summed and divided, kept where the divisor is positive. -/
def var (p : Arr F S200000x32 .f32) : Arr F S32 .f32 :=
  select (broadcastInDim S32 ![] bcast_S_S32 (cmpf .ogt (varDen (F := F)) (constant S_ .f32 0x00000000#32)))
    (Host.divf
      (Host.reduceAdd
        (mulf
          (subf p (broadcastInDim S200000x32 ![0, 1] bcast_S1x32_S200000x32_0_1
            (Host.divf (broadcastInDim S1x32 ![1] bcast_S32_S1x32_1 (colsum p)) (broadcastInDim S1x32 ![] bcast_S_S1x32 (constant S_ .f32 0x48435000#32)))))
          (subf p (broadcastInDim S200000x32 ![0, 1] bcast_S1x32_S200000x32_0_1
            (Host.divf (broadcastInDim S1x32 ![1] bcast_S32_S1x32_1 (colsum p)) (broadcastInDim S1x32 ![] bcast_S_S1x32 (constant S_ .f32 0x48435000#32))))))
        (constant S_ .f32 0x00000000#32) reducesTo_S200000x32_S32_d0 h_S_)
      (broadcastInDim S32 ![] bcast_S_S32 (varDen (F := F))))
    (broadcastInDim S32 ![] bcast_S_S32 (id (constant S_ .f32 0x7FC00000#32)))

/-- Batch normalisation of a node table from given column means and variances. -/
def bnWith (p : Arr F S200000x32 .f32) (μ σ2 g b : Arr F S32 .f32) : Arr F S200000x32 .f32 :=
  addf
    (mulf
      (mulf (subf p (rows32 μ))
        (rows32 (Host.rsqrt (addf σ2 (broadcastInDim S32 ![] bcast_S_S32 (constant S_ .f32 0x3727C5AC#32))))))
      (rows32 g))
    (rows32 b)

/-- Batch normalisation with the table's own statistics. -/
def bn (p : Arr F S200000x32 .f32) (g b : Arr F S32 .f32) : Arr F S200000x32 .f32 := bnWith p (mean p) (var p) g b

/-- One graph-convolution layer with its normalisation. -/
def layer (h : Arr F S200000x32 .f32) (ei : Arr F S2x2000000 .i32) (ew : Arr F S2000000 .f32)
    (relw : Arr F S32x32 .f32) (relb : Arr F S32 .f32) (rootw : Arr F S32x32 .f32) (g b : Arr F S32 .f32) : Arr F S200000x32 .f32 :=
  bn (conv (agg h ei ew) h relw relb rootw) g b

/-- The batch vector as a [N, 1] index column. -/
def batchIdx (bt : Arr F S200000 .i32) : Arr F S200000x1 .i32 := broadcastInDim S200000x1 ![0] bcast_S200000_S200000x1_0 bt

/-- Per-graph sums of the node rows. -/
def poolS (h : Arr F S200000x32 .f32) (bt : Arr F S200000 .i32) : Arr F S1000x32 .f32 :=
  Host.scatterAdd scatter_S1000x32_S200000x1_S200000x32_1_0_0_1
    (broadcastInDim S1000x32 ![] bcast_S_S1000x32 (constant S_ .f32 0x00000000#32)) (batchIdx bt) h

/-- Per-graph node counts. -/
def poolCnt (bt : Arr F S200000 .i32) : Arr F S1000 .f32 :=
  Host.scatterAdd scatter_S1000_S200000x1_S200000_n_0_0_1
    (broadcastInDim S1000 ![] bcast_S_S1000 (constant S_ .f32 0x00000000#32)) (batchIdx bt)
    (broadcastInDim S200000 ![] bcast_S_S200000 (constant S_ .f32 0x3F800000#32))

/-- The pooled two-layer head: mean pooling (counts clipped below at 1), a relu layer, a linear layer. -/
def head (s : Arr F S1000x32 .f32) (cnt : Arr F S1000 .f32) (w1 : Arr F S64x32 .f32) (b1 : Arr F S64 .f32)
    (w2 : Arr F S5x64 .f32) (b2 : Arr F S5 .f32) : Arr F S1000x5 .f32 :=
  addf
    (Host.dotGeneral dot_S1000x64_S64x5_S1000x5_1_0_0_1_n_n none
      (maximumf
        (addf
          (Host.dotGeneral dot_S1000x32_S32x64_S1000x64_1_0_0_1_n_n none
            (Host.divf s (broadcastInDim S1000x32 ![0, 1] bcast_S1000x1_S1000x32_0_1 (broadcastInDim S1000x1 ![0] bcast_S1000_S1000x1_0
              (maximumf (broadcastInDim S1000 ![] bcast_S_S1000 (id (constant S_ .f32 0x3F800000#32))) cnt))))
            (transpose S32x64 [1, 0] w1 transposes_S64x32_S32x64_1_0))
          (broadcastInDim S1000x64 ![0, 1] bcast_S1x64_S1000x64_0_1 (broadcastInDim S1x64 ![1] bcast_S64_S1x64_1 b1)))
        (broadcastInDim S1000x64 ![] bcast_S_S1000x64 (constant S_ .f32 0x00000000#32)))
      (transpose S64x5 [1, 0] w2 transposes_S5x64_S64x5_1_0))
    (broadcastInDim S1000x5 ![0, 1] bcast_S1x5_S1000x5_0_1 (broadcastInDim S1x5 ![1] bcast_S5_S1x5_1 b2))

/-- A length-32 vector as a one-row table. -/
def row32 (v : Arr F S32 .f32) : Arr F S1x32 .f32 := broadcastInDim S1x32 ![1] bcast_S32_S1x32_1 v

/-- A length-1000 vector as a one-column table. -/
def col1000 (v : Arr F S1000 .f32) : Arr F S1000x1 .f32 := broadcastInDim S1000x1 ![0] bcast_S1000_S1000x1_0 v

/-- A one-row table of column sums divided by the number of rows: the column means as a row. -/
def meanRow (s : Arr F S1x32 .f32) : Arr F S1x32 .f32 :=
  Host.divf s (broadcastInDim S1x32 ![] bcast_S_S1x32 (constant S_ .f32 0x48435000#32))

/-- The column variances as a row, in the form "mean of the squares less the square of the mean", from the rows of
    column sums `s` and of column sums of squares `q`. -/
def varRow (s q : Arr F S1x32 .f32) : Arr F S1x32 .f32 := subf (meanRow q) (mulf (meanRow s) (meanRow s))

/-- Every entry of an array of extended reals is a real number. -/
def IsReal {s : Shape} (a : Arr Ideal s .f32) : Prop := ∀ i, ∃ r : ℝ, a i = ((r : ℝ) : EReal)

/-- The whole network: projection, two convolution layers, pooling, head. -/
def pred (x : Arr F S200000x1 .f32) (ei : Arr F S2x2000000 .i32) (ew : Arr F S2000000 .f32) (bt : Arr F S200000 .i32)
    (w0 : Arr F S32x1 .f32) (b0 : Arr F S32 .f32)
    (relw0 : Arr F S32x32 .f32) (relb0 : Arr F S32 .f32) (rootw0 : Arr F S32x32 .f32)
    (relw1 : Arr F S32x32 .f32) (relb1 : Arr F S32 .f32) (rootw1 : Arr F S32x32 .f32)
    (g0 bb0 g1 bb1 : Arr F S32 .f32)
    (w1 : Arr F S64x32 .f32) (b1 : Arr F S64 .f32) (w2 : Arr F S5x64 .f32) (b2 : Arr F S5 .f32) : Arr F S1000x5 .f32 :=
  head (poolS (layer (layer (lin0 x w0 b0) ei ew relw0 relb0 rootw0 g0 bb0) ei ew relw1 relb1 rootw1 g1 bb1) bt)
    (poolCnt bt) w1 b1 w2 b2

end Cert.ReferenceIdeal.Spec

end
-- ==== Proof.HostStretch.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import Idealize.ShloMosaic.Lib.StableHlo.Run

noncomputable section

namespace Cert.KernelIdeal.HostStretch

open Idealize.ShloMosaic Idealize.ShloMosaic.TcCoe Idealize.SL.Sem Idealize.ShloMosaic.StableHlo
open Cert.KernelIdeal Cert.KernelIdeal.Gen Cert.KernelIdeal.GenP
open Cert.ReferenceIdeal (Spec.src Spec.dst Spec.aggSD Spec.meanRow Spec.varRow Spec.poolS Spec.poolCnt Spec.col1000)

variable {F : FTy → Type} [FloatOps F]

/-! ## What each stretch of host operations computes, over any buffer contents `W` at its start

Each stretch's results are read off as the stage functions of the network applied to the contents the stretch
starts from; the contents are a variable, so nothing of the program before the stretch is looked at. -/

/-- The first stretch flattens row 0 of the edge table: the source indices. -/
theorem host0_v1 (W : Valuation τ sig (Elt F)) :
    after hostOps0 W (Proc.devRef .tc main_v1) = Spec.src (F := F) (W (Proc.devRef .tc main_arg1)) := by
  after_results_simp
  rfl

/-- The first stretch flattens row 1 of the edge table: the target indices. -/
theorem host0_v3 (W : Valuation τ sig (Elt F)) :
    after hostOps0 W (Proc.devRef .tc main_v3) = Spec.dst (F := F) (W (Proc.devRef .tc main_arg1)) := by
  after_results_simp
  rfl

/-- The second stretch is the weighted neighbourhood sum of the first layer's input table. -/
theorem host1_v17 (W : Valuation τ sig (Elt F)) :
    after hostOps1 W (Proc.devRef .tc main_v17)
      = Spec.aggSD (F := F) (W (Proc.devRef .tc main_v4)) (W (Proc.devRef .tc main_v1)) (W (Proc.devRef .tc main_v3)) (W (Proc.devRef .tc main_arg2)) := by
  after_results_simp
  rfl

/-- The third stretch divides the row of column sums by the number of rows. -/
theorem host2_v20 (W : Valuation τ sig (Elt F)) :
    after hostOps2 W (Proc.devRef .tc main_v20) = Spec.meanRow (F := F) (W (Proc.devRef .tc main_v18_1)) := by
  after_results_simp
  rfl

/-- The third stretch forms "mean of squares less squared mean" from the two rows of sums. -/
theorem host2_v24 (W : Valuation τ sig (Elt F)) :
    after hostOps2 W (Proc.devRef .tc main_v24) = Spec.varRow (F := F) (W (Proc.devRef .tc main_v18_1)) (W (Proc.devRef .tc main_v18_2)) := by
  after_results_simp
  rfl

/-- The fourth stretch is the weighted neighbourhood sum of the second layer's input table. -/
theorem host3_v38 (W : Valuation τ sig (Elt F)) :
    after hostOps3 W (Proc.devRef .tc main_v38)
      = Spec.aggSD (F := F) (W (Proc.devRef .tc main_v25)) (W (Proc.devRef .tc main_v1)) (W (Proc.devRef .tc main_v3)) (W (Proc.devRef .tc main_arg2)) := by
  after_results_simp
  rfl

/-- The fifth stretch divides the second layer's row of column sums by the number of rows. -/
theorem host4_v41 (W : Valuation τ sig (Elt F)) :
    after hostOps4 W (Proc.devRef .tc main_v41) = Spec.meanRow (F := F) (W (Proc.devRef .tc main_v39_1)) := by
  after_results_simp
  rfl

/-- The fifth stretch forms the second layer's variance row. -/
theorem host4_v45 (W : Valuation τ sig (Elt F)) :
    after hostOps4 W (Proc.devRef .tc main_v45) = Spec.varRow (F := F) (W (Proc.devRef .tc main_v39_1)) (W (Proc.devRef .tc main_v39_2)) := by
  after_results_simp
  rfl

/-- The last stretch sums the node rows per graph. -/
theorem host5_v49 (W : Valuation τ sig (Elt F)) :
    after hostOps5 W (Proc.devRef .tc main_v49) = Spec.poolS (F := F) (W (Proc.devRef .tc main_v46)) (W (Proc.devRef .tc main_arg3)) := by
  after_results_simp
  rfl

/-- The last stretch counts the nodes per graph, as a column. -/
theorem host5_v54 (W : Valuation τ sig (Elt F)) :
    after hostOps5 W (Proc.devRef .tc main_v54) = Spec.col1000 (F := F) (Spec.poolCnt (W (Proc.devRef .tc main_arg3))) := by
  after_results_simp
  rfl

end Cert.KernelIdeal.HostStretch

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.RealClosure.lean ====
/-
  Arrays of real numbers among arrays of extended reals.

  An array of extended reals "is real" when every entry is a real number.  Sums, differences and products of reals
  are reals, so are the maximum with zero and the hyperbolic tangent; a vector laid out as a row, or repeated down the
  rows of a table, keeps its entries.  These closure facts, and the reading of the row layouts at an index, are stated
  once here for the stages of the network.
-/
import proofs.«112291_j21277267984767_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost

noncomputable section

namespace Cert.ReferenceIdeal.Spec

open Idealize.ShloMosaic Idealize.ShloMosaic.ValueIdx Cert.ReferenceIdeal

variable [Facts]
open Facts₀ Facts

/-! ## The row layouts read at an index -/

/-- A vector of n entries laid out as a one-row table reads, at column q, the vector's entry q. -/
theorem vecRow_apply {n : ℕ} {α : Type} (h : (⟨1, ![n]⟩ : Shape).BroadcastsInDim ⟨2, ![1, n]⟩ ![1])
    (v : (⟨1, ![n]⟩ : Shape).Idx → α) (a : Fin 1) (q : Fin n) :
    broadcastInDim ⟨2, ![1, n]⟩ ![1] h v (ix2 a q) = v (ix1 q) := by
  refine broadcastInDim_apply ![1] h v (ix2 a q) (ix1 q) ?_
  intro c
  match c with
  | ⟨0, _⟩ =>
    show q.val = if n = 1 then 0 else q.val
    split
    · have := q.isLt; omega
    · rfl

/-- The one-row layout of a length-32 vector at column q is the vector's entry q. -/
theorem row32_apply (v : Arr Ideal S32 .f32) (a : Fin 1) (q : Fin 32) :
    row32 (F := Ideal) v (ix2 a q) = v (ix1 q) :=
  vecRow_apply bcast_S32_S1x32_1 v a q

/-- A length-32 vector repeated down the 200000 rows reads, at (r, q), the vector's entry q. -/
theorem rows32_apply (v : Arr Ideal S32 .f32) (r : Fin 200000) (q : Fin 32) :
    rows32 (F := Ideal) v (ix2 r q) = v (ix1 q) := by
  unfold rows32
  exact (broadcastInDim_oneRow_apply bcast_S1x32_S200000x32_0_1 _ r q).trans
    (vecRow_apply bcast_S32_S1x32_1 v 0 q)

/-! ## Closure of the real arrays -/

/-- The entrywise sum of two real arrays is real. -/
theorem isReal_addf {s : Shape} {a b : Arr Ideal s .f32} (ha : IsReal a) (hb : IsReal b) : IsReal (s := s) (addf (F := Ideal) (s := s) (φ := .f32) a b) := by
  intro i
  obtain ⟨x, hx⟩ := ha i
  obtain ⟨y, hy⟩ := hb i
  exact ⟨x + y, by rw [addf_apply, hx, hy, EReal.coe_add]⟩

/-- The entrywise difference of two real arrays is real. -/
theorem isReal_subf {s : Shape} {a b : Arr Ideal s .f32} (ha : IsReal a) (hb : IsReal b) : IsReal (s := s) (subf (F := Ideal) (s := s) (φ := .f32) a b) := by
  intro i
  obtain ⟨x, hx⟩ := ha i
  obtain ⟨y, hy⟩ := hb i
  exact ⟨x - y, by rw [subf_apply, hx, hy, EReal.coe_sub]⟩

/-- The entrywise product of two real arrays is real. -/
theorem isReal_mulf {s : Shape} {a b : Arr Ideal s .f32} (ha : IsReal a) (hb : IsReal b) : IsReal (s := s) (mulf (F := Ideal) (s := s) (φ := .f32) a b) := by
  intro i
  obtain ⟨x, hx⟩ := ha i
  obtain ⟨y, hy⟩ := hb i
  exact ⟨x * y, by rw [mulf_apply, hx, hy, EReal.coe_mul]⟩

/-- The entrywise maximum of two real arrays is real. -/
theorem isReal_maximumf {s : Shape} {a b : Arr Ideal s .f32} (ha : IsReal a) (hb : IsReal b) :
    IsReal (s := s) (maximumf (F := Ideal) (s := s) (φ := .f32) a b) := by
  intro i
  obtain ⟨x, hx⟩ := ha i
  obtain ⟨y, hy⟩ := hb i
  exact ⟨max x y, by rw [maximumf_apply, hx, hy]; exact (EReal.coe_strictMono.monotone.map_max).symm⟩

/-- The zero word broadcast to any shape is a real array. -/
theorem isReal_zeros {s : Shape} (h : S_.BroadcastsInDim s ![]) :
    IsReal (s := s) (broadcastInDim s ![] h (constant (F := Ideal) S_ .f32 0x00000000#32)) := by
  intro i
  exact ⟨0, by rw [broadcastInDim_scalar_apply, constant_apply, Ideal.ofBits_zero_f32, EReal.coe_zero]⟩

/-- The maximum of a real array with the zero array (a relu) is real. -/
theorem isReal_maximumf_zero {s : Shape} {a : Arr Ideal s .f32} (h : S_.BroadcastsInDim s ![]) (ha : IsReal a) :
    IsReal (s := s) (maximumf (F := Ideal) (s := s) (φ := .f32) a (broadcastInDim s ![] h (constant (F := Ideal) S_ .f32 0x00000000#32))) :=
  isReal_maximumf ha (isReal_zeros h)

/-- The entrywise hyperbolic tangent of a real array is real. -/
theorem isReal_tanh {s : Shape} {a : Arr Ideal s .f32} (ha : IsReal a) : IsReal (s := s) (Host.tanh (F := Ideal) (s := s) (φ := .f32) a) := by
  intro i
  obtain ⟨x, hx⟩ := ha i
  exact ⟨Real.tanh x, by
    show Ideal.tanh (a i) = _
    rw [hx]; rfl⟩

/-- A real vector laid out as a row is a real table. -/
theorem isReal_row32 {v : Arr Ideal S32 .f32} (hv : IsReal v) : IsReal (row32 (F := Ideal) v) := by
  intro i
  obtain ⟨a, q, rfl⟩ : ∃ (a : Fin 1) (q : Fin 32), i = ix2 a q := ⟨i 0, i 1, eq_ix2 i⟩
  rw [row32_apply]
  exact hv _

/-- A real vector repeated down the rows is a real table. -/
theorem isReal_rows32 {v : Arr Ideal S32 .f32} (hv : IsReal v) : IsReal (rows32 (F := Ideal) v) := by
  intro i
  obtain ⟨r, q, rfl⟩ : ∃ (r : Fin 200000) (q : Fin 32), i = ix2 r q := ⟨i 0, i 1, eq_ix2 i⟩
  rw [rows32_apply]
  exact hv _

/-- A finite sum of real numbers, read among the extended reals, is the real sum. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.ReferenceIdeal.Spec

end
-- ==== Proof.Region0.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.LibTileMatmul
import proofs.«112291_j21277267984767_1_alg».proof.Proof.RealClosure
import Idealize.ShloMosaic.Lib.Pipeline.Value
import Idealize.ShloMosaic.Lib.ValueIdx
import Idealize.ShloMosaic.Lib.ValueLayout

noncomputable section

namespace Cert.KernelIdeal.Region0
open Idealize.ShloMosaic Idealize.ShloMosaic.TcCoe Idealize.SL.Sem
open Cert.KernelIdeal Cert.KernelIdeal.Gen Cert.KernelIdeal.GenP
open Cert.ReferenceIdeal (Spec.lin0 Spec.conv Spec.colsum Spec.row32 Spec.bnWith Spec.head Spec.Arr Spec.col1000 Spec.squares)

variable (V : (c : Dev nD) → (b : Ref sig .tc) → Buf (Elt Ideal) ((c : Thread nD τ).loc b))

open Idealize.ShloMosaic.ValueIdx
open Idealize.ShloMosaic.Pipeline (Dat)

/-! ## The body's arithmetic at an entry

A row tile of the input column, times the transposed weight column, plus the bias row, through tanh: at local row p and
feature q this is the whole array's projection at the global row the tile's row p sits at. -/

/-- The tile's projection at local row p, feature q, is the array's projection at row i, feature q, when the tile's row p
    is the array's row i: the two contractions are the same one-term sum, the two bias layouts read the same entry. -/
theorem pay_eq_lin0 (T : Vec Ideal S20000x1 .f32) (w : Vec Ideal S32x1 .f32) (b : Vec Ideal S32 .f32)
    (X : Spec.Arr Ideal Cert.ReferenceIdeal.S200000x1 .f32) (p : Fin 20000) (q : Fin 32) (i : Fin 200000)
    (hT : T (ix2 p (0 : Fin 1)) = X (ix2 i (0 : Fin 1))) :
    k0_pay1 (F := Ideal) T w b (ix2 p q) = Spec.lin0 (F := Ideal) X w b (ix2 i q) := by
  unfold k0_pay1 Spec.lin0
  refine congrArg Ideal.tanh (congrArg₂ (· + ·) ?_ ?_)
  · refine TileMatmul.matmul_tile_eq_dotGeneral dot_S20000x1_S1x32_S20000x32_1_0_0_1_n_n_wf
      Cert.ReferenceIdeal.Facts₀.dot_S200000x1_S1x32_S200000x32_1_0_0_1_n_n_wf none none T _ X _ p q i (fun c => ?_) (fun c => ?_)
    · obtain rfl : c = 0 := Subsingleton.elim _ _
      exact hT
    · rfl
  · refine ((broadcastTo_1b_ab_apply _ _ p q).trans (shapeCast_a_1a_apply b _ 0 q)).trans ?_
    exact (Cert.ReferenceIdeal.Spec.rows32_apply b i q).symm

/-! ## The windows' blocks at an index -/

theorem hz2 : (![0, 0] : Fin 2 → Nat) = fun _ => 0 := funext fun a => by fin_cases a <;> rfl
theorem hz1 : (![0] : Fin 1 → Nat) = fun _ => 0 := funext fun a => by fin_cases a <;> rfl

/-- The grid has ten points. -/
theorem lt_ten (t : Fin cfg0.N) : t.val < 10 := by
  exact lt_of_lt_of_eq t.isLt N_0

/-- The printed index maps over the ten points: the input column and the output move down one row tile per point, the
    weight and the bias stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The input window's block at point t is rows 20000·t … 20000·t + 19999 of the input column. -/
theorem iblk0_0_apply (c : Dev nD) (t : Fin cfg0.N) (x : S20000x1.Idx) (k : S200000x1.Idx)
    (hk0 : (k 0).val = 20000 * t.val + (x 0).val) (hk1 : (k 1).val = (x 1).val) :
    (iblk0 V c 0 t : Vec Ideal S20000x1 .f32) x = (V c main_arg0 : S200000x1.Idx → EReal) k := by
  obtain ⟨h0, h1, -⟩ := idx_facts t
  unfold iblk0
  rw [View.read_apply]
  show V c main_arg0 _ = V c main_arg0 _
  congr 1
  funext a
  apply Fin.ext
  match a with
  | ⟨0, _⟩ => show win0_0.index t 0 * 20000 + 1 * (x 0).val = (k 0).val; rw [h0, hk0]; omega
  | ⟨1, _⟩ => show win0_0.index t 1 * 1 + 1 * (x 1).val = (k 1).val; rw [h1, hk1]; omega

/-- The weight window's block at any point is the whole weight column. -/
theorem iblk0_1_eq (c : Dev nD) (t : Fin cfg0.N) :
    (iblk0 V c 1 t : Vec Ideal S32x1 .f32) = (V c main_arg4 : S32x1.Idx → EReal) := by
  obtain ⟨-, -, h0, h1, -⟩ := idx_facts t
  funext x
  unfold iblk0
  rw [View.read_apply]
  show V c main_arg4 _ = V c main_arg4 _
  congr 1
  funext a
  apply Fin.ext
  match a with
  | ⟨0, _⟩ => show win0_1.index t 0 * 32 + 1 * (x 0).val = (x 0).val; rw [h0]; omega
  | ⟨1, _⟩ => show win0_1.index t 1 * 1 + 1 * (x 1).val = (x 1).val; rw [h1]; omega

/-- The bias window's block at any point is the whole bias vector. -/
theorem iblk0_2_eq (c : Dev nD) (t : Fin cfg0.N) :
    (iblk0 V c 2 t : Vec Ideal S32 .f32) = (V c main_arg5 : S32.Idx → EReal) := by
  obtain ⟨-, -, -, -, h0, -⟩ := idx_facts t
  funext x
  unfold iblk0
  rw [View.read_apply]
  show V c main_arg5 _ = V c main_arg5 _
  congr 1
  funext a
  apply Fin.ext
  match a with
  | ⟨0, _⟩ => show win0_2.index t 0 * 32 + 1 * (x 0).val = (x 0).val; rw [h0]; omega

/-! ## What a point writes back -/

/-- A row tile X written back at point t is block t of a table G when each entry (p, q) of the tile is the table's
    entry at row 20000·t + p: the block's row p sits at that row of the array, its column q at column q. -/
theorem cut_eq_read (t : Fin cfg0.N) (X : S20000x32.Idx → EReal) (G : S200000x32.Idx → EReal)
    (h : ∀ (p : Fin 20000) (q : Fin 32) (i : Fin 200000), i.val = 20000 * t.val + p.val → X (ix2 p q) = G (ix2 i q)) :
    (cfg0.win 3).cut (grid0.coords t) X = ((cfg0.win 3).blk t).view.read (Elt Ideal) G := by
  obtain ⟨-, -, -, -, -, h0, h1⟩ := idx_facts t
  have ht := lt_ten t
  funext j
  rw [View.read_apply]
  have hp : (j 0).val < 20000 := (j 0).isLt
  have hq : (j 1).val < 32 := (j 1).isLt
  have e1 : (cfg0.win 3).xinj (grid0.coords t) j = ix2 (⟨(j 0).val, hp⟩ : Fin 20000) (⟨(j 1).val, hq⟩ : Fin 32) :=
    funext fun a => by
      match a with
      | ⟨0, _⟩ => rfl
      | ⟨1, _⟩ => rfl
  have e2 : ((cfg0.win 3).blk t).view.emb j
      = ix2 (⟨20000 * t.val + (j 0).val, by omega⟩ : Fin 200000) (⟨(j 1).val, hq⟩ : Fin 32) := by
    funext a
    apply Fin.ext
    match a with
    | ⟨0, _⟩ => show win0_3.index t 0 * 20000 + 1 * (j 0).val = 20000 * t.val + (j 0).val; rw [h0]; omega
    | ⟨1, _⟩ => show win0_3.index t 1 * 32 + 1 * (j 1).val = (j 1).val; rw [h1]; omega
  show X ((cfg0.win 3).xinj (grid0.coords t) j) = G (((cfg0.win 3).blk t).view.emb j)
  rw [e1, e2]
  exact h _ _ _ rfl

/-- What point t writes back to the output array is block t of the projection of the three input arrays. -/
theorem flushed_eq (c : Dev nD) (t : Fin cfg0.N) :
    (dat0 V c).flushed 3 t
      = ((cfg0.win 3).blk t).view.read (Elt Ideal) (Spec.lin0 (F := Ideal) (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S20000x1) hz2, View.ld_unit_zero (S := S32x1) hz2, View.ld_unit_zero (S := S32) hz1]
  rw [iblk0_1_eq, iblk0_2_eq]
  refine cut_eq_read t _ _ fun p q i hi => ?_
  refine pay_eq_lin0 _ _ _ _ p q i ?_
  exact iblk0_0_apply V c t (ix2 p 0) (ix2 i 0) hi rfl

/-- Every row of the output array lies in some point's block: row r in the block of point r / 20000. -/
theorem cover (i : S200000x32.Idx) :
    ∃ t : Fin cfg0.N, (cfg0.win 3).flush t = true ∧ i ∈ ((cfg0.win 3).blk t).view.set := by
  have hi0 : (i 0).val < 200000 := (i 0).isLt
  have hi1 : (i 1).val < 32 := (i 1).isLt
  have hN : cfg0.N = 10 := N_0
  let t : Fin cfg0.N := ⟨(i 0).val / 20000, by rw [hN]; omega⟩
  obtain ⟨-, -, -, -, -, h0, h1⟩ := idx_facts t
  have ht : t.val = (i 0).val / 20000 := rfl
  refine ⟨t, flush0_3 t, ?_⟩
  show i ∈ ((View.whole main_v4).slice (win0_3.rect t)).set
  rw [View.set_slice_whole, Rect.mem_set_unit]
  intro a
  match a with
  | ⟨0, _⟩ =>
    show win0_3.index t 0 * 20000 ≤ (i 0).val ∧ (i 0).val < win0_3.index t 0 * 20000 + 20000
    rw [h0, ht]; omega
  | ⟨1, _⟩ =>
    show win0_3.index t 1 * 32 ≤ (i 1).val ∧ (i 1).val < win0_3.index t 1 * 32 + 32
    rw [h1]; omega

/-- Region 0's output array, once all ten row tiles are written back, is the input projection of the region's
    three input arrays. -/
theorem region0_value (c : Dev nD) :
    (dat0 V c).arrAt 3 cfg0.N = Spec.lin0 (F := Ideal) (V c main_arg0) (V c main_arg4) (V c main_arg5) := by
  exact (dat0 V c).arrAt_eq_of_cover 3 _ (fun t _ => flushed_eq V c t) cover

end Cert.KernelIdeal.Region0

end
-- ==== Proof.Region1Pieces.lean ====
/-
  Regions 1 and 3 (the graph-convolution kernels with running column statistics): what one grid point leaves in each
  output, and the convolution tile read at an entry.

  At every grid point the body stores the tile  max (agg_tile · relwᵀ + relb + h_tile · rootwᵀ, 0)  to the first output
  and adds the tile's column sums, and its column sums of squares, to two one-row accumulators, which are set to zero
  first at grid point 0.  The first six lemmas say this of the stores' contents; the last says that the tile's value at
  (p, q) is the whole-table convolution at (i, q) whenever row p of the two input tiles is row i of the two tables.
-/
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.LibTileMatmul
import Idealize.ShloMosaic.Lib.Pipeline.Value
import Idealize.ShloMosaic.Lib.ValueLayout
import Idealize.ShloMosaic.Lib.Tactic

noncomputable section

namespace Cert.KernelIdeal.Region1Pieces
open Idealize.ShloMosaic Idealize.ShloMosaic.TcCoe Idealize.SL.Sem
open Cert.KernelIdeal Cert.KernelIdeal.Gen Cert.KernelIdeal.GenP
open Idealize.ShloMosaic.ValueIdx Idealize.ShloMosaic.TileMatmul
open Cert.ReferenceIdeal (Spec.conv Spec.rows32 Spec.Arr)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- At the first grid point the row-sum accumulator ends at the tile's column sums added to the zero row it was set to. -/
theorem outA6 (c : Dev nD) (i : grid1.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : cond1_0 i) (x0 : Vec F S20000x32 .f32) (x1 : Vec F S20000x32 .f32) (x2 : Vec F S32x32 .f32) (x3 : Vec F S32 .f32) (x4 : Vec F S32x32 .f32) :
    out1_A_6 c i a1 h1 a2 h2 a3 h3 a4 h4 a5 h5 a6 h6 a7 h7 a8 h8 hc x0 x1 x2 x3 x4 = k1_pay6 x0 x1 x2 x3 x4 (k1_pay4 (F := F)) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x32) hz2, View.readCov_unit_zero (S := S1x32) _ hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1]

/-- At the first grid point the accumulator of squares ends at the tile's column sums of squares added to the zero row. -/
theorem outA7 (c : Dev nD) (i : grid1.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : cond1_0 i) (x0 : Vec F S20000x32 .f32) (x1 : Vec F S20000x32 .f32) (x2 : Vec F S32x32 .f32) (x3 : Vec F S32 .f32) (x4 : Vec F S32x32 .f32) :
    out1_A_7 c i a1 h1 a2 h2 a3 h3 a4 h4 a5 h5 a6 h6 a7 h7 a8 h8 hc x0 x1 x2 x3 x4 = k1_pay1 (k1_pay3 x0 x1 x2 x3 x4) (k1_pay7 (k1_pay5 (F := F))) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x32) hz2]
  simp only [View.readCov_unit_zero (S := S1x32) _ hz2, View.readAt_eq_ld, h1.read_unread, h2.read_unread, h3.read_unread, h4.read_unread, h5.read_unread,
    View.ld_unit_zero (S := S20000x32) hz2, View.ld_unit_zero (S := S32x32) hz2, View.ld_unit_zero (S := S32) hz1]

/-- At a later grid point the row-sum accumulator ends at the tile's column sums added to what it held. -/
theorem outB6 (c : Dev nD) (i : grid1.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : ¬cond1_0 i) (x0 : Vec F S20000x32 .f32) (x1 : Vec F S20000x32 .f32) (x2 : Vec F S32x32 .f32) (x3 : Vec F S32 .f32) (x4 : Vec F S32x32 .f32) (xo6 : Vec F S1x32 .f32) (xo7 : Vec F S1x32 .f32) :
    out1_B_6 c i a1 h1 a2 h2 a3 h3 a4 h4 a5 h5 a6 h6 a7 h7 a8 h8 hc x0 x1 x2 x3 x4 xo6 xo7 = k1_pay6 x0 x1 x2 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  rw [View.canon_unit_zero (S := S1x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1, h7.read_unread, View.ld_unit_zero (S := S1x32) hz2]

/-- At a later grid point the accumulator of squares ends at the tile's column sums of squares added to what it held. -/
theorem outB7 (c : Dev nD) (i : grid1.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : ¬cond1_0 i) (x0 : Vec F S20000x32 .f32) (x1 : Vec F S20000x32 .f32) (x2 : Vec F S32x32 .f32) (x3 : Vec F S32 .f32) (x4 : Vec F S32x32 .f32) (xo6 : Vec F S1x32 .f32) (xo7 : Vec F S1x32 .f32) :
    out1_B_7 c i a1 h1 a2 h2 a3 h3 a4 h4 a5 h5 a6 h6 a7 h7 a8 h8 hc x0 x1 x2 x3 x4 xo6 xo7 = k1_pay1 (k1_pay3 x0 x1 x2 x3 x4) (k1_pay7 xo7) := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero (S := S1x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1, h8.read_unread, View.ld_unit_zero (S := S1x32) hz2]

/-- At the first grid point the output tile is the convolution tile of the input tiles. -/
theorem outA5 (c : Dev nD) (i : grid1.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : cond1_0 i) (x0 : Vec F S20000x32 .f32) (x1 : Vec F S20000x32 .f32) (x2 : Vec F S32x32 .f32) (x3 : Vec F S32 .f32) (x4 : Vec F S32x32 .f32) :
    out1_A_5 c i a1 h1 a2 h2 a3 h3 a4 h4 a5 h5 a6 h6 a7 h7 a8 h8 hc x0 x1 x2 x3 x4 = k1_pay2 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  rw [View.canon_unit_zero (S := S20000x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1]

/-- At a later grid point likewise. -/
theorem outB5 (c : Dev nD) (i : grid1.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : ¬cond1_0 i) (x0 : Vec F S20000x32 .f32) (x1 : Vec F S20000x32 .f32) (x2 : Vec F S32x32 .f32) (x3 : Vec F S32 .f32) (x4 : Vec F S32x32 .f32) (xo6 : Vec F S1x32 .f32) (xo7 : Vec F S1x32 .f32) :
    out1_B_5 c i a1 h1 a2 h2 a3 h3 a4 h4 a5 h5 a6 h6 a7 h7 a8 h8 hc x0 x1 x2 x3 x4 xo6 xo7 = k1_pay2 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  rw [View.canon_unit_zero (S := S20000x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1]

/-- A length-32 vector repeated over the 200000 rows reads, at (i, q), the vector's entry q. -/
theorem rows32_apply (b : Spec.Arr Ideal Cert.ReferenceIdeal.S32 .f32) (i : Fin 200000) (q : Fin 32) :
    Spec.rows32 (F := Ideal) b (ix2 i q) = b (ix1 q) := by
  unfold Spec.rows32
  refine (broadcastInDim_apply _ _ _ (ix2 i q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-- THE TILE OF THE CONVOLUTION AT AN ENTRY. When row p of the two input tiles is row i of the two whole tables, the
    kernel's tile value at (p, q) — the two products into zero, the bias row, the relu — is the whole-table
    convolution at (i, q): the products have literally the same terms, the bias row reads the same vector entry, and
    the relu's zero is the same word. -/
theorem conv_tile_apply (x0 x1 : Vec Ideal S20000x32 .f32) (x2 : Vec Ideal S32x32 .f32) (x3 : Vec Ideal S32 .f32)
    (x4 : Vec Ideal S32x32 .f32) (a h : Spec.Arr Ideal Cert.ReferenceIdeal.S200000x32 .f32)
    (p : Fin 20000) (q : Fin 32) (i : Fin 200000)
    (h0 : ∀ c : Fin 32, x0 (ix2 p c) = a (ix2 i c)) (h1 : ∀ c : Fin 32, x1 (ix2 p c) = h (ix2 i c)) :
    k1_pay2 (F := Ideal) x0 x1 x2 x3 x4 (ix2 p q) = Spec.conv (F := Ideal) a h x2 x3 x4 (ix2 i q) := by
  unfold k1_pay2 Spec.conv
  dsimp only
  refine congrArg₂ max (congrArg₂ (· + ·) (congrArg₂ (· + ·) ?_ ?_) ?_) rfl
  · exact matmul_tile_eq_dotGeneral _ _ none none _ _ a _ p q i
      (fun c => (congrFun (shapeCast_self x0 _) (ix2 p c)).trans (h0 c)) (fun c => rfl)
  · refine (broadcastTo_1b_ab_apply _ _ p q).trans ?_
    refine (shapeCast_a_1a_apply x3 _ 0 q).trans ?_
    exact (rows32_apply x3 i q).symm
  · exact matmul_tile_eq_dotGeneral _ _ none none _ _ h _ p q i
      (fun c => (congrFun (shapeCast_self x1 _) (ix2 p c)).trans (h1 c)) (fun c => rfl)

end Cert.KernelIdeal.Region1Pieces

end
-- ==== Proof.LibBlockSum.lean ====
/-
  Sums over rows cut into equal blocks.

  A table of B·R rows is processed block by block, R rows at a time, and a running total is kept: it starts from
  zero, takes the first block's sum, and then one more block's sum per step.  The two lemmas say that the sum over all
  rows is the sum over the blocks of the sums inside each block, and that the running total after step n is the sum of
  the blocks 0, …, n.  Both hold in any commutative additive monoid, so at infinite values too.
-/
import Idealize.ShloMosaic.PureOps.Ideal

open scoped BigOperators

namespace Cert.LibBlockSum

/-- Row r of block t, in a table of B blocks of R rows, is a row of the table: t·R + r < B·R. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

/-- A sum over B·R rows is the sum over the B blocks of the sums over the R rows inside each block, row r of block t
    being row t·R + r. -/
theorem sum_blocks {M : Type*} [AddCommMonoid M] (B R : ℕ) (f : Fin (B * R) → M) :
    ∑ i : Fin (B * R), f i = ∑ t : Fin B, ∑ r : Fin R, f ⟨t.val * R + r.val, block_lt t r⟩ := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

/-- The same for a function of the row's number. -/
theorem sum_blocks_nat {M : Type*} [AddCommMonoid M] (B R : ℕ) (f : ℕ → M) :
    ∑ i : Fin (B * R), f i.val = ∑ t : Fin B, ∑ r : Fin R, f (t.val * R + r.val) :=
  sum_blocks B R fun i => f i.val

/-- A running total that starts from zero plus block 0's sum and adds block k+1's sum at step k+1 holds, after step n,
    the sum of the blocks 0, …, n. -/
theorem acc_blocks {M : Type*} [AddCommMonoid M] (g : ℕ → M) :
    ∀ n, (Nat.rec (0 + g 0) (fun k acc => acc + g (k + 1)) n : M) = ∑ t ∈ Finset.range (n + 1), g t := by
  intro n
  induction n with
  | zero =>
    rw [Finset.sum_range_one]
    exact zero_add (g 0)
  | succ n ih =>
    show (Nat.rec (0 + g 0) (fun k acc => acc + g (k + 1)) n : M) + g (n + 1) = _
    rw [ih, Finset.sum_range_succ _ (n + 1)]

/-- A sum over the first B naturals is the sum over the B-element index type. -/
theorem sum_range_eq_fin {M : Type*} [AddCommMonoid M] (g : ℕ → M) (B : ℕ) :
    ∑ t ∈ Finset.range B, g t = ∑ t : Fin B, g t.val :=
  (Fin.sum_univ_eq_sum_range g B).symm

/-- So for a table of B + 1 blocks of R rows, with the blocks' sums g t = ∑ r, f (t·R + r), the running total after
    the last step, step B, is the sum over all (B + 1)·R rows. -/
theorem acc_all_rows {M : Type*} [AddCommMonoid M] (B R : ℕ) (f : ℕ → M) :
    (Nat.rec (0 + ∑ r : Fin R, f (0 * R + r.val)) (fun k acc => acc + ∑ r : Fin R, f ((k + 1) * R + r.val)) B : M)
      = ∑ i : Fin ((B + 1) * R), f i.val := by
  rw [acc_blocks (fun t => ∑ r : Fin R, f (t * R + r.val)) B, sum_range_eq_fin, sum_blocks_nat]

end Cert.LibBlockSum
-- ==== Proof.Region3Pieces.lean ====
/-
  Region 3 (the second launch of the graph-convolution kernel with running column statistics): what one grid point
  leaves in each output, and the convolution tile read at an entry.

  At every grid point the body stores the tile  max (agg_tile · relwᵀ + relb + h_tile · rootwᵀ, 0)  to the first output
  and adds the tile's column sums, and its column sums of squares, to two one-row accumulators, which are set to zero
  first at grid point 0.  The first six lemmas say this of the stores' contents; the last says that the tile's value at
  (p, q) is the whole-table convolution at (i, q) whenever row p of the two input tiles is row i of the two tables.
  The zero-offset facts and the reading of a repeated bias row are those stated for the first launch.
-/
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.LibTileMatmul
import proofs.«112291_j21277267984767_1_alg».proof.Proof.Region1Pieces
import Idealize.ShloMosaic.Lib.Pipeline.Value
import Idealize.ShloMosaic.Lib.ValueLayout
import Idealize.ShloMosaic.Lib.Tactic

noncomputable section

namespace Cert.KernelIdeal.Region3Pieces
open Idealize.ShloMosaic Idealize.ShloMosaic.TcCoe Idealize.SL.Sem
open Cert.KernelIdeal Cert.KernelIdeal.Gen Cert.KernelIdeal.GenP
open Idealize.ShloMosaic.ValueIdx Idealize.ShloMosaic.TileMatmul
open Cert.ReferenceIdeal (Spec.conv Spec.rows32 Spec.Arr)
open Cert.KernelIdeal.Region1Pieces (hz2 hz1 rows32_apply)

variable {F : FTy → Type} [FloatOps F]

/-- At the first grid point the row-sum accumulator ends at the tile's column sums added to the zero row it was set to. -/
theorem outA6 (c : Dev nD) (i : grid3.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : cond3_0 i) (x0 : Vec F S20000x32 .f32) (x1 : Vec F S20000x32 .f32) (x2 : Vec F S32x32 .f32) (x3 : Vec F S32 .f32) (x4 : Vec F S32x32 .f32) :
    out3_A_6 c i a1 h1 a2 h2 a3 h3 a4 h4 a5 h5 a6 h6 a7 h7 a8 h8 hc x0 x1 x2 x3 x4 = k3_pay6 x0 x1 x2 x3 x4 (k3_pay4 (F := F)) := by
  unfold out3_A_6
  rw [View.read_writes_eq_canon _ _ _ (cover3_A_6 c i a1 h1 a2 h2 a3 h3 a4 h4 a5 h5 a6 h6 a7 h7 a8 h8 hc x0 x1 x2 x3 x4)]
  unfold kernelRun3_A
  dsimp only
  sl_unfold_words
  rw [View.canon_cons_unit_zero (S := S1x32) hz2, View.readCov_unit_zero (S := S1x32) _ hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1]

/-- At the first grid point the accumulator of squares ends at the tile's column sums of squares added to the zero row. -/
theorem outA7 (c : Dev nD) (i : grid3.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : cond3_0 i) (x0 : Vec F S20000x32 .f32) (x1 : Vec F S20000x32 .f32) (x2 : Vec F S32x32 .f32) (x3 : Vec F S32 .f32) (x4 : Vec F S32x32 .f32) :
    out3_A_7 c i a1 h1 a2 h2 a3 h3 a4 h4 a5 h5 a6 h6 a7 h7 a8 h8 hc x0 x1 x2 x3 x4 = k3_pay1 (k3_pay3 x0 x1 x2 x3 x4) (k3_pay7 (k3_pay5 (F := F))) := by
  unfold out3_A_7
  rw [View.read_writes_eq_canon _ _ _ (cover3_A_7 c i a1 h1 a2 h2 a3 h3 a4 h4 a5 h5 a6 h6 a7 h7 a8 h8 hc x0 x1 x2 x3 x4)]
  unfold kernelRun3_A
  dsimp only
  sl_unfold_words
  rw [View.canon_cons_unit_zero (S := S1x32) hz2]
  simp only [View.readCov_unit_zero (S := S1x32) _ hz2, View.readAt_eq_ld, h1.read_unread, h2.read_unread, h3.read_unread, h4.read_unread, h5.read_unread,
    View.ld_unit_zero (S := S20000x32) hz2, View.ld_unit_zero (S := S32x32) hz2, View.ld_unit_zero (S := S32) hz1]

/-- At a later grid point the row-sum accumulator ends at the tile's column sums added to what it held. -/
theorem outB6 (c : Dev nD) (i : grid3.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : ¬cond3_0 i) (x0 : Vec F S20000x32 .f32) (x1 : Vec F S20000x32 .f32) (x2 : Vec F S32x32 .f32) (x3 : Vec F S32 .f32) (x4 : Vec F S32x32 .f32) (xo6 : Vec F S1x32 .f32) (xo7 : Vec F S1x32 .f32) :
    out3_B_6 c i a1 h1 a2 h2 a3 h3 a4 h4 a5 h5 a6 h6 a7 h7 a8 h8 hc x0 x1 x2 x3 x4 xo6 xo7 = k3_pay6 x0 x1 x2 x3 x4 xo6 := by
  unfold out3_B_6
  rw [View.read_writes_eq_canon _ _ _ (cover3_B_6 c i a1 h1 a2 h2 a3 h3 a4 h4 a5 h5 a6 h6 a7 h7 a8 h8 hc x0 x1 x2 x3 x4 xo6 xo7)]
  unfold kernelRun3_B
  dsimp only
  rw [View.canon_unit_zero (S := S1x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1, h7.read_unread, View.ld_unit_zero (S := S1x32) hz2]

/-- At a later grid point the accumulator of squares ends at the tile's column sums of squares added to what it held. -/
theorem outB7 (c : Dev nD) (i : grid3.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : ¬cond3_0 i) (x0 : Vec F S20000x32 .f32) (x1 : Vec F S20000x32 .f32) (x2 : Vec F S32x32 .f32) (x3 : Vec F S32 .f32) (x4 : Vec F S32x32 .f32) (xo6 : Vec F S1x32 .f32) (xo7 : Vec F S1x32 .f32) :
    out3_B_7 c i a1 h1 a2 h2 a3 h3 a4 h4 a5 h5 a6 h6 a7 h7 a8 h8 hc x0 x1 x2 x3 x4 xo6 xo7 = k3_pay1 (k3_pay3 x0 x1 x2 x3 x4) (k3_pay7 xo7) := by
  unfold out3_B_7
  rw [View.read_writes_eq_canon _ _ _ (cover3_B_7 c i a1 h1 a2 h2 a3 h3 a4 h4 a5 h5 a6 h6 a7 h7 a8 h8 hc x0 x1 x2 x3 x4 xo6 xo7)]
  unfold kernelRun3_B
  dsimp only
  sl_unfold_words
  rw [View.canon_unit_zero (S := S1x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1, h8.read_unread, View.ld_unit_zero (S := S1x32) hz2]

/-- At the first grid point the output tile is the convolution tile of the input tiles. -/
theorem outA5 (c : Dev nD) (i : grid3.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : cond3_0 i) (x0 : Vec F S20000x32 .f32) (x1 : Vec F S20000x32 .f32) (x2 : Vec F S32x32 .f32) (x3 : Vec F S32 .f32) (x4 : Vec F S32x32 .f32) :
    out3_A_5 c i a1 h1 a2 h2 a3 h3 a4 h4 a5 h5 a6 h6 a7 h7 a8 h8 hc x0 x1 x2 x3 x4 = k3_pay2 x0 x1 x2 x3 x4 := by
  unfold out3_A_5
  rw [View.read_writes_eq_canon _ _ _ (cover3_A_5 c i a1 h1 a2 h2 a3 h3 a4 h4 a5 h5 a6 h6 a7 h7 a8 h8 hc x0 x1 x2 x3 x4)]
  unfold kernelRun3_A
  dsimp only
  rw [View.canon_unit_zero (S := S20000x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1]

/-- At a later grid point likewise. -/
theorem outB5 (c : Dev nD) (i : grid3.Coords) (a1 : Memref sig .tc .vmem S20000x32 .f32) (h1 : a1.IsWhole) (a2 : Memref sig .tc .vmem S20000x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S20000x32 .f32) (h6 : a6.IsWhole) (a7 : Memref sig .tc .vmem S1x32 .f32) (h7 : a7.IsWhole) (a8 : Memref sig .tc .vmem S1x32 .f32) (h8 : a8.IsWhole) (hc : ¬cond3_0 i) (x0 : Vec F S20000x32 .f32) (x1 : Vec F S20000x32 .f32) (x2 : Vec F S32x32 .f32) (x3 : Vec F S32 .f32) (x4 : Vec F S32x32 .f32) (xo6 : Vec F S1x32 .f32) (xo7 : Vec F S1x32 .f32) :
    out3_B_5 c i a1 h1 a2 h2 a3 h3 a4 h4 a5 h5 a6 h6 a7 h7 a8 h8 hc x0 x1 x2 x3 x4 xo6 xo7 = k3_pay2 x0 x1 x2 x3 x4 := by
  unfold out3_B_5
  rw [View.read_writes_eq_canon _ _ _ (cover3_B_5 c i a1 h1 a2 h2 a3 h3 a4 h4 a5 h5 a6 h6 a7 h7 a8 h8 hc x0 x1 x2 x3 x4 xo6 xo7)]
  unfold kernelRun3_B
  dsimp only
  rw [View.canon_unit_zero (S := S20000x32) hz2]
  simp only [View.readAt_eq_ld, h1.read_unread, h2.read_unread, h3.read_unread, h4.read_unread, h5.read_unread,
    View.ld_unit_zero (S := S20000x32) hz2, View.ld_unit_zero (S := S32x32) hz2, View.ld_unit_zero (S := S32) hz1]

/-- THE TILE OF THE CONVOLUTION AT AN ENTRY. When row p of the two input tiles is row i of the two whole tables, the
    kernel's tile value at (p, q) — the two products into zero, the bias row, the relu — is the whole-table
    convolution at (i, q): the products have literally the same terms, the bias row reads the same vector entry, and
    the relu's zero is the same word. -/
theorem conv_tile_apply (x0 x1 : Vec Ideal S20000x32 .f32) (x2 : Vec Ideal S32x32 .f32) (x3 : Vec Ideal S32 .f32)
    (x4 : Vec Ideal S32x32 .f32) (a h : Spec.Arr Ideal Cert.ReferenceIdeal.S200000x32 .f32)
    (p : Fin 20000) (q : Fin 32) (i : Fin 200000)
    (h0 : ∀ c : Fin 32, x0 (ix2 p c) = a (ix2 i c)) (h1 : ∀ c : Fin 32, x1 (ix2 p c) = h (ix2 i c)) :
    k3_pay2 (F := Ideal) x0 x1 x2 x3 x4 (ix2 p q) = Spec.conv (F := Ideal) a h x2 x3 x4 (ix2 i q) := by
  unfold k3_pay2 Spec.conv
  dsimp only
  refine congrArg₂ max (congrArg₂ (· + ·) (congrArg₂ (· + ·) ?_ ?_) ?_) rfl
  · exact matmul_tile_eq_dotGeneral _ _ none none _ _ a _ p q i
      (fun c => (congrFun (shapeCast_self x0 _) (ix2 p c)).trans (h0 c)) (fun c => rfl)
  · refine (broadcastTo_1b_ab_apply _ _ p q).trans ?_
    refine (shapeCast_a_1a_apply x3 _ 0 q).trans ?_
    exact (rows32_apply x3 i q).symm
  · exact matmul_tile_eq_dotGeneral _ _ none none _ _ h _ p q i
      (fun c => (congrFun (shapeCast_self x1 _) (ix2 p c)).trans (h1 c)) (fun c => rfl)

end Cert.KernelIdeal.Region3Pieces

end
-- ==== Proof.Region1Pre.lean ====
/-
  The first output of the two graph-convolution regions, as one function of the region's input arrays.

  A region runs its kernel once per tile of 20000 rows, ten tiles in all.  At every grid point the kernel stores, into
  the first output's tile, the convolution payload of the two input tiles and of the whole weight and bias arrays; row
  p of tile t is row 20000 t + p of the table, so the stored tile is that tile of the reference's convolution table.
  Every row of the table lies in exactly one tile and every point writes its tile back, so after the last point the
  output array is the convolution table.
-/
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.Region1Pieces
import proofs.«112291_j21277267984767_1_alg».proof.Proof.Region3Pieces
import Idealize.ShloMosaic.Lib.Pipeline.Value
import Idealize.ShloMosaic.Lib.ValueLayout

set_option maxRecDepth 16384

noncomputable section

namespace Cert.KernelIdeal.Region1Pre
open Idealize.ShloMosaic Idealize.ShloMosaic.TcCoe Idealize.SL.Sem
open Cert.KernelIdeal Cert.KernelIdeal.Gen Cert.KernelIdeal.GenP
open Idealize.ShloMosaic.ValueIdx
open Cert.ReferenceIdeal (Spec.conv Spec.Arr)

variable (V : (c : Dev nD) → (b : Ref sig .tc) → Buf (Elt Ideal) ((c : Thread nD τ).loc b))

/-! ## Region 1 -/

/-- The grid of region 1 has ten points. -/
theorem N1_eq : cfg1.N = 10 := by decide +kernel

/-- The block indices over the grid: the two row-tiled inputs and the first output are at tile t, the weights and
    the bias at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the first output's buffer holds after any point: the convolution payload of the point's input blocks. -/
theorem outs1_5 (c : Dev nD) (t : Fin cfg1.N) :
    (outsAt1 V c t.val t.isLt).1
      = k1_pay2 (F := Ideal) (iblk1 V c 0 t) (iblk1 V c 1 t) (iblk1 V c 2 t) (iblk1 V c 3 t) (iblk1 V c 4 t) := by
  by_cases h0 : t.val % 10 = 0
  · rw [outsAt1_A V c t h0, Region1Pieces.outA5]
  · rw [outsAt1_B V c t h0, Region1Pieces.outB5]

/-- The first weight matrix's block at any point is the whole matrix. -/
theorem iblk1_2 (c : Dev nD) (t : Fin cfg1.N) : (iblk1 V c 2 t : Vec Ideal S32x32 .f32) = V c main_arg6 := by
  obtain ⟨e00, e01, e10, e11, e20, e21, e30, e40, e41, e50, e51⟩ := idx_facts1 t
  funext j
  show V c main_arg6 (((cfg1.win 2).blk t).view.emb j) = V c main_arg6 j
  refine congrArg _ (funext fun a => Fin.ext ?_)
  match a with
  | ⟨0, _⟩ => show win1_2.index t (0 : Fin 2) * 32 + 1 * (j 0).val = (j 0).val; omega
  | ⟨1, _⟩ => show win1_2.index t (1 : Fin 2) * 32 + 1 * (j 1).val = (j 1).val; omega

/-- The bias's block at any point is the whole vector. -/
theorem iblk1_3 (c : Dev nD) (t : Fin cfg1.N) : (iblk1 V c 3 t : Vec Ideal S32 .f32) = V c main_arg7 := by
  obtain ⟨e00, e01, e10, e11, e20, e21, e30, e40, e41, e50, e51⟩ := idx_facts1 t
  funext j
  show V c main_arg7 (((cfg1.win 3).blk t).view.emb j) = V c main_arg7 j
  refine congrArg _ (funext fun a => Fin.ext ?_)
  match a with
  | ⟨0, _⟩ => show win1_3.index t (0 : Fin 1) * 32 + 1 * (j 0).val = (j 0).val; omega

/-- The second weight matrix's block at any point is the whole matrix. -/
theorem iblk1_4 (c : Dev nD) (t : Fin cfg1.N) : (iblk1 V c 4 t : Vec Ideal S32x32 .f32) = V c main_arg8 := by
  obtain ⟨e00, e01, e10, e11, e20, e21, e30, e40, e41, e50, e51⟩ := idx_facts1 t
  funext j
  show V c main_arg8 (((cfg1.win 4).blk t).view.emb j) = V c main_arg8 j
  refine congrArg _ (funext fun a => Fin.ext ?_)
  match a with
  | ⟨0, _⟩ => show win1_4.index t (0 : Fin 2) * 32 + 1 * (j 0).val = (j 0).val; omega
  | ⟨1, _⟩ => show win1_4.index t (1 : Fin 2) * 32 + 1 * (j 1).val = (j 1).val; omega

/-- What point t writes back to the first output is tile t of the convolution table of the region's input arrays. -/
theorem flushed1_5 (c : Dev nD) (t : Fin cfg1.N) :
    (dat1 V c).flushed 5 t = ((cfg1.win 5).blk t).view.read (Elt Ideal)
      (Spec.conv (F := Ideal) (V c main_v17) (V c main_v4) (V c main_arg6) (V c main_arg7) (V c main_arg8)) := by
  show (cfg1.win 5).cut (grid1.coords t) ((dat1 V c).after 5 t) = _
  rw [after1_5, outs1_5, iblk1_2, iblk1_3, iblk1_4]
  obtain ⟨e00, e01, e10, e11, e20, e21, e30, e40, e41, e50, e51⟩ := idx_facts1 t
  have ht : t.val < 10 := lt_of_lt_of_eq t.isLt N1_eq
  funext j
  obtain ⟨p, q, rfl⟩ : ∃ (p : Fin 20000) (q : Fin 32), j = ix2 p q := ⟨j 0, j 1, eq_ix2 j⟩
  have hp : p.val < 20000 := p.isLt
  have hi : 20000 * t.val + p.val < 200000 := by omega
  have h5 : ((cfg1.win 5).blk t).view.emb (ix2 p q) = ix2 (⟨20000 * t.val + p.val, hi⟩ : Fin 200000) q := by
    funext a; apply Fin.ext
    match a with
    | ⟨0, _⟩ => show win1_5.index t (0 : Fin 2) * 20000 + 1 * p.val = 20000 * t.val + p.val; omega
    | ⟨1, _⟩ => show win1_5.index t (1 : Fin 2) * 32 + 1 * q.val = q.val; omega
  show k1_pay2 (F := Ideal) (iblk1 V c 0 t) (iblk1 V c 1 t) (V c main_arg6) (V c main_arg7) (V c main_arg8) (ix2 p q)
      = Spec.conv (F := Ideal) (V c main_v17) (V c main_v4) (V c main_arg6) (V c main_arg7) (V c main_arg8)
          (((cfg1.win 5).blk t).view.emb (ix2 p q))
  rw [h5]
  refine Region1Pieces.conv_tile_apply _ _ _ _ _ _ _ p q ⟨_, hi⟩ (fun k => ?_) (fun k => ?_)
  · show V c main_v17 (((cfg1.win 0).blk t).view.emb (ix2 p k)) = V c main_v17 (ix2 (⟨20000 * t.val + p.val, hi⟩ : Fin 200000) k)
    refine congrArg _ (funext fun a => Fin.ext ?_)
    match a with
    | ⟨0, _⟩ => show win1_0.index t (0 : Fin 2) * 20000 + 1 * p.val = 20000 * t.val + p.val; omega
    | ⟨1, _⟩ => show win1_0.index t (1 : Fin 2) * 32 + 1 * k.val = k.val; omega
  · show V c main_v4 (((cfg1.win 1).blk t).view.emb (ix2 p k)) = V c main_v4 (ix2 (⟨20000 * t.val + p.val, hi⟩ : Fin 200000) k)
    refine congrArg _ (funext fun a => Fin.ext ?_)
    match a with
    | ⟨0, _⟩ => show win1_1.index t (0 : Fin 2) * 20000 + 1 * p.val = 20000 * t.val + p.val; omega
    | ⟨1, _⟩ => show win1_1.index t (1 : Fin 2) * 32 + 1 * k.val = k.val; omega

/-- Every entry of the first output lies in the tile of some point, and every point writes its tile back. -/
theorem cover1_5 (i : S200000x32.Idx) :
    ∃ t : Fin cfg1.N, (cfg1.win 5).flush t = true ∧ i ∈ ((cfg1.win 5).blk t).view.set := by
  have hi0 : (i 0).val < 200000 := (i 0).isLt
  have hi1 : (i 1).val < 32 := (i 1).isLt
  have htN : (i 0).val / 20000 < cfg1.N := by rw [N1_eq]; omega
  obtain ⟨e00, e01, e10, e11, e20, e21, e30, e40, e41, e50, e51⟩ := idx_facts1 ⟨(i 0).val / 20000, htN⟩
  refine ⟨⟨(i 0).val / 20000, htN⟩, flush1_5 _, ?_⟩
  show i ∈ ((View.whole main_v18_0).slice (win1_5.rect ⟨(i 0).val / 20000, htN⟩)).set
  rw [View.set_slice_whole, Rect.mem_set_unit]
  intro a
  match a with
  | ⟨0, _⟩ =>
    show win1_5.index ⟨(i 0).val / 20000, htN⟩ (0 : Fin 2) * 20000 ≤ (i 0).val
      ∧ (i 0).val < win1_5.index ⟨(i 0).val / 20000, htN⟩ (0 : Fin 2) * 20000 + 20000
    rw [e50]; show (i 0).val / 20000 * 20000 ≤ (i 0).val ∧ (i 0).val < (i 0).val / 20000 * 20000 + 20000; omega
  | ⟨1, _⟩ =>
    show win1_5.index ⟨(i 0).val / 20000, htN⟩ (1 : Fin 2) * 32 ≤ (i 1).val
      ∧ (i 1).val < win1_5.index ⟨(i 0).val / 20000, htN⟩ (1 : Fin 2) * 32 + 32
    rw [e51]; omega

/-- Region 1's first output array: the dense half of the graph convolution with its relu, of the region's input arrays. -/
theorem region1_pre (c : Dev nD) :
    (dat1 V c).arrAt 5 cfg1.N
      = Spec.conv (F := Ideal) (V c main_v17) (V c main_v4) (V c main_arg6) (V c main_arg7) (V c main_arg8) :=
  (dat1 V c).arrAt_eq_of_cover 5 _ (fun t _ => flushed1_5 V c t) (cover1_5)

/-! ## Region 3 -/

/-- The grid of region 3 has ten points. -/
theorem N3_eq : cfg3.N = 10 := by decide +kernel

/-- The block indices over the grid: the two row-tiled inputs and the first output are at tile t, the weights and
    the bias at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What the first output's buffer holds after any point: the convolution payload of the point's input blocks. -/
theorem outs3_5 (c : Dev nD) (t : Fin cfg3.N) :
    (outsAt3 V c t.val t.isLt).1
      = k3_pay2 (F := Ideal) (iblk3 V c 0 t) (iblk3 V c 1 t) (iblk3 V c 2 t) (iblk3 V c 3 t) (iblk3 V c 4 t) := by
  by_cases h0 : t.val % 10 = 0
  · rw [outsAt3_A V c t h0, Region3Pieces.outA5]
  · rw [outsAt3_B V c t h0, Region3Pieces.outB5]

/-- The first weight matrix's block at any point is the whole matrix. -/
theorem iblk3_2 (c : Dev nD) (t : Fin cfg3.N) : (iblk3 V c 2 t : Vec Ideal S32x32 .f32) = V c main_arg9 := by
  obtain ⟨e00, e01, e10, e11, e20, e21, e30, e40, e41, e50, e51⟩ := idx_facts3 t
  funext j
  show V c main_arg9 (((cfg3.win 2).blk t).view.emb j) = V c main_arg9 j
  refine congrArg _ (funext fun a => Fin.ext ?_)
  match a with
  | ⟨0, _⟩ => show win3_2.index t (0 : Fin 2) * 32 + 1 * (j 0).val = (j 0).val; omega
  | ⟨1, _⟩ => show win3_2.index t (1 : Fin 2) * 32 + 1 * (j 1).val = (j 1).val; omega

/-- The bias's block at any point is the whole vector. -/
theorem iblk3_3 (c : Dev nD) (t : Fin cfg3.N) : (iblk3 V c 3 t : Vec Ideal S32 .f32) = V c main_arg10 := by
  obtain ⟨e00, e01, e10, e11, e20, e21, e30, e40, e41, e50, e51⟩ := idx_facts3 t
  funext j
  show V c main_arg10 (((cfg3.win 3).blk t).view.emb j) = V c main_arg10 j
  refine congrArg _ (funext fun a => Fin.ext ?_)
  match a with
  | ⟨0, _⟩ => show win3_3.index t (0 : Fin 1) * 32 + 1 * (j 0).val = (j 0).val; omega

/-- The second weight matrix's block at any point is the whole matrix. -/
theorem iblk3_4 (c : Dev nD) (t : Fin cfg3.N) : (iblk3 V c 4 t : Vec Ideal S32x32 .f32) = V c main_arg11 := by
  obtain ⟨e00, e01, e10, e11, e20, e21, e30, e40, e41, e50, e51⟩ := idx_facts3 t
  funext j
  show V c main_arg11 (((cfg3.win 4).blk t).view.emb j) = V c main_arg11 j
  refine congrArg _ (funext fun a => Fin.ext ?_)
  match a with
  | ⟨0, _⟩ => show win3_4.index t (0 : Fin 2) * 32 + 1 * (j 0).val = (j 0).val; omega
  | ⟨1, _⟩ => show win3_4.index t (1 : Fin 2) * 32 + 1 * (j 1).val = (j 1).val; omega

/-- What point t writes back to the first output is tile t of the convolution table of the region's input arrays. -/
theorem flushed3_5 (c : Dev nD) (t : Fin cfg3.N) :
    (dat3 V c).flushed 5 t = ((cfg3.win 5).blk t).view.read (Elt Ideal)
      (Spec.conv (F := Ideal) (V c main_v38) (V c main_v25) (V c main_arg9) (V c main_arg10) (V c main_arg11)) := by
  show (cfg3.win 5).cut (grid3.coords t) ((dat3 V c).after 5 t) = _
  rw [after3_5, outs3_5, iblk3_2, iblk3_3, iblk3_4]
  obtain ⟨e00, e01, e10, e11, e20, e21, e30, e40, e41, e50, e51⟩ := idx_facts3 t
  have ht : t.val < 10 := lt_of_lt_of_eq t.isLt N3_eq
  funext j
  obtain ⟨p, q, rfl⟩ : ∃ (p : Fin 20000) (q : Fin 32), j = ix2 p q := ⟨j 0, j 1, eq_ix2 j⟩
  have hp : p.val < 20000 := p.isLt
  have hi : 20000 * t.val + p.val < 200000 := by omega
  have h5 : ((cfg3.win 5).blk t).view.emb (ix2 p q) = ix2 (⟨20000 * t.val + p.val, hi⟩ : Fin 200000) q := by
    funext a; apply Fin.ext
    match a with
    | ⟨0, _⟩ => show win3_5.index t (0 : Fin 2) * 20000 + 1 * p.val = 20000 * t.val + p.val; omega
    | ⟨1, _⟩ => show win3_5.index t (1 : Fin 2) * 32 + 1 * q.val = q.val; omega
  show k3_pay2 (F := Ideal) (iblk3 V c 0 t) (iblk3 V c 1 t) (V c main_arg9) (V c main_arg10) (V c main_arg11) (ix2 p q)
      = Spec.conv (F := Ideal) (V c main_v38) (V c main_v25) (V c main_arg9) (V c main_arg10) (V c main_arg11)
          (((cfg3.win 5).blk t).view.emb (ix2 p q))
  rw [h5]
  refine Region3Pieces.conv_tile_apply _ _ _ _ _ _ _ p q ⟨_, hi⟩ (fun k => ?_) (fun k => ?_)
  · show V c main_v38 (((cfg3.win 0).blk t).view.emb (ix2 p k)) = V c main_v38 (ix2 (⟨20000 * t.val + p.val, hi⟩ : Fin 200000) k)
    refine congrArg _ (funext fun a => Fin.ext ?_)
    match a with
    | ⟨0, _⟩ => show win3_0.index t (0 : Fin 2) * 20000 + 1 * p.val = 20000 * t.val + p.val; omega
    | ⟨1, _⟩ => show win3_0.index t (1 : Fin 2) * 32 + 1 * k.val = k.val; omega
  · show V c main_v25 (((cfg3.win 1).blk t).view.emb (ix2 p k)) = V c main_v25 (ix2 (⟨20000 * t.val + p.val, hi⟩ : Fin 200000) k)
    refine congrArg _ (funext fun a => Fin.ext ?_)
    match a with
    | ⟨0, _⟩ => show win3_1.index t (0 : Fin 2) * 20000 + 1 * p.val = 20000 * t.val + p.val; omega
    | ⟨1, _⟩ => show win3_1.index t (1 : Fin 2) * 32 + 1 * k.val = k.val; omega

/-- Every entry of the first output lies in the tile of some point, and every point writes its tile back. -/
theorem cover3_5 (i : S200000x32.Idx) :
    ∃ t : Fin cfg3.N, (cfg3.win 5).flush t = true ∧ i ∈ ((cfg3.win 5).blk t).view.set := by
  have hi0 : (i 0).val < 200000 := (i 0).isLt
  have hi1 : (i 1).val < 32 := (i 1).isLt
  have htN : (i 0).val / 20000 < cfg3.N := by rw [N3_eq]; omega
  obtain ⟨e00, e01, e10, e11, e20, e21, e30, e40, e41, e50, e51⟩ := idx_facts3 ⟨(i 0).val / 20000, htN⟩
  refine ⟨⟨(i 0).val / 20000, htN⟩, flush3_5 _, ?_⟩
  show i ∈ ((View.whole main_v39_0).slice (win3_5.rect ⟨(i 0).val / 20000, htN⟩)).set
  rw [View.set_slice_whole, Rect.mem_set_unit]
  intro a
  match a with
  | ⟨0, _⟩ =>
    show win3_5.index ⟨(i 0).val / 20000, htN⟩ (0 : Fin 2) * 20000 ≤ (i 0).val
      ∧ (i 0).val < win3_5.index ⟨(i 0).val / 20000, htN⟩ (0 : Fin 2) * 20000 + 20000
    rw [e50]; show (i 0).val / 20000 * 20000 ≤ (i 0).val ∧ (i 0).val < (i 0).val / 20000 * 20000 + 20000; omega
  | ⟨1, _⟩ =>
    show win3_5.index ⟨(i 0).val / 20000, htN⟩ (1 : Fin 2) * 32 ≤ (i 1).val
      ∧ (i 1).val < win3_5.index ⟨(i 0).val / 20000, htN⟩ (1 : Fin 2) * 32 + 32
    rw [e51]; omega

/-- Region 3's first output array: the dense half of the graph convolution with its relu, of the region's input arrays. -/
theorem region3_pre (c : Dev nD) :
    (dat3 V c).arrAt 5 cfg3.N
      = Spec.conv (F := Ideal) (V c main_v38) (V c main_v25) (V c main_arg9) (V c main_arg10) (V c main_arg11) :=
  (dat3 V c).arrAt_eq_of_cover 5 _ (fun t _ => flushed3_5 V c t) (cover3_5)

end Cert.KernelIdeal.Region1Pre

end
-- ==== Proof.Region1.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.Region1Pieces
import proofs.«112291_j21277267984767_1_alg».proof.Proof.LibBlockSum
import proofs.«112291_j21277267984767_1_alg».proof.Proof.Region1Pre

noncomputable section

namespace Cert.KernelIdeal.Region1
open Idealize.ShloMosaic Idealize.ShloMosaic.TcCoe Idealize.SL.Sem
open Cert.KernelIdeal Cert.KernelIdeal.Gen Cert.KernelIdeal.GenP
open Cert.ReferenceIdeal (Spec.lin0 Spec.conv Spec.colsum Spec.row32 Spec.bnWith Spec.head Spec.Arr Spec.col1000 Spec.squares)

open Idealize.ShloMosaic.Pipeline (Dat)
open Idealize.ShloMosaic.ValueIdx
open Cert.KernelIdeal.Region1Pieces
open scoped BigOperators

variable (V : (c : Dev nD) → (b : Ref sig .tc) → Buf (Elt Ideal) ((c : Thread nD τ).loc b))

/-- The reduced index q with the row r put back on axis 0 is (r, q). -/
theorem lift_rows {R : ℕ} (h : (⟨2, ![R, 32]⟩ : Shape).Reduces [0] ⟨1, ![32]⟩) (q : Fin 32) (r : Fin R) :
    h.lift (ix1 q) r = ix2 r q :=
  funext fun a => Fin.ext (by match a with | ⟨0, _⟩ => rfl | ⟨1, _⟩ => rfl)

/-- The in-kernel sum over the rows of a tile, as a one-row table: at (u, q) the sum over the tile's rows of column q. -/
theorem tile_colsum_apply (X : FVec Ideal S20000x32 .f32) (h : S20000x32.Reduces [0] S32)
    (hφ : FKind.Formats .f32) (hacc : (0x00000000#32 : BitVec 32) = FKind.add.neutral .f32 hφ)
    (hc : S32.ShapeCasts S1x32) (u : Fin 1) (q : Fin 32) :
    shapeCast S1x32 (multiReduction (F := Ideal) .add [0] S32 X 0x00000000#32 h hφ hacc) hc (ix2 u q)
      = ∑ r : Fin 20000, X (ix2 r q) := by
  refine (shapeCast_a_1a_apply _ hc u q).trans ?_
  refine (Ideal.multiReduction_add_single X _ h hφ hacc (ix1 q)).trans ?_
  exact Finset.sum_congr rfl fun r _ => congrArg X (lift_rows h q r)

/-- The zero row the accumulators are set to at the first grid point reads 0 everywhere. -/
theorem pay4_apply (j : S1x32.Idx) : k1_pay4 (F := Ideal) j = 0 := Ideal.ofBits_zero_f32
theorem pay5_apply (j : S1x32.Idx) : k1_pay5 (F := Ideal) j = 0 := Ideal.ofBits_zero_f32

/-- The row-sum accumulator's new value at (u, q): what it held there plus the sum over the tile's rows of column q. -/
theorem pay6_apply (x0 x1 : Vec Ideal S20000x32 .f32) (x2 : Vec Ideal S32x32 .f32) (x3 : Vec Ideal S32 .f32)
    (x4 : Vec Ideal S32x32 .f32) (acc : Vec Ideal S1x32 .f32) (u : Fin 1) (q : Fin 32) :
    k1_pay6 (F := Ideal) x0 x1 x2 x3 x4 acc (ix2 u q)
      = acc (ix2 u q) + ∑ r : Fin 20000, k1_pay2 (F := Ideal) x0 x1 x2 x3 x4 (ix2 r q) := by
  unfold k1_pay6
  dsimp only
  refine congrArg₂ (· + ·) (congrFun (shapeCast_self acc _) (ix2 u q)) ?_
  exact tile_colsum_apply _ _ _ _ _ u q

/-- The accumulator of squares likewise: what it held plus the sum over the tile's rows of the squares in column q. -/
theorem pay1_apply (x0 x1 : Vec Ideal S20000x32 .f32) (x2 : Vec Ideal S32x32 .f32) (x3 : Vec Ideal S32 .f32)
    (x4 : Vec Ideal S32x32 .f32) (acc : Vec Ideal S1x32 .f32) (u : Fin 1) (q : Fin 32) :
    k1_pay1 (F := Ideal) (k1_pay3 (F := Ideal) x0 x1 x2 x3 x4) (k1_pay7 (F := Ideal) acc) (ix2 u q)
      = acc (ix2 u q) + ∑ r : Fin 20000,
          k1_pay2 (F := Ideal) x0 x1 x2 x3 x4 (ix2 r q) * k1_pay2 (F := Ideal) x0 x1 x2 x3 x4 (ix2 r q) := by
  unfold k1_pay1 k1_pay3 k1_pay7
  dsimp only
  refine congrArg₂ (· + ·) (congrFun (shapeCast_self acc _) (ix2 u q)) ?_
  exact tile_colsum_apply _ _ _ _ _ u q

/-- A vector as a one-row table reads, at (u, q), the vector's entry q. -/
theorem row32_apply (v : Spec.Arr Ideal Cert.ReferenceIdeal.S32 .f32) (u : Fin 1) (q : Fin 32) :
    Spec.row32 (F := Ideal) v (ix2 u q) = v (ix1 q) := by
  unfold Spec.row32
  refine broadcastInDim_apply _ _ v (ix2 u q) (ix1 q) fun a => ?_
  match a with
  | ⟨0, _⟩ => rfl

/-- The column sums of a node table at q: the sum over all 200000 rows of column q (the sum starts from the zero word). -/
theorem colsum_apply (P : Spec.Arr Ideal Cert.ReferenceIdeal.S200000x32 .f32) (q : Fin 32) :
    Spec.colsum (F := Ideal) P (ix1 q) = ∑ r : Fin 200000, P (ix2 r q) := by
  unfold Spec.colsum Host.reduceAdd
  have hR : Cert.ReferenceIdeal.S200000x32.Reduces [0] Cert.ReferenceIdeal.S32 := by decide
  refine (Ideal.hostReduceAdd_single _ hR P _ (ix1 q)).trans ?_
  refine (congrArg₂ (· + ·) Ideal.ofBits_zero_f32 rfl).trans ((zero_add _).trans ?_)
  exact Finset.sum_congr rfl fun r _ => congrArg P (lift_rows hR q r)

/-- The index maps over the grid: the two row-tiled inputs sit at block row t, column block 0; the weights and the
    bias are one whole block. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 :=
  (by decide +kernel : ∀ t : Fin grid1.N, _)

/-- Row p of block t, of 20000-row blocks, is a row of the table. -/
theorem row_lt (t : Fin cfg1.N) (p : Fin 20000) : t.val * 20000 + p.val < 200000 := by
  have hN : t.val < 10 := lt_of_lt_of_eq t.isLt (show cfg1.N = 10 from N_1)
  have := p.isLt
  omega

/-- The first input's tile at grid point t: its row p is row 20000·t + p of the table. -/
theorem tile0_apply (c : Dev nD) (t : Fin cfg1.N) (p : Fin 20000) (k : Fin 32) :
    (iblk1 V c 0 t : Vec Ideal S20000x32 .f32) (ix2 p k) = V c main_v17 (ix2 ⟨t.val * 20000 + p.val, row_lt t p⟩ k) := by
  obtain ⟨e0, e1, -⟩ := index_facts t
  unfold iblk1
  rw [View.read_apply]
  show V c main_v17 _ = V c main_v17 _
  refine congrArg (V c main_v17) (funext fun a => Fin.ext ?_)
  match a with
  | ⟨0, _⟩ => show win1_0.index t (0 : Fin 2) * 20000 + 1 * p.val = t.val * 20000 + p.val; rw [e0]; omega
  | ⟨1, _⟩ => show win1_0.index t (1 : Fin 2) * 32 + 1 * k.val = k.val; rw [e1]; omega

/-- The second input's tile likewise. -/
theorem tile1_apply (c : Dev nD) (t : Fin cfg1.N) (p : Fin 20000) (k : Fin 32) :
    (iblk1 V c 1 t : Vec Ideal S20000x32 .f32) (ix2 p k) = V c main_v4 (ix2 ⟨t.val * 20000 + p.val, row_lt t p⟩ k) := by
  obtain ⟨-, -, e0, e1, -⟩ := index_facts t
  unfold iblk1
  rw [View.read_apply]
  show V c main_v4 _ = V c main_v4 _
  refine congrArg (V c main_v4) (funext fun a => Fin.ext ?_)
  match a with
  | ⟨0, _⟩ => show win1_1.index t (0 : Fin 2) * 20000 + 1 * p.val = t.val * 20000 + p.val; rw [e0]; omega
  | ⟨1, _⟩ => show win1_1.index t (1 : Fin 2) * 32 + 1 * k.val = k.val; rw [e1]; omega

/-- The first weight matrix's block at every grid point is the whole matrix. -/
theorem whole2 (c : Dev nD) (t : Fin cfg1.N) : (iblk1 V c 2 t : Vec Ideal S32x32 .f32) = V c main_arg6 := by
  obtain ⟨-, -, -, -, e0, e1, -⟩ := index_facts t
  funext j
  unfold iblk1
  rw [View.read_apply]
  show V c main_arg6 _ = V c main_arg6 j
  refine congrArg (V c main_arg6) (funext fun a => Fin.ext ?_)
  match a with
  | ⟨0, _⟩ => show win1_2.index t (0 : Fin 2) * 32 + 1 * (j 0).val = (j 0).val; rw [e0]; omega
  | ⟨1, _⟩ => show win1_2.index t (1 : Fin 2) * 32 + 1 * (j 1).val = (j 1).val; rw [e1]; omega

/-- The bias vector's block is the whole vector. -/
theorem whole3 (c : Dev nD) (t : Fin cfg1.N) : (iblk1 V c 3 t : Vec Ideal S32 .f32) = V c main_arg7 := by
  obtain ⟨-, -, -, -, -, -, e0, -⟩ := index_facts t
  funext j
  unfold iblk1
  rw [View.read_apply]
  show V c main_arg7 _ = V c main_arg7 j
  refine congrArg (V c main_arg7) (funext fun a => Fin.ext ?_)
  match a with
  | ⟨0, _⟩ => show win1_3.index t (0 : Fin 1) * 32 + 1 * (j 0).val = (j 0).val; rw [e0]; omega

/-- The second weight matrix's block is the whole matrix. -/
theorem whole4 (c : Dev nD) (t : Fin cfg1.N) : (iblk1 V c 4 t : Vec Ideal S32x32 .f32) = V c main_arg8 := by
  obtain ⟨-, -, -, -, -, -, -, e0, e1⟩ := index_facts t
  funext j
  unfold iblk1
  rw [View.read_apply]
  show V c main_arg8 _ = V c main_arg8 j
  refine congrArg (V c main_arg8) (funext fun a => Fin.ext ?_)
  match a with
  | ⟨0, _⟩ => show win1_4.index t (0 : Fin 2) * 32 + 1 * (j 0).val = (j 0).val; rw [e0]; omega
  | ⟨1, _⟩ => show win1_4.index t (1 : Fin 2) * 32 + 1 * (j 1).val = (j 1).val; rw [e1]; omega

/-- The table the region computes: the dense half of the graph convolution, with its relu, of the region's inputs. -/
abbrev P (c : Dev nD) : Spec.Arr Ideal Cert.ReferenceIdeal.S200000x32 .f32 :=
  Spec.conv (F := Ideal) (V c main_v17) (V c main_v4) (V c main_arg6) (V c main_arg7) (V c main_arg8)

/-- The tile computed at grid point t is rows 20000·t … of that table. -/
theorem tile_eq (c : Dev nD) (t : Fin cfg1.N) (p : Fin 20000) (q : Fin 32) :
    k1_pay2 (F := Ideal) (iblk1 V c 0 t) (iblk1 V c 1 t) (iblk1 V c 2 t) (iblk1 V c 3 t) (iblk1 V c 4 t) (ix2 p q) = P V c (ix2 ⟨t.val * 20000 + p.val, row_lt t p⟩ q) := by
  refine (conv_tile_apply (iblk1 V c 0 t) (iblk1 V c 1 t) (iblk1 V c 2 t) (iblk1 V c 3 t) (iblk1 V c 4 t) (V c main_v17) (V c main_v4) p q ⟨t.val * 20000 + p.val, row_lt t p⟩
    (fun k => tile0_apply V c t p k) (fun k => tile1_apply V c t p k)).trans ?_
  rw [whole2 V c t, whole3 V c t, whole4 V c t]

/-- Column q of the table by the row's number (zero past the last row, which no sum below reaches). -/
def colAt (c : Dev nD) (q : Fin 32) (n : ℕ) : EReal := if hn : n < 200000 then P V c (ix2 ⟨n, hn⟩ q) else 0

theorem colAt_row (c : Dev nD) (q : Fin 32) (t : Fin cfg1.N) (p : Fin 20000) :
    P V c (ix2 ⟨t.val * 20000 + p.val, row_lt t p⟩ q) = colAt V c q (t.val * 20000 + p.val) :=
  by unfold colAt; rw [dif_pos (row_lt t p)]

/-- After grid point t the row-sum accumulator holds what it held plus the sum of column q over block t's rows. -/
theorem acc6_A (c : Dev nD) (t : Fin cfg1.N) (h0 : t.val % 10 = 0) :
    (outsAt1 V c t.val t.isLt).2.1 = k1_pay6 (F := Ideal) (iblk1 V c 0 t) (iblk1 V c 1 t) (iblk1 V c 2 t) (iblk1 V c 3 t) (iblk1 V c 4 t) (k1_pay4 (F := Ideal)) := by
  rw [outsAt1_A V c t h0]
  exact outA6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)

theorem acc6_B (c : Dev nD) (t : Fin cfg1.N) (h0 : ¬t.val % 10 = 0) :
    (outsAt1 V c t.val t.isLt).2.1 = k1_pay6 (F := Ideal) (iblk1 V c 0 t) (iblk1 V c 1 t) (iblk1 V c 2 t) (iblk1 V c 3 t) (iblk1 V c 4 t)
      (outsAt1 V c (t.val - 1) (Nat.lt_of_le_of_lt (Nat.sub_le _ _) t.isLt)).2.1 := by
  rw [outsAt1_B V c t h0]
  exact outB6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

theorem acc7_A (c : Dev nD) (t : Fin cfg1.N) (h0 : t.val % 10 = 0) :
    (outsAt1 V c t.val t.isLt).2.2 = k1_pay1 (F := Ideal) (k1_pay3 (F := Ideal) (iblk1 V c 0 t) (iblk1 V c 1 t) (iblk1 V c 2 t) (iblk1 V c 3 t) (iblk1 V c 4 t)) (k1_pay7 (F := Ideal) (k1_pay5 (F := Ideal))) := by
  rw [outsAt1_A V c t h0]
  exact outA7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)

theorem acc7_B (c : Dev nD) (t : Fin cfg1.N) (h0 : ¬t.val % 10 = 0) :
    (outsAt1 V c t.val t.isLt).2.2 = k1_pay1 (F := Ideal) (k1_pay3 (F := Ideal) (iblk1 V c 0 t) (iblk1 V c 1 t) (iblk1 V c 2 t) (iblk1 V c 3 t) (iblk1 V c 4 t))
      (k1_pay7 (F := Ideal) (outsAt1 V c (t.val - 1) (Nat.lt_of_le_of_lt (Nat.sub_le _ _) t.isLt)).2.2) := by
  rw [outsAt1_B V c t h0]
  exact outB7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

/-- The sum of column q over the rows of block t, read off the tile computed at grid point t. -/
theorem tile_sum (c : Dev nD) (t : Fin cfg1.N) (q : Fin 32) :
    ∑ r : Fin 20000, k1_pay2 (F := Ideal) (iblk1 V c 0 t) (iblk1 V c 1 t) (iblk1 V c 2 t) (iblk1 V c 3 t) (iblk1 V c 4 t) (ix2 r q) = ∑ r : Fin 20000, colAt V c q (t.val * 20000 + r.val) :=
  Finset.sum_congr rfl fun r _ => (tile_eq V c t r q).trans (colAt_row V c q t r)

theorem tile_sumsq (c : Dev nD) (t : Fin cfg1.N) (q : Fin 32) :
    ∑ r : Fin 20000, k1_pay2 (F := Ideal) (iblk1 V c 0 t) (iblk1 V c 1 t) (iblk1 V c 2 t) (iblk1 V c 3 t) (iblk1 V c 4 t) (ix2 r q) * k1_pay2 (F := Ideal) (iblk1 V c 0 t) (iblk1 V c 1 t) (iblk1 V c 2 t) (iblk1 V c 3 t) (iblk1 V c 4 t) (ix2 r q)
      = ∑ r : Fin 20000, colAt V c q (t.val * 20000 + r.val) * colAt V c q (t.val * 20000 + r.val) :=
  Finset.sum_congr rfl fun r _ => by rw [tile_eq V c t r q, colAt_row V c q t r]

/-- THE RUNNING SUM. After grid point n the row-sum accumulator holds, in column q, the sum of column q of the table
    over the blocks 0, …, n: zero plus block 0's sum at the first point, one more block's sum at each later one. -/
theorem acc6_inv (c : Dev nD) (q : Fin 32) : ∀ (n : ℕ) (hn : n < cfg1.N) (u : Fin 1),
    (outsAt1 V c n hn).2.1 (ix2 u q) = ∑ t ∈ Finset.range (n + 1), ∑ r : Fin 20000, colAt V c q (t * 20000 + r.val)
  | 0, hn, u => by
    have e : (outsAt1 V c 0 hn).2.1 = _ := acc6_A V c ⟨0, hn⟩ rfl
    rw [e, pay6_apply, pay4_apply, zero_add, Finset.sum_range_one]
    exact tile_sum V c ⟨0, hn⟩ q
  | n + 1, hn, u => by
    have hN : n + 1 < 10 := lt_of_lt_of_eq hn (show cfg1.N = 10 from N_1)
    have hB : ¬(⟨n + 1, hn⟩ : Fin cfg1.N).val % 10 = 0 := by dsimp only; omega
    have e : (outsAt1 V c (n + 1) hn).2.1 = _ := acc6_B V c ⟨n + 1, hn⟩ hB
    rw [e, pay6_apply, Finset.sum_range_succ _ (n + 1)]
    exact congrArg₂ (· + ·) (acc6_inv c q n (Nat.lt_of_succ_lt hn) u) (tile_sum V c ⟨n + 1, hn⟩ q)

theorem acc7_inv (c : Dev nD) (q : Fin 32) : ∀ (n : ℕ) (hn : n < cfg1.N) (u : Fin 1),
    (outsAt1 V c n hn).2.2 (ix2 u q)
      = ∑ t ∈ Finset.range (n + 1), ∑ r : Fin 20000, colAt V c q (t * 20000 + r.val) * colAt V c q (t * 20000 + r.val)
  | 0, hn, u => by
    have e : (outsAt1 V c 0 hn).2.2 = _ := acc7_A V c ⟨0, hn⟩ rfl
    rw [e, pay1_apply, pay5_apply, zero_add, Finset.sum_range_one]
    exact tile_sumsq V c ⟨0, hn⟩ q
  | n + 1, hn, u => by
    have hN : n + 1 < 10 := lt_of_lt_of_eq hn (show cfg1.N = 10 from N_1)
    have hB : ¬(⟨n + 1, hn⟩ : Fin cfg1.N).val % 10 = 0 := by dsimp only; omega
    have e : (outsAt1 V c (n + 1) hn).2.2 = _ := acc7_B V c ⟨n + 1, hn⟩ hB
    rw [e, pay1_apply, Finset.sum_range_succ _ (n + 1)]
    exact congrArg₂ (· + ·) (acc7_inv c q n (Nat.lt_of_succ_lt hn) u) (tile_sumsq V c ⟨n + 1, hn⟩ q)

/-- Ten blocks of 20000 rows are the 200000 rows. -/
theorem sum_all_rows (f : ℕ → EReal) :
    ∑ t ∈ Finset.range 10, ∑ r : Fin 20000, f (t * 20000 + r.val) = ∑ i : Fin 200000, f i.val := by
  rw [Cert.LibBlockSum.sum_range_eq_fin, ← Cert.LibBlockSum.sum_blocks_nat 10 20000 f]

/-- So the sums over the ten blocks are the column sums of the whole table, -/
theorem total_sum (c : Dev nD) (q : Fin 32) :
    ∑ t ∈ Finset.range 10, ∑ r : Fin 20000, colAt V c q (t * 20000 + r.val) = Spec.colsum (F := Ideal) (P V c) (ix1 q) := by
  rw [sum_all_rows (colAt V c q), colsum_apply]
  exact Finset.sum_congr rfl fun r _ => by unfold colAt; rw [dif_pos r.isLt]

/-- and of the table of squares. -/
theorem total_sumsq (c : Dev nD) (q : Fin 32) :
    ∑ t ∈ Finset.range 10, ∑ r : Fin 20000, colAt V c q (t * 20000 + r.val) * colAt V c q (t * 20000 + r.val)
      = Spec.colsum (F := Ideal) (Spec.squares (F := Ideal) (P V c)) (ix1 q) := by
  rw [sum_all_rows (fun n => colAt V c q n * colAt V c q n), colsum_apply]
  exact Finset.sum_congr rfl fun r _ => by unfold colAt; rw [dif_pos r.isLt]; rfl

/-- The accumulators' block is the whole one-row table at every grid point. -/
theorem index_facts6 : ∀ t : Fin cfg1.N, win1_6.index t (0 : Fin 2) = 0 ∧ win1_6.index t (1 : Fin 2) = 0 :=
  (by decide +kernel : ∀ t : Fin grid1.N, _)
theorem index_facts7 : ∀ t : Fin cfg1.N, win1_7.index t (0 : Fin 2) = 0 ∧ win1_7.index t (1 : Fin 2) = 0 :=
  (by decide +kernel : ∀ t : Fin grid1.N, _)

theorem flushed6 (c : Dev nD) (t : Fin cfg1.N) (hf : (cfg1.win 6).flush t = true) :
    (dat1 V c).flushed 6 t = ((cfg1.win 6).blk t).view.read (Elt Ideal) (Spec.row32 (F := Ideal) (Spec.colsum (F := Ideal) (P V c))) := by
  have hN : t.val < 10 := lt_of_lt_of_eq t.isLt (show cfg1.N = 10 from N_1)
  have h9 : t.val = 9 := by have := (flush1_6 t).mp hf; omega
  obtain ⟨e0, e1⟩ := index_facts6 t
  show (cfg1.win 6).cut (grid1.coords t) ((dat1 V c).after 6 t) = _
  rw [after1_6]
  funext j
  obtain ⟨u, q, rfl⟩ : ∃ (u : Fin 1) (q : Fin 32), j = ix2 u q := ⟨j 0, j 1, eq_ix2 j⟩
  rw [View.read_apply]
  show (outsAt1 V c t.val t.isLt).2.1 (ix2 u q)
    = Spec.row32 (F := Ideal) (Spec.colsum (F := Ideal) (P V c)) (((cfg1.win 6).blk t).view.emb (ix2 u q))
  have hemb : ((cfg1.win 6).blk t).view.emb (ix2 u q) = ix2 u q := by
    funext a; apply Fin.ext
    match a with
    | ⟨0, _⟩ => show win1_6.index t (0 : Fin 2) * 1 + 1 * u.val = u.val; rw [e0]; omega
    | ⟨1, _⟩ => show win1_6.index t (1 : Fin 2) * 32 + 1 * q.val = q.val; rw [e1]; omega
  rw [hemb, row32_apply, acc6_inv V c q t.val t.isLt u, h9]
  exact total_sum V c q

theorem cover6 (i : S1x32.Idx) :
    ∃ t : Fin cfg1.N, (cfg1.win 6).flush t = true ∧ i ∈ ((cfg1.win 6).blk t).view.set := by
  refine ⟨t1_9, (flush1_6 t1_9).mpr rfl, ?_⟩
  show i ∈ ((View.whole main_v18_1).slice (win1_6.rect t1_9)).set
  rw [View.set_slice_whole, Rect.mem_set_unit]
  intro a
  have h0 : (i 0 : Nat) < 1 := (i 0).isLt
  have h1 : (i 1 : Nat) < 32 := (i 1).isLt
  match a with
  | ⟨0, _⟩ =>
    show win1_6.index t1_9 0 * win1_6.size 0 ≤ (i 0 : Nat) ∧ (i 0 : Nat) < win1_6.index t1_9 0 * win1_6.size 0 + win1_6.xsize (grid1.coords t1_9) 0
    rw [show win1_6.index t1_9 0 * win1_6.size 0 = 0 from by decide +kernel, show win1_6.xsize (grid1.coords t1_9) 0 = 1 from by decide +kernel]; omega
  | ⟨1, _⟩ =>
    show win1_6.index t1_9 1 * win1_6.size 1 ≤ (i 1 : Nat) ∧ (i 1 : Nat) < win1_6.index t1_9 1 * win1_6.size 1 + win1_6.xsize (grid1.coords t1_9) 1
    rw [show win1_6.index t1_9 1 * win1_6.size 1 = 0 from by decide +kernel, show win1_6.xsize (grid1.coords t1_9) 1 = 32 from by decide +kernel]; omega

theorem flushed7 (c : Dev nD) (t : Fin cfg1.N) (hf : (cfg1.win 7).flush t = true) :
    (dat1 V c).flushed 7 t = ((cfg1.win 7).blk t).view.read (Elt Ideal) (Spec.row32 (F := Ideal) (Spec.colsum (F := Ideal) (Spec.squares (F := Ideal) (P V c)))) := by
  have hN : t.val < 10 := lt_of_lt_of_eq t.isLt (show cfg1.N = 10 from N_1)
  have h9 : t.val = 9 := by have := (flush1_7 t).mp hf; omega
  obtain ⟨e0, e1⟩ := index_facts7 t
  show (cfg1.win 7).cut (grid1.coords t) ((dat1 V c).after 7 t) = _
  rw [after1_7]
  funext j
  obtain ⟨u, q, rfl⟩ : ∃ (u : Fin 1) (q : Fin 32), j = ix2 u q := ⟨j 0, j 1, eq_ix2 j⟩
  rw [View.read_apply]
  show (outsAt1 V c t.val t.isLt).2.2 (ix2 u q)
    = Spec.row32 (F := Ideal) (Spec.colsum (F := Ideal) (Spec.squares (F := Ideal) (P V c))) (((cfg1.win 7).blk t).view.emb (ix2 u q))
  have hemb : ((cfg1.win 7).blk t).view.emb (ix2 u q) = ix2 u q := by
    funext a; apply Fin.ext
    match a with
    | ⟨0, _⟩ => show win1_7.index t (0 : Fin 2) * 1 + 1 * u.val = u.val; rw [e0]; omega
    | ⟨1, _⟩ => show win1_7.index t (1 : Fin 2) * 32 + 1 * q.val = q.val; rw [e1]; omega
  rw [hemb, row32_apply, acc7_inv V c q t.val t.isLt u, h9]
  exact total_sumsq V c q

theorem cover7 (i : S1x32.Idx) :
    ∃ t : Fin cfg1.N, (cfg1.win 7).flush t = true ∧ i ∈ ((cfg1.win 7).blk t).view.set := by
  refine ⟨t1_9, (flush1_7 t1_9).mpr rfl, ?_⟩
  show i ∈ ((View.whole main_v18_2).slice (win1_7.rect t1_9)).set
  rw [View.set_slice_whole, Rect.mem_set_unit]
  intro a
  have h0 : (i 0 : Nat) < 1 := (i 0).isLt
  have h1 : (i 1 : Nat) < 32 := (i 1).isLt
  match a with
  | ⟨0, _⟩ =>
    show win1_7.index t1_9 0 * win1_7.size 0 ≤ (i 0 : Nat) ∧ (i 0 : Nat) < win1_7.index t1_9 0 * win1_7.size 0 + win1_7.xsize (grid1.coords t1_9) 0
    rw [show win1_7.index t1_9 0 * win1_7.size 0 = 0 from by decide +kernel, show win1_7.xsize (grid1.coords t1_9) 0 = 1 from by decide +kernel]; omega
  | ⟨1, _⟩ =>
    show win1_7.index t1_9 1 * win1_7.size 1 ≤ (i 1 : Nat) ∧ (i 1 : Nat) < win1_7.index t1_9 1 * win1_7.size 1 + win1_7.xsize (grid1.coords t1_9) 1
    rw [show win1_7.index t1_9 1 * win1_7.size 1 = 0 from by decide +kernel, show win1_7.xsize (grid1.coords t1_9) 1 = 32 from by decide +kernel]; omega

/-- Region 1's first output array: the dense half of the graph convolution with its relu, of the region's input arrays. -/
theorem region1_pre (c : Dev nD) :
    (dat1 V c).arrAt 5 cfg1.N
      = Spec.conv (F := Ideal) (V c main_v17) (V c main_v4) (V c main_arg6) (V c main_arg7) (V c main_arg8) :=
  Region1Pre.region1_pre V c

/-- Region 1's second output array, after the last grid point: the column sums of that table, as one row. -/
theorem region1_sum (c : Dev nD) :
    (dat1 V c).arrAt 6 cfg1.N
      = Spec.row32 (F := Ideal) (Spec.colsum (Spec.conv (F := Ideal) (V c main_v17) (V c main_v4) (V c main_arg6) (V c main_arg7) (V c main_arg8))) :=
  (dat1 V c).arrAt_eq_of_cover 6 _ (flushed6 V c) (fun i => cover6 i)

/-- Region 1's third output array, after the last grid point: the column sums of the table's squares, as one row. -/
theorem region1_sumsq (c : Dev nD) :
    (dat1 V c).arrAt 7 cfg1.N
      = Spec.row32 (F := Ideal) (Spec.colsum
          (Spec.squares (Spec.conv (F := Ideal) (V c main_v17) (V c main_v4) (V c main_arg6) (V c main_arg7) (V c main_arg8)))) :=
  (dat1 V c).arrAt_eq_of_cover 7 _ (flushed7 V c) (fun i => cover7 i)

end Cert.KernelIdeal.Region1

end
-- ==== Proof.Region2.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import Idealize.ShloMosaic.Lib.Pipeline.Value
import Idealize.ShloMosaic.Lib.ValueIdx
import Idealize.ShloMosaic.Lib.ValueLayout

noncomputable section

namespace Cert.KernelIdeal.Region2
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP
open Cert.ReferenceIdeal (Spec.lin0 Spec.conv Spec.colsum Spec.row32 Spec.rows32 Spec.bnWith Spec.head Spec.Arr Spec.col1000 Spec.squares)

/-- One entry of the normalisation: centre, scale by the inverse root of the shifted variance, scale, shift. -/
def bnEntry (p m v g b : EReal) : EReal :=
  (p - m) * Ideal.rsqrt (v + Ideal.ofBits .f32 0x3727C5AC#32) * g + b

theorem pay_apply (x0 : Vec Ideal S20000x32 .f32) (xv xm : Vec Ideal S1x32 .f32) (xg xb : Vec Ideal S32 .f32)
    (p : Fin 20000) (q : Fin 32) :
    Gen.k2_pay1 (F := Ideal) x0 xv xm xg xb (ix2 p q)
      = bnEntry (x0 (ix2 p q)) (xm (ix2 (0 : Fin 1) q)) (xv (ix2 (0 : Fin 1) q)) (xg (ix1 q)) (xb (ix1 q)) := by
  unfold Gen.k2_pay1 bnEntry
  rw [addf_apply, mulf_apply, mulf_apply, subf_apply]
  rw [broadcastTo_1b_ab_apply, broadcastTo_1b_ab_apply, broadcastTo_1b_ab_apply, broadcastTo_1b_ab_apply]
  rw [shapeCast_self, shapeCast_self, shapeCast_self, shapeCast_a_1a_apply, shapeCast_a_1a_apply]
  rfl

/-- A vector laid as a one-row table reads, at (u, q), its entry q. -/
theorem row32_apply (v : Spec.Arr Ideal Cert.ReferenceIdeal.S32 .f32) (u : Fin 1) (q : Fin 32) :
    Spec.row32 (F := Ideal) v (ix2 u q) = v (ix1 q) := by
  unfold Spec.row32
  refine broadcastInDim_apply _ _ _ (ix2 u q) (ix1 q) ?_
  intro a
  match a with
  | ⟨0, _⟩ => rfl

/-- A vector repeated over the rows reads, at (r, q), its entry q. -/
theorem rows32_apply (v : Spec.Arr Ideal Cert.ReferenceIdeal.S32 .f32) (r : Fin 200000) (q : Fin 32) :
    Spec.rows32 (F := Ideal) v (ix2 r q) = v (ix1 q) := by
  unfold Spec.rows32
  refine (broadcastInDim_apply _ _ _ (ix2 r q) (ix2 (0 : Fin 1) q) ?_).trans ?_
  · intro a
    match a with
    | ⟨0, _⟩ => rfl
    | ⟨1, _⟩ => rfl
  · exact row32_apply v 0 q

/-- The reference's normalisation read at an entry. -/
theorem bnWith_apply (P : Spec.Arr Ideal Cert.ReferenceIdeal.S200000x32 .f32) (μ σ2 g b : Spec.Arr Ideal Cert.ReferenceIdeal.S32 .f32)
    (r : Fin 200000) (q : Fin 32) :
    Spec.bnWith (F := Ideal) P μ σ2 g b (ix2 r q)
      = bnEntry (P (ix2 r q)) (μ (ix1 q)) (σ2 (ix1 q)) (g (ix1 q)) (b (ix1 q)) := by
  unfold Spec.bnWith bnEntry
  rw [addf_apply, mulf_apply, mulf_apply, subf_apply, rows32_apply, rows32_apply, rows32_apply, rows32_apply]
  rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-tiled windows sit at block row t, every small operand at block 0. -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0 ∧ win2_4.index t (0 : Fin 1) = 0 :=
  (by decide +kernel : ∀ t : Fin grid2.N, _)

/-- Window 0's block at point t holds rows 20000·t … of the table. -/
theorem iblk0_apply (c : Dev nD) (t : Fin cfg2.N) (p : Fin 20000) (q : Fin 32) (r : Fin 200000)
    (hr : r.val = 20000 * t.val + p.val) :
    (iblk2 V c 0 t : Vec Ideal S20000x32 .f32) (ix2 p q) = (V c main_v18_0 : S200000x32.Idx → EReal) (ix2 r q) := by
  obtain ⟨e0, e1, -⟩ := idx_facts t
  unfold iblk2
  rw [View.read_apply]
  show V c main_v18_0 _ = V c main_v18_0 _
  congr 1
  funext a
  apply Fin.ext
  match a with
  | ⟨0, _⟩ => show win2_0.index t 0 * 20000 + 1 * p.val = r.val; rw [e0, hr]; omega
  | ⟨1, _⟩ => show win2_0.index t 1 * 32 + 1 * q.val = q.val; rw [e1]; omega

/-- Window 1's block is the whole row of means. -/
theorem iblk1_apply (c : Dev nD) (t : Fin cfg2.N) (u : Fin 1) (q : Fin 32) :
    (iblk2 V c 1 t : Vec Ideal S1x32 .f32) (ix2 u q) = (V c main_v20 : S1x32.Idx → EReal) (ix2 u q) := by
  obtain ⟨-, -, -, -, e0, e1, -⟩ := idx_facts t
  unfold iblk2
  rw [View.read_apply]
  show V c main_v20 _ = V c main_v20 _
  congr 1
  funext a
  apply Fin.ext
  match a with
  | ⟨0, _⟩ => show win2_1.index t 0 * 1 + 1 * u.val = u.val; rw [e0]; omega
  | ⟨1, _⟩ => show win2_1.index t 1 * 32 + 1 * q.val = q.val; rw [e1]; omega

/-- Window 2's block is the whole row of variances. -/
theorem iblk2_apply (c : Dev nD) (t : Fin cfg2.N) (u : Fin 1) (q : Fin 32) :
    (iblk2 V c 2 t : Vec Ideal S1x32 .f32) (ix2 u q) = (V c main_v24 : S1x32.Idx → EReal) (ix2 u q) := by
  obtain ⟨-, -, -, -, -, -, e0, e1, -⟩ := idx_facts t
  unfold iblk2
  rw [View.read_apply]
  show V c main_v24 _ = V c main_v24 _
  congr 1
  funext a
  apply Fin.ext
  match a with
  | ⟨0, _⟩ => show win2_2.index t 0 * 1 + 1 * u.val = u.val; rw [e0]; omega
  | ⟨1, _⟩ => show win2_2.index t 1 * 32 + 1 * q.val = q.val; rw [e1]; omega

/-- Window 3's block is the whole scale vector. -/
theorem iblk3_apply (c : Dev nD) (t : Fin cfg2.N) (q : Fin 32) :
    (iblk2 V c 3 t : Vec Ideal S32 .f32) (ix1 q) = (V c main_arg12 : S32.Idx → EReal) (ix1 q) := by
  obtain ⟨-, -, -, -, -, -, -, -, e0, -⟩ := idx_facts t
  unfold iblk2
  rw [View.read_apply]
  show V c main_arg12 _ = V c main_arg12 _
  congr 1
  funext a
  apply Fin.ext
  match a with
  | ⟨0, _⟩ => show win2_3.index t 0 * 32 + 1 * q.val = q.val; rw [e0]; omega

/-- Window 4's block is the whole shift vector. -/
theorem iblk4_apply (c : Dev nD) (t : Fin cfg2.N) (q : Fin 32) :
    (iblk2 V c 4 t : Vec Ideal S32 .f32) (ix1 q) = (V c main_arg13 : S32.Idx → EReal) (ix1 q) := by
  obtain ⟨-, -, -, -, -, -, -, -, -, e0⟩ := idx_facts t
  unfold iblk2
  rw [View.read_apply]
  show V c main_arg13 _ = V c main_arg13 _
  congr 1
  funext a
  apply Fin.ext
  match a with
  | ⟨0, _⟩ => show win2_4.index t 0 * 32 + 1 * q.val = q.val; rw [e0]; omega

/-- What a point writes back, for any tile contents and any table: the body's one whole-tile store read through the
    output window's block, when the stored tile is the table's rows 20000·t …. -/
theorem stored_eq_read (t : Fin cfg2.N) (G : S200000x32.Idx → EReal)
    (x0 : Vec Ideal S20000x32 .f32) (x1 x2 : Vec Ideal S1x32 .f32) (x3 x4 : Vec Ideal S32 .f32)
    (h : ∀ (p : Fin 20000) (q : Fin 32) (r : Fin 200000), r.val = 20000 * t.val + p.val →
      Gen.k2_pay1 (F := Ideal) x0 x2 x1 x3 x4 (ix2 p q) = G (ix2 r q)) :
    (cfg2.win 5).cut (grid2.coords t) (out2_5 (F := Ideal) x0 x1 x2 x3 x4)
      = ((cfg2.win 5).blk t).view.read (Elt Ideal) G := by
  obtain ⟨-, -, e0, e1, -⟩ := idx_facts t
  unfold out2_5
  rw [View.canon_unit_zero hz2]
  simp only [View.ld_unit_zero (S := S20000x32) hz2, View.ld_unit_zero (S := S1x32) hz2, View.ld_unit_zero (S := S32) hz1]
  funext j
  obtain ⟨p, q, rfl⟩ : ∃ (p : Fin 20000) (q : Fin 32), j = ix2 p q := ⟨j 0, j 1, eq_ix2 j⟩
  rw [View.read_apply]
  have ht : t.val < 10 := lt_of_lt_of_eq t.isLt N_2
  refine (h p q ⟨20000 * t.val + p.val, by have := p.isLt; omega⟩ rfl).trans ?_
  show G _ = G _
  congr 1
  funext a
  apply Fin.ext
  match a with
  | ⟨0, _⟩ => show 20000 * t.val + p.val = win2_5.index t 0 * 20000 + 1 * p.val; rw [e0]; omega
  | ⟨1, _⟩ => show q.val = win2_5.index t 1 * 32 + 1 * q.val; rw [e1]; omega

/-- What point t writes back is block t of the normalised table. -/
theorem flushed_eq (c : Dev nD) (μ σ2 : Spec.Arr Ideal Cert.ReferenceIdeal.S32 .f32)
    (hμ : V c main_v20 = Spec.row32 (F := Ideal) μ) (hσ : V c main_v24 = Spec.row32 (F := Ideal) σ2) (t : Fin cfg2.N) :
    (dat2 V c).flushed 5 t = ((cfg2.win 5).blk t).view.read (Elt Ideal)
      (Spec.bnWith (F := Ideal) (V c main_v18_0) μ σ2 (V c main_arg12) (V c main_arg13)) := by
  show (cfg2.win 5).cut (grid2.coords t) ((dat2 V c).after 5 t) = _
  rw [after2_5]
  refine stored_eq_read t _ (iblk2 V c 0 t) (iblk2 V c 1 t) (iblk2 V c 2 t) (iblk2 V c 3 t) (iblk2 V c 4 t) ?_
  intro p q r hr
  refine (pay_apply (iblk2 V c 0 t) (iblk2 V c 2 t) (iblk2 V c 1 t) (iblk2 V c 3 t) (iblk2 V c 4 t) p q).trans ?_
  refine Eq.trans ?_ (bnWith_apply (V c main_v18_0) μ σ2 (V c main_arg12) (V c main_arg13) r q).symm
  rw [iblk0_apply V c t p q r hr, iblk1_apply V c t 0 q, iblk2_apply V c t 0 q, iblk3_apply V c t q, iblk4_apply V c t q,
    hμ, hσ, row32_apply, row32_apply]

/-- An index of the table is in point t's block iff each coordinate is in the block's range on its axis. -/
theorem mem_blk5 (t : Fin cfg2.N) (i : S200000x32.Idx) :
    i ∈ ((cfg2.win 5).blk t).view.set ↔ ∀ a : Fin 2, win2_5.index t a * S20000x32.size a ≤ (i a).val
      ∧ (i a).val < win2_5.index t a * S20000x32.size a + S20000x32.size a := by
  show i ∈ ((View.whole main_v25).slice (win2_5.rect t)).set ↔ _
  rw [View.set_slice_whole, Rect.mem_set_unit]
  exact Iff.rfl

/-- Every row r of the table is in the block of point r / 20000. -/
theorem covered (i : S200000x32.Idx) :
    ∃ t : Fin cfg2.N, (cfg2.win 5).flush t = true ∧ i ∈ ((cfg2.win 5).blk t).view.set := by
  have hi0 : (i 0).val < 200000 := (i 0).isLt
  have hi1 : (i 1).val < 32 := (i 1).isLt
  have hN : cfg2.N = 10 := N_2
  obtain ⟨t, ht⟩ : ∃ t : Fin cfg2.N, t.val = (i 0).val / 20000 := ⟨⟨(i 0).val / 20000, by rw [hN]; omega⟩, rfl⟩
  obtain ⟨-, -, e0, e1, -⟩ := idx_facts t
  refine ⟨t, flush2_5 t, ?_⟩
  rw [mem_blk5]
  intro a
  match a with
  | ⟨0, _⟩ =>
    show win2_5.index t 0 * 20000 ≤ (i 0).val ∧ (i 0).val < win2_5.index t 0 * 20000 + 20000
    rw [e0, ht]; omega
  | ⟨1, _⟩ =>
    show win2_5.index t 1 * 32 ≤ (i 1).val ∧ (i 1).val < win2_5.index t 1 * 32 + 32
    rw [e1]; omega

/-- Region 2's output array is the batch normalisation of its first input array, when its second and third input
    arrays are the rows of column means `μ` and column variances `σ2`. -/
theorem region2_value (c : Dev nD) (μ σ2 : Spec.Arr Ideal Cert.ReferenceIdeal.S32 .f32)
    (hμ : V c main_v20 = Spec.row32 (F := Ideal) μ) (hσ : V c main_v24 = Spec.row32 (F := Ideal) σ2) :
    (dat2 V c).arrAt 5 cfg2.N
      = Spec.bnWith (F := Ideal) (V c main_v18_0) μ σ2 (V c main_arg12) (V c main_arg13) :=
  (dat2 V c).arrAt_eq_of_cover 5 _ (fun t _ => flushed_eq V c μ σ2 hμ hσ t) covered

end Cert.KernelIdeal.Region2
end
-- ==== Proof.Region3.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.Region3Pieces
import proofs.«112291_j21277267984767_1_alg».proof.Proof.LibBlockSum
import proofs.«112291_j21277267984767_1_alg».proof.Proof.Region1Pre

noncomputable section

namespace Cert.KernelIdeal.Region3
open Idealize.ShloMosaic Idealize.ShloMosaic.TcCoe Idealize.SL.Sem
open Cert.KernelIdeal Cert.KernelIdeal.Gen Cert.KernelIdeal.GenP
open Cert.ReferenceIdeal (Spec.lin0 Spec.conv Spec.colsum Spec.row32 Spec.bnWith Spec.head Spec.Arr Spec.col1000 Spec.squares)

open Idealize.ShloMosaic.Pipeline (Dat)
open Idealize.ShloMosaic.ValueIdx
open Cert.KernelIdeal.Region3Pieces
open scoped BigOperators

variable (V : (c : Dev nD) → (b : Ref sig .tc) → Buf (Elt Ideal) ((c : Thread nD τ).loc b))

/-- The reduced index q with the row r put back on axis 0 is (r, q). -/
theorem lift_rows {R : ℕ} (h : (⟨2, ![R, 32]⟩ : Shape).Reduces [0] ⟨1, ![32]⟩) (q : Fin 32) (r : Fin R) :
    h.lift (ix1 q) r = ix2 r q :=
  funext fun a => Fin.ext (by match a with | ⟨0, _⟩ => rfl | ⟨1, _⟩ => rfl)

/-- The in-kernel sum over the rows of a tile, as a one-row table: at (u, q) the sum over the tile's rows of column q. -/
theorem tile_colsum_apply (X : FVec Ideal S20000x32 .f32) (h : S20000x32.Reduces [0] S32)
    (hφ : FKind.Formats .f32) (hacc : (0x00000000#32 : BitVec 32) = FKind.add.neutral .f32 hφ)
    (hc : S32.ShapeCasts S1x32) (u : Fin 1) (q : Fin 32) :
    shapeCast S1x32 (multiReduction (F := Ideal) .add [0] S32 X 0x00000000#32 h hφ hacc) hc (ix2 u q)
      = ∑ r : Fin 20000, X (ix2 r q) := by
  refine (shapeCast_a_1a_apply _ hc u q).trans ?_
  refine (Ideal.multiReduction_add_single X _ h hφ hacc (ix1 q)).trans ?_
  exact Finset.sum_congr rfl fun r _ => congrArg X (lift_rows h q r)

/-- The zero row the accumulators are set to at the first grid point reads 0 everywhere. -/
theorem pay4_apply (j : S1x32.Idx) : k3_pay4 (F := Ideal) j = 0 := Ideal.ofBits_zero_f32
theorem pay5_apply (j : S1x32.Idx) : k3_pay5 (F := Ideal) j = 0 := Ideal.ofBits_zero_f32

/-- The row-sum accumulator's new value at (u, q): what it held there plus the sum over the tile's rows of column q. -/
theorem pay6_apply (x0 x1 : Vec Ideal S20000x32 .f32) (x2 : Vec Ideal S32x32 .f32) (x3 : Vec Ideal S32 .f32)
    (x4 : Vec Ideal S32x32 .f32) (acc : Vec Ideal S1x32 .f32) (u : Fin 1) (q : Fin 32) :
    k3_pay6 (F := Ideal) x0 x1 x2 x3 x4 acc (ix2 u q)
      = acc (ix2 u q) + ∑ r : Fin 20000, k3_pay2 (F := Ideal) x0 x1 x2 x3 x4 (ix2 r q) := by
  unfold k3_pay6
  dsimp only
  refine congrArg₂ (· + ·) (congrFun (shapeCast_self acc _) (ix2 u q)) ?_
  exact tile_colsum_apply _ _ _ _ _ u q

/-- The accumulator of squares likewise: what it held plus the sum over the tile's rows of the squares in column q. -/
theorem pay1_apply (x0 x1 : Vec Ideal S20000x32 .f32) (x2 : Vec Ideal S32x32 .f32) (x3 : Vec Ideal S32 .f32)
    (x4 : Vec Ideal S32x32 .f32) (acc : Vec Ideal S1x32 .f32) (u : Fin 1) (q : Fin 32) :
    k3_pay1 (F := Ideal) (k3_pay3 (F := Ideal) x0 x1 x2 x3 x4) (k3_pay7 (F := Ideal) acc) (ix2 u q)
      = acc (ix2 u q) + ∑ r : Fin 20000,
          k3_pay2 (F := Ideal) x0 x1 x2 x3 x4 (ix2 r q) * k3_pay2 (F := Ideal) x0 x1 x2 x3 x4 (ix2 r q) := by
  unfold k3_pay1 k3_pay3 k3_pay7
  dsimp only
  refine congrArg₂ (· + ·) (congrFun (shapeCast_self acc _) (ix2 u q)) ?_
  exact tile_colsum_apply _ _ _ _ _ u q

/-- A vector as a one-row table reads, at (u, q), the vector's entry q. -/
theorem row32_apply (v : Spec.Arr Ideal Cert.ReferenceIdeal.S32 .f32) (u : Fin 1) (q : Fin 32) :
    Spec.row32 (F := Ideal) v (ix2 u q) = v (ix1 q) := by
  unfold Spec.row32
  refine broadcastInDim_apply _ _ v (ix2 u q) (ix1 q) fun a => ?_
  match a with
  | ⟨0, _⟩ => rfl

/-- The column sums of a node table at q: the sum over all 200000 rows of column q (the sum starts from the zero word). -/
theorem colsum_apply (P : Spec.Arr Ideal Cert.ReferenceIdeal.S200000x32 .f32) (q : Fin 32) :
    Spec.colsum (F := Ideal) P (ix1 q) = ∑ r : Fin 200000, P (ix2 r q) := by
  unfold Spec.colsum Host.reduceAdd
  have hR : Cert.ReferenceIdeal.S200000x32.Reduces [0] Cert.ReferenceIdeal.S32 := by decide
  refine (Ideal.hostReduceAdd_single _ hR P _ (ix1 q)).trans ?_
  refine (congrArg₂ (· + ·) Ideal.ofBits_zero_f32 rfl).trans ((zero_add _).trans ?_)
  exact Finset.sum_congr rfl fun r _ => congrArg P (lift_rows hR q r)

/-- The index maps over the grid: the two row-tiled inputs sit at block row t, column block 0; the weights and the
    bias are one whole block. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0 :=
  (by decide +kernel : ∀ t : Fin grid3.N, _)

/-- Row p of block t, of 20000-row blocks, is a row of the table. -/
theorem row_lt (t : Fin cfg3.N) (p : Fin 20000) : t.val * 20000 + p.val < 200000 := by
  have hN : t.val < 10 := lt_of_lt_of_eq t.isLt (show cfg3.N = 10 from N_3)
  have := p.isLt
  omega

/-- The first input's tile at grid point t: its row p is row 20000·t + p of the table. -/
theorem tile0_apply (c : Dev nD) (t : Fin cfg3.N) (p : Fin 20000) (k : Fin 32) :
    (iblk3 V c 0 t : Vec Ideal S20000x32 .f32) (ix2 p k) = V c main_v38 (ix2 ⟨t.val * 20000 + p.val, row_lt t p⟩ k) := by
  obtain ⟨e0, e1, -⟩ := index_facts t
  unfold iblk3
  rw [View.read_apply]
  show V c main_v38 _ = V c main_v38 _
  refine congrArg (V c main_v38) (funext fun a => Fin.ext ?_)
  match a with
  | ⟨0, _⟩ => show win3_0.index t (0 : Fin 2) * 20000 + 1 * p.val = t.val * 20000 + p.val; rw [e0]; omega
  | ⟨1, _⟩ => show win3_0.index t (1 : Fin 2) * 32 + 1 * k.val = k.val; rw [e1]; omega

/-- The second input's tile likewise. -/
theorem tile1_apply (c : Dev nD) (t : Fin cfg3.N) (p : Fin 20000) (k : Fin 32) :
    (iblk3 V c 1 t : Vec Ideal S20000x32 .f32) (ix2 p k) = V c main_v25 (ix2 ⟨t.val * 20000 + p.val, row_lt t p⟩ k) := by
  obtain ⟨-, -, e0, e1, -⟩ := index_facts t
  unfold iblk3
  rw [View.read_apply]
  show V c main_v25 _ = V c main_v25 _
  refine congrArg (V c main_v25) (funext fun a => Fin.ext ?_)
  match a with
  | ⟨0, _⟩ => show win3_1.index t (0 : Fin 2) * 20000 + 1 * p.val = t.val * 20000 + p.val; rw [e0]; omega
  | ⟨1, _⟩ => show win3_1.index t (1 : Fin 2) * 32 + 1 * k.val = k.val; rw [e1]; omega

/-- The first weight matrix's block at every grid point is the whole matrix. -/
theorem whole2 (c : Dev nD) (t : Fin cfg3.N) : (iblk3 V c 2 t : Vec Ideal S32x32 .f32) = V c main_arg9 := by
  obtain ⟨-, -, -, -, e0, e1, -⟩ := index_facts t
  funext j
  unfold iblk3
  rw [View.read_apply]
  show V c main_arg9 _ = V c main_arg9 j
  refine congrArg (V c main_arg9) (funext fun a => Fin.ext ?_)
  match a with
  | ⟨0, _⟩ => show win3_2.index t (0 : Fin 2) * 32 + 1 * (j 0).val = (j 0).val; rw [e0]; omega
  | ⟨1, _⟩ => show win3_2.index t (1 : Fin 2) * 32 + 1 * (j 1).val = (j 1).val; rw [e1]; omega

/-- The bias vector's block is the whole vector. -/
theorem whole3 (c : Dev nD) (t : Fin cfg3.N) : (iblk3 V c 3 t : Vec Ideal S32 .f32) = V c main_arg10 := by
  obtain ⟨-, -, -, -, -, -, e0, -⟩ := index_facts t
  funext j
  unfold iblk3
  rw [View.read_apply]
  show V c main_arg10 _ = V c main_arg10 j
  refine congrArg (V c main_arg10) (funext fun a => Fin.ext ?_)
  match a with
  | ⟨0, _⟩ => show win3_3.index t (0 : Fin 1) * 32 + 1 * (j 0).val = (j 0).val; rw [e0]; omega

/-- The second weight matrix's block is the whole matrix. -/
theorem whole4 (c : Dev nD) (t : Fin cfg3.N) : (iblk3 V c 4 t : Vec Ideal S32x32 .f32) = V c main_arg11 := by
  obtain ⟨-, -, -, -, -, -, -, e0, e1⟩ := index_facts t
  funext j
  unfold iblk3
  rw [View.read_apply]
  show V c main_arg11 _ = V c main_arg11 j
  refine congrArg (V c main_arg11) (funext fun a => Fin.ext ?_)
  match a with
  | ⟨0, _⟩ => show win3_4.index t (0 : Fin 2) * 32 + 1 * (j 0).val = (j 0).val; rw [e0]; omega
  | ⟨1, _⟩ => show win3_4.index t (1 : Fin 2) * 32 + 1 * (j 1).val = (j 1).val; rw [e1]; omega

/-- The table the region computes: the dense half of the graph convolution, with its relu, of the region's inputs. -/
abbrev P (c : Dev nD) : Spec.Arr Ideal Cert.ReferenceIdeal.S200000x32 .f32 :=
  Spec.conv (F := Ideal) (V c main_v38) (V c main_v25) (V c main_arg9) (V c main_arg10) (V c main_arg11)

/-- The tile computed at grid point t is rows 20000·t … of that table. -/
theorem tile_eq (c : Dev nD) (t : Fin cfg3.N) (p : Fin 20000) (q : Fin 32) :
    k3_pay2 (F := Ideal) (iblk3 V c 0 t) (iblk3 V c 1 t) (iblk3 V c 2 t) (iblk3 V c 3 t) (iblk3 V c 4 t) (ix2 p q) = P V c (ix2 ⟨t.val * 20000 + p.val, row_lt t p⟩ q) := by
  refine (conv_tile_apply (iblk3 V c 0 t) (iblk3 V c 1 t) (iblk3 V c 2 t) (iblk3 V c 3 t) (iblk3 V c 4 t) (V c main_v38) (V c main_v25) p q ⟨t.val * 20000 + p.val, row_lt t p⟩
    (fun k => tile0_apply V c t p k) (fun k => tile1_apply V c t p k)).trans ?_
  rw [whole2 V c t, whole3 V c t, whole4 V c t]

/-- Column q of the table by the row's number (zero past the last row, which no sum below reaches). -/
def colAt (c : Dev nD) (q : Fin 32) (n : ℕ) : EReal := if hn : n < 200000 then P V c (ix2 ⟨n, hn⟩ q) else 0

theorem colAt_row (c : Dev nD) (q : Fin 32) (t : Fin cfg3.N) (p : Fin 20000) :
    P V c (ix2 ⟨t.val * 20000 + p.val, row_lt t p⟩ q) = colAt V c q (t.val * 20000 + p.val) :=
  by unfold colAt; rw [dif_pos (row_lt t p)]

/-- After grid point t the row-sum accumulator holds what it held plus the sum of column q over block t's rows. -/
theorem acc6_A (c : Dev nD) (t : Fin cfg3.N) (h0 : t.val % 10 = 0) :
    (outsAt3 V c t.val t.isLt).2.1 = k3_pay6 (F := Ideal) (iblk3 V c 0 t) (iblk3 V c 1 t) (iblk3 V c 2 t) (iblk3 V c 3 t) (iblk3 V c 4 t) (k3_pay4 (F := Ideal)) := by
  rw [outsAt3_A V c t h0]
  exact outA6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t)

theorem acc6_B (c : Dev nD) (t : Fin cfg3.N) (h0 : ¬t.val % 10 = 0) :
    (outsAt3 V c t.val t.isLt).2.1 = k3_pay6 (F := Ideal) (iblk3 V c 0 t) (iblk3 V c 1 t) (iblk3 V c 2 t) (iblk3 V c 3 t) (iblk3 V c 4 t)
      (outsAt3 V c (t.val - 1) (Nat.lt_of_le_of_lt (Nat.sub_le _ _) t.isLt)).2.1 := by
  rw [outsAt3_B V c t h0]
  exact outB6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2

theorem acc7_A (c : Dev nD) (t : Fin cfg3.N) (h0 : t.val % 10 = 0) :
    (outsAt3 V c t.val t.isLt).2.2 = k3_pay1 (F := Ideal) (k3_pay3 (F := Ideal) (iblk3 V c 0 t) (iblk3 V c 1 t) (iblk3 V c 2 t) (iblk3 V c 3 t) (iblk3 V c 4 t)) (k3_pay7 (F := Ideal) (k3_pay5 (F := Ideal))) := by
  rw [outsAt3_A V c t h0]
  exact outA7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t)

theorem acc7_B (c : Dev nD) (t : Fin cfg3.N) (h0 : ¬t.val % 10 = 0) :
    (outsAt3 V c t.val t.isLt).2.2 = k3_pay1 (F := Ideal) (k3_pay3 (F := Ideal) (iblk3 V c 0 t) (iblk3 V c 1 t) (iblk3 V c 2 t) (iblk3 V c 3 t) (iblk3 V c 4 t))
      (k3_pay7 (F := Ideal) (outsAt3 V c (t.val - 1) (Nat.lt_of_le_of_lt (Nat.sub_le _ _) t.isLt)).2.2) := by
  rw [outsAt3_B V c t h0]
  exact outB7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2

/-- The sum of column q over the rows of block t, read off the tile computed at grid point t. -/
theorem tile_sum (c : Dev nD) (t : Fin cfg3.N) (q : Fin 32) :
    ∑ r : Fin 20000, k3_pay2 (F := Ideal) (iblk3 V c 0 t) (iblk3 V c 1 t) (iblk3 V c 2 t) (iblk3 V c 3 t) (iblk3 V c 4 t) (ix2 r q) = ∑ r : Fin 20000, colAt V c q (t.val * 20000 + r.val) :=
  Finset.sum_congr rfl fun r _ => (tile_eq V c t r q).trans (colAt_row V c q t r)

theorem tile_sumsq (c : Dev nD) (t : Fin cfg3.N) (q : Fin 32) :
    ∑ r : Fin 20000, k3_pay2 (F := Ideal) (iblk3 V c 0 t) (iblk3 V c 1 t) (iblk3 V c 2 t) (iblk3 V c 3 t) (iblk3 V c 4 t) (ix2 r q) * k3_pay2 (F := Ideal) (iblk3 V c 0 t) (iblk3 V c 1 t) (iblk3 V c 2 t) (iblk3 V c 3 t) (iblk3 V c 4 t) (ix2 r q)
      = ∑ r : Fin 20000, colAt V c q (t.val * 20000 + r.val) * colAt V c q (t.val * 20000 + r.val) :=
  Finset.sum_congr rfl fun r _ => by rw [tile_eq V c t r q, colAt_row V c q t r]

/-- THE RUNNING SUM. After grid point n the row-sum accumulator holds, in column q, the sum of column q of the table
    over the blocks 0, …, n: zero plus block 0's sum at the first point, one more block's sum at each later one. -/
theorem acc6_inv (c : Dev nD) (q : Fin 32) : ∀ (n : ℕ) (hn : n < cfg3.N) (u : Fin 1),
    (outsAt3 V c n hn).2.1 (ix2 u q) = ∑ t ∈ Finset.range (n + 1), ∑ r : Fin 20000, colAt V c q (t * 20000 + r.val)
  | 0, hn, u => by
    have e : (outsAt3 V c 0 hn).2.1 = _ := acc6_A V c ⟨0, hn⟩ rfl
    rw [e, pay6_apply, pay4_apply, zero_add, Finset.sum_range_one]
    exact tile_sum V c ⟨0, hn⟩ q
  | n + 1, hn, u => by
    have hN : n + 1 < 10 := lt_of_lt_of_eq hn (show cfg3.N = 10 from N_3)
    have hB : ¬(⟨n + 1, hn⟩ : Fin cfg3.N).val % 10 = 0 := by dsimp only; omega
    have e : (outsAt3 V c (n + 1) hn).2.1 = _ := acc6_B V c ⟨n + 1, hn⟩ hB
    rw [e, pay6_apply, Finset.sum_range_succ _ (n + 1)]
    exact congrArg₂ (· + ·) (acc6_inv c q n (Nat.lt_of_succ_lt hn) u) (tile_sum V c ⟨n + 1, hn⟩ q)

theorem acc7_inv (c : Dev nD) (q : Fin 32) : ∀ (n : ℕ) (hn : n < cfg3.N) (u : Fin 1),
    (outsAt3 V c n hn).2.2 (ix2 u q)
      = ∑ t ∈ Finset.range (n + 1), ∑ r : Fin 20000, colAt V c q (t * 20000 + r.val) * colAt V c q (t * 20000 + r.val)
  | 0, hn, u => by
    have e : (outsAt3 V c 0 hn).2.2 = _ := acc7_A V c ⟨0, hn⟩ rfl
    rw [e, pay1_apply, pay5_apply, zero_add, Finset.sum_range_one]
    exact tile_sumsq V c ⟨0, hn⟩ q
  | n + 1, hn, u => by
    have hN : n + 1 < 10 := lt_of_lt_of_eq hn (show cfg3.N = 10 from N_3)
    have hB : ¬(⟨n + 1, hn⟩ : Fin cfg3.N).val % 10 = 0 := by dsimp only; omega
    have e : (outsAt3 V c (n + 1) hn).2.2 = _ := acc7_B V c ⟨n + 1, hn⟩ hB
    rw [e, pay1_apply, Finset.sum_range_succ _ (n + 1)]
    exact congrArg₂ (· + ·) (acc7_inv c q n (Nat.lt_of_succ_lt hn) u) (tile_sumsq V c ⟨n + 1, hn⟩ q)

/-- Ten blocks of 20000 rows are the 200000 rows. -/
theorem sum_all_rows (f : ℕ → EReal) :
    ∑ t ∈ Finset.range 10, ∑ r : Fin 20000, f (t * 20000 + r.val) = ∑ i : Fin 200000, f i.val := by
  rw [Cert.LibBlockSum.sum_range_eq_fin, ← Cert.LibBlockSum.sum_blocks_nat 10 20000 f]

/-- So the sums over the ten blocks are the column sums of the whole table, -/
theorem total_sum (c : Dev nD) (q : Fin 32) :
    ∑ t ∈ Finset.range 10, ∑ r : Fin 20000, colAt V c q (t * 20000 + r.val) = Spec.colsum (F := Ideal) (P V c) (ix1 q) := by
  rw [sum_all_rows (colAt V c q), colsum_apply]
  exact Finset.sum_congr rfl fun r _ => by unfold colAt; rw [dif_pos r.isLt]

/-- and of the table of squares. -/
theorem total_sumsq (c : Dev nD) (q : Fin 32) :
    ∑ t ∈ Finset.range 10, ∑ r : Fin 20000, colAt V c q (t * 20000 + r.val) * colAt V c q (t * 20000 + r.val)
      = Spec.colsum (F := Ideal) (Spec.squares (F := Ideal) (P V c)) (ix1 q) := by
  rw [sum_all_rows (fun n => colAt V c q n * colAt V c q n), colsum_apply]
  exact Finset.sum_congr rfl fun r _ => by unfold colAt; rw [dif_pos r.isLt]; rfl

/-- The accumulators' block is the whole one-row table at every grid point. -/
theorem index_facts6 : ∀ t : Fin cfg3.N, win3_6.index t (0 : Fin 2) = 0 ∧ win3_6.index t (1 : Fin 2) = 0 :=
  (by decide +kernel : ∀ t : Fin grid3.N, _)
theorem index_facts7 : ∀ t : Fin cfg3.N, win3_7.index t (0 : Fin 2) = 0 ∧ win3_7.index t (1 : Fin 2) = 0 :=
  (by decide +kernel : ∀ t : Fin grid3.N, _)

theorem flushed6 (c : Dev nD) (t : Fin cfg3.N) (hf : (cfg3.win 6).flush t = true) :
    (dat3 V c).flushed 6 t = ((cfg3.win 6).blk t).view.read (Elt Ideal) (Spec.row32 (F := Ideal) (Spec.colsum (F := Ideal) (P V c))) := by
  have hN : t.val < 10 := lt_of_lt_of_eq t.isLt (show cfg3.N = 10 from N_3)
  have h9 : t.val = 9 := by have := (flush3_6 t).mp hf; omega
  obtain ⟨e0, e1⟩ := index_facts6 t
  show (cfg3.win 6).cut (grid3.coords t) ((dat3 V c).after 6 t) = _
  rw [after3_6]
  funext j
  obtain ⟨u, q, rfl⟩ : ∃ (u : Fin 1) (q : Fin 32), j = ix2 u q := ⟨j 0, j 1, eq_ix2 j⟩
  rw [View.read_apply]
  show (outsAt3 V c t.val t.isLt).2.1 (ix2 u q)
    = Spec.row32 (F := Ideal) (Spec.colsum (F := Ideal) (P V c)) (((cfg3.win 6).blk t).view.emb (ix2 u q))
  have hemb : ((cfg3.win 6).blk t).view.emb (ix2 u q) = ix2 u q := by
    funext a; apply Fin.ext
    match a with
    | ⟨0, _⟩ => show win3_6.index t (0 : Fin 2) * 1 + 1 * u.val = u.val; rw [e0]; omega
    | ⟨1, _⟩ => show win3_6.index t (1 : Fin 2) * 32 + 1 * q.val = q.val; rw [e1]; omega
  rw [hemb, row32_apply, acc6_inv V c q t.val t.isLt u, h9]
  exact total_sum V c q

theorem cover6 (i : S1x32.Idx) :
    ∃ t : Fin cfg3.N, (cfg3.win 6).flush t = true ∧ i ∈ ((cfg3.win 6).blk t).view.set := by
  refine ⟨t3_9, (flush3_6 t3_9).mpr rfl, ?_⟩
  show i ∈ ((View.whole main_v39_1).slice (win3_6.rect t3_9)).set
  rw [View.set_slice_whole, Rect.mem_set_unit]
  intro a
  have h0 : (i 0 : Nat) < 1 := (i 0).isLt
  have h1 : (i 1 : Nat) < 32 := (i 1).isLt
  match a with
  | ⟨0, _⟩ =>
    show win3_6.index t3_9 0 * win3_6.size 0 ≤ (i 0 : Nat) ∧ (i 0 : Nat) < win3_6.index t3_9 0 * win3_6.size 0 + win3_6.xsize (grid3.coords t3_9) 0
    rw [show win3_6.index t3_9 0 * win3_6.size 0 = 0 from by decide +kernel, show win3_6.xsize (grid3.coords t3_9) 0 = 1 from by decide +kernel]; omega
  | ⟨1, _⟩ =>
    show win3_6.index t3_9 1 * win3_6.size 1 ≤ (i 1 : Nat) ∧ (i 1 : Nat) < win3_6.index t3_9 1 * win3_6.size 1 + win3_6.xsize (grid3.coords t3_9) 1
    rw [show win3_6.index t3_9 1 * win3_6.size 1 = 0 from by decide +kernel, show win3_6.xsize (grid3.coords t3_9) 1 = 32 from by decide +kernel]; omega

theorem flushed7 (c : Dev nD) (t : Fin cfg3.N) (hf : (cfg3.win 7).flush t = true) :
    (dat3 V c).flushed 7 t = ((cfg3.win 7).blk t).view.read (Elt Ideal) (Spec.row32 (F := Ideal) (Spec.colsum (F := Ideal) (Spec.squares (F := Ideal) (P V c)))) := by
  have hN : t.val < 10 := lt_of_lt_of_eq t.isLt (show cfg3.N = 10 from N_3)
  have h9 : t.val = 9 := by have := (flush3_7 t).mp hf; omega
  obtain ⟨e0, e1⟩ := index_facts7 t
  show (cfg3.win 7).cut (grid3.coords t) ((dat3 V c).after 7 t) = _
  rw [after3_7]
  funext j
  obtain ⟨u, q, rfl⟩ : ∃ (u : Fin 1) (q : Fin 32), j = ix2 u q := ⟨j 0, j 1, eq_ix2 j⟩
  rw [View.read_apply]
  show (outsAt3 V c t.val t.isLt).2.2 (ix2 u q)
    = Spec.row32 (F := Ideal) (Spec.colsum (F := Ideal) (Spec.squares (F := Ideal) (P V c))) (((cfg3.win 7).blk t).view.emb (ix2 u q))
  have hemb : ((cfg3.win 7).blk t).view.emb (ix2 u q) = ix2 u q := by
    funext a; apply Fin.ext
    match a with
    | ⟨0, _⟩ => show win3_7.index t (0 : Fin 2) * 1 + 1 * u.val = u.val; rw [e0]; omega
    | ⟨1, _⟩ => show win3_7.index t (1 : Fin 2) * 32 + 1 * q.val = q.val; rw [e1]; omega
  rw [hemb, row32_apply, acc7_inv V c q t.val t.isLt u, h9]
  exact total_sumsq V c q

theorem cover7 (i : S1x32.Idx) :
    ∃ t : Fin cfg3.N, (cfg3.win 7).flush t = true ∧ i ∈ ((cfg3.win 7).blk t).view.set := by
  refine ⟨t3_9, (flush3_7 t3_9).mpr rfl, ?_⟩
  show i ∈ ((View.whole main_v39_2).slice (win3_7.rect t3_9)).set
  rw [View.set_slice_whole, Rect.mem_set_unit]
  intro a
  have h0 : (i 0 : Nat) < 1 := (i 0).isLt
  have h1 : (i 1 : Nat) < 32 := (i 1).isLt
  match a with
  | ⟨0, _⟩ =>
    show win3_7.index t3_9 0 * win3_7.size 0 ≤ (i 0 : Nat) ∧ (i 0 : Nat) < win3_7.index t3_9 0 * win3_7.size 0 + win3_7.xsize (grid3.coords t3_9) 0
    rw [show win3_7.index t3_9 0 * win3_7.size 0 = 0 from by decide +kernel, show win3_7.xsize (grid3.coords t3_9) 0 = 1 from by decide +kernel]; omega
  | ⟨1, _⟩ =>
    show win3_7.index t3_9 1 * win3_7.size 1 ≤ (i 1 : Nat) ∧ (i 1 : Nat) < win3_7.index t3_9 1 * win3_7.size 1 + win3_7.xsize (grid3.coords t3_9) 1
    rw [show win3_7.index t3_9 1 * win3_7.size 1 = 0 from by decide +kernel, show win3_7.xsize (grid3.coords t3_9) 1 = 32 from by decide +kernel]; omega

/-- Region 3's first output array: the dense half of the graph convolution with its relu, of the region's input arrays. -/
theorem region3_pre (c : Dev nD) :
    (dat3 V c).arrAt 5 cfg3.N
      = Spec.conv (F := Ideal) (V c main_v38) (V c main_v25) (V c main_arg9) (V c main_arg10) (V c main_arg11) :=
  Region1Pre.region3_pre V c

/-- Region 3's second output array, after the last grid point: the column sums of that table, as one row. -/
theorem region3_sum (c : Dev nD) :
    (dat3 V c).arrAt 6 cfg3.N
      = Spec.row32 (F := Ideal) (Spec.colsum (Spec.conv (F := Ideal) (V c main_v38) (V c main_v25) (V c main_arg9) (V c main_arg10) (V c main_arg11))) :=
  (dat3 V c).arrAt_eq_of_cover 6 _ (flushed6 V c) (fun i => cover6 i)

/-- Region 3's third output array, after the last grid point: the column sums of the table's squares, as one row. -/
theorem region3_sumsq (c : Dev nD) :
    (dat3 V c).arrAt 7 cfg3.N
      = Spec.row32 (F := Ideal) (Spec.colsum
          (Spec.squares (Spec.conv (F := Ideal) (V c main_v38) (V c main_v25) (V c main_arg9) (V c main_arg10) (V c main_arg11)))) :=
  (dat3 V c).arrAt_eq_of_cover 7 _ (flushed7 V c) (fun i => cover7 i)

end Cert.KernelIdeal.Region3

end
-- ==== Proof.Region4.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import Idealize.ShloMosaic.Lib.Pipeline.Value
import Idealize.ShloMosaic.Lib.ValueIdx
import Idealize.ShloMosaic.Lib.ValueLayout

noncomputable section

namespace Cert.KernelIdeal.Region4
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP
open Cert.ReferenceIdeal (Spec.lin0 Spec.conv Spec.colsum Spec.row32 Spec.rows32 Spec.bnWith Spec.head Spec.Arr Spec.col1000 Spec.squares)

/-- One entry of the normalisation: centre, scale by the inverse root of the shifted variance, scale, shift. -/
def bnEntry (p m v g b : EReal) : EReal :=
  (p - m) * Ideal.rsqrt (v + Ideal.ofBits .f32 0x3727C5AC#32) * g + b

theorem pay_apply (x0 : Vec Ideal S20000x32 .f32) (xv xm : Vec Ideal S1x32 .f32) (xg xb : Vec Ideal S32 .f32)
    (p : Fin 20000) (q : Fin 32) :
    Gen.k4_pay1 (F := Ideal) x0 xv xm xg xb (ix2 p q)
      = bnEntry (x0 (ix2 p q)) (xm (ix2 (0 : Fin 1) q)) (xv (ix2 (0 : Fin 1) q)) (xg (ix1 q)) (xb (ix1 q)) := by
  unfold Gen.k4_pay1 bnEntry
  rw [addf_apply, mulf_apply, mulf_apply, subf_apply]
  rw [broadcastTo_1b_ab_apply, broadcastTo_1b_ab_apply, broadcastTo_1b_ab_apply, broadcastTo_1b_ab_apply]
  rw [shapeCast_self, shapeCast_self, shapeCast_self, shapeCast_a_1a_apply, shapeCast_a_1a_apply]
  rfl

/-- A vector laid as a one-row table reads, at (u, q), its entry q. -/
theorem row32_apply (v : Spec.Arr Ideal Cert.ReferenceIdeal.S32 .f32) (u : Fin 1) (q : Fin 32) :
    Spec.row32 (F := Ideal) v (ix2 u q) = v (ix1 q) := by
  unfold Spec.row32
  refine broadcastInDim_apply _ _ _ (ix2 u q) (ix1 q) ?_
  intro a
  match a with
  | ⟨0, _⟩ => rfl

/-- A vector repeated over the rows reads, at (r, q), its entry q. -/
theorem rows32_apply (v : Spec.Arr Ideal Cert.ReferenceIdeal.S32 .f32) (r : Fin 200000) (q : Fin 32) :
    Spec.rows32 (F := Ideal) v (ix2 r q) = v (ix1 q) := by
  unfold Spec.rows32
  refine (broadcastInDim_apply _ _ _ (ix2 r q) (ix2 (0 : Fin 1) q) ?_).trans ?_
  · intro a
    match a with
    | ⟨0, _⟩ => rfl
    | ⟨1, _⟩ => rfl
  · exact row32_apply v 0 q

/-- The reference's normalisation read at an entry. -/
theorem bnWith_apply (P : Spec.Arr Ideal Cert.ReferenceIdeal.S200000x32 .f32) (μ σ2 g b : Spec.Arr Ideal Cert.ReferenceIdeal.S32 .f32)
    (r : Fin 200000) (q : Fin 32) :
    Spec.bnWith (F := Ideal) P μ σ2 g b (ix2 r q)
      = bnEntry (P (ix2 r q)) (μ (ix1 q)) (σ2 (ix1 q)) (g (ix1 q)) (b (ix1 q)) := by
  unfold Spec.bnWith bnEntry
  rw [addf_apply, mulf_apply, mulf_apply, subf_apply, rows32_apply, rows32_apply, rows32_apply, rows32_apply]
  rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-tiled windows sit at block row t, every small operand at block 0. -/
theorem idx_facts : ∀ t : Fin cfg4.N, win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 1) = 0 ∧ win4_4.index t (0 : Fin 1) = 0 :=
  (by decide +kernel : ∀ t : Fin grid4.N, _)

/-- Window 0's block at point t holds rows 20000·t … of the table. -/
theorem iblk0_apply (c : Dev nD) (t : Fin cfg4.N) (p : Fin 20000) (q : Fin 32) (r : Fin 200000)
    (hr : r.val = 20000 * t.val + p.val) :
    (iblk4 V c 0 t : Vec Ideal S20000x32 .f32) (ix2 p q) = (V c main_v39_0 : S200000x32.Idx → EReal) (ix2 r q) := by
  obtain ⟨e0, e1, -⟩ := idx_facts t
  unfold iblk4
  rw [View.read_apply]
  show V c main_v39_0 _ = V c main_v39_0 _
  congr 1
  funext a
  apply Fin.ext
  match a with
  | ⟨0, _⟩ => show win4_0.index t 0 * 20000 + 1 * p.val = r.val; rw [e0, hr]; omega
  | ⟨1, _⟩ => show win4_0.index t 1 * 32 + 1 * q.val = q.val; rw [e1]; omega

/-- Window 1's block is the whole row of means. -/
theorem iblk1_apply (c : Dev nD) (t : Fin cfg4.N) (u : Fin 1) (q : Fin 32) :
    (iblk4 V c 1 t : Vec Ideal S1x32 .f32) (ix2 u q) = (V c main_v41 : S1x32.Idx → EReal) (ix2 u q) := by
  obtain ⟨-, -, -, -, e0, e1, -⟩ := idx_facts t
  unfold iblk4
  rw [View.read_apply]
  show V c main_v41 _ = V c main_v41 _
  congr 1
  funext a
  apply Fin.ext
  match a with
  | ⟨0, _⟩ => show win4_1.index t 0 * 1 + 1 * u.val = u.val; rw [e0]; omega
  | ⟨1, _⟩ => show win4_1.index t 1 * 32 + 1 * q.val = q.val; rw [e1]; omega

/-- Window 2's block is the whole row of variances. -/
theorem iblk2_apply (c : Dev nD) (t : Fin cfg4.N) (u : Fin 1) (q : Fin 32) :
    (iblk4 V c 2 t : Vec Ideal S1x32 .f32) (ix2 u q) = (V c main_v45 : S1x32.Idx → EReal) (ix2 u q) := by
  obtain ⟨-, -, -, -, -, -, e0, e1, -⟩ := idx_facts t
  unfold iblk4
  rw [View.read_apply]
  show V c main_v45 _ = V c main_v45 _
  congr 1
  funext a
  apply Fin.ext
  match a with
  | ⟨0, _⟩ => show win4_2.index t 0 * 1 + 1 * u.val = u.val; rw [e0]; omega
  | ⟨1, _⟩ => show win4_2.index t 1 * 32 + 1 * q.val = q.val; rw [e1]; omega

/-- Window 3's block is the whole scale vector. -/
theorem iblk3_apply (c : Dev nD) (t : Fin cfg4.N) (q : Fin 32) :
    (iblk4 V c 3 t : Vec Ideal S32 .f32) (ix1 q) = (V c main_arg14 : S32.Idx → EReal) (ix1 q) := by
  obtain ⟨-, -, -, -, -, -, -, -, e0, -⟩ := idx_facts t
  unfold iblk4
  rw [View.read_apply]
  show V c main_arg14 _ = V c main_arg14 _
  congr 1
  funext a
  apply Fin.ext
  match a with
  | ⟨0, _⟩ => show win4_3.index t 0 * 32 + 1 * q.val = q.val; rw [e0]; omega

/-- Window 4's block is the whole shift vector. -/
theorem iblk4_apply (c : Dev nD) (t : Fin cfg4.N) (q : Fin 32) :
    (iblk4 V c 4 t : Vec Ideal S32 .f32) (ix1 q) = (V c main_arg15 : S32.Idx → EReal) (ix1 q) := by
  obtain ⟨-, -, -, -, -, -, -, -, -, e0⟩ := idx_facts t
  unfold iblk4
  rw [View.read_apply]
  show V c main_arg15 _ = V c main_arg15 _
  congr 1
  funext a
  apply Fin.ext
  match a with
  | ⟨0, _⟩ => show win4_4.index t 0 * 32 + 1 * q.val = q.val; rw [e0]; omega

/-- What a point writes back, for any tile contents and any table: the body's one whole-tile store read through the
    output window's block, when the stored tile is the table's rows 20000·t …. -/
theorem stored_eq_read (t : Fin cfg4.N) (G : S200000x32.Idx → EReal)
    (x0 : Vec Ideal S20000x32 .f32) (x1 x2 : Vec Ideal S1x32 .f32) (x3 x4 : Vec Ideal S32 .f32)
    (h : ∀ (p : Fin 20000) (q : Fin 32) (r : Fin 200000), r.val = 20000 * t.val + p.val →
      Gen.k4_pay1 (F := Ideal) x0 x2 x1 x3 x4 (ix2 p q) = G (ix2 r q)) :
    (cfg4.win 5).cut (grid4.coords t) (out4_5 (F := Ideal) x0 x1 x2 x3 x4)
      = ((cfg4.win 5).blk t).view.read (Elt Ideal) G := by
  obtain ⟨-, -, e0, e1, -⟩ := idx_facts t
  unfold out4_5
  rw [View.canon_unit_zero hz2]
  simp only [View.ld_unit_zero (S := S20000x32) hz2, View.ld_unit_zero (S := S1x32) hz2, View.ld_unit_zero (S := S32) hz1]
  funext j
  obtain ⟨p, q, rfl⟩ : ∃ (p : Fin 20000) (q : Fin 32), j = ix2 p q := ⟨j 0, j 1, eq_ix2 j⟩
  rw [View.read_apply]
  have ht : t.val < 10 := lt_of_lt_of_eq t.isLt N_4
  refine (h p q ⟨20000 * t.val + p.val, by have := p.isLt; omega⟩ rfl).trans ?_
  show G _ = G _
  congr 1
  funext a
  apply Fin.ext
  match a with
  | ⟨0, _⟩ => show 20000 * t.val + p.val = win4_5.index t 0 * 20000 + 1 * p.val; rw [e0]; omega
  | ⟨1, _⟩ => show q.val = win4_5.index t 1 * 32 + 1 * q.val; rw [e1]; omega

/-- What point t writes back is block t of the normalised table. -/
theorem flushed_eq (c : Dev nD) (μ σ2 : Spec.Arr Ideal Cert.ReferenceIdeal.S32 .f32)
    (hμ : V c main_v41 = Spec.row32 (F := Ideal) μ) (hσ : V c main_v45 = Spec.row32 (F := Ideal) σ2) (t : Fin cfg4.N) :
    (dat4 V c).flushed 5 t = ((cfg4.win 5).blk t).view.read (Elt Ideal)
      (Spec.bnWith (F := Ideal) (V c main_v39_0) μ σ2 (V c main_arg14) (V c main_arg15)) := by
  show (cfg4.win 5).cut (grid4.coords t) ((dat4 V c).after 5 t) = _
  rw [after4_5]
  refine stored_eq_read t _ (iblk4 V c 0 t) (iblk4 V c 1 t) (iblk4 V c 2 t) (iblk4 V c 3 t) (iblk4 V c 4 t) ?_
  intro p q r hr
  refine (pay_apply (iblk4 V c 0 t) (iblk4 V c 2 t) (iblk4 V c 1 t) (iblk4 V c 3 t) (iblk4 V c 4 t) p q).trans ?_
  refine Eq.trans ?_ (bnWith_apply (V c main_v39_0) μ σ2 (V c main_arg14) (V c main_arg15) r q).symm
  rw [iblk0_apply V c t p q r hr, iblk1_apply V c t 0 q, iblk2_apply V c t 0 q, iblk3_apply V c t q, iblk4_apply V c t q,
    hμ, hσ, row32_apply, row32_apply]

/-- An index of the table is in point t's block iff each coordinate is in the block's range on its axis. -/
theorem mem_blk5 (t : Fin cfg4.N) (i : S200000x32.Idx) :
    i ∈ ((cfg4.win 5).blk t).view.set ↔ ∀ a : Fin 2, win4_5.index t a * S20000x32.size a ≤ (i a).val
      ∧ (i a).val < win4_5.index t a * S20000x32.size a + S20000x32.size a := by
  show i ∈ ((View.whole main_v46).slice (win4_5.rect t)).set ↔ _
  rw [View.set_slice_whole, Rect.mem_set_unit]
  exact Iff.rfl

/-- Every row r of the table is in the block of point r / 20000. -/
theorem covered (i : S200000x32.Idx) :
    ∃ t : Fin cfg4.N, (cfg4.win 5).flush t = true ∧ i ∈ ((cfg4.win 5).blk t).view.set := by
  have hi0 : (i 0).val < 200000 := (i 0).isLt
  have hi1 : (i 1).val < 32 := (i 1).isLt
  have hN : cfg4.N = 10 := N_4
  obtain ⟨t, ht⟩ : ∃ t : Fin cfg4.N, t.val = (i 0).val / 20000 := ⟨⟨(i 0).val / 20000, by rw [hN]; omega⟩, rfl⟩
  obtain ⟨-, -, e0, e1, -⟩ := idx_facts t
  refine ⟨t, flush4_5 t, ?_⟩
  rw [mem_blk5]
  intro a
  match a with
  | ⟨0, _⟩ =>
    show win4_5.index t 0 * 20000 ≤ (i 0).val ∧ (i 0).val < win4_5.index t 0 * 20000 + 20000
    rw [e0, ht]; omega
  | ⟨1, _⟩ =>
    show win4_5.index t 1 * 32 ≤ (i 1).val ∧ (i 1).val < win4_5.index t 1 * 32 + 32
    rw [e1]; omega

/-- Region 4's output array is the batch normalisation of its first input array, when its second and third input
    arrays are the rows of column means `μ` and column variances `σ2`. -/
theorem region4_value (c : Dev nD) (μ σ2 : Spec.Arr Ideal Cert.ReferenceIdeal.S32 .f32)
    (hμ : V c main_v41 = Spec.row32 (F := Ideal) μ) (hσ : V c main_v45 = Spec.row32 (F := Ideal) σ2) :
    (dat4 V c).arrAt 5 cfg4.N
      = Spec.bnWith (F := Ideal) (V c main_v39_0) μ σ2 (V c main_arg14) (V c main_arg15) :=
  (dat4 V c).arrAt_eq_of_cover 5 _ (fun t _ => flushed_eq V c μ σ2 hμ hσ t) covered

end Cert.KernelIdeal.Region4
end
-- ==== Proof.LibKeepdims.lean ====
/-
  Two layout facts every sum taken with its axis kept (a column of row sums) needs, read at an index given by
  coordinates: a vector of length `a` laid as a column `[a, 1]` reads its entry `i` at `(i, u)`, and a column `[a, 1]`
  broadcast over `b` columns reads, at `(p, c)`, the column's entry `p`. They sit beside the library's row forms
  (a vector laid as a row `[1, a]`; a row broadcast over many rows).
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.Region5.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.LibTileMatmul
import proofs.«112291_j21277267984767_1_alg».proof.Proof.LibKeepdims
import Idealize.ShloMosaic.Lib.ValueLayout
import Idealize.ShloMosaic.Lib.Pipeline.Value

noncomputable section

namespace Cert.KernelIdeal.Region5
open Idealize.ShloMosaic Idealize.ShloMosaic.TcCoe Idealize.SL.Sem
open Cert.KernelIdeal Cert.KernelIdeal.Gen Cert.KernelIdeal.GenP
open Cert.ReferenceIdeal (Spec.lin0 Spec.conv Spec.colsum Spec.row32 Spec.bnWith Spec.head Spec.Arr Spec.col1000 Spec.squares)

variable (V : (c : Dev nD) → (b : Ref sig .tc) → Buf (Elt Ideal) ((c : Thread nD τ).loc b))

open Idealize.ShloMosaic.ValueIdx Idealize.ShloMosaic.TileMatmul
open scoped BigOperators

/-! ## Host-style broadcasts read at coordinates -/

section Layout
variable {α : Type}

/-- A scalar broadcast to any shape reads the scalar everywhere. -/
theorem bcastScalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a laid as a column [a, 1] reads, at (p, u), the vector's entry p. -/
theorem colOfVec_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun c => ?_
  have hc : c = 0 := Subsingleton.elim _ _
  subst hc
  show p.val = if a = 1 then 0 else p.val
  have := p.isLt
  split <;> omega

/-- A vector of length n laid as a row [1, n] reads, at (u, i), the vector's entry i. -/
theorem rowOfVec_apply {n : ℕ} (x : (⟨1, ![n]⟩ : Shape).Idx → α)
    (h : (⟨1, ![n]⟩ : Shape).BroadcastsInDim ⟨2, ![1, n]⟩ ![1]) (u : Fin 1) (i : Fin n) :
    broadcastInDim ⟨2, ![1, n]⟩ ![1] h x (ix2 u i) = x (ix1 i) := by
  refine broadcastInDim_apply ![1] h x (ix2 u i) (ix1 i) fun c => ?_
  have hc : c = 0 := Subsingleton.elim _ _
  subst hc
  show i.val = if n = 1 then 0 else i.val
  have := i.isLt
  split <;> omega

/-- A column [a, 1] spread over b columns reads, at (p, c), the column's entry p. -/
theorem spreadCol_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    have := p.isLt
    split <;> omega
  | ⟨1, _⟩ =>
    show 0 = if (1 : ℕ) = 1 then 0 else c.val
    rw [if_pos rfl]

/-- A row [1, b] spread over a rows reads, at (p, c), the row's entry c. -/
theorem spreadRow_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    have := c.isLt
    split <;> omega

end Layout

/-! ## The head's three stages, entry by entry: the kernel's form against the host's -/

/-- The mean pooling at (p, d): the row sum's entry divided by the count of graph p clipped below at the constant. The
    kernel clips the count column (count first) and spreads it over the features; the host clips the count vector
    (constant first), lays it as a column and spreads that. The maximum is commutative. -/
theorem pooled_entry {a b : ℕ} (s : FVec Ideal ⟨2, ![a, b]⟩ .f32) (cnt : FVec Ideal ⟨1, ![a]⟩ .f32) (one : BitVec FTy.f32.bits)
    (h1 : (⟨2, ![a, b]⟩ : Shape).ShapeCasts ⟨2, ![a, b]⟩) (h2 : (⟨2, ![a, 1]⟩ : Shape).ShapeCasts ⟨2, ![a, 1]⟩)
    (h3 : (⟨2, ![a, 1]⟩ : Shape).Broadcasts ⟨2, ![a, b]⟩)
    (g1 : (⟨2, ![a, 1]⟩ : Shape).BroadcastsInDim ⟨2, ![a, b]⟩ ![0, 1])
    (g2 : (⟨1, ![a]⟩ : Shape).BroadcastsInDim ⟨2, ![a, 1]⟩ ![0])
    (dims : Fin (⟨0, ![]⟩ : Shape).rank → Fin (⟨1, ![a]⟩ : Shape).rank)
    (g3 : (⟨0, ![]⟩ : Shape).BroadcastsInDim ⟨1, ![a]⟩ dims)
    (p : Fin a) (d : Fin b) :
    divf (shapeCast ⟨2, ![a, b]⟩ s h1)
        (broadcastTo ⟨2, ![a, b]⟩
          (maximumf (shapeCast ⟨2, ![a, 1]⟩ (broadcastInDim ⟨2, ![a, 1]⟩ ![0] g2 cnt) h2)
            (broadcast ⟨2, ![a, 1]⟩ (FloatOps.ofBits (F := Ideal) .f32 one))) h3) (ix2 p d)
      = Host.divf s
          (broadcastInDim ⟨2, ![a, b]⟩ ![0, 1] g1
            (broadcastInDim ⟨2, ![a, 1]⟩ ![0] g2
              (maximumf (broadcastInDim ⟨1, ![a]⟩ dims g3 (constant (F := Ideal) ⟨0, ![]⟩ .f32 one)) cnt))) (ix2 p d) := by
  have hL : broadcastTo ⟨2, ![a, b]⟩
          (maximumf (shapeCast ⟨2, ![a, 1]⟩ (broadcastInDim ⟨2, ![a, 1]⟩ ![0] g2 cnt) h2)
            (broadcast ⟨2, ![a, 1]⟩ (FloatOps.ofBits (F := Ideal) .f32 one))) h3 (ix2 p d)
        = max (cnt (ix1 p)) (Ideal.ofBits .f32 one) := by
    rw [broadcastTo_a1_ab_apply, maximumf_apply, shapeCast_self, colOfVec_apply, broadcast_apply]; rfl
  have hR : broadcastInDim ⟨2, ![a, b]⟩ ![0, 1] g1
            (broadcastInDim ⟨2, ![a, 1]⟩ ![0] g2
              (maximumf (broadcastInDim ⟨1, ![a]⟩ dims g3 (constant (F := Ideal) ⟨0, ![]⟩ .f32 one)) cnt)) (ix2 p d)
        = max (Ideal.ofBits .f32 one) (cnt (ix1 p)) := by
    rw [spreadCol_apply, colOfVec_apply, maximumf_apply, bcastScalar_apply]; rfl
  show Ideal.div (shapeCast ⟨2, ![a, b]⟩ s h1 (ix2 p d)) _ = Ideal.div (s (ix2 p d)) _
  rw [hL, hR, shapeCast_self, max_comm]

/-- One dense layer at (p, q): the product with the transposed weights plus the bias. The kernel multiplies into a zero
    accumulator and adds the bias reshaped to a row and spread over the rows; the host takes the plain product and
    adds the bias laid as a row and spread. With left operands that agree along row p the two entries agree. -/
theorem dense_entry {m k n : ℕ}
    (wT wX : DotDims.WF ⟨2, ![m, k]⟩ ⟨2, ![k, n]⟩ ⟨2, ![m, n]⟩ [1] [0] [0] [1] [] [])
    (A A' : FVec Ideal ⟨2, ![m, k]⟩ .f32) (W : FVec Ideal ⟨2, ![n, k]⟩ .f32) (bias : FVec Ideal ⟨1, ![n]⟩ .f32)
    (ht ht' : (⟨2, ![n, k]⟩ : Shape).Transposes [1, 0] ⟨2, ![k, n]⟩)
    (hs : (⟨1, ![n]⟩ : Shape).ShapeCasts ⟨2, ![1, n]⟩) (hb : (⟨2, ![1, n]⟩ : Shape).Broadcasts ⟨2, ![m, n]⟩)
    (hr : (⟨1, ![n]⟩ : Shape).BroadcastsInDim ⟨2, ![1, n]⟩ ![1])
    (hr' : (⟨2, ![1, n]⟩ : Shape).BroadcastsInDim ⟨2, ![m, n]⟩ ![0, 1])
    (p : Fin m) (q : Fin n) (hA : ∀ c : Fin k, A (ix2 p c) = A' (ix2 p c)) :
    addf (matmul (F := Ideal) (plainDims wT) none A (transpose ⟨2, ![k, n]⟩ [1, 0] W ht)
            (constant (F := Ideal) ⟨2, ![m, n]⟩ .f32 0x00000000#32))
        (broadcastTo ⟨2, ![m, n]⟩ (shapeCast ⟨2, ![1, n]⟩ bias hs) hb) (ix2 p q)
      = addf (Host.dotGeneral (F := Ideal) (plainDims wX) none A' (transpose ⟨2, ![k, n]⟩ [1, 0] W ht'))
          (broadcastInDim ⟨2, ![m, n]⟩ ![0, 1] hr' (broadcastInDim ⟨2, ![1, n]⟩ ![1] hr bias)) (ix2 p q) := by
  have hprod := matmul_tile_eq_dotGeneral wT wX none none A (transpose ⟨2, ![k, n]⟩ [1, 0] W ht) A'
    (transpose ⟨2, ![k, n]⟩ [1, 0] W ht') p q p hA (fun _ => rfl)
  have hbias : broadcastTo ⟨2, ![m, n]⟩ (shapeCast ⟨2, ![1, n]⟩ bias hs) hb (ix2 p q)
      = broadcastInDim ⟨2, ![m, n]⟩ ![0, 1] hr' (broadcastInDim ⟨2, ![1, n]⟩ ![1] hr bias) (ix2 p q) := by
    rw [broadcastTo_1b_ab_apply, shapeCast_a_1a_apply, spreadRow_apply, rowOfVec_apply]
  rw [addf_apply, addf_apply, hprod, hbias]

/-- The kernel's payload, when its count column is the column of the count vector, is the pooled head. -/
theorem pay_eq_head (s : Vec Ideal S1000x32 .f32) (cnt : Spec.Arr Ideal Cert.ReferenceIdeal.S1000 .f32)
    (w1 : Vec Ideal S64x32 .f32) (b1 : Vec Ideal S64 .f32) (w2 : Vec Ideal S5x64 .f32) (b2 : Vec Ideal S5 .f32) :
    k5_pay1 (Spec.col1000 (F := Ideal) cnt) s w1 b1 w2 b2 = Spec.head (F := Ideal) s cnt w1 b1 w2 b2 := by
  funext j
  obtain ⟨p, q, rfl⟩ : ∃ (p : Fin 1000) (q : Fin 5), j = ix2 p q := ⟨j 0, j 1, eq_ix2 j⟩
  unfold k5_pay1 Spec.head Spec.col1000
  refine dense_entry _ _ _ _ _ _ _ _ _ _ _ _ p q fun c => ?_
  refine congrArg₂ max ?_ ?_
  · refine dense_entry _ _ _ _ _ _ _ _ _ _ _ _ p c fun d => ?_
    exact pooled_entry _ _ _ _ _ _ _ _ _ _ p d
  · exact (bcastScalar_apply _ _ (constant (F := Ideal) Cert.ReferenceIdeal.S_ .f32 0x00000000#32) (ix2 p c)).symm

/-! ## From the one grid point's block to the array

The grid has one point and every window's block is its whole array at block index 0, so each input block the body
reads is the region's input array, and what the point writes back is the payload of those arrays over the whole
output array. -/

open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a; rfl

/-- Every window's block index is 0 on every axis, at every point of the grid. -/
theorem index_zero : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = 0 ∧ win5_6.index t (1 : Fin 2) = 0 :=
  (by decide +kernel : ∀ t : Fin grid5.N, _)

/-- What the body leaves in the output's buffer is the payload of the six input buffers: it loads each whole buffer
    and stores the whole output buffer once. -/
theorem out_eq_pay (x0 : Vec Ideal S1000x32 .f32) (x1 : Vec Ideal S1000x1 .f32) (x2 : Vec Ideal S64x32 .f32)
    (x3 : Vec Ideal S64 .f32) (x4 : Vec Ideal S5x64 .f32) (x5 : Vec Ideal S5 .f32) :
    out5_6 x0 x1 x2 x3 x4 x5 = k5_pay1 x1 x0 x2 x3 x4 x5 := by
  unfold out5_6
  rw [View.canon_unit_zero zeros2]
  simp only [View.ld_unit_zero (S := S1000x1) zeros2, View.ld_unit_zero (S := S1000x32) zeros2,
    View.ld_unit_zero (S := S64x32) zeros2, View.ld_unit_zero (S := S64) zeros1,
    View.ld_unit_zero (S := S5x64) zeros2, View.ld_unit_zero (S := S5) zeros1]

/-- Input window 0's block is the array of row sums. -/
theorem block0 (c : Dev nD) (t : Fin cfg5.N) : iblk5 V c 0 t = V c main_v49 := by
  obtain ⟨e0, e1, -⟩ := index_zero t
  funext j
  show V c main_v49 (((cfg5.win 0).blk t).view.emb j) = V c main_v49 j
  refine congrArg (V c main_v49) (funext fun a => Fin.ext ?_)
  match a with
  | ⟨0, _⟩ => show win5_0.index t (0 : Fin 2) * 1000 + 1 * (j 0).val = (j 0).val; rw [e0]; omega
  | ⟨1, _⟩ => show win5_0.index t (1 : Fin 2) * 32 + 1 * (j 1).val = (j 1).val; rw [e1]; omega

/-- Input window 1's block is the array holding the count column. -/
theorem block1 (c : Dev nD) (t : Fin cfg5.N) : iblk5 V c 1 t = V c main_v54 := by
  obtain ⟨-, -, e0, e1, -⟩ := index_zero t
  funext j
  show V c main_v54 (((cfg5.win 1).blk t).view.emb j) = V c main_v54 j
  refine congrArg (V c main_v54) (funext fun a => Fin.ext ?_)
  match a with
  | ⟨0, _⟩ => show win5_1.index t (0 : Fin 2) * 1000 + 1 * (j 0).val = (j 0).val; rw [e0]; omega
  | ⟨1, _⟩ => show win5_1.index t (1 : Fin 2) * 1 + 1 * (j 1).val = (j 1).val; rw [e1]; omega

/-- Input window 2's block is the first layer's weight matrix. -/
theorem block2 (c : Dev nD) (t : Fin cfg5.N) : iblk5 V c 2 t = V c main_arg16 := by
  obtain ⟨-, -, -, -, e0, e1, -⟩ := index_zero t
  funext j
  show V c main_arg16 (((cfg5.win 2).blk t).view.emb j) = V c main_arg16 j
  refine congrArg (V c main_arg16) (funext fun a => Fin.ext ?_)
  match a with
  | ⟨0, _⟩ => show win5_2.index t (0 : Fin 2) * 64 + 1 * (j 0).val = (j 0).val; rw [e0]; omega
  | ⟨1, _⟩ => show win5_2.index t (1 : Fin 2) * 32 + 1 * (j 1).val = (j 1).val; rw [e1]; omega

/-- Input window 3's block is the first layer's bias vector. -/
theorem block3 (c : Dev nD) (t : Fin cfg5.N) : iblk5 V c 3 t = V c main_arg17 := by
  obtain ⟨-, -, -, -, -, -, e0, -⟩ := index_zero t
  funext j
  show V c main_arg17 (((cfg5.win 3).blk t).view.emb j) = V c main_arg17 j
  refine congrArg (V c main_arg17) (funext fun a => Fin.ext ?_)
  match a with
  | ⟨0, _⟩ => show win5_3.index t (0 : Fin 1) * 64 + 1 * (j 0).val = (j 0).val; rw [e0]; omega

/-- Input window 4's block is the second layer's weight matrix. -/
theorem block4 (c : Dev nD) (t : Fin cfg5.N) : iblk5 V c 4 t = V c main_arg18 := by
  obtain ⟨-, -, -, -, -, -, -, e0, e1, -⟩ := index_zero t
  funext j
  show V c main_arg18 (((cfg5.win 4).blk t).view.emb j) = V c main_arg18 j
  refine congrArg (V c main_arg18) (funext fun a => Fin.ext ?_)
  match a with
  | ⟨0, _⟩ => show win5_4.index t (0 : Fin 2) * 5 + 1 * (j 0).val = (j 0).val; rw [e0]; omega
  | ⟨1, _⟩ => show win5_4.index t (1 : Fin 2) * 64 + 1 * (j 1).val = (j 1).val; rw [e1]; omega

/-- Input window 5's block is the second layer's bias vector. -/
theorem block5 (c : Dev nD) (t : Fin cfg5.N) : iblk5 V c 5 t = V c main_arg19 := by
  obtain ⟨-, -, -, -, -, -, -, -, -, e0, -⟩ := index_zero t
  funext j
  show V c main_arg19 (((cfg5.win 5).blk t).view.emb j) = V c main_arg19 j
  refine congrArg (V c main_arg19) (funext fun a => Fin.ext ?_)
  match a with
  | ⟨0, _⟩ => show win5_5.index t (0 : Fin 1) * 5 + 1 * (j 0).val = (j 0).val; rw [e0]; omega

/-- The pooled head of the region's input arrays, for a count vector `cnt`. -/
abbrev headOf (c : Dev nD) (cnt : Spec.Arr Ideal Cert.ReferenceIdeal.S1000 .f32) :
    Spec.Arr Ideal Cert.ReferenceIdeal.S1000x5 .f32 :=
  Spec.head (F := Ideal) (V c main_v49) cnt (V c main_arg16) (V c main_arg17) (V c main_arg18) (V c main_arg19)

/-- What the body leaves in the output's buffer at the grid's point is the pooled head of the input arrays, when the
    second input array is the column of the counts. -/
theorem after_eq_head (c : Dev nD) (cnt : Spec.Arr Ideal Cert.ReferenceIdeal.S1000 .f32)
    (hc : V c main_v54 = Spec.col1000 (F := Ideal) cnt) (t : Fin cfg5.N) :
    (dat5 V c).after 6 t = headOf V c cnt := by
  rw [after5_6, block0 V c t, block1 V c t, block2 V c t, block3 V c t, block4 V c t, block5 V c t, hc]
  exact (out_eq_pay _ _ _ _ _ _).trans (pay_eq_head _ _ _ _ _ _)

/-- What the point writes back is its block, the whole array, of the pooled head. -/
theorem flushed_eq_head (c : Dev nD) (cnt : Spec.Arr Ideal Cert.ReferenceIdeal.S1000 .f32)
    (hc : V c main_v54 = Spec.col1000 (F := Ideal) cnt) (t : Fin cfg5.N) :
    (dat5 V c).flushed 6 t = ((cfg5.win 6).blk t).view.read (Elt Ideal) (headOf V c cnt) := by
  show (cfg5.win 6).cut (grid5.coords t) ((dat5 V c).after 6 t) = _
  rw [after_eq_head V c cnt hc t]
  obtain ⟨-, -, -, -, -, -, -, -, -, -, e0, e1⟩ := index_zero t
  funext j
  show headOf V c cnt ((cfg5.win 6).xinj (grid5.coords t) j) = headOf V c cnt (((cfg5.win 6).blk t).view.emb j)
  refine congrArg (headOf V c cnt) (funext fun a => Fin.ext ?_)
  match a with
  | ⟨0, _⟩ => show (j 0).val = win5_6.index t (0 : Fin 2) * 1000 + 1 * (j 0).val; rw [e0]; omega
  | ⟨1, _⟩ => show (j 1).val = win5_6.index t (1 : Fin 2) * 5 + 1 * (j 1).val; rw [e1]; omega

/-- An index of the output array is in the point's block iff each coordinate is in the block's range on its axis. -/
theorem mem_block (t : Fin cfg5.N) (i : S1000x5.Idx) :
    i ∈ ((cfg5.win 6).blk t).view.set
      ↔ ∀ a : Fin 2, win5_6.index t a * S1000x5.size a ≤ (i a).val ∧ (i a).val < win5_6.index t a * S1000x5.size a + S1000x5.size a := by
  show i ∈ ((View.whole main_v55).slice (win5_6.rect t)).set ↔ _
  rw [View.set_slice_whole, Rect.mem_set_unit]
  exact Iff.rfl

/-- The one point's block holds every index of the output array. -/
theorem covered (i : S1000x5.Idx) :
    ∃ t : Fin cfg5.N, (cfg5.win 6).flush t = true ∧ i ∈ ((cfg5.win 6).blk t).view.set := by
  obtain ⟨-, -, -, -, -, -, -, -, -, -, e0, e1⟩ := index_zero t5_0
  refine ⟨t5_0, flush5_6 t5_0, ?_⟩
  rw [mem_block]
  intro a
  have hi0 : (i 0).val < 1000 := (i 0).isLt
  have hi1 : (i 1).val < 5 := (i 1).isLt
  match a with
  | ⟨0, _⟩ =>
    show win5_6.index t5_0 (0 : Fin 2) * 1000 ≤ (i 0).val ∧ (i 0).val < win5_6.index t5_0 (0 : Fin 2) * 1000 + 1000
    rw [e0]; omega
  | ⟨1, _⟩ =>
    show win5_6.index t5_0 (1 : Fin 2) * 5 ≤ (i 1).val ∧ (i 1).val < win5_6.index t5_0 (1 : Fin 2) * 5 + 5
    rw [e1]; omega

/-- Region 5's output array is the pooled head of its input arrays, when its second input array is the column of the
    per-graph counts `cnt`. -/
theorem region5_value (c : Dev nD) (cnt : Spec.Arr Ideal Cert.ReferenceIdeal.S1000 .f32)
    (hc : V c main_v54 = Spec.col1000 (F := Ideal) cnt) :
    (dat5 V c).arrAt 6 cfg5.N
      = Spec.head (F := Ideal) (V c main_v49) cnt (V c main_arg16) (V c main_arg17) (V c main_arg18) (V c main_arg19) := by
  exact (dat5 V c).arrAt_eq_of_cover 6 (headOf V c cnt) (fun t _ => flushed_eq_head V c cnt hc t) covered

end Cert.KernelIdeal.Region5

end
-- ==== Proof.Stats.lean ====
/-
  The statistics of a node table: its column means and its column variances.

  The column sums divided by the number of rows, laid out as a row, are the column means laid out as a row.  For a
  table of real numbers the mean of the squares less the square of the mean is the mean of the centred squares.  The
  batch normalisation of a real table with real scale and shift is a real table, because a variance is not negative,
  the added constant is positive, and the reciprocal square root of a positive real is real.
-/
import proofs.«112291_j21277267984767_1_alg».proof.Proof.Spec
import proofs.«112291_j21277267984767_1_alg».proof.Proof.RealClosure
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost

noncomputable section

namespace Cert.ReferenceIdeal.Spec

open Idealize.ShloMosaic Idealize.ShloMosaic.ValueIdx Cert.ReferenceIdeal

variable [Facts]
open Facts₀ Facts

/-! ## The constants -/

/-- The word 0x48435000 denotes the number of rows, 200000 = (2²³ + 4411392) · 2⁻⁶. -/
theorem ofBits_rows : Ideal.ofBits .f32 0x48435000#32 = ((200000 : ℝ) : EReal) := by
  simp [Ideal.ofBits, Ideal.ieee, -EReal.coe_mul]; norm_num

/-- The word 0x3727C5AC denotes the positive real 10995116 · 2⁻⁴⁰ (about 10⁻⁵). -/
theorem ofBits_eps : Ideal.ofBits .f32 0x3727C5AC#32 = ((10995116 / 1099511627776 : ℝ) : EReal) := by
  simp [Ideal.ofBits, Ideal.ieee, -EReal.coe_mul]; norm_num

/-! ## The column sums, means and variances at an index -/

/-- The column sum of a table at column q is the sum of that column. -/
theorem colsum_apply (p : Arr Ideal S200000x32 .f32) (q : Fin 32) :
    colsum (F := Ideal) p (ix1 q) = ∑ r : Fin 200000, p (ix2 r q) := by
  unfold colsum
  rw [hostReduceAdd_apply, Ideal.hostReduceAdd_single reducesTo_S200000x32_S32_d0 (by decide)]
  rw [constant_apply, Ideal.ofBits_zero_f32, zero_add]
  refine Finset.sum_congr rfl fun r _ => congrArg p ?_
  funext c
  match c with
  | ⟨0, _⟩ => rfl
  | ⟨1, _⟩ => rfl

/-- The sum over the rows of a table at column q: the index of row r above the reduced index q is (r, q). -/
theorem lift_rows (h : S200000x32.Reduces [0] S32) (q : Fin 32) (r : Fin 200000) :
    h.lift (ix1 q) r = ix2 r q := by
  funext c
  match c with
  | ⟨0, _⟩ => rfl
  | ⟨1, _⟩ => rfl

/-- A one-row table divided by the number of rows, at column q: the entry times 1/200000. -/
theorem meanRow_apply (s : Arr Ideal S1x32 .f32) (a : Fin 1) (q : Fin 32) :
    meanRow (F := Ideal) s (ix2 a q) = s (ix2 a q) * (((1 / 200000 : ℝ) : ℝ) : EReal) := by
  unfold meanRow
  rw [hostDivf_apply, broadcastInDim_scalar_apply, constant_apply, ofBits_rows, Ideal.div_coe (by norm_num)]

/-- The column mean at column q: the column's sum times 1/200000. -/
theorem mean_apply (p : Arr Ideal S200000x32 .f32) (q : Fin 32) :
    mean (F := Ideal) p (ix1 q) = (∑ r : Fin 200000, p (ix2 r q)) * (((1 / 200000 : ℝ) : ℝ) : EReal) := by
  unfold mean
  rw [hostDivf_apply, broadcastInDim_scalar_apply, constant_apply, ofBits_rows, Ideal.div_coe (by norm_num),
    colsum_apply]

/-- The divisor of the variance is the number of rows: 200000 - 0. -/
theorem varDen_apply : varDen (F := Ideal) ix0 = ((200000 : ℝ) : EReal) := by
  unfold varDen
  rw [subf_apply, constant_apply, ofBits_rows, sitofp_apply, constantI_apply]
  show ((200000 : ℝ) : EReal) - (((0#32 : BitVec 32).toInt : ℝ) : EReal) = _
  rw [BitVec.toInt_zero, Int.cast_zero, EReal.coe_zero, sub_zero]

/-- The table less its column means, at (r, q). -/
theorem centred_apply (p : Arr Ideal S200000x32 .f32) (r : Fin 200000) (q : Fin 32) :
    subf (F := Ideal) (s := S200000x32) (φ := .f32) p
        (broadcastInDim S200000x32 ![0, 1] bcast_S1x32_S200000x32_0_1
          (Host.divf (broadcastInDim S1x32 ![1] bcast_S32_S1x32_1 (colsum p))
            (broadcastInDim S1x32 ![] bcast_S_S1x32 (constant S_ .f32 0x48435000#32)))) (ix2 r q)
      = p (ix2 r q) - (∑ r' : Fin 200000, p (ix2 r' q)) * (((1 / 200000 : ℝ) : ℝ) : EReal) := by
  rw [subf_apply, broadcastInDim_oneRow_apply, hostDivf_apply, vecRow_apply, broadcastInDim_scalar_apply,
    constant_apply, ofBits_rows, Ideal.div_coe (by norm_num), colsum_apply]

/-- 200000 is greater than 0: the comparison's bit is set. -/
theorem cmp_rows_pos : Ideal.cmp .ogt ((200000 : ℝ) : EReal) 0 = 1#1 := by
  show BitVec.ofBool (decide ((0 : EReal) < ((200000 : ℝ) : EReal))) = 1#1
  rw [decide_eq_true (by exact_mod_cast (by norm_num : (0 : ℝ) < 200000))]
  rfl

/-- The column variance at column q: the sum of the centred squares times 1/200000. -/
theorem var_apply (p : Arr Ideal S200000x32 .f32) (q : Fin 32) :
    var (F := Ideal) p (ix1 q)
      = (∑ r : Fin 200000,
          (p (ix2 r q) - (∑ r' : Fin 200000, p (ix2 r' q)) * (((1 / 200000 : ℝ) : ℝ) : EReal))
            * (p (ix2 r q) - (∑ r' : Fin 200000, p (ix2 r' q)) * (((1 / 200000 : ℝ) : ℝ) : EReal)))
        * (((1 / 200000 : ℝ) : ℝ) : EReal) := by
  unfold var
  rw [select_apply, broadcastInDim_scalar_apply, cmpf_apply, varDen_apply, constant_apply, Ideal.ofBits_zero_f32,
    Ideal.cmpf_def, cmp_rows_pos, select_one, hostDivf_apply, broadcastInDim_scalar_apply, varDen_apply,
    Ideal.div_coe (by norm_num)]
  refine congrArg (fun z : EReal => z * (((1 / 200000 : ℝ) : ℝ) : EReal)) ?_
  refine (colsum_apply _ q).trans ?_
  refine Finset.sum_congr rfl fun r _ => ?_
  rw [mulf_apply, centred_apply]

/-! ## The algebra of the variance, over the reals -/

/-- The sum of the centred squares: Σ (x - μ)² = Σ x² - 2 μ Σ x + n μ², for any μ. -/
theorem sum_centred_sq {n : ℕ} (x : Fin n → ℝ) (μ : ℝ) :
    ∑ r, (x r - μ) * (x r - μ) = (∑ r, x r * x r) - 2 * μ * (∑ r, x r) + (n : ℝ) * (μ * μ) := by
  calc ∑ r, (x r - μ) * (x r - μ) = ∑ r, (x r * x r - 2 * μ * x r + μ * μ) :=
        Finset.sum_congr rfl fun r _ => by ring
    _ = (∑ r, x r * x r) - 2 * μ * (∑ r, x r) + (n : ℝ) * (μ * μ) := by
        rw [Finset.sum_add_distrib, Finset.sum_sub_distrib, ← Finset.mul_sum, Finset.sum_const, Finset.card_univ,
          Fintype.card_fin, nsmul_eq_mul]

/-- The mean of the squares less the square of the mean is the mean of the centred squares (200000 rows). -/
theorem var_identity (x : Fin 200000 → ℝ) :
    (∑ r, x r * x r) * (1 / 200000) - (∑ r, x r) * (1 / 200000) * ((∑ r, x r) * (1 / 200000))
      = (∑ r, (x r - (∑ r', x r') * (1 / 200000)) * (x r - (∑ r', x r') * (1 / 200000))) * (1 / 200000) := by
  rw [sum_centred_sq]
  push_cast
  ring

/-- The mean of centred squares is not negative. -/
theorem var_nonneg (x : Fin 200000 → ℝ) (μ : ℝ) : 0 ≤ (∑ r, (x r - μ) * (x r - μ)) * (1 / 200000) :=
  mul_nonneg (Finset.sum_nonneg fun r _ => mul_self_nonneg _) (by norm_num)

/-! ## The three statements -/

/-- The row of column sums divided by the number of rows is the row of the column means. -/
theorem meanRow_colsum (p : Arr Ideal S200000x32 .f32) :
    meanRow (F := Ideal) (row32 (colsum p)) = row32 (mean p) := by
  funext i
  obtain ⟨a, q, rfl⟩ : ∃ (a : Fin 1) (q : Fin 32), i = ix2 a q := ⟨i 0, i 1, eq_ix2 i⟩
  rw [meanRow_apply, row32_apply, row32_apply, mean_apply, colsum_apply]

/-- The column sums of a real table, and of its squares and centred squares, as real sums. -/
theorem sums_of_real (p : Arr Ideal S200000x32 .f32) (q : Fin 32) (x : Fin 200000 → ℝ)
    (hx : ∀ r : Fin 200000, p (ix2 r q) = ((x r : ℝ) : EReal)) :
    (∑ r : Fin 200000, p (ix2 r q)) = ((∑ r, x r : ℝ) : EReal)
    ∧ (∑ r : Fin 200000, squares (F := Ideal) p (ix2 r q)) = ((∑ r, x r * x r : ℝ) : EReal)
    ∧ (∑ r : Fin 200000,
          (p (ix2 r q) - (∑ r' : Fin 200000, p (ix2 r' q)) * (((1 / 200000 : ℝ) : ℝ) : EReal))
            * (p (ix2 r q) - (∑ r' : Fin 200000, p (ix2 r' q)) * (((1 / 200000 : ℝ) : ℝ) : EReal)))
        = ((∑ r, (x r - (∑ r', x r') * (1 / 200000)) * (x r - (∑ r', x r') * (1 / 200000)) : ℝ) : EReal) := by
  have e1 : (∑ r : Fin 200000, p (ix2 r q)) = ((∑ r, x r : ℝ) : EReal) := by
    exact Eq.trans (Fintype.sum_congr _ _ fun r => hx r) (coe_finset_sum Finset.univ _).symm
  refine ⟨e1, ?_, ?_⟩
  · refine Eq.trans (Fintype.sum_congr _ _ fun r => ?_) (coe_finset_sum Finset.univ _).symm
    show p (ix2 r q) * p (ix2 r q) = _
    rw [hx r, EReal.coe_mul]
  · rw [e1]
    refine Eq.trans (Fintype.sum_congr _ _ fun r => ?_) (coe_finset_sum Finset.univ _).symm
    rw [hx r, ← EReal.coe_mul, ← EReal.coe_sub, ← EReal.coe_mul]

/-- For a table of real numbers, "mean of the squares less the square of the mean" is the mean of the centred squares:
    Σ (p - μ)² / n = Σ p² / n - μ² with μ = Σ p / n, column by column. -/
theorem varRow_colsum (p : Arr Ideal S200000x32 .f32) (hp : IsReal p) :
    varRow (F := Ideal) (row32 (colsum p)) (row32 (colsum (squares p))) = row32 (var p) := by
  funext i
  obtain ⟨a, q, rfl⟩ : ∃ (a : Fin 1) (q : Fin 32), i = ix2 a q := ⟨i 0, i 1, eq_ix2 i⟩
  choose x hx using fun r : Fin 200000 => hp (ix2 r q)
  obtain ⟨e1, e2, e3⟩ := sums_of_real p q x hx
  unfold varRow
  rw [subf_apply, mulf_apply, meanRow_apply, meanRow_apply, row32_apply, row32_apply, row32_apply, colsum_apply,
    colsum_apply, var_apply, e3, e2, e1, ← EReal.coe_mul, ← EReal.coe_mul, ← EReal.coe_mul, ← EReal.coe_sub,
    ← EReal.coe_mul, var_identity]

/-- The column means of a real table are real. -/
theorem isReal_mean {p : Arr Ideal S200000x32 .f32} (hp : IsReal p) : IsReal (mean (F := Ideal) p) := by
  intro i
  obtain ⟨q, rfl⟩ : ∃ q : Fin 32, i = ix1 q := ⟨i 0, eq_ix1 i⟩
  choose x hx using fun r : Fin 200000 => hp (ix2 r q)
  obtain ⟨e1, -, -⟩ := sums_of_real p q x hx
  exact ⟨(∑ r, x r) * (1 / 200000), by rw [mean_apply, e1, EReal.coe_mul]⟩

/-- The column variances of a real table are real and not negative. -/
theorem var_real {p : Arr Ideal S200000x32 .f32} (hp : IsReal p) (q : Fin 32) :
    ∃ v : ℝ, 0 ≤ v ∧ var (F := Ideal) p (ix1 q) = ((v : ℝ) : EReal) := by
  choose x hx using fun r : Fin 200000 => hp (ix2 r q)
  obtain ⟨-, -, e3⟩ := sums_of_real p q x hx
  exact ⟨_, var_nonneg x ((∑ r', x r') * (1 / 200000)), by rw [var_apply, e3, EReal.coe_mul]⟩

/-- The reciprocal square root of the variance plus the positive constant is real. -/
theorem isReal_rsqrt_var {p : Arr Ideal S200000x32 .f32} (hp : IsReal p) :
    IsReal (s := S32) (Host.rsqrt (F := Ideal) (s := S32) (φ := .f32)
      (addf (var p) (broadcastInDim S32 ![] bcast_S_S32 (constant S_ .f32 0x3727C5AC#32)))) := by
  intro i
  obtain ⟨q, rfl⟩ : ∃ q : Fin 32, i = ix1 q := ⟨i 0, eq_ix1 i⟩
  obtain ⟨v, hv0, hv⟩ := var_real hp q
  have hpos : 0 < v + 10995116 / 1099511627776 := by positivity
  refine ⟨(Real.sqrt (v + 10995116 / 1099511627776))⁻¹, ?_⟩
  show Ideal.rsqrt (var (F := Ideal) p (ix1 q)
      + broadcastInDim S32 ![] bcast_S_S32 (constant (F := Ideal) S_ .f32 0x3727C5AC#32) (ix1 q)) = _
  rw [broadcastInDim_scalar_apply, constant_apply, ofBits_eps, hv, ← EReal.coe_add, Ideal.rsqrt_coe,
    if_neg (not_lt.mpr hpos.le), if_neg hpos.ne']

/-- The batch normalisation of a table of reals with real scale and shift is a table of reals: the variance is a mean
    of squares, so it is nonnegative, ε is positive, and the reciprocal square root of a positive real is real. -/
theorem isReal_bn {p : Arr Ideal S200000x32 .f32} {g b : Arr Ideal S32 .f32}
    (hp : IsReal p) (hg : IsReal g) (hb : IsReal b) : IsReal (bn p g b) := by
  unfold bn bnWith
  exact isReal_addf
    (isReal_mulf
      (isReal_mulf (isReal_subf hp (isReal_rows32 (isReal_mean hp))) (isReal_rows32 (isReal_rsqrt_var hp)))
      (isReal_rows32 hg))
    (isReal_rows32 hb)

end Cert.ReferenceIdeal.Spec

end
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.LibGatherFormat.lean ====
/-
  A host gather does not look at the values of the table it reads.

  `stablehlo.gather` picks, for each result index, ONE index of its operand (computed from the start indices and the
  dimension numbers alone) and returns the operand's element there. So two tables that agree element by element
  gather to results that agree element by element, whatever the tables' element types are called. At the ideal
  instance a bf16 table and an f32 table are both families of extended reals: a gather from one equals the gather
  from the other as soon as the tables are equal as extended reals.
-/
import Idealize.ShloMosaic.PureOps.Ideal

noncomputable section

namespace Cert.GatherFormat

open Idealize.ShloMosaic

/-- A gather read at a result index: the operand at the operand index the dimension numbers name. -/
theorem gather_apply {s si t : Shape} {α : Type} {w : Nat} (d : GatherDims s si t) (x : s.Idx → α) (i : IVec si w)
    (k : t.Idx) : Host.gather d x i k = x (d.operandIdx k i) := rfl

/-- Tables equal element by element gather to results equal element by element. -/
theorem gather_congr {s si t : Shape} {α : Type} {w : Nat} (d : GatherDims s si t) (x x' : s.Idx → α) (i : IVec si w)
    (h : ∀ j, x j = x' j) (k : t.Idx) : Host.gather d x i k = Host.gather d x' i k :=
  h (d.operandIdx k i)

/-- Two records of dimension numbers with the same lists are the same record (the well-formedness field is a proof). -/
theorem gatherDims_ext {s si t : Shape} (d d' : GatherDims s si t)
    (h1 : d.offsetDims = d'.offsetDims) (h2 : d.collapsedSliceDims = d'.collapsedSliceDims)
    (h3 : d.operandBatchingDims = d'.operandBatchingDims) (h4 : d.startIndicesBatchingDims = d'.startIndicesBatchingDims)
    (h5 : d.startIndexMap = d'.startIndexMap) (h6 : d.indexVectorDim = d'.indexVectorDim)
    (h7 : d.sliceSizes = d'.sliceSizes) : d = d' := by
  cases d
  cases d'
  cases h1
  cases h2
  cases h3
  cases h4
  cases h5
  cases h6
  cases h7
  rfl

/-- At the ideal instance a gather from a bf16 table equals the gather from an f32 table holding the same extended
    reals. -/
theorem gather_format {s si t : Shape} (d : GatherDims s si t)
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d x' i k :=
  h (d.operandIdx k i)

/-- The same for two records of dimension numbers that are equal. -/
theorem gather_format' {s si t : Shape} (d d' : GatherDims s si t) (hd : d = d')
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d' x' i k := by
  subst hd
  exact h (d.operandIdx k i)

end Cert.GatherFormat
-- ==== Proof.Reals.lean ====
import proofs.«112291_j21277267984767_1_alg».proof.Proof.Spec
import proofs.«112291_j21277267984767_1_alg».proof.Proof.LibScatterRows
import proofs.«112291_j21277267984767_1_alg».proof.Proof.LibGatherFormat
import proofs.«112291_j21277267984767_1_alg».proof.Proof.LibTileMatmul
import Idealize.ShloMosaic.PureOps.Ideal
import Idealize.ShloMosaic.PureOps.Ideal.Laws
import Idealize.ShloMosaic.Lib.ValueIdx
import Idealize.ShloMosaic.Lib.ValueLayout

noncomputable section

namespace Cert.ReferenceIdeal.Spec

open Idealize.ShloMosaic Cert.ReferenceIdeal

variable [Facts]
open Facts₀ Facts

/-! ## Real numbers among the extended reals: closure under the operations of the network -/

/-- The sum of two reals is a real. -/
theorem f_real_add {x y : EReal} (hx : ∃ r : ℝ, x = ((r : ℝ) : EReal)) (hy : ∃ r : ℝ, y = ((r : ℝ) : EReal)) :
    ∃ r : ℝ, x + y = ((r : ℝ) : EReal) := by
  obtain ⟨a, rfl⟩ := hx
  obtain ⟨b, rfl⟩ := hy
  exact ⟨a + b, (EReal.coe_add a b).symm⟩

/-- The product of two reals is a real. -/
theorem f_real_mul {x y : EReal} (hx : ∃ r : ℝ, x = ((r : ℝ) : EReal)) (hy : ∃ r : ℝ, y = ((r : ℝ) : EReal)) :
    ∃ r : ℝ, x * y = ((r : ℝ) : EReal) := by
  obtain ⟨a, rfl⟩ := hx
  obtain ⟨b, rfl⟩ := hy
  exact ⟨a * b, (EReal.coe_mul a b).symm⟩

/-- The maximum of two reals is one of them, hence a real. -/
theorem f_real_max {x y : EReal} (hx : ∃ r : ℝ, x = ((r : ℝ) : EReal)) (hy : ∃ r : ℝ, y = ((r : ℝ) : EReal)) :
    ∃ r : ℝ, max x y = ((r : ℝ) : EReal) := by
  rcases le_total x y with h | h
  · rw [max_eq_right h]; exact hy
  · rw [max_eq_left h]; exact hx

/-- A sum of reals over a finite set is a real: by induction on the set, zero being real and sums of two reals real. -/
theorem f_real_sum {ι : Type} (s : Finset ι) (f : ι → EReal) (h : ∀ i ∈ s, ∃ r : ℝ, f i = ((r : ℝ) : EReal)) :
    ∃ r : ℝ, ∑ i ∈ s, f i = ((r : ℝ) : EReal) := by
  classical
  induction s using Finset.induction_on with
  | empty => exact ⟨0, by rw [Finset.sum_empty, EReal.coe_zero]⟩
  | insert a s ha ih =>
    rw [Finset.sum_insert ha]
    exact f_real_add (h a (Finset.mem_insert_self a s)) (ih fun i hi => h i (Finset.mem_insert_of_mem hi))

/-- The hyperbolic tangent of a real, as the extended reals compute it, is the real hyperbolic tangent. -/
theorem f_real_tanh {x : EReal} (hx : ∃ r : ℝ, x = ((r : ℝ) : EReal)) : ∃ r : ℝ, Ideal.tanh x = ((r : ℝ) : EReal) := by
  obtain ⟨a, rfl⟩ := hx
  exact ⟨Real.tanh a, rfl⟩

/-! ## The same, array by array -/

section Arrays
variable {s t : Shape}

/-- Entrywise sum of real arrays. -/
theorem f_isReal_addf {a b : FVec Ideal s .f32} (ha : IsReal a) (hb : IsReal b) :
    IsReal (addf (F := Ideal) (φ := .f32) a b) :=
  fun i => f_real_add (ha i) (hb i)

/-- Entrywise product of real arrays. -/
theorem f_isReal_mulf {a b : FVec Ideal s .f32} (ha : IsReal a) (hb : IsReal b) :
    IsReal (mulf (F := Ideal) (φ := .f32) a b) :=
  fun i => f_real_mul (ha i) (hb i)

/-- Entrywise maximum of real arrays. -/
theorem f_isReal_maximumf {a b : FVec Ideal s .f32} (ha : IsReal a) (hb : IsReal b) :
    IsReal (maximumf (F := Ideal) (φ := .f32) a b) :=
  fun i => f_real_max (ha i) (hb i)

/-- Entrywise hyperbolic tangent of a real array. -/
theorem f_isReal_tanh {a : FVec Ideal s .f32} (ha : IsReal a) : IsReal (Host.tanh (F := Ideal) (φ := .f32) a) :=
  fun i => f_real_tanh (ha i)

/-- A broadcast of a real array is real: each entry of the result is an entry of the operand. -/
theorem f_isReal_broadcastInDim {a : FVec Ideal s .f32} (dims : Fin s.rank → Fin t.rank) (h : s.BroadcastsInDim t dims)
    (ha : IsReal a) : IsReal (broadcastInDim t dims h a) :=
  fun j => ha _

/-- A transpose of a real array is real: each entry of the result is an entry of the operand. -/
theorem f_isReal_transpose {a : FVec Ideal s .f32} (perm : List (Fin s.rank)) (h : s.Transposes perm t)
    (ha : IsReal a) : IsReal (transpose t perm a h) :=
  fun j => ha _

/-- The zero word spread over any shape is a real array: the word denotes the real number zero. -/
theorem f_isReal_zeros (bc : (⟨0, ![]⟩ : Shape).BroadcastsInDim t (![] : Fin 0 → Fin t.rank)) :
    IsReal (broadcastInDim t ![] bc (constant (F := Ideal) ⟨0, ![]⟩ .f32 0x00000000#32)) :=
  fun j => ⟨0, Ideal.ofBits_zero_f32⟩

end Arrays

/-- A contraction of two real arrays is real: each entry is a finite sum of products of an entry of the one with an entry
    of the other, whatever the dimension numbers. -/
theorem f_isReal_dotGeneral {sl sr so : Shape} (d : DotDims sl sr so) (prec : Option ContractPrecision)
    {A : FVec Ideal sl .f32} {B : FVec Ideal sr .f32} (hA : IsReal A) (hB : IsReal B) :
    IsReal (Host.dotGeneral (F := Ideal) (φ₁ := .f32) (φ₂ := .f32) d prec A B) := by
  intro j
  show ∃ r : ℝ, FloatOps.dotGeneral (F := Ideal) (φ₁ := .f32) (φ₂ := .f32) d prec _ A B j = ((r : ℝ) : EReal)
  rw [Ideal.dotGeneral_apply]
  exact f_real_sum _ _ fun k _ => f_real_mul (hA _) (hB _)

/-- A gather from a real table is real whatever the indices: each entry of the result is an entry of the table. -/
theorem f_isReal_gather {s si t : Shape} {w : Nat} (d : GatherDims s si t) {x : FVec Ideal s .f32} (idx : IVec si w)
    (hx : IsReal x) : IsReal (Host.gather d x idx) :=
  fun k => hx (d.operandIdx k idx)

/-- An accumulating scatter of real updates into a real table is real whatever the indices: each entry of the result is
    the table's entry plus the sum of the updates that land on it, a finite sum of reals. -/
theorem f_isReal_scatterAdd {s si u : Shape} {w : Nat} (d : ScatterDims s si u) {x : FVec Ideal s .f32} (idx : IVec si w)
    {upd : FVec Ideal u .f32} (hx : IsReal x) (hu : IsReal upd) :
    IsReal (Host.scatterAdd (F := Ideal) (φ := .f32) d x idx upd) := by
  intro i
  show ∃ r : ℝ, Ideal.hostScatterAdd d x idx upd i = ((r : ℝ) : EReal)
  unfold Ideal.hostScatterAdd
  exact f_real_add (hx i) (f_real_sum _ _ fun j _ => hu j)

/-! ## The stages -/

/-- A length-32 vector of reals repeated over the rows is a real table. -/
theorem f_isReal_rows32 {b : Arr Ideal S32 .f32} (hb : IsReal b) : IsReal (rows32 b) :=
  f_isReal_broadcastInDim _ _ (f_isReal_broadcastInDim _ _ hb)

/-- The input projection of real arrays is real: finite sums and products of reals, and tanh of a real. -/
theorem isReal_lin0 {x : Arr Ideal S200000x1 .f32} {w : Arr Ideal S32x1 .f32} {b : Arr Ideal S32 .f32}
    (hx : IsReal x) (hw : IsReal w) (hb : IsReal b) : IsReal (lin0 x w b) := by
  exact f_isReal_tanh (f_isReal_addf (f_isReal_dotGeneral _ _ hx (f_isReal_transpose _ _ hw)) (f_isReal_rows32 hb))

/-- The weighted neighbourhood sum of a real table with real edge weights is real, whatever the edge indices: each entry
    is a finite sum of products of reals. -/
theorem isReal_agg {h : Arr Ideal S200000x32 .f32} (ei : Arr Ideal S2x2000000 .i32) {ew : Arr Ideal S2000000 .f32}
    (hh : IsReal h) (hew : IsReal ew) : IsReal (agg h ei ew) := by
  exact f_isReal_scatterAdd _ _ (f_isReal_zeros _)
    (f_isReal_mulf (f_isReal_broadcastInDim _ _ (f_isReal_broadcastInDim _ _ hew)) (f_isReal_gather _ _ hh))

/-- The dense half of the convolution of real arrays is real. -/
theorem isReal_conv {a h : Arr Ideal S200000x32 .f32} {relw : Arr Ideal S32x32 .f32} {relb : Arr Ideal S32 .f32}
    {rootw : Arr Ideal S32x32 .f32}
    (ha : IsReal a) (hh : IsReal h) (hw : IsReal relw) (hb : IsReal relb) (hr : IsReal rootw) :
    IsReal (conv a h relw relb rootw) := by
  exact f_isReal_maximumf
    (f_isReal_addf
      (f_isReal_addf (f_isReal_dotGeneral _ _ ha (f_isReal_transpose _ _ hw)) (f_isReal_rows32 hb))
      (f_isReal_dotGeneral _ _ hh (f_isReal_transpose _ _ hr)))
    (f_isReal_zeros _)

end Cert.ReferenceIdeal.Spec

end
-- ==== Proof.KernelRun.lean ====
import proofs.«112291_j21277267984767_1_alg».proof.Proof.GenP.KernelIdeal.Frame
import proofs.«112291_j21277267984767_1_alg».proof.Proof.Gen.ReferenceIdeal
import proofs.«112291_j21277267984767_1_alg».proof.Proof.Spec
import proofs.«112291_j21277267984767_1_alg».proof.Proof.HostStretch
import proofs.«112291_j21277267984767_1_alg».proof.Proof.Region0
import proofs.«112291_j21277267984767_1_alg».proof.Proof.Region1
import proofs.«112291_j21277267984767_1_alg».proof.Proof.Region2
import proofs.«112291_j21277267984767_1_alg».proof.Proof.Region3
import proofs.«112291_j21277267984767_1_alg».proof.Proof.Region4
import proofs.«112291_j21277267984767_1_alg».proof.Proof.Region5
import proofs.«112291_j21277267984767_1_alg».proof.Proof.Stats
import proofs.«112291_j21277267984767_1_alg».proof.Proof.Reals
import Idealize.ShloMosaic.Lib.StableHlo.Run

/-
  The kernel program's run read as a value: its @main is six kernel regions among six stretches of host
  operations. The buffer contents at each of the twelve segment boundaries are followed from the launch memory to
  the return: a stretch's results are the network's stage functions of the contents it starts from, a region's
  output arrays are the stage functions of its input arrays, and every other buffer is carried over unchanged. At
  the return the result buffer holds the whole network function of the argument arrays.
-/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Cert.ReferenceIdeal (Spec.lin0 Spec.conv Spec.agg Spec.aggSD Spec.src Spec.dst Spec.colsum Spec.squares Spec.mean Spec.var Spec.row32 Spec.bn Spec.bnWith Spec.poolS Spec.poolCnt Spec.col1000 Spec.head Spec.pred Spec.layer Spec.Arr Spec.IsReal Spec.meanRow_colsum Spec.varRow_colsum Spec.isReal_bn Spec.isReal_lin0 Spec.isReal_agg Spec.isReal_conv)

local notation "𝕄" => MT nD τ sig Unit (Elt Ideal) ℕ (UR sig nD τ) ℕ

/-! ## The network's intermediate tables, as functions of the launch memory -/

variable (m : (ℓ : Loc nD τ sig) → Buf (Elt Ideal) ℓ) (ρ : Dev nD → PrngReg)

/-- The projected input table. -/
def t_h0 (c : Dev nD) : Spec.Arr Ideal Cert.ReferenceIdeal.S200000x32 .f32 := Spec.lin0 (F := Ideal) (m ((c : Thread nD τ).loc main_arg0)) (m ((c : Thread nD τ).loc main_arg4)) (m ((c : Thread nD τ).loc main_arg5))
/-- The first convolution's table before normalisation. -/
def t_p0 (c : Dev nD) : Spec.Arr Ideal Cert.ReferenceIdeal.S200000x32 .f32 :=
  Spec.conv (F := Ideal) (Spec.agg (t_h0 m c) (m ((c : Thread nD τ).loc main_arg1)) (m ((c : Thread nD τ).loc main_arg2))) (t_h0 m c) (m ((c : Thread nD τ).loc main_arg6)) (m ((c : Thread nD τ).loc main_arg7)) (m ((c : Thread nD τ).loc main_arg8))
/-- The first layer's output table. -/
def t_h1 (c : Dev nD) : Spec.Arr Ideal Cert.ReferenceIdeal.S200000x32 .f32 := Spec.bn (F := Ideal) (t_p0 m c) (m ((c : Thread nD τ).loc main_arg12)) (m ((c : Thread nD τ).loc main_arg13))
/-- The second convolution's table before normalisation. -/
def t_p1 (c : Dev nD) : Spec.Arr Ideal Cert.ReferenceIdeal.S200000x32 .f32 :=
  Spec.conv (F := Ideal) (Spec.agg (t_h1 m c) (m ((c : Thread nD τ).loc main_arg1)) (m ((c : Thread nD τ).loc main_arg2))) (t_h1 m c) (m ((c : Thread nD τ).loc main_arg9)) (m ((c : Thread nD τ).loc main_arg10)) (m ((c : Thread nD τ).loc main_arg11))
/-- The second layer's output table. -/
def t_h2 (c : Dev nD) : Spec.Arr Ideal Cert.ReferenceIdeal.S200000x32 .f32 := Spec.bn (F := Ideal) (t_p1 m c) (m ((c : Thread nD τ).loc main_arg14)) (m ((c : Thread nD τ).loc main_arg15))

/-- The float arguments the two convolution layers read are tables of reals. -/
def RealArgs (c : Dev nD) : Prop :=
    Spec.IsReal (m ((c : Thread nD τ).loc main_arg0)) ∧ Spec.IsReal (m ((c : Thread nD τ).loc main_arg2))
    ∧ Spec.IsReal (m ((c : Thread nD τ).loc main_arg4)) ∧ Spec.IsReal (m ((c : Thread nD τ).loc main_arg5))
    ∧ Spec.IsReal (m ((c : Thread nD τ).loc main_arg6)) ∧ Spec.IsReal (m ((c : Thread nD τ).loc main_arg7))
    ∧ Spec.IsReal (m ((c : Thread nD τ).loc main_arg8)) ∧ Spec.IsReal (m ((c : Thread nD τ).loc main_arg9))
    ∧ Spec.IsReal (m ((c : Thread nD τ).loc main_arg10)) ∧ Spec.IsReal (m ((c : Thread nD τ).loc main_arg11))
    ∧ Spec.IsReal (m ((c : Thread nD τ).loc main_arg12)) ∧ Spec.IsReal (m ((c : Thread nD τ).loc main_arg13))

/-- A buffer no operation of a stretch writes keeps its contents over the stretch: the stretch's written buffers are
    listed and each is another buffer. -/
local macro "host_skip " ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The buffers at each segment boundary -/

theorem at1_arg0 (c : Dev nD) : W1 m ρ c (Proc.devRef .tc main_arg0) = m ((c : Thread nD τ).loc main_arg0) := by
  show StableHlo.after hostOps0 (W0 m ρ c) (Proc.devRef .tc main_arg0) = _
  refine Eq.trans ?_ (rfl : W0 m ρ c (Proc.devRef .tc main_arg0) = _)
  host_skip hostOps0

theorem at1_arg2 (c : Dev nD) : W1 m ρ c (Proc.devRef .tc main_arg2) = m ((c : Thread nD τ).loc main_arg2) := by
  show StableHlo.after hostOps0 (W0 m ρ c) (Proc.devRef .tc main_arg2) = _
  refine Eq.trans ?_ (rfl : W0 m ρ c (Proc.devRef .tc main_arg2) = _)
  host_skip hostOps0

theorem at1_arg3 (c : Dev nD) : W1 m ρ c (Proc.devRef .tc main_arg3) = m ((c : Thread nD τ).loc main_arg3) := by
  show StableHlo.after hostOps0 (W0 m ρ c) (Proc.devRef .tc main_arg3) = _
  refine Eq.trans ?_ (rfl : W0 m ρ c (Proc.devRef .tc main_arg3) = _)
  host_skip hostOps0

theorem at1_arg4 (c : Dev nD) : W1 m ρ c (Proc.devRef .tc main_arg4) = m ((c : Thread nD τ).loc main_arg4) := by
  show StableHlo.after hostOps0 (W0 m ρ c) (Proc.devRef .tc main_arg4) = _
  refine Eq.trans ?_ (rfl : W0 m ρ c (Proc.devRef .tc main_arg4) = _)
  host_skip hostOps0

theorem at1_arg5 (c : Dev nD) : W1 m ρ c (Proc.devRef .tc main_arg5) = m ((c : Thread nD τ).loc main_arg5) := by
  show StableHlo.after hostOps0 (W0 m ρ c) (Proc.devRef .tc main_arg5) = _
  refine Eq.trans ?_ (rfl : W0 m ρ c (Proc.devRef .tc main_arg5) = _)
  host_skip hostOps0

theorem at1_arg6 (c : Dev nD) : W1 m ρ c (Proc.devRef .tc main_arg6) = m ((c : Thread nD τ).loc main_arg6) := by
  show StableHlo.after hostOps0 (W0 m ρ c) (Proc.devRef .tc main_arg6) = _
  refine Eq.trans ?_ (rfl : W0 m ρ c (Proc.devRef .tc main_arg6) = _)
  host_skip hostOps0

theorem at1_arg7 (c : Dev nD) : W1 m ρ c (Proc.devRef .tc main_arg7) = m ((c : Thread nD τ).loc main_arg7) := by
  show StableHlo.after hostOps0 (W0 m ρ c) (Proc.devRef .tc main_arg7) = _
  refine Eq.trans ?_ (rfl : W0 m ρ c (Proc.devRef .tc main_arg7) = _)
  host_skip hostOps0

theorem at1_arg8 (c : Dev nD) : W1 m ρ c (Proc.devRef .tc main_arg8) = m ((c : Thread nD τ).loc main_arg8) := by
  show StableHlo.after hostOps0 (W0 m ρ c) (Proc.devRef .tc main_arg8) = _
  refine Eq.trans ?_ (rfl : W0 m ρ c (Proc.devRef .tc main_arg8) = _)
  host_skip hostOps0

theorem at1_arg9 (c : Dev nD) : W1 m ρ c (Proc.devRef .tc main_arg9) = m ((c : Thread nD τ).loc main_arg9) := by
  show StableHlo.after hostOps0 (W0 m ρ c) (Proc.devRef .tc main_arg9) = _
  refine Eq.trans ?_ (rfl : W0 m ρ c (Proc.devRef .tc main_arg9) = _)
  host_skip hostOps0

theorem at1_arg10 (c : Dev nD) : W1 m ρ c (Proc.devRef .tc main_arg10) = m ((c : Thread nD τ).loc main_arg10) := by
  show StableHlo.after hostOps0 (W0 m ρ c) (Proc.devRef .tc main_arg10) = _
  refine Eq.trans ?_ (rfl : W0 m ρ c (Proc.devRef .tc main_arg10) = _)
  host_skip hostOps0

theorem at1_arg11 (c : Dev nD) : W1 m ρ c (Proc.devRef .tc main_arg11) = m ((c : Thread nD τ).loc main_arg11) := by
  show StableHlo.after hostOps0 (W0 m ρ c) (Proc.devRef .tc main_arg11) = _
  refine Eq.trans ?_ (rfl : W0 m ρ c (Proc.devRef .tc main_arg11) = _)
  host_skip hostOps0

theorem at1_arg12 (c : Dev nD) : W1 m ρ c (Proc.devRef .tc main_arg12) = m ((c : Thread nD τ).loc main_arg12) := by
  show StableHlo.after hostOps0 (W0 m ρ c) (Proc.devRef .tc main_arg12) = _
  refine Eq.trans ?_ (rfl : W0 m ρ c (Proc.devRef .tc main_arg12) = _)
  host_skip hostOps0

theorem at1_arg13 (c : Dev nD) : W1 m ρ c (Proc.devRef .tc main_arg13) = m ((c : Thread nD τ).loc main_arg13) := by
  show StableHlo.after hostOps0 (W0 m ρ c) (Proc.devRef .tc main_arg13) = _
  refine Eq.trans ?_ (rfl : W0 m ρ c (Proc.devRef .tc main_arg13) = _)
  host_skip hostOps0

theorem at1_arg14 (c : Dev nD) : W1 m ρ c (Proc.devRef .tc main_arg14) = m ((c : Thread nD τ).loc main_arg14) := by
  show StableHlo.after hostOps0 (W0 m ρ c) (Proc.devRef .tc main_arg14) = _
  refine Eq.trans ?_ (rfl : W0 m ρ c (Proc.devRef .tc main_arg14) = _)
  host_skip hostOps0

theorem at1_arg15 (c : Dev nD) : W1 m ρ c (Proc.devRef .tc main_arg15) = m ((c : Thread nD τ).loc main_arg15) := by
  show StableHlo.after hostOps0 (W0 m ρ c) (Proc.devRef .tc main_arg15) = _
  refine Eq.trans ?_ (rfl : W0 m ρ c (Proc.devRef .tc main_arg15) = _)
  host_skip hostOps0

theorem at1_arg16 (c : Dev nD) : W1 m ρ c (Proc.devRef .tc main_arg16) = m ((c : Thread nD τ).loc main_arg16) := by
  show StableHlo.after hostOps0 (W0 m ρ c) (Proc.devRef .tc main_arg16) = _
  refine Eq.trans ?_ (rfl : W0 m ρ c (Proc.devRef .tc main_arg16) = _)
  host_skip hostOps0

theorem at1_arg17 (c : Dev nD) : W1 m ρ c (Proc.devRef .tc main_arg17) = m ((c : Thread nD τ).loc main_arg17) := by
  show StableHlo.after hostOps0 (W0 m ρ c) (Proc.devRef .tc main_arg17) = _
  refine Eq.trans ?_ (rfl : W0 m ρ c (Proc.devRef .tc main_arg17) = _)
  host_skip hostOps0

theorem at1_arg18 (c : Dev nD) : W1 m ρ c (Proc.devRef .tc main_arg18) = m ((c : Thread nD τ).loc main_arg18) := by
  show StableHlo.after hostOps0 (W0 m ρ c) (Proc.devRef .tc main_arg18) = _
  refine Eq.trans ?_ (rfl : W0 m ρ c (Proc.devRef .tc main_arg18) = _)
  host_skip hostOps0

theorem at1_arg19 (c : Dev nD) : W1 m ρ c (Proc.devRef .tc main_arg19) = m ((c : Thread nD τ).loc main_arg19) := by
  show StableHlo.after hostOps0 (W0 m ρ c) (Proc.devRef .tc main_arg19) = _
  refine Eq.trans ?_ (rfl : W0 m ρ c (Proc.devRef .tc main_arg19) = _)
  host_skip hostOps0

theorem at1_v1 (c : Dev nD) : W1 m ρ c (Proc.devRef .tc main_v1) = Spec.src (F := Ideal) (m ((c : Thread nD τ).loc main_arg1)) := HostStretch.host0_v1 (W0 m ρ c)

theorem at1_v3 (c : Dev nD) : W1 m ρ c (Proc.devRef .tc main_v3) = Spec.dst (F := Ideal) (m ((c : Thread nD τ).loc main_arg1)) := HostStretch.host0_v3 (W0 m ρ c)

/-- After region 0 its output array is the projected input table. -/
theorem at2_v4 (c : Dev nD) : W2 m ρ c (Proc.devRef .tc main_v4) = t_h0 m c := by
  refine (W2_arr m ρ c 3).trans ?_
  refine (Region0.region0_value (V1 m ρ) c).trans ?_
  unfold t_h0
  rw [show V1 m ρ c main_arg0 = m ((c : Thread nD τ).loc main_arg0) from at1_arg0 m ρ c, show V1 m ρ c main_arg4 = m ((c : Thread nD τ).loc main_arg4) from at1_arg4 m ρ c,
    show V1 m ρ c main_arg5 = m ((c : Thread nD τ).loc main_arg5) from at1_arg5 m ρ c]

theorem at2_v1 (c : Dev nD) : W2 m ρ c (Proc.devRef .tc main_v1) = Spec.src (F := Ideal) (m ((c : Thread nD τ).loc main_arg1)) :=
  (W2_of_ne m ρ c main_v1 (by decide)).trans (at1_v1 m ρ c)

theorem at2_v3 (c : Dev nD) : W2 m ρ c (Proc.devRef .tc main_v3) = Spec.dst (F := Ideal) (m ((c : Thread nD τ).loc main_arg1)) :=
  (W2_of_ne m ρ c main_v3 (by decide)).trans (at1_v3 m ρ c)

theorem at2_arg2 (c : Dev nD) : W2 m ρ c (Proc.devRef .tc main_arg2) = m ((c : Thread nD τ).loc main_arg2) :=
  (W2_of_ne m ρ c main_arg2 (by decide)).trans (at1_arg2 m ρ c)

theorem at2_arg3 (c : Dev nD) : W2 m ρ c (Proc.devRef .tc main_arg3) = m ((c : Thread nD τ).loc main_arg3) :=
  (W2_of_ne m ρ c main_arg3 (by decide)).trans (at1_arg3 m ρ c)

theorem at2_arg6 (c : Dev nD) : W2 m ρ c (Proc.devRef .tc main_arg6) = m ((c : Thread nD τ).loc main_arg6) :=
  (W2_of_ne m ρ c main_arg6 (by decide)).trans (at1_arg6 m ρ c)

theorem at2_arg7 (c : Dev nD) : W2 m ρ c (Proc.devRef .tc main_arg7) = m ((c : Thread nD τ).loc main_arg7) :=
  (W2_of_ne m ρ c main_arg7 (by decide)).trans (at1_arg7 m ρ c)

theorem at2_arg8 (c : Dev nD) : W2 m ρ c (Proc.devRef .tc main_arg8) = m ((c : Thread nD τ).loc main_arg8) :=
  (W2_of_ne m ρ c main_arg8 (by decide)).trans (at1_arg8 m ρ c)

theorem at2_arg9 (c : Dev nD) : W2 m ρ c (Proc.devRef .tc main_arg9) = m ((c : Thread nD τ).loc main_arg9) :=
  (W2_of_ne m ρ c main_arg9 (by decide)).trans (at1_arg9 m ρ c)

theorem at2_arg10 (c : Dev nD) : W2 m ρ c (Proc.devRef .tc main_arg10) = m ((c : Thread nD τ).loc main_arg10) :=
  (W2_of_ne m ρ c main_arg10 (by decide)).trans (at1_arg10 m ρ c)

theorem at2_arg11 (c : Dev nD) : W2 m ρ c (Proc.devRef .tc main_arg11) = m ((c : Thread nD τ).loc main_arg11) :=
  (W2_of_ne m ρ c main_arg11 (by decide)).trans (at1_arg11 m ρ c)

theorem at2_arg12 (c : Dev nD) : W2 m ρ c (Proc.devRef .tc main_arg12) = m ((c : Thread nD τ).loc main_arg12) :=
  (W2_of_ne m ρ c main_arg12 (by decide)).trans (at1_arg12 m ρ c)

theorem at2_arg13 (c : Dev nD) : W2 m ρ c (Proc.devRef .tc main_arg13) = m ((c : Thread nD τ).loc main_arg13) :=
  (W2_of_ne m ρ c main_arg13 (by decide)).trans (at1_arg13 m ρ c)

theorem at2_arg14 (c : Dev nD) : W2 m ρ c (Proc.devRef .tc main_arg14) = m ((c : Thread nD τ).loc main_arg14) :=
  (W2_of_ne m ρ c main_arg14 (by decide)).trans (at1_arg14 m ρ c)

theorem at2_arg15 (c : Dev nD) : W2 m ρ c (Proc.devRef .tc main_arg15) = m ((c : Thread nD τ).loc main_arg15) :=
  (W2_of_ne m ρ c main_arg15 (by decide)).trans (at1_arg15 m ρ c)

theorem at2_arg16 (c : Dev nD) : W2 m ρ c (Proc.devRef .tc main_arg16) = m ((c : Thread nD τ).loc main_arg16) :=
  (W2_of_ne m ρ c main_arg16 (by decide)).trans (at1_arg16 m ρ c)

theorem at2_arg17 (c : Dev nD) : W2 m ρ c (Proc.devRef .tc main_arg17) = m ((c : Thread nD τ).loc main_arg17) :=
  (W2_of_ne m ρ c main_arg17 (by decide)).trans (at1_arg17 m ρ c)

theorem at2_arg18 (c : Dev nD) : W2 m ρ c (Proc.devRef .tc main_arg18) = m ((c : Thread nD τ).loc main_arg18) :=
  (W2_of_ne m ρ c main_arg18 (by decide)).trans (at1_arg18 m ρ c)

theorem at2_arg19 (c : Dev nD) : W2 m ρ c (Proc.devRef .tc main_arg19) = m ((c : Thread nD τ).loc main_arg19) :=
  (W2_of_ne m ρ c main_arg19 (by decide)).trans (at1_arg19 m ρ c)

/-- At region 1's entry the neighbourhood-sum buffer holds the weighted neighbourhood sum of the projected table. -/
theorem at3_v17 (c : Dev nD) : W3 m ρ c (Proc.devRef .tc main_v17) = Spec.agg (F := Ideal) (t_h0 m c) (m ((c : Thread nD τ).loc main_arg1)) (m ((c : Thread nD τ).loc main_arg2)) := by
  refine (HostStretch.host1_v17 (W2 m ρ c)).trans ?_
  rw [at2_v4 m ρ c, at2_v1 m ρ c, at2_v3 m ρ c, at2_arg2 m ρ c]
  rfl

theorem at3_v4 (c : Dev nD) : W3 m ρ c (Proc.devRef .tc main_v4) = t_h0 m c := by
  refine Eq.trans ?_ (at2_v4 m ρ c)
  show StableHlo.after hostOps1 (W2 m ρ c) (Proc.devRef .tc main_v4) = W2 m ρ c (Proc.devRef .tc main_v4)
  host_skip hostOps1

theorem at3_v1 (c : Dev nD) : W3 m ρ c (Proc.devRef .tc main_v1) = Spec.src (F := Ideal) (m ((c : Thread nD τ).loc main_arg1)) := by
  refine Eq.trans ?_ (at2_v1 m ρ c)
  show StableHlo.after hostOps1 (W2 m ρ c) (Proc.devRef .tc main_v1) = W2 m ρ c (Proc.devRef .tc main_v1)
  host_skip hostOps1

theorem at3_v3 (c : Dev nD) : W3 m ρ c (Proc.devRef .tc main_v3) = Spec.dst (F := Ideal) (m ((c : Thread nD τ).loc main_arg1)) := by
  refine Eq.trans ?_ (at2_v3 m ρ c)
  show StableHlo.after hostOps1 (W2 m ρ c) (Proc.devRef .tc main_v3) = W2 m ρ c (Proc.devRef .tc main_v3)
  host_skip hostOps1

theorem at3_arg2 (c : Dev nD) : W3 m ρ c (Proc.devRef .tc main_arg2) = m ((c : Thread nD τ).loc main_arg2) := by
  refine Eq.trans ?_ (at2_arg2 m ρ c)
  show StableHlo.after hostOps1 (W2 m ρ c) (Proc.devRef .tc main_arg2) = W2 m ρ c (Proc.devRef .tc main_arg2)
  host_skip hostOps1

theorem at3_arg3 (c : Dev nD) : W3 m ρ c (Proc.devRef .tc main_arg3) = m ((c : Thread nD τ).loc main_arg3) := by
  refine Eq.trans ?_ (at2_arg3 m ρ c)
  show StableHlo.after hostOps1 (W2 m ρ c) (Proc.devRef .tc main_arg3) = W2 m ρ c (Proc.devRef .tc main_arg3)
  host_skip hostOps1

theorem at3_arg6 (c : Dev nD) : W3 m ρ c (Proc.devRef .tc main_arg6) = m ((c : Thread nD τ).loc main_arg6) := by
  refine Eq.trans ?_ (at2_arg6 m ρ c)
  show StableHlo.after hostOps1 (W2 m ρ c) (Proc.devRef .tc main_arg6) = W2 m ρ c (Proc.devRef .tc main_arg6)
  host_skip hostOps1

theorem at3_arg7 (c : Dev nD) : W3 m ρ c (Proc.devRef .tc main_arg7) = m ((c : Thread nD τ).loc main_arg7) := by
  refine Eq.trans ?_ (at2_arg7 m ρ c)
  show StableHlo.after hostOps1 (W2 m ρ c) (Proc.devRef .tc main_arg7) = W2 m ρ c (Proc.devRef .tc main_arg7)
  host_skip hostOps1

theorem at3_arg8 (c : Dev nD) : W3 m ρ c (Proc.devRef .tc main_arg8) = m ((c : Thread nD τ).loc main_arg8) := by
  refine Eq.trans ?_ (at2_arg8 m ρ c)
  show StableHlo.after hostOps1 (W2 m ρ c) (Proc.devRef .tc main_arg8) = W2 m ρ c (Proc.devRef .tc main_arg8)
  host_skip hostOps1

theorem at3_arg9 (c : Dev nD) : W3 m ρ c (Proc.devRef .tc main_arg9) = m ((c : Thread nD τ).loc main_arg9) := by
  refine Eq.trans ?_ (at2_arg9 m ρ c)
  show StableHlo.after hostOps1 (W2 m ρ c) (Proc.devRef .tc main_arg9) = W2 m ρ c (Proc.devRef .tc main_arg9)
  host_skip hostOps1

theorem at3_arg10 (c : Dev nD) : W3 m ρ c (Proc.devRef .tc main_arg10) = m ((c : Thread nD τ).loc main_arg10) := by
  refine Eq.trans ?_ (at2_arg10 m ρ c)
  show StableHlo.after hostOps1 (W2 m ρ c) (Proc.devRef .tc main_arg10) = W2 m ρ c (Proc.devRef .tc main_arg10)
  host_skip hostOps1

theorem at3_arg11 (c : Dev nD) : W3 m ρ c (Proc.devRef .tc main_arg11) = m ((c : Thread nD τ).loc main_arg11) := by
  refine Eq.trans ?_ (at2_arg11 m ρ c)
  show StableHlo.after hostOps1 (W2 m ρ c) (Proc.devRef .tc main_arg11) = W2 m ρ c (Proc.devRef .tc main_arg11)
  host_skip hostOps1

theorem at3_arg12 (c : Dev nD) : W3 m ρ c (Proc.devRef .tc main_arg12) = m ((c : Thread nD τ).loc main_arg12) := by
  refine Eq.trans ?_ (at2_arg12 m ρ c)
  show StableHlo.after hostOps1 (W2 m ρ c) (Proc.devRef .tc main_arg12) = W2 m ρ c (Proc.devRef .tc main_arg12)
  host_skip hostOps1

theorem at3_arg13 (c : Dev nD) : W3 m ρ c (Proc.devRef .tc main_arg13) = m ((c : Thread nD τ).loc main_arg13) := by
  refine Eq.trans ?_ (at2_arg13 m ρ c)
  show StableHlo.after hostOps1 (W2 m ρ c) (Proc.devRef .tc main_arg13) = W2 m ρ c (Proc.devRef .tc main_arg13)
  host_skip hostOps1

theorem at3_arg14 (c : Dev nD) : W3 m ρ c (Proc.devRef .tc main_arg14) = m ((c : Thread nD τ).loc main_arg14) := by
  refine Eq.trans ?_ (at2_arg14 m ρ c)
  show StableHlo.after hostOps1 (W2 m ρ c) (Proc.devRef .tc main_arg14) = W2 m ρ c (Proc.devRef .tc main_arg14)
  host_skip hostOps1

theorem at3_arg15 (c : Dev nD) : W3 m ρ c (Proc.devRef .tc main_arg15) = m ((c : Thread nD τ).loc main_arg15) := by
  refine Eq.trans ?_ (at2_arg15 m ρ c)
  show StableHlo.after hostOps1 (W2 m ρ c) (Proc.devRef .tc main_arg15) = W2 m ρ c (Proc.devRef .tc main_arg15)
  host_skip hostOps1

theorem at3_arg16 (c : Dev nD) : W3 m ρ c (Proc.devRef .tc main_arg16) = m ((c : Thread nD τ).loc main_arg16) := by
  refine Eq.trans ?_ (at2_arg16 m ρ c)
  show StableHlo.after hostOps1 (W2 m ρ c) (Proc.devRef .tc main_arg16) = W2 m ρ c (Proc.devRef .tc main_arg16)
  host_skip hostOps1

theorem at3_arg17 (c : Dev nD) : W3 m ρ c (Proc.devRef .tc main_arg17) = m ((c : Thread nD τ).loc main_arg17) := by
  refine Eq.trans ?_ (at2_arg17 m ρ c)
  show StableHlo.after hostOps1 (W2 m ρ c) (Proc.devRef .tc main_arg17) = W2 m ρ c (Proc.devRef .tc main_arg17)
  host_skip hostOps1

theorem at3_arg18 (c : Dev nD) : W3 m ρ c (Proc.devRef .tc main_arg18) = m ((c : Thread nD τ).loc main_arg18) := by
  refine Eq.trans ?_ (at2_arg18 m ρ c)
  show StableHlo.after hostOps1 (W2 m ρ c) (Proc.devRef .tc main_arg18) = W2 m ρ c (Proc.devRef .tc main_arg18)
  host_skip hostOps1

theorem at3_arg19 (c : Dev nD) : W3 m ρ c (Proc.devRef .tc main_arg19) = m ((c : Thread nD τ).loc main_arg19) := by
  refine Eq.trans ?_ (at2_arg19 m ρ c)
  show StableHlo.after hostOps1 (W2 m ρ c) (Proc.devRef .tc main_arg19) = W2 m ρ c (Proc.devRef .tc main_arg19)
  host_skip hostOps1

/-- After region 1 its first output array is the convolution table. -/
theorem at4_v18_0 (c : Dev nD) : W4 m ρ c (Proc.devRef .tc main_v18_0) = t_p0 m c := by
  refine (W4_arr m ρ c 5).trans ?_
  refine (Region1.region1_pre (V3 m ρ) c).trans ?_
  rw [show V3 m ρ c main_v17 = _ from at3_v17 m ρ c,
    show V3 m ρ c main_v4 = _ from at3_v4 m ρ c,
    show V3 m ρ c main_arg6 = _ from at3_arg6 m ρ c,
    show V3 m ρ c main_arg7 = _ from at3_arg7 m ρ c,
    show V3 m ρ c main_arg8 = _ from at3_arg8 m ρ c]
  rfl

/-- After region 1 its second output array is the row of the convolution table's column sums. -/
theorem at4_v18_1 (c : Dev nD) : W4 m ρ c (Proc.devRef .tc main_v18_1) = Spec.row32 (F := Ideal) (Spec.colsum (t_p0 m c)) := by
  refine (W4_arr m ρ c 6).trans ?_
  refine (Region1.region1_sum (V3 m ρ) c).trans ?_
  rw [show V3 m ρ c main_v17 = _ from at3_v17 m ρ c,
    show V3 m ρ c main_v4 = _ from at3_v4 m ρ c,
    show V3 m ρ c main_arg6 = _ from at3_arg6 m ρ c,
    show V3 m ρ c main_arg7 = _ from at3_arg7 m ρ c,
    show V3 m ρ c main_arg8 = _ from at3_arg8 m ρ c]
  rfl

/-- After region 1 its third output array is the row of the column sums of the table's squares. -/
theorem at4_v18_2 (c : Dev nD) : W4 m ρ c (Proc.devRef .tc main_v18_2) = Spec.row32 (F := Ideal) (Spec.colsum (Spec.squares (t_p0 m c))) := by
  refine (W4_arr m ρ c 7).trans ?_
  refine (Region1.region1_sumsq (V3 m ρ) c).trans ?_
  rw [show V3 m ρ c main_v17 = _ from at3_v17 m ρ c,
    show V3 m ρ c main_v4 = _ from at3_v4 m ρ c,
    show V3 m ρ c main_arg6 = _ from at3_arg6 m ρ c,
    show V3 m ρ c main_arg7 = _ from at3_arg7 m ρ c,
    show V3 m ρ c main_arg8 = _ from at3_arg8 m ρ c]
  rfl

theorem at4_v1 (c : Dev nD) : W4 m ρ c (Proc.devRef .tc main_v1) = Spec.src (F := Ideal) (m ((c : Thread nD τ).loc main_arg1)) :=
  (W4_of_ne m ρ c main_v1 (by decide)).trans (at3_v1 m ρ c)

theorem at4_v3 (c : Dev nD) : W4 m ρ c (Proc.devRef .tc main_v3) = Spec.dst (F := Ideal) (m ((c : Thread nD τ).loc main_arg1)) :=
  (W4_of_ne m ρ c main_v3 (by decide)).trans (at3_v3 m ρ c)

theorem at4_arg2 (c : Dev nD) : W4 m ρ c (Proc.devRef .tc main_arg2) = m ((c : Thread nD τ).loc main_arg2) :=
  (W4_of_ne m ρ c main_arg2 (by decide)).trans (at3_arg2 m ρ c)

theorem at4_arg3 (c : Dev nD) : W4 m ρ c (Proc.devRef .tc main_arg3) = m ((c : Thread nD τ).loc main_arg3) :=
  (W4_of_ne m ρ c main_arg3 (by decide)).trans (at3_arg3 m ρ c)

theorem at4_arg9 (c : Dev nD) : W4 m ρ c (Proc.devRef .tc main_arg9) = m ((c : Thread nD τ).loc main_arg9) :=
  (W4_of_ne m ρ c main_arg9 (by decide)).trans (at3_arg9 m ρ c)

theorem at4_arg10 (c : Dev nD) : W4 m ρ c (Proc.devRef .tc main_arg10) = m ((c : Thread nD τ).loc main_arg10) :=
  (W4_of_ne m ρ c main_arg10 (by decide)).trans (at3_arg10 m ρ c)

theorem at4_arg11 (c : Dev nD) : W4 m ρ c (Proc.devRef .tc main_arg11) = m ((c : Thread nD τ).loc main_arg11) :=
  (W4_of_ne m ρ c main_arg11 (by decide)).trans (at3_arg11 m ρ c)

theorem at4_arg12 (c : Dev nD) : W4 m ρ c (Proc.devRef .tc main_arg12) = m ((c : Thread nD τ).loc main_arg12) :=
  (W4_of_ne m ρ c main_arg12 (by decide)).trans (at3_arg12 m ρ c)

theorem at4_arg13 (c : Dev nD) : W4 m ρ c (Proc.devRef .tc main_arg13) = m ((c : Thread nD τ).loc main_arg13) :=
  (W4_of_ne m ρ c main_arg13 (by decide)).trans (at3_arg13 m ρ c)

theorem at4_arg14 (c : Dev nD) : W4 m ρ c (Proc.devRef .tc main_arg14) = m ((c : Thread nD τ).loc main_arg14) :=
  (W4_of_ne m ρ c main_arg14 (by decide)).trans (at3_arg14 m ρ c)

theorem at4_arg15 (c : Dev nD) : W4 m ρ c (Proc.devRef .tc main_arg15) = m ((c : Thread nD τ).loc main_arg15) :=
  (W4_of_ne m ρ c main_arg15 (by decide)).trans (at3_arg15 m ρ c)

theorem at4_arg16 (c : Dev nD) : W4 m ρ c (Proc.devRef .tc main_arg16) = m ((c : Thread nD τ).loc main_arg16) :=
  (W4_of_ne m ρ c main_arg16 (by decide)).trans (at3_arg16 m ρ c)

theorem at4_arg17 (c : Dev nD) : W4 m ρ c (Proc.devRef .tc main_arg17) = m ((c : Thread nD τ).loc main_arg17) :=
  (W4_of_ne m ρ c main_arg17 (by decide)).trans (at3_arg17 m ρ c)

theorem at4_arg18 (c : Dev nD) : W4 m ρ c (Proc.devRef .tc main_arg18) = m ((c : Thread nD τ).loc main_arg18) :=
  (W4_of_ne m ρ c main_arg18 (by decide)).trans (at3_arg18 m ρ c)

theorem at4_arg19 (c : Dev nD) : W4 m ρ c (Proc.devRef .tc main_arg19) = m ((c : Thread nD τ).loc main_arg19) :=
  (W4_of_ne m ρ c main_arg19 (by decide)).trans (at3_arg19 m ρ c)

/-- At the normalisation region's entry the mean buffer holds the row of column means. -/
theorem at5_v20 (c : Dev nD) : W5 m ρ c (Proc.devRef .tc main_v20) = Spec.row32 (F := Ideal) (Spec.mean (t_p0 m c)) := by
  refine (HostStretch.host2_v20 (W4 m ρ c)).trans ?_
  rw [at4_v18_1 m ρ c]
  exact Spec.meanRow_colsum _

/-- At the normalisation region's entry the variance buffer holds the row of column variances: the table is real. -/
theorem at5_v24 (c : Dev nD) (hp : Spec.IsReal (t_p0 m c)) : W5 m ρ c (Proc.devRef .tc main_v24) = Spec.row32 (F := Ideal) (Spec.var (t_p0 m c)) := by
  refine (HostStretch.host2_v24 (W4 m ρ c)).trans ?_
  rw [at4_v18_1 m ρ c, at4_v18_2 m ρ c]
  exact Spec.varRow_colsum _ hp

theorem at5_v18_0 (c : Dev nD) : W5 m ρ c (Proc.devRef .tc main_v18_0) = t_p0 m c := by
  refine Eq.trans ?_ (at4_v18_0 m ρ c)
  show StableHlo.after hostOps2 (W4 m ρ c) (Proc.devRef .tc main_v18_0) = W4 m ρ c (Proc.devRef .tc main_v18_0)
  host_skip hostOps2

theorem at5_v1 (c : Dev nD) : W5 m ρ c (Proc.devRef .tc main_v1) = Spec.src (F := Ideal) (m ((c : Thread nD τ).loc main_arg1)) := by
  refine Eq.trans ?_ (at4_v1 m ρ c)
  show StableHlo.after hostOps2 (W4 m ρ c) (Proc.devRef .tc main_v1) = W4 m ρ c (Proc.devRef .tc main_v1)
  host_skip hostOps2

theorem at5_v3 (c : Dev nD) : W5 m ρ c (Proc.devRef .tc main_v3) = Spec.dst (F := Ideal) (m ((c : Thread nD τ).loc main_arg1)) := by
  refine Eq.trans ?_ (at4_v3 m ρ c)
  show StableHlo.after hostOps2 (W4 m ρ c) (Proc.devRef .tc main_v3) = W4 m ρ c (Proc.devRef .tc main_v3)
  host_skip hostOps2

theorem at5_arg2 (c : Dev nD) : W5 m ρ c (Proc.devRef .tc main_arg2) = m ((c : Thread nD τ).loc main_arg2) := by
  refine Eq.trans ?_ (at4_arg2 m ρ c)
  show StableHlo.after hostOps2 (W4 m ρ c) (Proc.devRef .tc main_arg2) = W4 m ρ c (Proc.devRef .tc main_arg2)
  host_skip hostOps2

theorem at5_arg3 (c : Dev nD) : W5 m ρ c (Proc.devRef .tc main_arg3) = m ((c : Thread nD τ).loc main_arg3) := by
  refine Eq.trans ?_ (at4_arg3 m ρ c)
  show StableHlo.after hostOps2 (W4 m ρ c) (Proc.devRef .tc main_arg3) = W4 m ρ c (Proc.devRef .tc main_arg3)
  host_skip hostOps2

theorem at5_arg9 (c : Dev nD) : W5 m ρ c (Proc.devRef .tc main_arg9) = m ((c : Thread nD τ).loc main_arg9) := by
  refine Eq.trans ?_ (at4_arg9 m ρ c)
  show StableHlo.after hostOps2 (W4 m ρ c) (Proc.devRef .tc main_arg9) = W4 m ρ c (Proc.devRef .tc main_arg9)
  host_skip hostOps2

theorem at5_arg10 (c : Dev nD) : W5 m ρ c (Proc.devRef .tc main_arg10) = m ((c : Thread nD τ).loc main_arg10) := by
  refine Eq.trans ?_ (at4_arg10 m ρ c)
  show StableHlo.after hostOps2 (W4 m ρ c) (Proc.devRef .tc main_arg10) = W4 m ρ c (Proc.devRef .tc main_arg10)
  host_skip hostOps2

theorem at5_arg11 (c : Dev nD) : W5 m ρ c (Proc.devRef .tc main_arg11) = m ((c : Thread nD τ).loc main_arg11) := by
  refine Eq.trans ?_ (at4_arg11 m ρ c)
  show StableHlo.after hostOps2 (W4 m ρ c) (Proc.devRef .tc main_arg11) = W4 m ρ c (Proc.devRef .tc main_arg11)
  host_skip hostOps2

theorem at5_arg12 (c : Dev nD) : W5 m ρ c (Proc.devRef .tc main_arg12) = m ((c : Thread nD τ).loc main_arg12) := by
  refine Eq.trans ?_ (at4_arg12 m ρ c)
  show StableHlo.after hostOps2 (W4 m ρ c) (Proc.devRef .tc main_arg12) = W4 m ρ c (Proc.devRef .tc main_arg12)
  host_skip hostOps2

theorem at5_arg13 (c : Dev nD) : W5 m ρ c (Proc.devRef .tc main_arg13) = m ((c : Thread nD τ).loc main_arg13) := by
  refine Eq.trans ?_ (at4_arg13 m ρ c)
  show StableHlo.after hostOps2 (W4 m ρ c) (Proc.devRef .tc main_arg13) = W4 m ρ c (Proc.devRef .tc main_arg13)
  host_skip hostOps2

theorem at5_arg14 (c : Dev nD) : W5 m ρ c (Proc.devRef .tc main_arg14) = m ((c : Thread nD τ).loc main_arg14) := by
  refine Eq.trans ?_ (at4_arg14 m ρ c)
  show StableHlo.after hostOps2 (W4 m ρ c) (Proc.devRef .tc main_arg14) = W4 m ρ c (Proc.devRef .tc main_arg14)
  host_skip hostOps2

theorem at5_arg15 (c : Dev nD) : W5 m ρ c (Proc.devRef .tc main_arg15) = m ((c : Thread nD τ).loc main_arg15) := by
  refine Eq.trans ?_ (at4_arg15 m ρ c)
  show StableHlo.after hostOps2 (W4 m ρ c) (Proc.devRef .tc main_arg15) = W4 m ρ c (Proc.devRef .tc main_arg15)
  host_skip hostOps2

theorem at5_arg16 (c : Dev nD) : W5 m ρ c (Proc.devRef .tc main_arg16) = m ((c : Thread nD τ).loc main_arg16) := by
  refine Eq.trans ?_ (at4_arg16 m ρ c)
  show StableHlo.after hostOps2 (W4 m ρ c) (Proc.devRef .tc main_arg16) = W4 m ρ c (Proc.devRef .tc main_arg16)
  host_skip hostOps2

theorem at5_arg17 (c : Dev nD) : W5 m ρ c (Proc.devRef .tc main_arg17) = m ((c : Thread nD τ).loc main_arg17) := by
  refine Eq.trans ?_ (at4_arg17 m ρ c)
  show StableHlo.after hostOps2 (W4 m ρ c) (Proc.devRef .tc main_arg17) = W4 m ρ c (Proc.devRef .tc main_arg17)
  host_skip hostOps2

theorem at5_arg18 (c : Dev nD) : W5 m ρ c (Proc.devRef .tc main_arg18) = m ((c : Thread nD τ).loc main_arg18) := by
  refine Eq.trans ?_ (at4_arg18 m ρ c)
  show StableHlo.after hostOps2 (W4 m ρ c) (Proc.devRef .tc main_arg18) = W4 m ρ c (Proc.devRef .tc main_arg18)
  host_skip hostOps2

theorem at5_arg19 (c : Dev nD) : W5 m ρ c (Proc.devRef .tc main_arg19) = m ((c : Thread nD τ).loc main_arg19) := by
  refine Eq.trans ?_ (at4_arg19 m ρ c)
  show StableHlo.after hostOps2 (W4 m ρ c) (Proc.devRef .tc main_arg19) = W4 m ρ c (Proc.devRef .tc main_arg19)
  host_skip hostOps2

/-- The projected table is real. -/
theorem real_h0 (c : Dev nD) (hr : RealArgs m c) : Spec.IsReal (t_h0 m c) :=
  Spec.isReal_lin0 hr.1 hr.2.2.1 hr.2.2.2.1
/-- The first convolution table is real. -/
theorem real_p0 (c : Dev nD) (hr : RealArgs m c) : Spec.IsReal (t_p0 m c) :=
  Spec.isReal_conv (Spec.isReal_agg _ (real_h0 m c hr) hr.2.1) (real_h0 m c hr) hr.2.2.2.2.1 hr.2.2.2.2.2.1 hr.2.2.2.2.2.2.1
/-- The first layer's output table is real. -/
theorem real_h1 (c : Dev nD) (hr : RealArgs m c) : Spec.IsReal (t_h1 m c) :=
  Spec.isReal_bn (real_p0 m c hr) hr.2.2.2.2.2.2.2.2.2.2.1 hr.2.2.2.2.2.2.2.2.2.2.2
/-- The second convolution table is real. -/
theorem real_p1 (c : Dev nD) (hr : RealArgs m c) : Spec.IsReal (t_p1 m c) :=
  Spec.isReal_conv (Spec.isReal_agg _ (real_h1 m c hr) hr.2.1) (real_h1 m c hr) hr.2.2.2.2.2.2.2.1 hr.2.2.2.2.2.2.2.2.1 hr.2.2.2.2.2.2.2.2.2.1

/-- After region 2 its output array is the layer's normalised table. -/
theorem at6_v25 (c : Dev nD) (hr : RealArgs m c) : W6 m ρ c (Proc.devRef .tc main_v25) = t_h1 m c := by
  refine (W6_arr m ρ c 5).trans ?_
  refine (Region2.region2_value (V5 m ρ) c (Spec.mean (t_p0 m c)) (Spec.var (t_p0 m c))
    (at5_v20 m ρ c) (at5_v24 m ρ c (real_p0 m c hr))).trans ?_
  rw [show V5 m ρ c main_v18_0 = _ from at5_v18_0 m ρ c, show V5 m ρ c main_arg12 = _ from at5_arg12 m ρ c,
    show V5 m ρ c main_arg13 = _ from at5_arg13 m ρ c]
  rfl

theorem at6_v1 (c : Dev nD) : W6 m ρ c (Proc.devRef .tc main_v1) = Spec.src (F := Ideal) (m ((c : Thread nD τ).loc main_arg1)) :=
  (W6_of_ne m ρ c main_v1 (by decide)).trans (at5_v1 m ρ c)

theorem at6_v3 (c : Dev nD) : W6 m ρ c (Proc.devRef .tc main_v3) = Spec.dst (F := Ideal) (m ((c : Thread nD τ).loc main_arg1)) :=
  (W6_of_ne m ρ c main_v3 (by decide)).trans (at5_v3 m ρ c)

theorem at6_arg2 (c : Dev nD) : W6 m ρ c (Proc.devRef .tc main_arg2) = m ((c : Thread nD τ).loc main_arg2) :=
  (W6_of_ne m ρ c main_arg2 (by decide)).trans (at5_arg2 m ρ c)

theorem at6_arg3 (c : Dev nD) : W6 m ρ c (Proc.devRef .tc main_arg3) = m ((c : Thread nD τ).loc main_arg3) :=
  (W6_of_ne m ρ c main_arg3 (by decide)).trans (at5_arg3 m ρ c)

theorem at6_arg9 (c : Dev nD) : W6 m ρ c (Proc.devRef .tc main_arg9) = m ((c : Thread nD τ).loc main_arg9) :=
  (W6_of_ne m ρ c main_arg9 (by decide)).trans (at5_arg9 m ρ c)

theorem at6_arg10 (c : Dev nD) : W6 m ρ c (Proc.devRef .tc main_arg10) = m ((c : Thread nD τ).loc main_arg10) :=
  (W6_of_ne m ρ c main_arg10 (by decide)).trans (at5_arg10 m ρ c)

theorem at6_arg11 (c : Dev nD) : W6 m ρ c (Proc.devRef .tc main_arg11) = m ((c : Thread nD τ).loc main_arg11) :=
  (W6_of_ne m ρ c main_arg11 (by decide)).trans (at5_arg11 m ρ c)

theorem at6_arg14 (c : Dev nD) : W6 m ρ c (Proc.devRef .tc main_arg14) = m ((c : Thread nD τ).loc main_arg14) :=
  (W6_of_ne m ρ c main_arg14 (by decide)).trans (at5_arg14 m ρ c)

theorem at6_arg15 (c : Dev nD) : W6 m ρ c (Proc.devRef .tc main_arg15) = m ((c : Thread nD τ).loc main_arg15) :=
  (W6_of_ne m ρ c main_arg15 (by decide)).trans (at5_arg15 m ρ c)

theorem at6_arg16 (c : Dev nD) : W6 m ρ c (Proc.devRef .tc main_arg16) = m ((c : Thread nD τ).loc main_arg16) :=
  (W6_of_ne m ρ c main_arg16 (by decide)).trans (at5_arg16 m ρ c)

theorem at6_arg17 (c : Dev nD) : W6 m ρ c (Proc.devRef .tc main_arg17) = m ((c : Thread nD τ).loc main_arg17) :=
  (W6_of_ne m ρ c main_arg17 (by decide)).trans (at5_arg17 m ρ c)

theorem at6_arg18 (c : Dev nD) : W6 m ρ c (Proc.devRef .tc main_arg18) = m ((c : Thread nD τ).loc main_arg18) :=
  (W6_of_ne m ρ c main_arg18 (by decide)).trans (at5_arg18 m ρ c)

theorem at6_arg19 (c : Dev nD) : W6 m ρ c (Proc.devRef .tc main_arg19) = m ((c : Thread nD τ).loc main_arg19) :=
  (W6_of_ne m ρ c main_arg19 (by decide)).trans (at5_arg19 m ρ c)

/-- At region 3's entry the neighbourhood-sum buffer holds the weighted neighbourhood sum of the first layer's output. -/
theorem at7_v38 (c : Dev nD) (hr : RealArgs m c) : W7 m ρ c (Proc.devRef .tc main_v38) = Spec.agg (F := Ideal) (t_h1 m c) (m ((c : Thread nD τ).loc main_arg1)) (m ((c : Thread nD τ).loc main_arg2)) := by
  refine (HostStretch.host3_v38 (W6 m ρ c)).trans ?_
  rw [at6_v25 m ρ c hr, at6_v1 m ρ c, at6_v3 m ρ c, at6_arg2 m ρ c]
  rfl

theorem at7_v25 (c : Dev nD) (hr : RealArgs m c) : W7 m ρ c (Proc.devRef .tc main_v25) = t_h1 m c := by
  refine Eq.trans ?_ (at6_v25 m ρ c hr)
  show StableHlo.after hostOps3 (W6 m ρ c) (Proc.devRef .tc main_v25) = W6 m ρ c (Proc.devRef .tc main_v25)
  host_skip hostOps3

theorem at7_arg3 (c : Dev nD) : W7 m ρ c (Proc.devRef .tc main_arg3) = m ((c : Thread nD τ).loc main_arg3) := by
  refine Eq.trans ?_ (at6_arg3 m ρ c)
  show StableHlo.after hostOps3 (W6 m ρ c) (Proc.devRef .tc main_arg3) = W6 m ρ c (Proc.devRef .tc main_arg3)
  host_skip hostOps3

theorem at7_arg9 (c : Dev nD) : W7 m ρ c (Proc.devRef .tc main_arg9) = m ((c : Thread nD τ).loc main_arg9) := by
  refine Eq.trans ?_ (at6_arg9 m ρ c)
  show StableHlo.after hostOps3 (W6 m ρ c) (Proc.devRef .tc main_arg9) = W6 m ρ c (Proc.devRef .tc main_arg9)
  host_skip hostOps3

theorem at7_arg10 (c : Dev nD) : W7 m ρ c (Proc.devRef .tc main_arg10) = m ((c : Thread nD τ).loc main_arg10) := by
  refine Eq.trans ?_ (at6_arg10 m ρ c)
  show StableHlo.after hostOps3 (W6 m ρ c) (Proc.devRef .tc main_arg10) = W6 m ρ c (Proc.devRef .tc main_arg10)
  host_skip hostOps3

theorem at7_arg11 (c : Dev nD) : W7 m ρ c (Proc.devRef .tc main_arg11) = m ((c : Thread nD τ).loc main_arg11) := by
  refine Eq.trans ?_ (at6_arg11 m ρ c)
  show StableHlo.after hostOps3 (W6 m ρ c) (Proc.devRef .tc main_arg11) = W6 m ρ c (Proc.devRef .tc main_arg11)
  host_skip hostOps3

theorem at7_arg14 (c : Dev nD) : W7 m ρ c (Proc.devRef .tc main_arg14) = m ((c : Thread nD τ).loc main_arg14) := by
  refine Eq.trans ?_ (at6_arg14 m ρ c)
  show StableHlo.after hostOps3 (W6 m ρ c) (Proc.devRef .tc main_arg14) = W6 m ρ c (Proc.devRef .tc main_arg14)
  host_skip hostOps3

theorem at7_arg15 (c : Dev nD) : W7 m ρ c (Proc.devRef .tc main_arg15) = m ((c : Thread nD τ).loc main_arg15) := by
  refine Eq.trans ?_ (at6_arg15 m ρ c)
  show StableHlo.after hostOps3 (W6 m ρ c) (Proc.devRef .tc main_arg15) = W6 m ρ c (Proc.devRef .tc main_arg15)
  host_skip hostOps3

theorem at7_arg16 (c : Dev nD) : W7 m ρ c (Proc.devRef .tc main_arg16) = m ((c : Thread nD τ).loc main_arg16) := by
  refine Eq.trans ?_ (at6_arg16 m ρ c)
  show StableHlo.after hostOps3 (W6 m ρ c) (Proc.devRef .tc main_arg16) = W6 m ρ c (Proc.devRef .tc main_arg16)
  host_skip hostOps3

theorem at7_arg17 (c : Dev nD) : W7 m ρ c (Proc.devRef .tc main_arg17) = m ((c : Thread nD τ).loc main_arg17) := by
  refine Eq.trans ?_ (at6_arg17 m ρ c)
  show StableHlo.after hostOps3 (W6 m ρ c) (Proc.devRef .tc main_arg17) = W6 m ρ c (Proc.devRef .tc main_arg17)
  host_skip hostOps3

theorem at7_arg18 (c : Dev nD) : W7 m ρ c (Proc.devRef .tc main_arg18) = m ((c : Thread nD τ).loc main_arg18) := by
  refine Eq.trans ?_ (at6_arg18 m ρ c)
  show StableHlo.after hostOps3 (W6 m ρ c) (Proc.devRef .tc main_arg18) = W6 m ρ c (Proc.devRef .tc main_arg18)
  host_skip hostOps3

theorem at7_arg19 (c : Dev nD) : W7 m ρ c (Proc.devRef .tc main_arg19) = m ((c : Thread nD τ).loc main_arg19) := by
  refine Eq.trans ?_ (at6_arg19 m ρ c)
  show StableHlo.after hostOps3 (W6 m ρ c) (Proc.devRef .tc main_arg19) = W6 m ρ c (Proc.devRef .tc main_arg19)
  host_skip hostOps3

/-- After region 3 its first output array is the second convolution table. -/
theorem at8_v39_0 (c : Dev nD) (hr : RealArgs m c) : W8 m ρ c (Proc.devRef .tc main_v39_0) = t_p1 m c := by
  refine (W8_arr m ρ c 5).trans ?_
  refine (Region3.region3_pre (V7 m ρ) c).trans ?_
  rw [show V7 m ρ c main_v38 = _ from at7_v38 m ρ c hr,
    show V7 m ρ c main_v25 = _ from at7_v25 m ρ c hr,
    show V7 m ρ c main_arg9 = _ from at7_arg9 m ρ c,
    show V7 m ρ c main_arg10 = _ from at7_arg10 m ρ c,
    show V7 m ρ c main_arg11 = _ from at7_arg11 m ρ c]
  rfl

/-- After region 3 its second output array is the row of that table's column sums. -/
theorem at8_v39_1 (c : Dev nD) (hr : RealArgs m c) : W8 m ρ c (Proc.devRef .tc main_v39_1) = Spec.row32 (F := Ideal) (Spec.colsum (t_p1 m c)) := by
  refine (W8_arr m ρ c 6).trans ?_
  refine (Region3.region3_sum (V7 m ρ) c).trans ?_
  rw [show V7 m ρ c main_v38 = _ from at7_v38 m ρ c hr,
    show V7 m ρ c main_v25 = _ from at7_v25 m ρ c hr,
    show V7 m ρ c main_arg9 = _ from at7_arg9 m ρ c,
    show V7 m ρ c main_arg10 = _ from at7_arg10 m ρ c,
    show V7 m ρ c main_arg11 = _ from at7_arg11 m ρ c]
  rfl

/-- After region 3 its third output array is the row of the column sums of that table's squares. -/
theorem at8_v39_2 (c : Dev nD) (hr : RealArgs m c) : W8 m ρ c (Proc.devRef .tc main_v39_2) = Spec.row32 (F := Ideal) (Spec.colsum (Spec.squares (t_p1 m c))) := by
  refine (W8_arr m ρ c 7).trans ?_
  refine (Region3.region3_sumsq (V7 m ρ) c).trans ?_
  rw [show V7 m ρ c main_v38 = _ from at7_v38 m ρ c hr,
    show V7 m ρ c main_v25 = _ from at7_v25 m ρ c hr,
    show V7 m ρ c main_arg9 = _ from at7_arg9 m ρ c,
    show V7 m ρ c main_arg10 = _ from at7_arg10 m ρ c,
    show V7 m ρ c main_arg11 = _ from at7_arg11 m ρ c]
  rfl

theorem at8_arg3 (c : Dev nD) : W8 m ρ c (Proc.devRef .tc main_arg3) = m ((c : Thread nD τ).loc main_arg3) :=
  (W8_of_ne m ρ c main_arg3 (by decide)).trans (at7_arg3 m ρ c)

theorem at8_arg14 (c : Dev nD) : W8 m ρ c (Proc.devRef .tc main_arg14) = m ((c : Thread nD τ).loc main_arg14) :=
  (W8_of_ne m ρ c main_arg14 (by decide)).trans (at7_arg14 m ρ c)

theorem at8_arg15 (c : Dev nD) : W8 m ρ c (Proc.devRef .tc main_arg15) = m ((c : Thread nD τ).loc main_arg15) :=
  (W8_of_ne m ρ c main_arg15 (by decide)).trans (at7_arg15 m ρ c)

theorem at8_arg16 (c : Dev nD) : W8 m ρ c (Proc.devRef .tc main_arg16) = m ((c : Thread nD τ).loc main_arg16) :=
  (W8_of_ne m ρ c main_arg16 (by decide)).trans (at7_arg16 m ρ c)

theorem at8_arg17 (c : Dev nD) : W8 m ρ c (Proc.devRef .tc main_arg17) = m ((c : Thread nD τ).loc main_arg17) :=
  (W8_of_ne m ρ c main_arg17 (by decide)).trans (at7_arg17 m ρ c)

theorem at8_arg18 (c : Dev nD) : W8 m ρ c (Proc.devRef .tc main_arg18) = m ((c : Thread nD τ).loc main_arg18) :=
  (W8_of_ne m ρ c main_arg18 (by decide)).trans (at7_arg18 m ρ c)

theorem at8_arg19 (c : Dev nD) : W8 m ρ c (Proc.devRef .tc main_arg19) = m ((c : Thread nD τ).loc main_arg19) :=
  (W8_of_ne m ρ c main_arg19 (by decide)).trans (at7_arg19 m ρ c)

/-- At region 4's entry the mean buffer holds the row of the second table's column means. -/
theorem at9_v41 (c : Dev nD) (hr : RealArgs m c) : W9 m ρ c (Proc.devRef .tc main_v41) = Spec.row32 (F := Ideal) (Spec.mean (t_p1 m c)) := by
  refine (HostStretch.host4_v41 (W8 m ρ c)).trans ?_
  rw [at8_v39_1 m ρ c hr]
  exact Spec.meanRow_colsum _

/-- At region 4's entry the variance buffer holds the row of the second table's column variances. -/
theorem at9_v45 (c : Dev nD) (hr : RealArgs m c) : W9 m ρ c (Proc.devRef .tc main_v45) = Spec.row32 (F := Ideal) (Spec.var (t_p1 m c)) := by
  refine (HostStretch.host4_v45 (W8 m ρ c)).trans ?_
  rw [at8_v39_1 m ρ c hr, at8_v39_2 m ρ c hr]
  exact Spec.varRow_colsum _ (real_p1 m c hr)

theorem at9_v39_0 (c : Dev nD) (hr : RealArgs m c) : W9 m ρ c (Proc.devRef .tc main_v39_0) = t_p1 m c := by
  refine Eq.trans ?_ (at8_v39_0 m ρ c hr)
  show StableHlo.after hostOps4 (W8 m ρ c) (Proc.devRef .tc main_v39_0) = W8 m ρ c (Proc.devRef .tc main_v39_0)
  host_skip hostOps4

theorem at9_arg3 (c : Dev nD) : W9 m ρ c (Proc.devRef .tc main_arg3) = m ((c : Thread nD τ).loc main_arg3) := by
  refine Eq.trans ?_ (at8_arg3 m ρ c)
  show StableHlo.after hostOps4 (W8 m ρ c) (Proc.devRef .tc main_arg3) = W8 m ρ c (Proc.devRef .tc main_arg3)
  host_skip hostOps4

theorem at9_arg14 (c : Dev nD) : W9 m ρ c (Proc.devRef .tc main_arg14) = m ((c : Thread nD τ).loc main_arg14) := by
  refine Eq.trans ?_ (at8_arg14 m ρ c)
  show StableHlo.after hostOps4 (W8 m ρ c) (Proc.devRef .tc main_arg14) = W8 m ρ c (Proc.devRef .tc main_arg14)
  host_skip hostOps4

theorem at9_arg15 (c : Dev nD) : W9 m ρ c (Proc.devRef .tc main_arg15) = m ((c : Thread nD τ).loc main_arg15) := by
  refine Eq.trans ?_ (at8_arg15 m ρ c)
  show StableHlo.after hostOps4 (W8 m ρ c) (Proc.devRef .tc main_arg15) = W8 m ρ c (Proc.devRef .tc main_arg15)
  host_skip hostOps4

theorem at9_arg16 (c : Dev nD) : W9 m ρ c (Proc.devRef .tc main_arg16) = m ((c : Thread nD τ).loc main_arg16) := by
  refine Eq.trans ?_ (at8_arg16 m ρ c)
  show StableHlo.after hostOps4 (W8 m ρ c) (Proc.devRef .tc main_arg16) = W8 m ρ c (Proc.devRef .tc main_arg16)
  host_skip hostOps4

theorem at9_arg17 (c : Dev nD) : W9 m ρ c (Proc.devRef .tc main_arg17) = m ((c : Thread nD τ).loc main_arg17) := by
  refine Eq.trans ?_ (at8_arg17 m ρ c)
  show StableHlo.after hostOps4 (W8 m ρ c) (Proc.devRef .tc main_arg17) = W8 m ρ c (Proc.devRef .tc main_arg17)
  host_skip hostOps4

theorem at9_arg18 (c : Dev nD) : W9 m ρ c (Proc.devRef .tc main_arg18) = m ((c : Thread nD τ).loc main_arg18) := by
  refine Eq.trans ?_ (at8_arg18 m ρ c)
  show StableHlo.after hostOps4 (W8 m ρ c) (Proc.devRef .tc main_arg18) = W8 m ρ c (Proc.devRef .tc main_arg18)
  host_skip hostOps4

theorem at9_arg19 (c : Dev nD) : W9 m ρ c (Proc.devRef .tc main_arg19) = m ((c : Thread nD τ).loc main_arg19) := by
  refine Eq.trans ?_ (at8_arg19 m ρ c)
  show StableHlo.after hostOps4 (W8 m ρ c) (Proc.devRef .tc main_arg19) = W8 m ρ c (Proc.devRef .tc main_arg19)
  host_skip hostOps4

/-- After region 4 its output array is the second layer's normalised table. -/
theorem at10_v46 (c : Dev nD) (hr : RealArgs m c) : W10 m ρ c (Proc.devRef .tc main_v46) = t_h2 m c := by
  refine (W10_arr m ρ c 5).trans ?_
  refine (Region4.region4_value (V9 m ρ) c (Spec.mean (t_p1 m c)) (Spec.var (t_p1 m c)) (at9_v41 m ρ c hr) (at9_v45 m ρ c hr)).trans ?_
  rw [show V9 m ρ c main_v39_0 = _ from at9_v39_0 m ρ c hr, show V9 m ρ c main_arg14 = _ from at9_arg14 m ρ c,
    show V9 m ρ c main_arg15 = _ from at9_arg15 m ρ c]
  rfl

theorem at10_arg3 (c : Dev nD) : W10 m ρ c (Proc.devRef .tc main_arg3) = m ((c : Thread nD τ).loc main_arg3) :=
  (W10_of_ne m ρ c main_arg3 (by decide)).trans (at9_arg3 m ρ c)

theorem at10_arg16 (c : Dev nD) : W10 m ρ c (Proc.devRef .tc main_arg16) = m ((c : Thread nD τ).loc main_arg16) :=
  (W10_of_ne m ρ c main_arg16 (by decide)).trans (at9_arg16 m ρ c)

theorem at10_arg17 (c : Dev nD) : W10 m ρ c (Proc.devRef .tc main_arg17) = m ((c : Thread nD τ).loc main_arg17) :=
  (W10_of_ne m ρ c main_arg17 (by decide)).trans (at9_arg17 m ρ c)

theorem at10_arg18 (c : Dev nD) : W10 m ρ c (Proc.devRef .tc main_arg18) = m ((c : Thread nD τ).loc main_arg18) :=
  (W10_of_ne m ρ c main_arg18 (by decide)).trans (at9_arg18 m ρ c)

theorem at10_arg19 (c : Dev nD) : W10 m ρ c (Proc.devRef .tc main_arg19) = m ((c : Thread nD τ).loc main_arg19) :=
  (W10_of_ne m ρ c main_arg19 (by decide)).trans (at9_arg19 m ρ c)

/-- At the head region's entry the pooled buffer holds the per-graph sums of the second layer's output rows. -/
theorem at11_v49 (c : Dev nD) (hr : RealArgs m c) : W11 m ρ c (Proc.devRef .tc main_v49) = Spec.poolS (F := Ideal) (t_h2 m c) (m ((c : Thread nD τ).loc main_arg3)) := by
  refine (HostStretch.host5_v49 (W10 m ρ c)).trans ?_
  rw [at10_v46 m ρ c hr, at10_arg3 m ρ c]

/-- At the head region's entry the count buffer holds the column of per-graph node counts. -/
theorem at11_v54 (c : Dev nD) : W11 m ρ c (Proc.devRef .tc main_v54) = Spec.col1000 (F := Ideal) (Spec.poolCnt (m ((c : Thread nD τ).loc main_arg3))) := by
  refine (HostStretch.host5_v54 (W10 m ρ c)).trans ?_
  rw [at10_arg3 m ρ c]

theorem at11_arg16 (c : Dev nD) : W11 m ρ c (Proc.devRef .tc main_arg16) = m ((c : Thread nD τ).loc main_arg16) := by
  refine Eq.trans ?_ (at10_arg16 m ρ c)
  show StableHlo.after hostOps5 (W10 m ρ c) (Proc.devRef .tc main_arg16) = W10 m ρ c (Proc.devRef .tc main_arg16)
  host_skip hostOps5

theorem at11_arg17 (c : Dev nD) : W11 m ρ c (Proc.devRef .tc main_arg17) = m ((c : Thread nD τ).loc main_arg17) := by
  refine Eq.trans ?_ (at10_arg17 m ρ c)
  show StableHlo.after hostOps5 (W10 m ρ c) (Proc.devRef .tc main_arg17) = W10 m ρ c (Proc.devRef .tc main_arg17)
  host_skip hostOps5

theorem at11_arg18 (c : Dev nD) : W11 m ρ c (Proc.devRef .tc main_arg18) = m ((c : Thread nD τ).loc main_arg18) := by
  refine Eq.trans ?_ (at10_arg18 m ρ c)
  show StableHlo.after hostOps5 (W10 m ρ c) (Proc.devRef .tc main_arg18) = W10 m ρ c (Proc.devRef .tc main_arg18)
  host_skip hostOps5

theorem at11_arg19 (c : Dev nD) : W11 m ρ c (Proc.devRef .tc main_arg19) = m ((c : Thread nD τ).loc main_arg19) := by
  refine Eq.trans ?_ (at10_arg19 m ρ c)
  show StableHlo.after hostOps5 (W10 m ρ c) (Proc.devRef .tc main_arg19) = W10 m ρ c (Proc.devRef .tc main_arg19)
  host_skip hostOps5

/-- At the return the result buffer holds the network function of the launch memory's arguments. -/
theorem at12_v55 (c : Dev nD) (hr : RealArgs m c) :
    W12 m ρ c (Proc.devRef .tc main_v55) = Spec.pred (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19)) := by
  refine (W12_arr m ρ c 6).trans ?_
  refine (Region5.region5_value (V11 m ρ) c (Spec.poolCnt (m ((c : Thread nD τ).loc main_arg3))) (at11_v54 m ρ c)).trans ?_
  rw [show V11 m ρ c main_v49 = _ from at11_v49 m ρ c hr, show V11 m ρ c main_arg16 = _ from at11_arg16 m ρ c,
    show V11 m ρ c main_arg17 = _ from at11_arg17 m ρ c, show V11 m ρ c main_arg18 = _ from at11_arg18 m ρ c,
    show V11 m ρ c main_arg19 = _ from at11_arg19 m ρ c]
  rfl

/-! ## The run, with the result buffer named

The generated frame's launch over the program's twelve segments, read once more at the end: besides the argument
arrays, the result buffer ends at the last boundary's contents of it. -/

set_option backward.isDefEq.respectTransparency.types false in
/-- Every weakly fair execution of the kernel program terminates, nothing faulting, with the result buffer at the
    contents the last segment boundary gives it and the argument arrays as launched. -/
theorem run_named : θ_run defs (onTc (τ := τ) (main (F := Ideal))) ⟨m, fun _ => 0, ρ⟩ (fun r => ∀ c : Dev nD,
      r.2.mem ((c.tc : Thread nD τ).loc main_v55) = W12 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v55 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

/-- Under real float arguments the kernel program's run ends with the result buffer at the network function of the
    launch memory's arguments, and the arguments unchanged. -/
theorem kernel_run (hr : ∀ c : Dev nD, RealArgs m c) :
    θ_run defs (onTc (τ := τ) (main (F := Ideal))) ⟨m, fun _ => 0, ρ⟩ (fun r => ∀ c : Dev nD,
      r.2.mem ((c.tc : Thread nD τ).loc main_v55)
        = Spec.pred (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (at12_v55 m ρ c (hr c)), (h c).2⟩) (run_named m ρ)

end Cert.KernelIdeal.KRun

end
-- ==== Proof.RefRunOps.lean ====
/-
  The plain-jnp program's @main as a list of its host operations, in order, the outlined functions read in place over
  their calls' buffers, cut into consecutive stretches at the stages of the network; that @main is the straight line of
  that list, and that the list touches TensorCore buffers only and allocates none.
-/
import proofs.«112291_j21277267984767_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable (F : FTy → Type) [FloatOps F]

/-! ## The stretches -/

/-- The edge table's two rows, flattened: the source and the target node of each edge. -/
def opsEdges : List (HloOp τ sig (Elt F)) :=
  unary main_arg1 main_v0 ((extractStridedSlice S1x2000000 ![0, 0] · slices_S2x2000000_S1x2000000_0_0) : (⟨S2x2000000, .i32⟩ : BufTy).Contents (Elt F) → (⟨S1x2000000, .i32⟩ : BufTy).Contents (Elt F)) ::
  reshape main_v0 main_v1 rfl shapeCasts_S1x2000000_S2000000 ::
  unary main_arg1 main_v2 ((extractStridedSlice S1x2000000 ![1, 0] · slices_S2x2000000_S1x2000000_1_0) : (⟨S2x2000000, .i32⟩ : BufTy).Contents (Elt F) → (⟨S1x2000000, .i32⟩ : BufTy).Contents (Elt F)) ::
  reshape main_v2 main_v3 rfl shapeCasts_S1x2000000_S2000000 ::
  []

/-- The input projection `tanh (x · w0ᵀ + b0)`. -/
def opsLin0 : List (HloOp τ sig (Elt F)) :=
  unary main_arg4 main_v4 ((transpose S1x32 [1, 0] · transposes_S32x1_S1x32_1_0) : (⟨S32x1, .f32⟩ : BufTy).Contents (Elt F) → (⟨S1x32, .f32⟩ : BufTy).Contents (Elt F)) ::
  binary main_arg0 main_v4 main_v5 ((fun l r => Host.dotGeneral dot_S200000x1_S1x32_S200000x32_1_0_0_1_n_n none l r) : (⟨S200000x1, .f32⟩ : BufTy).Contents (Elt F) → (⟨S1x32, .f32⟩ : BufTy).Contents (Elt F) → (⟨S200000x32, .f32⟩ : BufTy).Contents (Elt F)) ::
  unary main_arg5 main_v6 (broadcastInDim S1x32 ![1] bcast_S32_S1x32_1 : (⟨S32, .f32⟩ : BufTy).Contents (Elt F) → (⟨S1x32, .f32⟩ : BufTy).Contents (Elt F)) ::
  unary main_v6 main_v7 (broadcastInDim S200000x32 ![0, 1] bcast_S1x32_S200000x32_0_1 : (⟨S1x32, .f32⟩ : BufTy).Contents (Elt F) → (⟨S200000x32, .f32⟩ : BufTy).Contents (Elt F)) ::
  binary main_v5 main_v7 main_v8 (addf : (⟨S200000x32, .f32⟩ : BufTy).Contents (Elt F) → (⟨S200000x32, .f32⟩ : BufTy).Contents (Elt F) → (⟨S200000x32, .f32⟩ : BufTy).Contents (Elt F)) ::
  unary main_v8 main_v9 (Host.tanh : (⟨S200000x32, .f32⟩ : BufTy).Contents (Elt F) → (⟨S200000x32, .f32⟩ : BufTy).Contents (Elt F)) ::
  []

/-- The first layer's weighted neighbourhood sum: the wrapped source indices, the gather, the scaling by the edge weights, the scatter-add into the target rows. -/
def opsAgg0 : List (HloOp τ sig (Elt F)) :=
  unary main_arg2 main_v10 (broadcastInDim S2000000x1 ![0] bcast_S2000000_S2000000x1_0 : (⟨S2000000, .f32⟩ : BufTy).Contents (Elt F) → (⟨S2000000x1, .f32⟩ : BufTy).Contents (Elt F)) ::
  nullary main_c (constantI S_ 32 0#32) ::
  unary main_c main_v11 (broadcastInDim S2000000 ![] bcast_S_S2000000 : (⟨S_, .i32⟩ : BufTy).Contents (Elt F) → (⟨S2000000, .i32⟩ : BufTy).Contents (Elt F)) ::
  binary main_v1 main_v11 main_v12 (cmpi .slt : (⟨S2000000, .i32⟩ : BufTy).Contents (Elt F) → (⟨S2000000, .i32⟩ : BufTy).Contents (Elt F) → (⟨S2000000, .i1⟩ : BufTy).Contents (Elt F)) ::
  nullary main_c_0 (constantI S_ 32 200000#32) ::
  unary main_c_0 main_v13 (broadcastInDim S2000000 ![] bcast_S_S2000000 : (⟨S_, .i32⟩ : BufTy).Contents (Elt F) → (⟨S2000000, .i32⟩ : BufTy).Contents (Elt F)) ::
  binary main_v1 main_v13 main_v14 (addi : (⟨S2000000, .i32⟩ : BufTy).Contents (Elt F) → (⟨S2000000, .i32⟩ : BufTy).Contents (Elt F) → (⟨S2000000, .i32⟩ : BufTy).Contents (Elt F)) ::
  ternary main_v12 main_v14 main_v1 main_v15 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ::
  unary main_v15 main_v16 (broadcastInDim S2000000x1 ![0] bcast_S2000000_S2000000x1_0 : (⟨S2000000, .i32⟩ : BufTy).Contents (Elt F) → (⟨S2000000x1, .i32⟩ : BufTy).Contents (Elt F)) ::
  binary main_v9 main_v16 main_v17 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)) ::
  unary main_v10 main_v18 (broadcastInDim S2000000x32 ![0, 1] bcast_S2000000x1_S2000000x32_0_1 : (⟨S2000000x1, .f32⟩ : BufTy).Contents (Elt F) → (⟨S2000000x32, .f32⟩ : BufTy).Contents (Elt F)) ::
  binary main_v18 main_v17 main_v19 (mulf : (⟨S2000000x32, .f32⟩ : BufTy).Contents (Elt F) → (⟨S2000000x32, .f32⟩ : BufTy).Contents (Elt F) → (⟨S2000000x32, .f32⟩ : BufTy).Contents (Elt F)) ::
  nullary main_cst (constant S_ .f32 0x00000000#32) ::
  unary main_cst main_v20 (broadcastInDim S200000x32 ![] bcast_S_S200000x32 : (⟨S_, .f32⟩ : BufTy).Contents (Elt F) → (⟨S200000x32, .f32⟩ : BufTy).Contents (Elt F)) ::
  unary main_v3 main_v21 (broadcastInDim S2000000x1 ![0] bcast_S2000000_S2000000x1_0 : (⟨S2000000, .i32⟩ : BufTy).Contents (Elt F) → (⟨S2000000x1, .i32⟩ : BufTy).Contents (Elt F)) ::
  ternary main_v20 main_v21 main_v19 main_v22 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)) ::
  []

/-- The first layer's dense half and its relu (the outlined `relu` read in place). -/
def opsConv0 : List (HloOp τ sig (Elt F)) :=
  unary main_arg6 main_v23 ((transpose S32x32 [1, 0] · transposes_S32x32_S32x32_1_0) : (⟨S32x32, .f32⟩ : BufTy).Contents (Elt F) → (⟨S32x32, .f32⟩ : BufTy).Contents (Elt F)) ::
  binary main_v22 main_v23 main_v24 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ::
  unary main_arg7 main_v25 (broadcastInDim S1x32 ![1] bcast_S32_S1x32_1 : (⟨S32, .f32⟩ : BufTy).Contents (Elt F) → (⟨S1x32, .f32⟩ : BufTy).Contents (Elt F)) ::
  unary main_v25 main_v26 (broadcastInDim S200000x32 ![0, 1] bcast_S1x32_S200000x32_0_1 : (⟨S1x32, .f32⟩ : BufTy).Contents (Elt F) → (⟨S200000x32, .f32⟩ : BufTy).Contents (Elt F)) ::
  binary main_v24 main_v26 main_v27 (addf : (⟨S200000x32, .f32⟩ : BufTy).Contents (Elt F) → (⟨S200000x32, .f32⟩ : BufTy).Contents (Elt F) → (⟨S200000x32, .f32⟩ : BufTy).Contents (Elt F)) ::
  unary main_arg8 main_v28 ((transpose S32x32 [1, 0] · transposes_S32x32_S32x32_1_0) : (⟨S32x32, .f32⟩ : BufTy).Contents (Elt F) → (⟨S32x32, .f32⟩ : BufTy).Contents (Elt F)) ::
  binary main_v9 main_v28 main_v29 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ::
  binary main_v27 main_v29 main_v30 (addf : (⟨S200000x32, .f32⟩ : BufTy).Contents (Elt F) → (⟨S200000x32, .f32⟩ : BufTy).Contents (Elt F) → (⟨S200000x32, .f32⟩ : BufTy).Contents (Elt F)) ::
  TRef.nullary main_call0.cst (constant S_ .f32 0x00000000#32) ::
  TRef.unary main_call0.cst main_call0.v0 (broadcastInDim S200000x32 ![] bcast_S_S200000x32) ::
  TRef.binary (.of main_v30) main_call0.v0 main_call0.v1 maximumf ::
  []

/-- The first layer's column means. -/
def opsMean0 : List (HloOp τ sig (Elt F)) :=
  nullary main_cst_1 (constant S_ .f32 0x00000000#32) ::
  binary main_v31 main_cst_1 main_v32 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)) ::
  nullary main_cst_2 (constant S_ .f32 0x48435000#32) ::
  unary main_cst_2 main_v33 (broadcastInDim S32 ![] bcast_S_S32 : (⟨S_, .f32⟩ : BufTy).Contents (Elt F) → (⟨S32, .f32⟩ : BufTy).Contents (Elt F)) ::
  binary main_v32 main_v33 main_v34 (Host.divf : (⟨S32, .f32⟩ : BufTy).Contents (Elt F) → (⟨S32, .f32⟩ : BufTy).Contents (Elt F) → (⟨S32, .f32⟩ : BufTy).Contents (Elt F)) ::
  []

/-- The first layer's column variances (the outlined `_var`, with its `_where`, read in place), after the zero correction it is called with. -/
def opsVar0 : List (HloOp τ sig (Elt F)) :=
  nullary main_c_3 (constantI S_ 32 0#32) ::
  TRef.nullary main_call1.cst (constant S_ .f32 0x00000000#32) ::
  TRef.binary (.of main_v31) main_call1.cst main_call1.v0 (fun x v => Host.reduceAdd x v reducesTo_S200000x32_S32_d0 h_S_) ::
  TRef.unary main_call1.v0 main_call1.v1 (broadcastInDim S1x32 ![1] bcast_S32_S1x32_1) ::
  TRef.nullary main_call1.cst_0 (constant S_ .f32 0x48435000#32) ::
  TRef.unary main_call1.cst_0 main_call1.v2 (broadcastInDim S1x32 ![] bcast_S_S1x32) ::
  TRef.binary main_call1.v1 main_call1.v2 main_call1.v3 Host.divf ::
  TRef.unary main_call1.v3 main_call1.v4 (broadcastInDim S200000x32 ![0, 1] bcast_S1x32_S200000x32_0_1) ::
  TRef.binary (.of main_v31) main_call1.v4 main_call1.v5 subf ::
  TRef.binary main_call1.v5 main_call1.v5 main_call1.v6 mulf ::
  TRef.unary (.of main_c_3) main_call1.v7 (sitofp .f32) ::
  TRef.nullary main_call1.cst_1 (constant S_ .f32 0x48435000#32) ::
  TRef.binary main_call1.cst_1 main_call1.v7 main_call1.v8 subf ::
  TRef.nullary main_call1.cst_2 (constant S_ .f32 0x00000000#32) ::
  TRef.binary main_call1.v6 main_call1.cst_2 main_call1.v9 (fun x v => Host.reduceAdd x v reducesTo_S200000x32_S32_d0 h_S_) ::
  TRef.unary main_call1.v8 main_call1.v10 (broadcastInDim S32 ![] bcast_S_S32) ::
  TRef.binary main_call1.v9 main_call1.v10 main_call1.v11 Host.divf ::
  TRef.nullary main_call1.cst_3 (constant S_ .f32 0x00000000#32) ::
  TRef.binary main_call1.v8 main_call1.cst_3 main_call1.v12 (cmpf .ogt) ::
  TRef.nullary main_call1.cst_4 (constant S_ .f32 0x7FC00000#32) ::
  TRef.unary main_call1.cst_4 main_call1.call0.v0 id ::
  TRef.unary main_call1.call0.v0 main_call1.call0.v1 (broadcastInDim S32 ![] bcast_S_S32) ::
  TRef.ternary main_call1.v12 main_call1.v11 main_call1.call0.v1 main_call1.call0.v2 (fun p a b => select (broadcastInDim S32 ![] bcast_S_S32 p) a b) ::
  []

/-- The first layer's normalisation from its means and variances. -/
def opsBn0 : List (HloOp τ sig (Elt F)) :=
  unary main_v34 main_v36 (broadcastInDim S1x32 ![1] bcast_S32_S1x32_1 : (⟨S32, .f32⟩ : BufTy).Contents (Elt F) → (⟨S1x32, .f32⟩ : BufTy).Contents (Elt F)) ::
  unary main_v36 main_v37 (broadcastInDim S200000x32 ![0, 1] bcast_S1x32_S200000x32_0_1 : (⟨S1x32, .f32⟩ : BufTy).Contents (Elt F) → (⟨S200000x32, .f32⟩ : BufTy).Contents (Elt F)) ::
  binary main_v31 main_v37 main_v38 (subf : (⟨S200000x32, .f32⟩ : BufTy).Contents (Elt F) → (⟨S200000x32, .f32⟩ : BufTy).Contents (Elt F) → (⟨S200000x32, .f32⟩ : BufTy).Contents (Elt F)) ::
  nullary main_cst_4 (constant S_ .f32 0x3727C5AC#32) ::
  unary main_cst_4 main_v39 (broadcastInDim S32 ![] bcast_S_S32 : (⟨S_, .f32⟩ : BufTy).Contents (Elt F) → (⟨S32, .f32⟩ : BufTy).Contents (Elt F)) ::
  binary main_v35 main_v39 main_v40 (addf : (⟨S32, .f32⟩ : BufTy).Contents (Elt F) → (⟨S32, .f32⟩ : BufTy).Contents (Elt F) → (⟨S32, .f32⟩ : BufTy).Contents (Elt F)) ::
  unary main_v40 main_v41 (Host.rsqrt : (⟨S32, .f32⟩ : BufTy).Contents (Elt F) → (⟨S32, .f32⟩ : BufTy).Contents (Elt F)) ::
  unary main_v41 main_v42 (broadcastInDim S1x32 ![1] bcast_S32_S1x32_1 : (⟨S32, .f32⟩ : BufTy).Contents (Elt F) → (⟨S1x32, .f32⟩ : BufTy).Contents (Elt F)) ::
  unary main_v42 main_v43 (broadcastInDim S200000x32 ![0, 1] bcast_S1x32_S200000x32_0_1 : (⟨S1x32, .f32⟩ : BufTy).Contents (Elt F) → (⟨S200000x32, .f32⟩ : BufTy).Contents (Elt F)) ::
  binary main_v38 main_v43 main_v44 (mulf : (⟨S200000x32, .f32⟩ : BufTy).Contents (Elt F) → (⟨S200000x32, .f32⟩ : BufTy).Contents (Elt F) → (⟨S200000x32, .f32⟩ : BufTy).Contents (Elt F)) ::
  unary main_arg12 main_v45 (broadcastInDim S1x32 ![1] bcast_S32_S1x32_1 : (⟨S32, .f32⟩ : BufTy).Contents (Elt F) → (⟨S1x32, .f32⟩ : BufTy).Contents (Elt F)) ::
  unary main_v45 main_v46 (broadcastInDim S200000x32 ![0, 1] bcast_S1x32_S200000x32_0_1 : (⟨S1x32, .f32⟩ : BufTy).Contents (Elt F) → (⟨S200000x32, .f32⟩ : BufTy).Contents (Elt F)) ::
  binary main_v44 main_v46 main_v47 (mulf : (⟨S200000x32, .f32⟩ : BufTy).Contents (Elt F) → (⟨S200000x32, .f32⟩ : BufTy).Contents (Elt F) → (⟨S200000x32, .f32⟩ : BufTy).Contents (Elt F)) ::
  unary main_arg13 main_v48 (broadcastInDim S1x32 ![1] bcast_S32_S1x32_1 : (⟨S32, .f32⟩ : BufTy).Contents (Elt F) → (⟨S1x32, .f32⟩ : BufTy).Contents (Elt F)) ::
  unary main_v48 main_v49 (broadcastInDim S200000x32 ![0, 1] bcast_S1x32_S200000x32_0_1 : (⟨S1x32, .f32⟩ : BufTy).Contents (Elt F) → (⟨S200000x32, .f32⟩ : BufTy).Contents (Elt F)) ::
  binary main_v47 main_v49 main_v50 (addf : (⟨S200000x32, .f32⟩ : BufTy).Contents (Elt F) → (⟨S200000x32, .f32⟩ : BufTy).Contents (Elt F) → (⟨S200000x32, .f32⟩ : BufTy).Contents (Elt F)) ::
  []

/-- The second layer's weighted neighbourhood sum, its first two operations (the edge weights as a column, the zero index). -/
def opsAgg1a : List (HloOp τ sig (Elt F)) :=
  unary main_arg2 main_v51 (broadcastInDim S2000000x1 ![0] bcast_S2000000_S2000000x1_0 : (⟨S2000000, .f32⟩ : BufTy).Contents (Elt F) → (⟨S2000000x1, .f32⟩ : BufTy).Contents (Elt F)) ::
  nullary main_c_5 (constantI S_ 32 0#32) ::
  []

/-- The second layer's weighted neighbourhood sum, the rest: the wrapped source indices, the gather, the scaling, the scatter-add. -/
def opsAgg1b : List (HloOp τ sig (Elt F)) :=
  unary main_c_5 main_v52 (broadcastInDim S2000000 ![] bcast_S_S2000000 : (⟨S_, .i32⟩ : BufTy).Contents (Elt F) → (⟨S2000000, .i32⟩ : BufTy).Contents (Elt F)) ::
  binary main_v1 main_v52 main_v53 (cmpi .slt : (⟨S2000000, .i32⟩ : BufTy).Contents (Elt F) → (⟨S2000000, .i32⟩ : BufTy).Contents (Elt F) → (⟨S2000000, .i1⟩ : BufTy).Contents (Elt F)) ::
  nullary main_c_6 (constantI S_ 32 200000#32) ::
  unary main_c_6 main_v54 (broadcastInDim S2000000 ![] bcast_S_S2000000 : (⟨S_, .i32⟩ : BufTy).Contents (Elt F) → (⟨S2000000, .i32⟩ : BufTy).Contents (Elt F)) ::
  binary main_v1 main_v54 main_v55 (addi : (⟨S2000000, .i32⟩ : BufTy).Contents (Elt F) → (⟨S2000000, .i32⟩ : BufTy).Contents (Elt F) → (⟨S2000000, .i32⟩ : BufTy).Contents (Elt F)) ::
  ternary main_v53 main_v55 main_v1 main_v56 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ::
  unary main_v56 main_v57 (broadcastInDim S2000000x1 ![0] bcast_S2000000_S2000000x1_0 : (⟨S2000000, .i32⟩ : BufTy).Contents (Elt F) → (⟨S2000000x1, .i32⟩ : BufTy).Contents (Elt F)) ::
  binary main_v50 main_v57 main_v58 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)) ::
  unary main_v51 main_v59 (broadcastInDim S2000000x32 ![0, 1] bcast_S2000000x1_S2000000x32_0_1 : (⟨S2000000x1, .f32⟩ : BufTy).Contents (Elt F) → (⟨S2000000x32, .f32⟩ : BufTy).Contents (Elt F)) ::
  binary main_v59 main_v58 main_v60 (mulf : (⟨S2000000x32, .f32⟩ : BufTy).Contents (Elt F) → (⟨S2000000x32, .f32⟩ : BufTy).Contents (Elt F) → (⟨S2000000x32, .f32⟩ : BufTy).Contents (Elt F)) ::
  nullary main_cst_7 (constant S_ .f32 0x00000000#32) ::
  unary main_cst_7 main_v61 (broadcastInDim S200000x32 ![] bcast_S_S200000x32 : (⟨S_, .f32⟩ : BufTy).Contents (Elt F) → (⟨S200000x32, .f32⟩ : BufTy).Contents (Elt F)) ::
  unary main_v3 main_v62 (broadcastInDim S2000000x1 ![0] bcast_S2000000_S2000000x1_0 : (⟨S2000000, .i32⟩ : BufTy).Contents (Elt F) → (⟨S2000000x1, .i32⟩ : BufTy).Contents (Elt F)) ::
  ternary main_v61 main_v62 main_v60 main_v63 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)) ::
  []

/-- The second layer's dense half and its relu. -/
def opsConv1 : List (HloOp τ sig (Elt F)) :=
  unary main_arg9 main_v64 ((transpose S32x32 [1, 0] · transposes_S32x32_S32x32_1_0) : (⟨S32x32, .f32⟩ : BufTy).Contents (Elt F) → (⟨S32x32, .f32⟩ : BufTy).Contents (Elt F)) ::
  binary main_v63 main_v64 main_v65 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ::
  unary main_arg10 main_v66 (broadcastInDim S1x32 ![1] bcast_S32_S1x32_1 : (⟨S32, .f32⟩ : BufTy).Contents (Elt F) → (⟨S1x32, .f32⟩ : BufTy).Contents (Elt F)) ::
  unary main_v66 main_v67 (broadcastInDim S200000x32 ![0, 1] bcast_S1x32_S200000x32_0_1 : (⟨S1x32, .f32⟩ : BufTy).Contents (Elt F) → (⟨S200000x32, .f32⟩ : BufTy).Contents (Elt F)) ::
  binary main_v65 main_v67 main_v68 (addf : (⟨S200000x32, .f32⟩ : BufTy).Contents (Elt F) → (⟨S200000x32, .f32⟩ : BufTy).Contents (Elt F) → (⟨S200000x32, .f32⟩ : BufTy).Contents (Elt F)) ::
  unary main_arg11 main_v69 ((transpose S32x32 [1, 0] · transposes_S32x32_S32x32_1_0) : (⟨S32x32, .f32⟩ : BufTy).Contents (Elt F) → (⟨S32x32, .f32⟩ : BufTy).Contents (Elt F)) ::
  binary main_v50 main_v69 main_v70 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ::
  binary main_v68 main_v70 main_v71 (addf : (⟨S200000x32, .f32⟩ : BufTy).Contents (Elt F) → (⟨S200000x32, .f32⟩ : BufTy).Contents (Elt F) → (⟨S200000x32, .f32⟩ : BufTy).Contents (Elt F)) ::
  TRef.nullary main_call2.cst (constant S_ .f32 0x00000000#32) ::
  TRef.unary main_call2.cst main_call2.v0 (broadcastInDim S200000x32 ![] bcast_S_S200000x32) ::
  TRef.binary (.of main_v71) main_call2.v0 main_call2.v1 maximumf ::
  []

/-- The second layer's column means. -/
def opsMean1 : List (HloOp τ sig (Elt F)) :=
  nullary main_cst_8 (constant S_ .f32 0x00000000#32) ::
  binary main_v72 main_cst_8 main_v73 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)) ::
  nullary main_cst_9 (constant S_ .f32 0x48435000#32) ::
  unary main_cst_9 main_v74 (broadcastInDim S32 ![] bcast_S_S32 : (⟨S_, .f32⟩ : BufTy).Contents (Elt F) → (⟨S32, .f32⟩ : BufTy).Contents (Elt F)) ::
  binary main_v73 main_v74 main_v75 (Host.divf : (⟨S32, .f32⟩ : BufTy).Contents (Elt F) → (⟨S32, .f32⟩ : BufTy).Contents (Elt F) → (⟨S32, .f32⟩ : BufTy).Contents (Elt F)) ::
  []

/-- The second layer's column variances, after the zero correction. -/
def opsVar1 : List (HloOp τ sig (Elt F)) :=
  nullary main_c_10 (constantI S_ 32 0#32) ::
  TRef.nullary main_call3.cst (constant S_ .f32 0x00000000#32) ::
  TRef.binary (.of main_v72) main_call3.cst main_call3.v0 (fun x v => Host.reduceAdd x v reducesTo_S200000x32_S32_d0 h_S_) ::
  TRef.unary main_call3.v0 main_call3.v1 (broadcastInDim S1x32 ![1] bcast_S32_S1x32_1) ::
  TRef.nullary main_call3.cst_0 (constant S_ .f32 0x48435000#32) ::
  TRef.unary main_call3.cst_0 main_call3.v2 (broadcastInDim S1x32 ![] bcast_S_S1x32) ::
  TRef.binary main_call3.v1 main_call3.v2 main_call3.v3 Host.divf ::
  TRef.unary main_call3.v3 main_call3.v4 (broadcastInDim S200000x32 ![0, 1] bcast_S1x32_S200000x32_0_1) ::
  TRef.binary (.of main_v72) main_call3.v4 main_call3.v5 subf ::
  TRef.binary main_call3.v5 main_call3.v5 main_call3.v6 mulf ::
  TRef.unary (.of main_c_10) main_call3.v7 (sitofp .f32) ::
  TRef.nullary main_call3.cst_1 (constant S_ .f32 0x48435000#32) ::
  TRef.binary main_call3.cst_1 main_call3.v7 main_call3.v8 subf ::
  TRef.nullary main_call3.cst_2 (constant S_ .f32 0x00000000#32) ::
  TRef.binary main_call3.v6 main_call3.cst_2 main_call3.v9 (fun x v => Host.reduceAdd x v reducesTo_S200000x32_S32_d0 h_S_) ::
  TRef.unary main_call3.v8 main_call3.v10 (broadcastInDim S32 ![] bcast_S_S32) ::
  TRef.binary main_call3.v9 main_call3.v10 main_call3.v11 Host.divf ::
  TRef.nullary main_call3.cst_3 (constant S_ .f32 0x00000000#32) ::
  TRef.binary main_call3.v8 main_call3.cst_3 main_call3.v12 (cmpf .ogt) ::
  TRef.nullary main_call3.cst_4 (constant S_ .f32 0x7FC00000#32) ::
  TRef.unary main_call3.cst_4 main_call3.call0.v0 id ::
  TRef.unary main_call3.call0.v0 main_call3.call0.v1 (broadcastInDim S32 ![] bcast_S_S32) ::
  TRef.ternary main_call3.v12 main_call3.v11 main_call3.call0.v1 main_call3.call0.v2 (fun p a b => select (broadcastInDim S32 ![] bcast_S_S32 p) a b) ::
  []

/-- The second layer's normalisation. -/
def opsBn1 : List (HloOp τ sig (Elt F)) :=
  unary main_v75 main_v77 (broadcastInDim S1x32 ![1] bcast_S32_S1x32_1 : (⟨S32, .f32⟩ : BufTy).Contents (Elt F) → (⟨S1x32, .f32⟩ : BufTy).Contents (Elt F)) ::
  unary main_v77 main_v78 (broadcastInDim S200000x32 ![0, 1] bcast_S1x32_S200000x32_0_1 : (⟨S1x32, .f32⟩ : BufTy).Contents (Elt F) → (⟨S200000x32, .f32⟩ : BufTy).Contents (Elt F)) ::
  binary main_v72 main_v78 main_v79 (subf : (⟨S200000x32, .f32⟩ : BufTy).Contents (Elt F) → (⟨S200000x32, .f32⟩ : BufTy).Contents (Elt F) → (⟨S200000x32, .f32⟩ : BufTy).Contents (Elt F)) ::
  nullary main_cst_11 (constant S_ .f32 0x3727C5AC#32) ::
  unary main_cst_11 main_v80 (broadcastInDim S32 ![] bcast_S_S32 : (⟨S_, .f32⟩ : BufTy).Contents (Elt F) → (⟨S32, .f32⟩ : BufTy).Contents (Elt F)) ::
  binary main_v76 main_v80 main_v81 (addf : (⟨S32, .f32⟩ : BufTy).Contents (Elt F) → (⟨S32, .f32⟩ : BufTy).Contents (Elt F) → (⟨S32, .f32⟩ : BufTy).Contents (Elt F)) ::
  unary main_v81 main_v82 (Host.rsqrt : (⟨S32, .f32⟩ : BufTy).Contents (Elt F) → (⟨S32, .f32⟩ : BufTy).Contents (Elt F)) ::
  unary main_v82 main_v83 (broadcastInDim S1x32 ![1] bcast_S32_S1x32_1 : (⟨S32, .f32⟩ : BufTy).Contents (Elt F) → (⟨S1x32, .f32⟩ : BufTy).Contents (Elt F)) ::
  unary main_v83 main_v84 (broadcastInDim S200000x32 ![0, 1] bcast_S1x32_S200000x32_0_1 : (⟨S1x32, .f32⟩ : BufTy).Contents (Elt F) → (⟨S200000x32, .f32⟩ : BufTy).Contents (Elt F)) ::
  binary main_v79 main_v84 main_v85 (mulf : (⟨S200000x32, .f32⟩ : BufTy).Contents (Elt F) → (⟨S200000x32, .f32⟩ : BufTy).Contents (Elt F) → (⟨S200000x32, .f32⟩ : BufTy).Contents (Elt F)) ::
  unary main_arg14 main_v86 (broadcastInDim S1x32 ![1] bcast_S32_S1x32_1 : (⟨S32, .f32⟩ : BufTy).Contents (Elt F) → (⟨S1x32, .f32⟩ : BufTy).Contents (Elt F)) ::
  unary main_v86 main_v87 (broadcastInDim S200000x32 ![0, 1] bcast_S1x32_S200000x32_0_1 : (⟨S1x32, .f32⟩ : BufTy).Contents (Elt F) → (⟨S200000x32, .f32⟩ : BufTy).Contents (Elt F)) ::
  binary main_v85 main_v87 main_v88 (mulf : (⟨S200000x32, .f32⟩ : BufTy).Contents (Elt F) → (⟨S200000x32, .f32⟩ : BufTy).Contents (Elt F) → (⟨S200000x32, .f32⟩ : BufTy).Contents (Elt F)) ::
  unary main_arg15 main_v89 (broadcastInDim S1x32 ![1] bcast_S32_S1x32_1 : (⟨S32, .f32⟩ : BufTy).Contents (Elt F) → (⟨S1x32, .f32⟩ : BufTy).Contents (Elt F)) ::
  unary main_v89 main_v90 (broadcastInDim S200000x32 ![0, 1] bcast_S1x32_S200000x32_0_1 : (⟨S1x32, .f32⟩ : BufTy).Contents (Elt F) → (⟨S200000x32, .f32⟩ : BufTy).Contents (Elt F)) ::
  binary main_v88 main_v90 main_v91 (addf : (⟨S200000x32, .f32⟩ : BufTy).Contents (Elt F) → (⟨S200000x32, .f32⟩ : BufTy).Contents (Elt F) → (⟨S200000x32, .f32⟩ : BufTy).Contents (Elt F)) ::
  []

/-- The per-graph sums of the node rows. -/
def opsPoolS : List (HloOp τ sig (Elt F)) :=
  nullary main_cst_12 (constant S_ .f32 0x00000000#32) ::
  unary main_cst_12 main_v92 (broadcastInDim S1000x32 ![] bcast_S_S1000x32 : (⟨S_, .f32⟩ : BufTy).Contents (Elt F) → (⟨S1000x32, .f32⟩ : BufTy).Contents (Elt F)) ::
  unary main_arg3 main_v93 (broadcastInDim S200000x1 ![0] bcast_S200000_S200000x1_0 : (⟨S200000, .i32⟩ : BufTy).Contents (Elt F) → (⟨S200000x1, .i32⟩ : BufTy).Contents (Elt F)) ::
  ternary main_v92 main_v93 main_v91 main_v94 ((fun x i u => Host.scatterAdd scatter_S1000x32_S200000x1_S200000x32_1_0_0_1 x i u) : (⟨S1000x32, .f32⟩ : BufTy).Contents (Elt F) → (⟨S200000x1, .i32⟩ : BufTy).Contents (Elt F) → (⟨S200000x32, .f32⟩ : BufTy).Contents (Elt F) → (⟨S1000x32, .f32⟩ : BufTy).Contents (Elt F)) ::
  []

/-- The per-graph node counts. -/
def opsPoolCnt : List (HloOp τ sig (Elt F)) :=
  nullary main_cst_13 (constant S_ .f32 0x3F800000#32) ::
  unary main_cst_13 main_v95 (broadcastInDim S200000 ![] bcast_S_S200000 : (⟨S_, .f32⟩ : BufTy).Contents (Elt F) → (⟨S200000, .f32⟩ : BufTy).Contents (Elt F)) ::
  nullary main_cst_14 (constant S_ .f32 0x00000000#32) ::
  unary main_cst_14 main_v96 (broadcastInDim S1000 ![] bcast_S_S1000 : (⟨S_, .f32⟩ : BufTy).Contents (Elt F) → (⟨S1000, .f32⟩ : BufTy).Contents (Elt F)) ::
  unary main_arg3 main_v97 (broadcastInDim S200000x1 ![0] bcast_S200000_S200000x1_0 : (⟨S200000, .i32⟩ : BufTy).Contents (Elt F) → (⟨S200000x1, .i32⟩ : BufTy).Contents (Elt F)) ::
  ternary main_v96 main_v97 main_v95 main_v98 ((fun x i u => Host.scatterAdd scatter_S1000_S200000x1_S200000_n_0_0_1 x i u) : (⟨S1000, .f32⟩ : BufTy).Contents (Elt F) → (⟨S200000x1, .i32⟩ : BufTy).Contents (Elt F) → (⟨S200000, .f32⟩ : BufTy).Contents (Elt F) → (⟨S1000, .f32⟩ : BufTy).Contents (Elt F)) ::
  []

/-- The head, its first part: the counts clipped below at one (the outlined `clip` read in place) and spread over the 32 features. -/
def opsHeadA : List (HloOp τ sig (Elt F)) :=
  nullary main_cst_15 (constant S_ .f32 0x3F800000#32) ::
  TRef.unary (.of main_cst_15) main_call4.v0 id ::
  TRef.unary main_call4.v0 main_call4.v1 (broadcastInDim S1000 ![] bcast_S_S1000) ::
  TRef.binary main_call4.v1 (.of main_v98) main_call4.v2 maximumf ::
  unary main_v99 main_v100 (broadcastInDim S1000x1 ![0] bcast_S1000_S1000x1_0 : (⟨S1000, .f32⟩ : BufTy).Contents (Elt F) → (⟨S1000x1, .f32⟩ : BufTy).Contents (Elt F)) ::
  unary main_v100 main_v101 (broadcastInDim S1000x32 ![0, 1] bcast_S1000x1_S1000x32_0_1 : (⟨S1000x1, .f32⟩ : BufTy).Contents (Elt F) → (⟨S1000x32, .f32⟩ : BufTy).Contents (Elt F)) ::
  []

/-- The head, the rest: the mean pooling's division, the relu layer (the outlined `relu_0` read in place), the linear layer. -/
def opsHeadB : List (HloOp τ sig (Elt F)) :=
  binary main_v94 main_v101 main_v102 (Host.divf : (⟨S1000x32, .f32⟩ : BufTy).Contents (Elt F) → (⟨S1000x32, .f32⟩ : BufTy).Contents (Elt F) → (⟨S1000x32, .f32⟩ : BufTy).Contents (Elt F)) ::
  unary main_arg16 main_v103 ((transpose S32x64 [1, 0] · transposes_S64x32_S32x64_1_0) : (⟨S64x32, .f32⟩ : BufTy).Contents (Elt F) → (⟨S32x64, .f32⟩ : BufTy).Contents (Elt F)) ::
  binary main_v102 main_v103 main_v104 ((fun l r => Host.dotGeneral dot_S1000x32_S32x64_S1000x64_1_0_0_1_n_n none l r) : (⟨S1000x32, .f32⟩ : BufTy).Contents (Elt F) → (⟨S32x64, .f32⟩ : BufTy).Contents (Elt F) → (⟨S1000x64, .f32⟩ : BufTy).Contents (Elt F)) ::
  unary main_arg17 main_v105 (broadcastInDim S1x64 ![1] bcast_S64_S1x64_1 : (⟨S64, .f32⟩ : BufTy).Contents (Elt F) → (⟨S1x64, .f32⟩ : BufTy).Contents (Elt F)) ::
  unary main_v105 main_v106 (broadcastInDim S1000x64 ![0, 1] bcast_S1x64_S1000x64_0_1 : (⟨S1x64, .f32⟩ : BufTy).Contents (Elt F) → (⟨S1000x64, .f32⟩ : BufTy).Contents (Elt F)) ::
  binary main_v104 main_v106 main_v107 (addf : (⟨S1000x64, .f32⟩ : BufTy).Contents (Elt F) → (⟨S1000x64, .f32⟩ : BufTy).Contents (Elt F) → (⟨S1000x64, .f32⟩ : BufTy).Contents (Elt F)) ::
  TRef.nullary main_call5.cst (constant S_ .f32 0x00000000#32) ::
  TRef.unary main_call5.cst main_call5.v0 (broadcastInDim S1000x64 ![] bcast_S_S1000x64) ::
  TRef.binary (.of main_v107) main_call5.v0 main_call5.v1 maximumf ::
  unary main_arg18 main_v109 ((transpose S64x5 [1, 0] · transposes_S5x64_S64x5_1_0) : (⟨S5x64, .f32⟩ : BufTy).Contents (Elt F) → (⟨S64x5, .f32⟩ : BufTy).Contents (Elt F)) ::
  binary main_v108 main_v109 main_v110 ((fun l r => Host.dotGeneral dot_S1000x64_S64x5_S1000x5_1_0_0_1_n_n none l r) : (⟨S1000x64, .f32⟩ : BufTy).Contents (Elt F) → (⟨S64x5, .f32⟩ : BufTy).Contents (Elt F) → (⟨S1000x5, .f32⟩ : BufTy).Contents (Elt F)) ::
  unary main_arg19 main_v111 (broadcastInDim S1x5 ![1] bcast_S5_S1x5_1 : (⟨S5, .f32⟩ : BufTy).Contents (Elt F) → (⟨S1x5, .f32⟩ : BufTy).Contents (Elt F)) ::
  unary main_v111 main_v112 (broadcastInDim S1000x5 ![0, 1] bcast_S1x5_S1000x5_0_1 : (⟨S1x5, .f32⟩ : BufTy).Contents (Elt F) → (⟨S1000x5, .f32⟩ : BufTy).Contents (Elt F)) ::
  binary main_v110 main_v112 main_v113 (addf : (⟨S1000x5, .f32⟩ : BufTy).Contents (Elt F) → (⟨S1000x5, .f32⟩ : BufTy).Contents (Elt F) → (⟨S1000x5, .f32⟩ : BufTy).Contents (Elt F)) ::
  []

/-! ## The windows and the whole line -/

/-- @main's first window. -/
def win0 : List (HloOp τ sig (Elt F)) := opsEdges F ++ (opsLin0 F ++ (opsAgg0 F ++ (opsConv0 F ++ (opsMean0 F ++ (opsVar0 F ++ (opsBn0 F ++ (opsAgg1a F)))))))
/-- @main's second window. -/
def win1 : List (HloOp τ sig (Elt F)) := opsAgg1b F ++ (opsConv1 F ++ (opsMean1 F ++ (opsVar1 F ++ (opsBn1 F ++ (opsPoolS F ++ (opsPoolCnt F ++ (opsHeadA F)))))))
/-- @main's third window. -/
def win2 : List (HloOp τ sig (Elt F)) := opsHeadB F
/-- @main's operations, in order. -/
def ops : List (HloOp τ sig (Elt F)) := win0 F ++ (win1 F ++ win2 F)

variable {F}

/-! ## @main is that line

Each window is one chain of host steps once the outlined functions' bodies are unfolded at their calls and sequencing is
reassociated; the three windows in order are then the concatenation. -/

set_option maxRecDepth 8192 in
set_option maxHeartbeats 1600000 in
theorem part0_eq (d : Dev nD) : main_part0 (F := F) d = seq (win0 F) := by
  simp only [main_part0, fn_relu.body, fn_var.body, fn_where.body, win0, opsEdges, opsLin0, opsAgg0, opsConv0, opsMean0, opsVar0, opsBn0, opsAgg1a,
    List.cons_append, List.nil_append, seq, bind_assoc, pure_bind]
  rfl

set_option maxRecDepth 8192 in
set_option maxHeartbeats 1600000 in
theorem part1_eq (d : Dev nD) : main_part1 (F := F) d = seq (win1 F) := by
  simp only [main_part1, fn_relu.body, fn_var.body, fn_where.body, fn_clip.body, win1, opsAgg1b, opsConv1, opsMean1, opsVar1, opsBn1, opsPoolS, opsPoolCnt, opsHeadA,
    List.cons_append, List.nil_append, seq, bind_assoc, pure_bind]
  rfl

set_option maxRecDepth 8192 in
set_option maxHeartbeats 1600000 in
theorem part2_eq (d : Dev nD) : main_part2 (F := F) d = seq (win2 F) := by
  simp only [main_part2, fn_relu_0.body, win2, opsHeadB,
    List.cons_append, List.nil_append, seq, bind_assoc, pure_bind]

theorem main_eq (d : Dev nD) : main (F := F) d = seq (ops F) := by
  rw [ops, seq_append, seq_append, ← part0_eq d, ← part1_eq d, ← part2_eq d]
  rfl

/-! ## The line touches TensorCore buffers only, and allocates none -/

/-- Two lines that each satisfy a property of operations, concatenated. -/
theorem forall_mem_append {P : HloOp τ sig (Elt F) → Prop} {l₁ l₂ : List (HloOp τ sig (Elt F))}
    (h₁ : ∀ op ∈ l₁, P op) (h₂ : ∀ op ∈ l₂, P op) : ∀ op ∈ l₁ ++ l₂, P op :=
  fun op h => (List.mem_append.mp h).elim (h₁ op) (h₂ op)

theorem opsEdges_sub : ∀ op ∈ opsEdges F, op.bufs ⊆ tcRefs τ sig :=
  List.forall_iff_forall_mem.mp (by
    simp only [opsEdges, List.Forall, nullary_bufs_sub, unary_bufs_sub, binary_bufs_sub, ternary_bufs_sub, reshape_bufs_sub, and_self])
theorem opsEdges_fresh : ∀ op ∈ opsEdges F, op.fresh = ∅ :=
  List.forall_iff_forall_mem.mp (by
    unfold opsEdges
    repeat' apply And.intro
    all_goals rfl)

theorem opsLin0_sub : ∀ op ∈ opsLin0 F, op.bufs ⊆ tcRefs τ sig :=
  List.forall_iff_forall_mem.mp (by
    simp only [opsLin0, List.Forall, nullary_bufs_sub, unary_bufs_sub, binary_bufs_sub, ternary_bufs_sub, reshape_bufs_sub, and_self])
theorem opsLin0_fresh : ∀ op ∈ opsLin0 F, op.fresh = ∅ :=
  List.forall_iff_forall_mem.mp (by
    unfold opsLin0
    repeat' apply And.intro
    all_goals rfl)

theorem opsAgg0_sub : ∀ op ∈ opsAgg0 F, op.bufs ⊆ tcRefs τ sig :=
  List.forall_iff_forall_mem.mp (by
    simp only [opsAgg0, List.Forall, nullary_bufs_sub, unary_bufs_sub, binary_bufs_sub, ternary_bufs_sub, reshape_bufs_sub, and_self])
theorem opsAgg0_fresh : ∀ op ∈ opsAgg0 F, op.fresh = ∅ :=
  List.forall_iff_forall_mem.mp (by
    unfold opsAgg0
    repeat' apply And.intro
    all_goals rfl)

theorem opsConv0_sub : ∀ op ∈ opsConv0 F, op.bufs ⊆ tcRefs τ sig :=
  List.forall_iff_forall_mem.mp (by
    simp only [opsConv0, List.Forall, nullary_bufs_sub, unary_bufs_sub, binary_bufs_sub, ternary_bufs_sub, reshape_bufs_sub, and_self])
theorem opsConv0_fresh : ∀ op ∈ opsConv0 F, op.fresh = ∅ :=
  List.forall_iff_forall_mem.mp (by
    unfold opsConv0
    repeat' apply And.intro
    all_goals rfl)

theorem opsMean0_sub : ∀ op ∈ opsMean0 F, op.bufs ⊆ tcRefs τ sig :=
  List.forall_iff_forall_mem.mp (by
    simp only [opsMean0, List.Forall, nullary_bufs_sub, unary_bufs_sub, binary_bufs_sub, ternary_bufs_sub, reshape_bufs_sub, and_self])
theorem opsMean0_fresh : ∀ op ∈ opsMean0 F, op.fresh = ∅ :=
  List.forall_iff_forall_mem.mp (by
    unfold opsMean0
    repeat' apply And.intro
    all_goals rfl)

theorem opsVar0_sub : ∀ op ∈ opsVar0 F, op.bufs ⊆ tcRefs τ sig :=
  List.forall_iff_forall_mem.mp (by
    simp only [opsVar0, List.Forall, nullary_bufs_sub, unary_bufs_sub, binary_bufs_sub, ternary_bufs_sub, reshape_bufs_sub, and_self])
theorem opsVar0_fresh : ∀ op ∈ opsVar0 F, op.fresh = ∅ :=
  List.forall_iff_forall_mem.mp (by
    unfold opsVar0
    repeat' apply And.intro
    all_goals rfl)

theorem opsBn0_sub : ∀ op ∈ opsBn0 F, op.bufs ⊆ tcRefs τ sig :=
  List.forall_iff_forall_mem.mp (by
    simp only [opsBn0, List.Forall, nullary_bufs_sub, unary_bufs_sub, binary_bufs_sub, ternary_bufs_sub, reshape_bufs_sub, and_self])
theorem opsBn0_fresh : ∀ op ∈ opsBn0 F, op.fresh = ∅ :=
  List.forall_iff_forall_mem.mp (by
    unfold opsBn0
    repeat' apply And.intro
    all_goals rfl)

theorem opsAgg1a_sub : ∀ op ∈ opsAgg1a F, op.bufs ⊆ tcRefs τ sig :=
  List.forall_iff_forall_mem.mp (by
    simp only [opsAgg1a, List.Forall, nullary_bufs_sub, unary_bufs_sub, binary_bufs_sub, ternary_bufs_sub, reshape_bufs_sub, and_self])
theorem opsAgg1a_fresh : ∀ op ∈ opsAgg1a F, op.fresh = ∅ :=
  List.forall_iff_forall_mem.mp (by
    unfold opsAgg1a
    repeat' apply And.intro
    all_goals rfl)

theorem opsAgg1b_sub : ∀ op ∈ opsAgg1b F, op.bufs ⊆ tcRefs τ sig :=
  List.forall_iff_forall_mem.mp (by
    simp only [opsAgg1b, List.Forall, nullary_bufs_sub, unary_bufs_sub, binary_bufs_sub, ternary_bufs_sub, reshape_bufs_sub, and_self])
theorem opsAgg1b_fresh : ∀ op ∈ opsAgg1b F, op.fresh = ∅ :=
  List.forall_iff_forall_mem.mp (by
    unfold opsAgg1b
    repeat' apply And.intro
    all_goals rfl)

theorem opsConv1_sub : ∀ op ∈ opsConv1 F, op.bufs ⊆ tcRefs τ sig :=
  List.forall_iff_forall_mem.mp (by
    simp only [opsConv1, List.Forall, nullary_bufs_sub, unary_bufs_sub, binary_bufs_sub, ternary_bufs_sub, reshape_bufs_sub, and_self])
theorem opsConv1_fresh : ∀ op ∈ opsConv1 F, op.fresh = ∅ :=
  List.forall_iff_forall_mem.mp (by
    unfold opsConv1
    repeat' apply And.intro
    all_goals rfl)

theorem opsMean1_sub : ∀ op ∈ opsMean1 F, op.bufs ⊆ tcRefs τ sig :=
  List.forall_iff_forall_mem.mp (by
    simp only [opsMean1, List.Forall, nullary_bufs_sub, unary_bufs_sub, binary_bufs_sub, ternary_bufs_sub, reshape_bufs_sub, and_self])
theorem opsMean1_fresh : ∀ op ∈ opsMean1 F, op.fresh = ∅ :=
  List.forall_iff_forall_mem.mp (by
    unfold opsMean1
    repeat' apply And.intro
    all_goals rfl)

theorem opsVar1_sub : ∀ op ∈ opsVar1 F, op.bufs ⊆ tcRefs τ sig :=
  List.forall_iff_forall_mem.mp (by
    simp only [opsVar1, List.Forall, nullary_bufs_sub, unary_bufs_sub, binary_bufs_sub, ternary_bufs_sub, reshape_bufs_sub, and_self])
theorem opsVar1_fresh : ∀ op ∈ opsVar1 F, op.fresh = ∅ :=
  List.forall_iff_forall_mem.mp (by
    unfold opsVar1
    repeat' apply And.intro
    all_goals rfl)

theorem opsBn1_sub : ∀ op ∈ opsBn1 F, op.bufs ⊆ tcRefs τ sig :=
  List.forall_iff_forall_mem.mp (by
    simp only [opsBn1, List.Forall, nullary_bufs_sub, unary_bufs_sub, binary_bufs_sub, ternary_bufs_sub, reshape_bufs_sub, and_self])
theorem opsBn1_fresh : ∀ op ∈ opsBn1 F, op.fresh = ∅ :=
  List.forall_iff_forall_mem.mp (by
    unfold opsBn1
    repeat' apply And.intro
    all_goals rfl)

theorem opsPoolS_sub : ∀ op ∈ opsPoolS F, op.bufs ⊆ tcRefs τ sig :=
  List.forall_iff_forall_mem.mp (by
    simp only [opsPoolS, List.Forall, nullary_bufs_sub, unary_bufs_sub, binary_bufs_sub, ternary_bufs_sub, reshape_bufs_sub, and_self])
theorem opsPoolS_fresh : ∀ op ∈ opsPoolS F, op.fresh = ∅ :=
  List.forall_iff_forall_mem.mp (by
    unfold opsPoolS
    repeat' apply And.intro
    all_goals rfl)

theorem opsPoolCnt_sub : ∀ op ∈ opsPoolCnt F, op.bufs ⊆ tcRefs τ sig :=
  List.forall_iff_forall_mem.mp (by
    simp only [opsPoolCnt, List.Forall, nullary_bufs_sub, unary_bufs_sub, binary_bufs_sub, ternary_bufs_sub, reshape_bufs_sub, and_self])
theorem opsPoolCnt_fresh : ∀ op ∈ opsPoolCnt F, op.fresh = ∅ :=
  List.forall_iff_forall_mem.mp (by
    unfold opsPoolCnt
    repeat' apply And.intro
    all_goals rfl)

theorem opsHeadA_sub : ∀ op ∈ opsHeadA F, op.bufs ⊆ tcRefs τ sig :=
  List.forall_iff_forall_mem.mp (by
    simp only [opsHeadA, List.Forall, nullary_bufs_sub, unary_bufs_sub, binary_bufs_sub, ternary_bufs_sub, reshape_bufs_sub, and_self])
theorem opsHeadA_fresh : ∀ op ∈ opsHeadA F, op.fresh = ∅ :=
  List.forall_iff_forall_mem.mp (by
    unfold opsHeadA
    repeat' apply And.intro
    all_goals rfl)

theorem opsHeadB_sub : ∀ op ∈ opsHeadB F, op.bufs ⊆ tcRefs τ sig :=
  List.forall_iff_forall_mem.mp (by
    simp only [opsHeadB, List.Forall, nullary_bufs_sub, unary_bufs_sub, binary_bufs_sub, ternary_bufs_sub, reshape_bufs_sub, and_self])
theorem opsHeadB_fresh : ∀ op ∈ opsHeadB F, op.fresh = ∅ :=
  List.forall_iff_forall_mem.mp (by
    unfold opsHeadB
    repeat' apply And.intro
    all_goals rfl)

theorem ops_sub : (ops F).Forall fun op => op.bufs ⊆ tcRefs τ sig :=
  List.forall_iff_forall_mem.mpr (by
    unfold ops win0 win1 win2
    exact forall_mem_append (forall_mem_append opsEdges_sub (forall_mem_append opsLin0_sub (forall_mem_append opsAgg0_sub (forall_mem_append opsConv0_sub (forall_mem_append opsMean0_sub (forall_mem_append opsVar0_sub (forall_mem_append opsBn0_sub (opsAgg1a_sub)))))))) (forall_mem_append (forall_mem_append opsAgg1b_sub (forall_mem_append opsConv1_sub (forall_mem_append opsMean1_sub (forall_mem_append opsVar1_sub (forall_mem_append opsBn1_sub (forall_mem_append opsPoolS_sub (forall_mem_append opsPoolCnt_sub (opsHeadA_sub)))))))) (opsHeadB_sub)))

theorem ops_fresh : ∀ op ∈ ops F, op.fresh = ∅ := by
  unfold ops win0 win1 win2
  exact forall_mem_append (forall_mem_append opsEdges_fresh (forall_mem_append opsLin0_fresh (forall_mem_append opsAgg0_fresh (forall_mem_append opsConv0_fresh (forall_mem_append opsMean0_fresh (forall_mem_append opsVar0_fresh (forall_mem_append opsBn0_fresh (opsAgg1a_fresh)))))))) (forall_mem_append (forall_mem_append opsAgg1b_fresh (forall_mem_append opsConv1_fresh (forall_mem_append opsMean1_fresh (forall_mem_append opsVar1_fresh (forall_mem_append opsBn1_fresh (forall_mem_append opsPoolS_fresh (forall_mem_append opsPoolCnt_fresh (opsHeadA_fresh)))))))) (opsHeadB_fresh))

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates, and every
    final state has each TensorCore buffer at the fold of the operations' results over its launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops F) (launchContents m c) (b : DevRef τ sig) :=
  run_seq scopedRefs_eq scopedSems_eq defs main (fun _ => ops F) main_eq (fun _ => ops_sub) m ρ (fun _ => ops_fresh)

/-! ## Reading the line in stretches -/

/-- The contents after two lines in a row: the second line run from the contents the first leaves. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- A single written buffer lies in the buffers of any list of references holding its reference. -/
theorem writes_sub_of_mem {Wr : List (Ref sig .tc)} {y : Ref sig .tc} (h : y ∈ Wr) :
    ({Proc.devRef .tc y} : Finset (DevRef τ sig)) ⊆ (Wr.map (Proc.devRef (τ := τ) .tc)).toFinset :=
  Finset.singleton_subset_iff.mpr (List.mem_toFinset.mpr (List.mem_map.mpr ⟨y, h, rfl⟩))

end Cert.ReferenceIdeal.RefRun

end
-- ==== Proof.RefRun.lean ====
/-
  The plain-jnp program's run, read stage by stage. The program is a straight line of host operations (RefRunOps: the
  list, cut into stretches at the stages of the network). Each stretch, run from ANY contents `W` of the buffers, leaves
  at its result buffer one stage function of `Spec` applied to what `W` holds at the stretch's operand buffers, and
  leaves every buffer it does not write as it was. Composing the stretches in order, the result buffer of the whole line
  holds `Spec.pred` of the arguments' contents, and the arguments, which no operation writes, are unchanged.
-/
import proofs.«112291_j21277267984767_1_alg».proof.Proof.RefRunOps
import proofs.«112291_j21277267984767_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch computes

Over any contents `W`: the fold of a stretch at its result buffer is, operation by operation, the host term of the
stage; the stage function of `Spec` is that same term by definition. The reductions, the gather, the scatter-add, the
contractions and the transcendental maps are kept folded while the two sides are compared: the comparison never looks
inside them. -/

section Stretches

attribute [local irreducible] Host.reduceAdd Host.gather Host.scatterAdd Host.tanh Host.rsqrt Host.divf

/-- The source node of each edge. -/
theorem edges_src (W : Valuation τ sig (Elt F)) :
    after (opsEdges F) W (no_index (main_v1 : DevRef τ sig)) = Spec.src (F := F) (W (main_arg1 : DevRef τ sig)) := by
  unfold opsEdges
  after_results_simp
  rfl

/-- The target node of each edge. -/
theorem edges_dst (W : Valuation τ sig (Elt F)) :
    after (opsEdges F) W (no_index (main_v3 : DevRef τ sig)) = Spec.dst (F := F) (W (main_arg1 : DevRef τ sig)) := by
  unfold opsEdges
  after_results_simp
  rfl

/-- The input projection. -/
theorem lin0_out (W : Valuation τ sig (Elt F)) :
    after (opsLin0 F) W (no_index (main_v9 : DevRef τ sig))
      = Spec.lin0 (F := F) (W (main_arg0 : DevRef τ sig)) (W (main_arg4 : DevRef τ sig)) (W (main_arg5 : DevRef τ sig)) := by
  unfold opsLin0
  after_results_simp
  rfl

/-- The first layer's weighted neighbourhood sum, from the projected features and the two index vectors. -/
theorem agg0_out (W : Valuation τ sig (Elt F)) :
    after (opsAgg0 F) W (no_index (main_v22 : DevRef τ sig))
      = Spec.aggSD (F := F) (W (main_v9 : DevRef τ sig)) (W (main_v1 : DevRef τ sig)) (W (main_v3 : DevRef τ sig))
          (W (main_arg2 : DevRef τ sig)) := by
  unfold opsAgg0
  after_results_simp
  rfl

/-- The first layer's dense half with its relu. -/
theorem conv0_out (W : Valuation τ sig (Elt F)) :
    after (opsConv0 F) W (no_index (main_v31 : DevRef τ sig))
      = Spec.conv (F := F) (W (main_v22 : DevRef τ sig)) (W (main_v9 : DevRef τ sig)) (W (main_arg6 : DevRef τ sig))
          (W (main_arg7 : DevRef τ sig)) (W (main_arg8 : DevRef τ sig)) := by
  unfold opsConv0
  after_results_simp
  simp only [TRef.toBuf, TRef.ofBuf, cast_eq, id]
  rfl

/-- The first layer's column means. -/
theorem mean0_out (W : Valuation τ sig (Elt F)) :
    after (opsMean0 F) W (no_index (main_v34 : DevRef τ sig)) = Spec.mean (F := F) (W (main_v31 : DevRef τ sig)) := by
  unfold opsMean0
  after_results_simp
  rfl

/-- The first layer's column variances. -/
theorem var0_out (W : Valuation τ sig (Elt F)) :
    after (opsVar0 F) W (no_index (main_v35 : DevRef τ sig)) = Spec.var (F := F) (W (main_v31 : DevRef τ sig)) := by
  unfold opsVar0
  after_results_simp
  simp only [TRef.toBuf, TRef.ofBuf, cast_eq, id]
  rfl

/-- The first layer's normalisation, from the table, its means and its variances. -/
theorem bn0_out (W : Valuation τ sig (Elt F)) :
    after (opsBn0 F) W (no_index (main_v50 : DevRef τ sig))
      = Spec.bnWith (F := F) (W (main_v31 : DevRef τ sig)) (W (main_v34 : DevRef τ sig)) (W (main_v35 : DevRef τ sig))
          (W (main_arg12 : DevRef τ sig)) (W (main_arg13 : DevRef τ sig)) := by
  unfold opsBn0
  after_results_simp
  rfl

/-- The second layer's weighted neighbourhood sum (its two pieces in a row). -/
theorem agg1_out (W : Valuation τ sig (Elt F)) :
    after (opsAgg1b F) (after (opsAgg1a F) W) (no_index (main_v63 : DevRef τ sig))
      = Spec.aggSD (F := F) (W (main_v50 : DevRef τ sig)) (W (main_v1 : DevRef τ sig)) (W (main_v3 : DevRef τ sig))
          (W (main_arg2 : DevRef τ sig)) := by
  rw [← after_concat]
  unfold opsAgg1a opsAgg1b
  simp only [List.cons_append, List.nil_append]
  after_results_simp
  rfl

/-- The second layer's dense half with its relu. -/
theorem conv1_out (W : Valuation τ sig (Elt F)) :
    after (opsConv1 F) W (no_index (main_v72 : DevRef τ sig))
      = Spec.conv (F := F) (W (main_v63 : DevRef τ sig)) (W (main_v50 : DevRef τ sig)) (W (main_arg9 : DevRef τ sig))
          (W (main_arg10 : DevRef τ sig)) (W (main_arg11 : DevRef τ sig)) := by
  unfold opsConv1
  after_results_simp
  simp only [TRef.toBuf, TRef.ofBuf, cast_eq, id]
  rfl

/-- The second layer's column means. -/
theorem mean1_out (W : Valuation τ sig (Elt F)) :
    after (opsMean1 F) W (no_index (main_v75 : DevRef τ sig)) = Spec.mean (F := F) (W (main_v72 : DevRef τ sig)) := by
  unfold opsMean1
  after_results_simp
  rfl

/-- The second layer's column variances. -/
theorem var1_out (W : Valuation τ sig (Elt F)) :
    after (opsVar1 F) W (no_index (main_v76 : DevRef τ sig)) = Spec.var (F := F) (W (main_v72 : DevRef τ sig)) := by
  unfold opsVar1
  after_results_simp
  simp only [TRef.toBuf, TRef.ofBuf, cast_eq, id]
  rfl

/-- The second layer's normalisation. -/
theorem bn1_out (W : Valuation τ sig (Elt F)) :
    after (opsBn1 F) W (no_index (main_v91 : DevRef τ sig))
      = Spec.bnWith (F := F) (W (main_v72 : DevRef τ sig)) (W (main_v75 : DevRef τ sig)) (W (main_v76 : DevRef τ sig))
          (W (main_arg14 : DevRef τ sig)) (W (main_arg15 : DevRef τ sig)) := by
  unfold opsBn1
  after_results_simp
  rfl

/-- The per-graph sums of the node rows. -/
theorem poolS_out (W : Valuation τ sig (Elt F)) :
    after (opsPoolS F) W (no_index (main_v94 : DevRef τ sig))
      = Spec.poolS (F := F) (W (main_v91 : DevRef τ sig)) (W (main_arg3 : DevRef τ sig)) := by
  unfold opsPoolS
  after_results_simp
  rfl

/-- The per-graph node counts. -/
theorem poolCnt_out (W : Valuation τ sig (Elt F)) :
    after (opsPoolCnt F) W (no_index (main_v98 : DevRef τ sig)) = Spec.poolCnt (F := F) (W (main_arg3 : DevRef τ sig)) := by
  unfold opsPoolCnt
  after_results_simp
  rfl

/-- The pooled head (its two pieces in a row). -/
theorem head_out (W : Valuation τ sig (Elt F)) :
    after (opsHeadB F) (after (opsHeadA F) W) (no_index (main_v113 : DevRef τ sig))
      = Spec.head (F := F) (W (main_v94 : DevRef τ sig)) (W (main_v98 : DevRef τ sig)) (W (main_arg16 : DevRef τ sig))
          (W (main_arg17 : DevRef τ sig)) (W (main_arg18 : DevRef τ sig)) (W (main_arg19 : DevRef τ sig)) := by
  rw [← after_concat]
  unfold opsHeadA opsHeadB
  simp only [List.cons_append, List.nil_append]
  after_results_simp
  simp only [TRef.toBuf, TRef.ofBuf, cast_eq, id]
  rfl

end Stretches

/-! ## What each stretch leaves alone

A stretch writes its operations' result buffers and no other: a buffer whose reference is not among them keeps its
contents. -/

/-- The edge rows' stretch leaves every other buffer as it was. -/
theorem edges_frame (W : Valuation τ sig (Elt F)) {r : Ref sig .tc}
    (hr : r ∉ [main_v0, main_v1, main_v2, main_v3]) :
    after (opsEdges F) W (no_index (Proc.devRef .tc r)) = W (Proc.devRef .tc r) :=
  after_of_writes_sub (opsEdges F) W (by
    unfold opsEdges
    repeat' apply And.intro
    all_goals exact writes_sub_of_mem (by decide)) hr

/-- The projection's stretch leaves every other buffer as it was. -/
theorem lin0_frame (W : Valuation τ sig (Elt F)) {r : Ref sig .tc}
    (hr : r ∉ [main_v4, main_v5, main_v6, main_v7, main_v8, main_v9]) :
    after (opsLin0 F) W (no_index (Proc.devRef .tc r)) = W (Proc.devRef .tc r) :=
  after_of_writes_sub (opsLin0 F) W (by
    unfold opsLin0
    repeat' apply And.intro
    all_goals exact writes_sub_of_mem (by decide)) hr

/-- The first neighbourhood sum's stretch leaves every other buffer as it was. -/
theorem agg0_frame (W : Valuation τ sig (Elt F)) {r : Ref sig .tc}
    (hr : r ∉ [main_v10, main_c, main_v11, main_v12, main_c_0, main_v13, main_v14, main_v15, main_v16, main_v17, main_v18, main_v19, main_cst, main_v20, main_v21, main_v22]) :
    after (opsAgg0 F) W (no_index (Proc.devRef .tc r)) = W (Proc.devRef .tc r) :=
  after_of_writes_sub (opsAgg0 F) W (by
    unfold opsAgg0
    repeat' apply And.intro
    all_goals exact writes_sub_of_mem (by decide)) hr

/-- The first dense half's stretch leaves every other buffer as it was. -/
theorem conv0_frame (W : Valuation τ sig (Elt F)) {r : Ref sig .tc}
    (hr : r ∉ [main_v23, main_v24, main_v25, main_v26, main_v27, main_v28, main_v29, main_v30, main_call0.cst.ref, main_call0.v0.ref, main_call0.v1.ref]) :
    after (opsConv0 F) W (no_index (Proc.devRef .tc r)) = W (Proc.devRef .tc r) :=
  after_of_writes_sub (opsConv0 F) W (by
    unfold opsConv0
    repeat' apply And.intro
    all_goals exact writes_sub_of_mem (by decide)) hr

/-- The first means' stretch leaves every other buffer as it was. -/
theorem mean0_frame (W : Valuation τ sig (Elt F)) {r : Ref sig .tc}
    (hr : r ∉ [main_cst_1, main_v32, main_cst_2, main_v33, main_v34]) :
    after (opsMean0 F) W (no_index (Proc.devRef .tc r)) = W (Proc.devRef .tc r) :=
  after_of_writes_sub (opsMean0 F) W (by
    unfold opsMean0
    repeat' apply And.intro
    all_goals exact writes_sub_of_mem (by decide)) hr

/-- The first variances' stretch leaves every other buffer as it was. -/
theorem var0_frame (W : Valuation τ sig (Elt F)) {r : Ref sig .tc}
    (hr : r ∉ [main_c_3, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]) :
    after (opsVar0 F) W (no_index (Proc.devRef .tc r)) = W (Proc.devRef .tc r) :=
  after_of_writes_sub (opsVar0 F) W (by
    unfold opsVar0
    repeat' apply And.intro
    all_goals exact writes_sub_of_mem (by decide)) hr

/-- The first normalisation's stretch leaves every other buffer as it was. -/
theorem bn0_frame (W : Valuation τ sig (Elt F)) {r : Ref sig .tc}
    (hr : r ∉ [main_v36, main_v37, main_v38, main_cst_4, main_v39, main_v40, main_v41, main_v42, main_v43, main_v44, main_v45, main_v46, main_v47, main_v48, main_v49, main_v50]) :
    after (opsBn0 F) W (no_index (Proc.devRef .tc r)) = W (Proc.devRef .tc r) :=
  after_of_writes_sub (opsBn0 F) W (by
    unfold opsBn0
    repeat' apply And.intro
    all_goals exact writes_sub_of_mem (by decide)) hr

/-- The second neighbourhood sum's first piece leaves every other buffer as it was. -/
theorem agg1a_frame (W : Valuation τ sig (Elt F)) {r : Ref sig .tc}
    (hr : r ∉ [main_v51, main_c_5]) :
    after (opsAgg1a F) W (no_index (Proc.devRef .tc r)) = W (Proc.devRef .tc r) :=
  after_of_writes_sub (opsAgg1a F) W (by
    unfold opsAgg1a
    repeat' apply And.intro
    all_goals exact writes_sub_of_mem (by decide)) hr

/-- The second neighbourhood sum's second piece leaves every other buffer as it was. -/
theorem agg1b_frame (W : Valuation τ sig (Elt F)) {r : Ref sig .tc}
    (hr : r ∉ [main_v52, main_v53, main_c_6, main_v54, main_v55, main_v56, main_v57, main_v58, main_v59, main_v60, main_cst_7, main_v61, main_v62, main_v63]) :
    after (opsAgg1b F) W (no_index (Proc.devRef .tc r)) = W (Proc.devRef .tc r) :=
  after_of_writes_sub (opsAgg1b F) W (by
    unfold opsAgg1b
    repeat' apply And.intro
    all_goals exact writes_sub_of_mem (by decide)) hr

/-- The second dense half's stretch leaves every other buffer as it was. -/
theorem conv1_frame (W : Valuation τ sig (Elt F)) {r : Ref sig .tc}
    (hr : r ∉ [main_v64, main_v65, main_v66, main_v67, main_v68, main_v69, main_v70, main_v71, main_call2.cst.ref, main_call2.v0.ref, main_call2.v1.ref]) :
    after (opsConv1 F) W (no_index (Proc.devRef .tc r)) = W (Proc.devRef .tc r) :=
  after_of_writes_sub (opsConv1 F) W (by
    unfold opsConv1
    repeat' apply And.intro
    all_goals exact writes_sub_of_mem (by decide)) hr

/-- The second means' stretch leaves every other buffer as it was. -/
theorem mean1_frame (W : Valuation τ sig (Elt F)) {r : Ref sig .tc}
    (hr : r ∉ [main_cst_8, main_v73, main_cst_9, main_v74, main_v75]) :
    after (opsMean1 F) W (no_index (Proc.devRef .tc r)) = W (Proc.devRef .tc r) :=
  after_of_writes_sub (opsMean1 F) W (by
    unfold opsMean1
    repeat' apply And.intro
    all_goals exact writes_sub_of_mem (by decide)) hr

/-- The second variances' stretch leaves every other buffer as it was. -/
theorem var1_frame (W : Valuation τ sig (Elt F)) {r : Ref sig .tc}
    (hr : r ∉ [main_c_10, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref]) :
    after (opsVar1 F) W (no_index (Proc.devRef .tc r)) = W (Proc.devRef .tc r) :=
  after_of_writes_sub (opsVar1 F) W (by
    unfold opsVar1
    repeat' apply And.intro
    all_goals exact writes_sub_of_mem (by decide)) hr

/-- The second normalisation's stretch leaves every other buffer as it was. -/
theorem bn1_frame (W : Valuation τ sig (Elt F)) {r : Ref sig .tc}
    (hr : r ∉ [main_v77, main_v78, main_v79, main_cst_11, main_v80, main_v81, main_v82, main_v83, main_v84, main_v85, main_v86, main_v87, main_v88, main_v89, main_v90, main_v91]) :
    after (opsBn1 F) W (no_index (Proc.devRef .tc r)) = W (Proc.devRef .tc r) :=
  after_of_writes_sub (opsBn1 F) W (by
    unfold opsBn1
    repeat' apply And.intro
    all_goals exact writes_sub_of_mem (by decide)) hr

/-- The row sums' stretch leaves every other buffer as it was. -/
theorem poolS_frame (W : Valuation τ sig (Elt F)) {r : Ref sig .tc}
    (hr : r ∉ [main_cst_12, main_v92, main_v93, main_v94]) :
    after (opsPoolS F) W (no_index (Proc.devRef .tc r)) = W (Proc.devRef .tc r) :=
  after_of_writes_sub (opsPoolS F) W (by
    unfold opsPoolS
    repeat' apply And.intro
    all_goals exact writes_sub_of_mem (by decide)) hr

/-- The counts' stretch leaves every other buffer as it was. -/
theorem poolCnt_frame (W : Valuation τ sig (Elt F)) {r : Ref sig .tc}
    (hr : r ∉ [main_cst_13, main_v95, main_cst_14, main_v96, main_v97, main_v98]) :
    after (opsPoolCnt F) W (no_index (Proc.devRef .tc r)) = W (Proc.devRef .tc r) :=
  after_of_writes_sub (opsPoolCnt F) W (by
    unfold opsPoolCnt
    repeat' apply And.intro
    all_goals exact writes_sub_of_mem (by decide)) hr

/-- The head's first piece leaves every other buffer as it was. -/
theorem headA_frame (W : Valuation τ sig (Elt F)) {r : Ref sig .tc}
    (hr : r ∉ [main_cst_15, main_call4.v0.ref, main_call4.v1.ref, main_call4.v2.ref, main_v100, main_v101]) :
    after (opsHeadA F) W (no_index (Proc.devRef .tc r)) = W (Proc.devRef .tc r) :=
  after_of_writes_sub (opsHeadA F) W (by
    unfold opsHeadA
    repeat' apply And.intro
    all_goals exact writes_sub_of_mem (by decide)) hr

/-- The head's second piece leaves every other buffer as it was. -/
theorem headB_frame (W : Valuation τ sig (Elt F)) {r : Ref sig .tc}
    (hr : r ∉ [main_v102, main_v103, main_v104, main_v105, main_v106, main_v107, main_call5.cst.ref, main_call5.v0.ref, main_call5.v1.ref, main_v109, main_v110, main_v111, main_v112, main_v113]) :
    after (opsHeadB F) W (no_index (Proc.devRef .tc r)) = W (Proc.devRef .tc r) :=
  after_of_writes_sub (opsHeadB F) W (by
    unfold opsHeadB
    repeat' apply And.intro
    all_goals exact writes_sub_of_mem (by decide)) hr

/-! ## The whole line

The line is the stretches in order. Read from its end: the result buffer holds the head of what the pooling stretches
left, each of which holds its stage of what the stretches before it left, and so on back to the arguments; a buffer is
followed back through the stretches that do not write it unchanged. What comes out is `Spec.pred`, stage by stage. -/

/-- The result buffer after the whole line: the network function of the arguments' contents. -/
theorem out_eq (V : Valuation τ sig (Elt F)) :
    after (ops F) V (main_v113 : DevRef τ sig)
      = Spec.pred (F := F) (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig))
          (V (main_arg11 : DevRef τ sig))
          (V (main_arg12 : DevRef τ sig))
          (V (main_arg13 : DevRef τ sig))
          (V (main_arg14 : DevRef τ sig))
          (V (main_arg15 : DevRef τ sig))
          (V (main_arg16 : DevRef τ sig))
          (V (main_arg17 : DevRef τ sig))
          (V (main_arg18 : DevRef τ sig))
          (V (main_arg19 : DevRef τ sig)) := by
  simp only [ops, win0, win1, win2, after_concat]
  simp (disch := decide) only [head_out, poolCnt_out, poolS_out, bn1_out, var1_out, mean1_out, conv1_out, agg1_out,
    bn0_out, var0_out, mean0_out, conv0_out, agg0_out, lin0_out, edges_src, edges_dst,
    headB_frame, headA_frame, poolCnt_frame, poolS_frame, bn1_frame, var1_frame, mean1_frame, conv1_frame, agg1b_frame, agg1a_frame, bn0_frame, var0_frame, mean0_frame, conv0_frame, agg0_frame, lin0_frame, edges_frame]
  simp only [Spec.pred, Spec.layer, Spec.bn, Spec.agg]

/-- No operation of the line writes an argument: each keeps its contents. -/
theorem args_eq (V : Valuation τ sig (Elt F)) {r : Ref sig .tc}
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after (ops F) V (Proc.devRef .tc r) = V (Proc.devRef .tc r) := by
  simp only [ops, win0, win1, win2, after_concat]
  rw [headB_frame, headA_frame, poolCnt_frame, poolS_frame, bn1_frame, var1_frame, mean1_frame, conv1_frame, agg1b_frame, agg1a_frame, bn0_frame, var0_frame, mean0_frame, conv0_frame, agg0_frame, lin0_frame, edges_frame]
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v0, main_v1, main_v2, main_v3]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v4, main_v5, main_v6, main_v7, main_v8, main_v9]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v10, main_c, main_v11, main_v12, main_c_0, main_v13, main_v14, main_v15, main_v16, main_v17, main_v18, main_v19, main_cst, main_v20, main_v21, main_v22]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v23, main_v24, main_v25, main_v26, main_v27, main_v28, main_v29, main_v30, main_call0.cst.ref, main_call0.v0.ref, main_call0.v1.ref]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_cst_1, main_v32, main_cst_2, main_v33, main_v34]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_c_3, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v36, main_v37, main_v38, main_cst_4, main_v39, main_v40, main_v41, main_v42, main_v43, main_v44, main_v45, main_v46, main_v47, main_v48, main_v49, main_v50]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v51, main_c_5]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v52, main_v53, main_c_6, main_v54, main_v55, main_v56, main_v57, main_v58, main_v59, main_v60, main_cst_7, main_v61, main_v62, main_v63]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v64, main_v65, main_v66, main_v67, main_v68, main_v69, main_v70, main_v71, main_call2.cst.ref, main_call2.v0.ref, main_call2.v1.ref]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_cst_8, main_v73, main_cst_9, main_v74, main_v75]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_c_10, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v77, main_v78, main_v79, main_cst_11, main_v80, main_v81, main_v82, main_v83, main_v84, main_v85, main_v86, main_v87, main_v88, main_v89, main_v90, main_v91]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_cst_12, main_v92, main_v93, main_v94]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_cst_13, main_v95, main_cst_14, main_v96, main_v97, main_v98]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_cst_15, main_call4.v0.ref, main_call4.v1.ref, main_call4.v2.ref, main_v100, main_v101]) r hr
  · exact (by decide : ∀ a ∈ [main_arg0, main_arg1, main_arg2, main_arg3, main_arg4, main_arg5, main_arg6, main_arg7, main_arg8, main_arg9, main_arg10, main_arg11, main_arg12, main_arg13, main_arg14, main_arg15, main_arg16, main_arg17, main_arg18, main_arg19],
      a ∉ [main_v102, main_v103, main_v104, main_v105, main_v106, main_v107, main_call5.cst.ref, main_call5.v0.ref, main_call5.v1.ref, main_v109, main_v110, main_v111, main_v112, main_v113]) r hr

/-- On every device, for any float values, from any memory with zero counters: every weakly fair execution of the
    plain-jnp program terminates with its result at the network function of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113)
        = Spec.pred (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
            (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v113).trans (out_eq _),
      (h c main_arg0).trans (args_eq _ (by decide)),
      (h c main_arg1).trans (args_eq _ (by decide)),
      (h c main_arg2).trans (args_eq _ (by decide)),
      (h c main_arg3).trans (args_eq _ (by decide)),
      (h c main_arg4).trans (args_eq _ (by decide)),
      (h c main_arg5).trans (args_eq _ (by decide)),
      (h c main_arg6).trans (args_eq _ (by decide)),
      (h c main_arg7).trans (args_eq _ (by decide)),
      (h c main_arg8).trans (args_eq _ (by decide)),
      (h c main_arg9).trans (args_eq _ (by decide)),
      (h c main_arg10).trans (args_eq _ (by decide)),
      (h c main_arg11).trans (args_eq _ (by decide)),
      (h c main_arg12).trans (args_eq _ (by decide)),
      (h c main_arg13).trans (args_eq _ (by decide)),
      (h c main_arg14).trans (args_eq _ (by decide)),
      (h c main_arg15).trans (args_eq _ (by decide)),
      (h c main_arg16).trans (args_eq _ (by decide)),
      (h c main_arg17).trans (args_eq _ (by decide)),
      (h c main_arg18).trans (args_eq _ (by decide)),
      (h c main_arg19).trans (args_eq _ (by decide))⟩)
    (run_ops m ρ)

end Cert.ReferenceIdeal.RefRun

end
-- ==== Proof.PreReal.lean ====
import proofs.«112291_j21277267984767_1_alg».proof.Defs
import proofs.«112291_j21277267984767_1_alg».proof.Proof.Gen.KernelIdeal
import proofs.«112291_j21277267984767_1_alg».proof.Proof.Gen.Pre_finite_inputs
import proofs.«112291_j21277267984767_1_alg».proof.Proof.Gen.ReferenceIdeal
import proofs.«112291_j21277267984767_1_alg».proof.Proof.Spec
import Idealize.ShloMosaic.Lib.ReduceAll
import Idealize.ShloMosaic.Lib.ValueIdx

noncomputable section

namespace Cert.KernelIdeal.PreReal

open Idealize.ShloMosaic Idealize.SL.Sem Cert.KernelIdeal
open Cert.ReferenceIdeal (Spec.IsReal)

/-- The shape of a scalar: rank zero. -/
abbrev f_S0 : Shape := ⟨0, ![]⟩

/-- A scalar has one index. -/
instance f_subsingleton_S0 : Subsingleton f_S0.Idx := ⟨fun a b => funext fun d => d.elim0⟩

/-- The word 0x7F800000 denotes +∞: all-ones exponent, zero significand, sign bit clear. -/
theorem f_inf_word : Ideal.ofBits .f32 0x7F800000#32 = (⊤ : EReal) := by
  simp [Ideal.ofBits, Ideal.ieee]

/-- An extended real whose absolute value max x (-x) lies strictly below +∞ is a real number: at ⊤ the maximum is ⊤,
    at ⊥ it is -⊥ = ⊤. -/
theorem f_real_of_abs_lt_top (x : EReal) (h : max x (-x) < ⊤) : ∃ r : ℝ, x = ((r : ℝ) : EReal) := by
  induction x using EReal.rec with
  | bot => exact absurd h (by simp)
  | coe r => exact ⟨r, rfl⟩
  | top => exact absurd h (by simp)

/-- The all-reduce by and of the comparison |a| < +∞ being one says every entry of a is a real number, whatever
    the shape of a: every entry of the compared array is one, the comparison at an entry is the strict order of the
    extended reals, and the bound is +∞. -/
theorem f_isReal_of_all {s : Shape} {axes : List (Fin s.rank)} (a : FVec Ideal s .f32)
    (bc : f_S0.BroadcastsInDim s (![] : Fin 0 → Fin s.rank)) (hr : s.ReducesTo axes f_S0) (hu : 0 < f_S0.numel)
    (init : IVec f_S0 1)
    (e : Host.reduce IntOp.andi
        (cmpf .olt (Host.absf a) (broadcastInDim s ![] bc (constant (F := Ideal) f_S0 .f32 0x7F800000#32))) init hr hu
        ValueIdx.ix0 = 1#1) :
    ∀ i, ∃ r : ℝ, a i = ((r : ℝ) : EReal) := by
  intro i
  have h1 := Host.reduce_andi_all _ init hr hu ValueIdx.ix0 e i
  have h2 : Ideal.cmp .olt (max (a i) (-(a i))) (Ideal.ofBits .f32 0x7F800000#32) = 1#1 := h1
  rw [f_inf_word] at h2
  have h3 : max (a i) (-(a i)) < ⊤ := by
    by_contra hc
    simp [Ideal.cmp, hc] at h2
  exact f_real_of_abs_lt_top _ h3

/-- Under the precondition (every float input finite) each float argument array the two convolution layers read holds
    real numbers only: an extended real of absolute value below +∞ is a real. -/
theorem real_of_pre (m : (ℓ : Loc nD τ sig) → Buf (Elt Ideal) ℓ) (h : Cert.Pre_KernelIdeal m) (c : Dev nD) :
    Spec.IsReal (m ((c.tc : Thread nD τ).loc main_arg0)) ∧ Spec.IsReal (m ((c.tc : Thread nD τ).loc main_arg2))
    ∧ Spec.IsReal (m ((c.tc : Thread nD τ).loc main_arg4)) ∧ Spec.IsReal (m ((c.tc : Thread nD τ).loc main_arg5))
    ∧ Spec.IsReal (m ((c.tc : Thread nD τ).loc main_arg6)) ∧ Spec.IsReal (m ((c.tc : Thread nD τ).loc main_arg7))
    ∧ Spec.IsReal (m ((c.tc : Thread nD τ).loc main_arg8)) ∧ Spec.IsReal (m ((c.tc : Thread nD τ).loc main_arg9))
    ∧ Spec.IsReal (m ((c.tc : Thread nD τ).loc main_arg10)) ∧ Spec.IsReal (m ((c.tc : Thread nD τ).loc main_arg11))
    ∧ Spec.IsReal (m ((c.tc : Thread nD τ).loc main_arg12)) ∧ Spec.IsReal (m ((c.tc : Thread nD τ).loc main_arg13)) := by
  -- the precondition at the one index of its scalar result
  have e := congrFun (h c) ValueIdx.ix0
  -- the printed chain: one all-reduce per float argument, joined by and
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  -- an and of one-bit words is one exactly when both are
  simp only [andi, IntOp.andi_eq_one] at e
  obtain ⟨⟨⟨⟨⟨⟨⟨⟨⟨⟨⟨⟨⟨⟨⟨⟨⟨a0, a2⟩, a4⟩, a5⟩, a6⟩, a7⟩, a8⟩, a9⟩, a10⟩, a11⟩, a12⟩, a13⟩, a14⟩, a15⟩, a16⟩, a17⟩, a18⟩, a19⟩ := e
  exact ⟨f_isReal_of_all _ _ _ _ _ a0,
    f_isReal_of_all _ _ _ _ _ a2,
    f_isReal_of_all _ _ _ _ _ a4,
    f_isReal_of_all _ _ _ _ _ a5,
    f_isReal_of_all _ _ _ _ _ a6,
    f_isReal_of_all _ _ _ _ _ a7,
    f_isReal_of_all _ _ _ _ _ a8,
    f_isReal_of_all _ _ _ _ _ a9,
    f_isReal_of_all _ _ _ _ _ a10,
    f_isReal_of_all _ _ _ _ _ a11,
    f_isReal_of_all _ _ _ _ _ a12,
    f_isReal_of_all _ _ _ _ _ a13⟩

end Cert.KernelIdeal.PreReal

end
-- ==== Proof.lean ====
/-
  The certificate of one graph network — an input projection, two graph-convolution layers each followed by a batch
  normalisation over all nodes, a per-graph mean pooling and a two-layer head — computed two ways: by a program of six
  tiled kernels (projection; convolution fused with the running column sums and sums of squares; normalisation; the same
  pair again; head) among the host's gathers and scatter-adds, and by the plain array program.

  At exact arithmetic both are ONE function of the arguments. Stage by stage the kernels' tiles compute the plain program's
  tables (a row tile of a matrix product is the rows of the whole product; a lane sum per tile added over the ten tiles is
  the column sum; the broadcasts of a [32] vector through a [1, 32] row agree), and the one place where the two differ as
  formulas is the variance: the kernels form "mean of the squares less the square of the mean" from the accumulated sums,
  the plain program the mean of the centred squares. These agree on tables of real numbers, and under the precondition
  (every float input finite) every table the layers produce is real: sums and products of reals, tanh of a real, and the
  normalisation's reciprocal square root of a variance — a mean of squares, so nonnegative — plus a positive ε.

  Each kernel program runs as twelve segments — a stretch of host operations, then a region, six times — and leaves its
  arguments as launched; the plain program's frame is its run with the result dropped. The idealized kernel is the
  kernel's own text read at exact arithmetic, so there is nothing to preserve beyond that.
-/
import proofs.«112291_j21277267984767_1_alg».proof.Defs
import proofs.«112291_j21277267984767_1_alg».proof.Proof.Gen.Kernel
import proofs.«112291_j21277267984767_1_alg».proof.Proof.GenP.Kernel.Frame
import proofs.«112291_j21277267984767_1_alg».proof.Proof.Gen.KernelIdeal
import proofs.«112291_j21277267984767_1_alg».proof.Proof.GenP.KernelIdeal.Frame
import proofs.«112291_j21277267984767_1_alg».proof.Proof.Gen.ReferenceIdeal
import proofs.«112291_j21277267984767_1_alg».proof.Proof.Gen.Pre_finite_inputs
import proofs.«112291_j21277267984767_1_alg».proof.Proof.KernelRun
import proofs.«112291_j21277267984767_1_alg».proof.Proof.RefRun
import proofs.«112291_j21277267984767_1_alg».proof.Proof.PreReal
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.GenP.frame m ρ

/-- The idealized kernel program runs and leaves its arguments unchanged. -/
theorem frame_kernelIdeal : Cert.frame_KernelIdeal := fun m ρ _ => Cert.KernelIdeal.GenP.frame m ρ

/-- The plain program runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the network function of those arguments in their
    result buffers: the kernel program because its inputs are real under the precondition, the plain program always. -/
theorem algebraic : Cert.algebraic_KernelIdeal_ReferenceIdeal := by
  intro m ρ m' ρ' hpre hagree
  refine ⟨_, Cert.KernelIdeal.KRun.kernel_run m ρ (fun c => Cert.KernelIdeal.PreReal.real_of_pre m hpre c), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
